-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S20 : Shape := ⟨1, ![20]⟩
abbrev S100000x128 : Shape := ⟨2, ![100000, 128]⟩
abbrev S2560x512 : Shape := ⟨2, ![2560, 512]⟩
abbrev S512 : Shape := ⟨1, ![512]⟩
abbrev S512x100000 : Shape := ⟨2, ![512, 100000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2560x512 : S_.BroadcastsInDim S2560x512 (![] : Fin 0 → Fin S2560x512.rank)
  reducesTo_S2560x512_S_d0_1 : S2560x512.ReducesTo [0, 1] S_
  bcast_S_S512 : S_.BroadcastsInDim S512 (![] : Fin 0 → Fin S512.rank)
  reducesTo_S512_S_d0 : S512.ReducesTo [0] S_
  bcast_S_S512x100000 : S_.BroadcastsInDim S512x100000 (![] : Fin 0 → Fin S512x100000.rank)
  reducesTo_S512x100000_S_d0_1 : S512x100000.ReducesTo [0, 1] S_
  bcast_S_S100000 : S_.BroadcastsInDim S100000 (![] : Fin 0 → Fin S100000.rank)
  reducesTo_S100000_S_d0 : S100000.ReducesTo [0] S_
  bcast_S_S20 : S_.BroadcastsInDim S20 (![] : Fin 0 → Fin S20.rank)
  reducesTo_S20_S_d0 : S20.ReducesTo [0] S_

variable [Facts]

def fn_part1 {F : FTy → Type} [FloatOps F] (main_arg0 : IVec S20 32) (main_arg5 : FVec F S100000 .f32) (main_v13 : IVec S_ 1) (main_v16 : IVec S512x100000 1) : IVec S_ 1 :=
  let main_c_5 : IVec S_ 1 := constantI S_ 1 1#1
  let main_v17 : IVec S_ 1 := (fun x v => Host.reduce IntOp.andi x v reducesTo_S512x100000_S_d0_1 h_S_) main_v16 main_c_5
  let main_v18 : IVec S_ 1 := andi main_v13 main_v17
  let main_v19 : FVec F S100000 .f32 := Host.absf main_arg5
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_c_8 : IVec S_ 32 := constantI S_ 32 0#32
  let main_v24 : IVec S20 32 := broadcastInDim S20 ![] bcast_S_S20 main_c_8
  let main_v25 : IVec S20 1 := cmpi .sge main_arg0 main_v24
  let main_c_9 : IVec S_ 32 := constantI S_ 32 99999#32
  let main_v26 : IVec S20 32 := broadcastInDim S20 ![] bcast_S_S20 main_c_9
  let main_v27 : IVec S20 1 := cmpi .sle main_arg0 main_v26
  let main_v28 : IVec S20 1 := andi main_v25 main_v27
  let main_c_10 : IVec S_ 1 := constantI S_ 1 1#1
  let main_v29 : IVec S_ 1 := (fun x v => Host.reduce IntOp.andi x v reducesTo_S20_S_d0 h_S_) main_v28 main_c_10
  let main_v30 : IVec S_ 1 := andi main_v23 main_v29
  main_v30

def fn {F : FTy → Type} [FloatOps F] (main_arg0 : IVec S20 32) (main_arg1 : FVec F S100000x128 .f32) (main_arg2 : FVec F S2560x512 .f32) (main_arg3 : FVec F S512 .f32) (main_arg4 : FVec F S512x100000 .f32) (main_arg5 : FVec F S100000 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2560x512 .f32 := Host.absf main_arg2
  let main_cst_0 : FVec F S_ .f32 := constant S_ .f32 0x7F800000#32
  let main_v5 : FVec F S2560x512 .f32 := broadcastInDim S2560x512 ![] bcast_S_S2560x512 main_cst_0
  let main_v6 : IVec S2560x512 1 := cmpf .olt main_v4 main_v5
  let main_c_1 : IVec S_ 1 := constantI S_ 1 1#1
  let main_v7 : IVec S_ 1 := (fun x v => Host.reduce IntOp.andi x v reducesTo_S2560x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x100000 .f32 := Host.absf main_arg4
  let main_cst_4 : FVec F S_ .f32 := constant S_ .f32 0x7F800000#32
  let main_v15 : FVec F S512x100000 .f32 := broadcastInDim S512x100000 ![] bcast_S_S512x100000 main_cst_4
  let main_v16 : IVec S512x100000 1 := cmpf .olt main_v14 main_v15
  fn_part1 (F := F) main_arg0 main_arg5 main_v13 main_v16
-- ==== Kernel.lean ====
abbrev S20 : Shape := ⟨1, ![20]⟩
abbrev S100000x128 : Shape := ⟨2, ![100000, 128]⟩
abbrev S2560x512 : Shape := ⟨2, ![2560, 512]⟩
abbrev S512 : Shape := ⟨1, ![512]⟩
abbrev S512x100000 : Shape := ⟨2, ![512, 100000]⟩
abbrev S100000 : Shape := ⟨1, ![100000]⟩
abbrev S20x128 : Shape := ⟨2, ![20, 128]⟩
abbrev S_ : Shape := ⟨0, ![]⟩
abbrev S1x2560 : Shape := ⟨2, ![1, 2560]⟩
abbrev S1x512 : Shape := ⟨2, ![1, 512]⟩
abbrev S4x16x8 : Shape := ⟨3, ![4, 16, 8]⟩
abbrev S16x4x8 : Shape := ⟨3, ![16, 4, 8]⟩
abbrev S16x1x32 : Shape := ⟨3, ![16, 1, 32]⟩
abbrev S1x100000 : Shape := ⟨2, ![1, 100000]⟩
abbrev S4x16x8x100000 : Shape := ⟨4, ![4, 16, 8, 100000]⟩
abbrev S3x4x8x100000 : Shape := ⟨4, ![3, 4, 8, 100000]⟩
abbrev S3 : Shape := ⟨1, ![3]⟩
abbrev S1 : Shape := ⟨1, ![1]⟩
abbrev S1x4x8x100000 : Shape := ⟨4, ![1, 4, 8, 100000]⟩
abbrev S4x8x100000 : Shape := ⟨3, ![4, 8, 100000]⟩
abbrev S4x1x8x100000 : Shape := ⟨4, ![4, 1, 8, 100000]⟩
abbrev S32x100000 : Shape := ⟨2, ![32, 100000]⟩
abbrev S1x1x32 : Shape := ⟨3, ![1, 1, 32]⟩
abbrev S1x32 : Shape := ⟨2, ![1, 32]⟩
abbrev S1x1x100000 : Shape := ⟨3, ![1, 1, 100000]⟩
abbrev S1x1x1 : Shape := ⟨3, ![1, 1, 1]⟩

abbrev nBuf : Table → Nat
  | .hbm => 16
  | .local .tc .vmem => 8
  | .local .scVector .vmem => 2
  | _ => 0

abbrev bufTy : (tb : Table) → Fin (nBuf tb) → BufTy
  | .hbm, ⟨0, _⟩ => ⟨S20, .i32⟩
  | .hbm, ⟨1, _⟩ => ⟨S100000x128, .f32⟩
  | .hbm, ⟨2, _⟩ => ⟨S2560x512, .f32⟩
  | .hbm, ⟨3, _⟩ => ⟨S512, .f32⟩
  | .hbm, ⟨4, _⟩ => ⟨S512x100000, .f32⟩
  | .hbm, ⟨5, _⟩ => ⟨S100000, .f32⟩
  | .hbm, ⟨6, _⟩ => ⟨S20x128, .f32⟩
  | .hbm, ⟨7, _⟩ => ⟨S1x2560, .f32⟩
  | .hbm, ⟨8, _⟩ => ⟨S1x512, .f32⟩
  | .hbm, ⟨9, _⟩ => ⟨S1x512, .f32⟩
  | .hbm, ⟨10, _⟩ => ⟨S4x16x8, .f32⟩
  | .hbm, ⟨11, _⟩ => ⟨S16x4x8, .f32⟩
  | .hbm, ⟨12, _⟩ => ⟨S16x1x32, .f32⟩
  | .hbm, ⟨13, _⟩ => ⟨S1x100000, .f32⟩
  | .hbm, ⟨14, _⟩ => ⟨S4x16x8x100000, .f32⟩
  | .hbm, ⟨15, _⟩ => ⟨S1x100000, .f32⟩
  | .local .tc .vmem, ⟨0, _⟩ => ⟨S1x2560, .f32⟩
  | .local .tc .vmem, ⟨1, _⟩ => ⟨S2560x512, .f32⟩
  | .local .tc .vmem, ⟨2, _⟩ => ⟨S1x512, .f32⟩
  | .local .tc .vmem, ⟨3, _⟩ => ⟨S1x512, .f32⟩
  | .local .tc .vmem, ⟨4, _⟩ => ⟨S16x1x32, .f32⟩
  | .local .tc .vmem, ⟨5, _⟩ => ⟨S1x100000, .f32⟩
  | .local .tc .vmem, ⟨6, _⟩ => ⟨S1x100000, .f32⟩
  | .local .tc .vmem, ⟨7, _⟩ => ⟨S3x4x8x100000, .f32⟩
  | .local .scVector .vmem, ⟨0, _⟩ => ⟨S20, .i32⟩
  | .local .scVector .vmem, ⟨1, _⟩ => ⟨S20x128, .f32⟩
  | _, _ => ⟨S20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_arg1_scv : Ref sig .scVector := ⟨.hbm, 1, rfl⟩
abbrev main_arg0_scv : Ref sig .scVector := ⟨.hbm, 0, rfl⟩
abbrev main_v0_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_scratch0 : Ref sig .tc := ⟨.vmem, 7, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc2_sem0_0 : DmaSem sig := 7
abbrev cc2_sem1_0 : DmaSem sig := 8
abbrev cc2_sem2_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

abbrev grid1 : Pipeline.Grid := .none

abbrev stage1_0 : Fin 1 → Memref sig .tc .vmem S1x2560 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2560x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := .none

abbrev stage2_0 : Fin 1 → Memref sig .tc .vmem S16x1x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x100000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x100000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100000x128_S100000x128_0_0 : ∀ a, (![0, 0] : Fin 2 → Nat) a + S100000x128.size a ≤ S100000x128.size a
  gathers_S100000x128_S20x128 : S100000x128.Gathers 0 S20x128
  shapeCasts_S20x128_S1x2560 : S20x128.ShapeCasts S1x2560
  shapeCasts_S512_S1x512 : S512.ShapeCasts S1x512
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  inb_S2560x512_S2560x512_0_0 : ∀ a, (![0, 0] : Fin 2 → Nat) a + S2560x512.size a ≤ S2560x512.size a
  h_S2560x512 : 0 < S2560x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S4x16x8 : S1x512.ShapeCasts S4x16x8
  transposes_S4x16x8_S16x4x8_1_0_2 : S4x16x8.Transposes [1, 0, 2] S16x4x8
  shapeCasts_S16x4x8_S16x1x32 : S16x4x8.ShapeCasts S16x1x32
  shapeCasts_S100000_S1x100000 : S100000.ShapeCasts S1x100000
  shapeCasts_S512x100000_S4x16x8x100000 : S512x100000.ShapeCasts S4x16x8x100000
  inb_S3_S1_0 : ∀ a, (![0] : Fin 1 → Nat) a + S1.size a ≤ S3.size a
  squeezes_S1_S_ : S1.Squeezes S_
  inb_S3x4x8x100000_S1x4x8x100000_0_0_0_0 : ∀ a, (![0, 0, 0, 0] : Fin 4 → Nat) a + S1x4x8x100000.size a ≤ S3x4x8x100000.size a
  squeezes_S1x4x8x100000_S4x8x100000 : S1x4x8x100000.Squeezes S4x8x100000
  inb_S4x16x8x100000_S4x1x8x100000_0_0_0_0 : ∀ a, (![0, 0, 0, 0] : Fin 4 → Nat) a + S4x1x8x100000.size a ≤ S4x16x8x100000.size a
  squeezes_S4x1x8x100000_S4x8x100000 : S4x1x8x100000.Squeezes S4x8x100000
  inb_S3_S1_1 : ∀ a, (![1] : Fin 1 → Nat) a + S1.size a ≤ S3.size a
  inb_S3x4x8x100000_S1x4x8x100000_1_0_0_0 : ∀ a, (![1, 0, 0, 0] : Fin 4 → Nat) a + S1x4x8x100000.size a ≤ S3x4x8x100000.size a
  inb_S4x16x8x100000_S4x1x8x100000_0_1_0_0 : ∀ a, (![0, 1, 0, 0] : Fin 4 → Nat) a + S4x1x8x100000.size a ≤ S4x16x8x100000.size a
  h_S1x4x8x100000 : 0 < S1x4x8x100000.numel
  shapeCasts_S1x4x8x100000_S4x8x100000 : S1x4x8x100000.ShapeCasts S4x8x100000
  shapeCasts_S4x8x100000_S32x100000 : S4x8x100000.ShapeCasts S32x100000
  inb_S16x1x32_S1x1x32_0_0_0 : ∀ a, (![0, 0, 0] : Fin 3 → Nat) a + S1x1x32.size a ≤ S16x1x32.size a
  h_S1x1x32 : 0 < S1x1x32.numel
  shapeCasts_S1x1x32_S1x32 : S1x1x32.ShapeCasts S1x32
  inb_S1x100000_S1x100000_0_0 : ∀ a, (![0, 0] : Fin 2 → Nat) a + S1x100000.size a ≤ S1x100000.size a
  h_S1x100000 : 0 < S1x100000.numel
  shapeCasts_S1x100000_S1x100000 : S1x100000.ShapeCasts S1x100000
  inb_S3_S1_2 : ∀ a, (![2] : Fin 1 → Nat) a + S1.size a ≤ S3.size a
  inb_S3x4x8x100000_S1x4x8x100000_2_0_0_0 : ∀ a, (![2, 0, 0, 0] : Fin 4 → Nat) a + S1x4x8x100000.size a ≤ S3x4x8x100000.size a
  inb_S4x16x8x100000_S4x1x8x100000_0_2_0_0 : ∀ a, (![0, 2, 0, 0] : Fin 4 → Nat) a + S4x1x8x100000.size a ≤ S4x16x8x100000.size a
  inb_S16x1x32_S1x1x32_1_0_0 : ∀ a, (![1, 0, 0] : Fin 3 → Nat) a + S1x1x32.size a ≤ S16x1x32.size a
  inb_S4x16x8x100000_S4x1x8x100000_0_3_0_0 : ∀ a, (![0, 3, 0, 0] : Fin 4 → Nat) a + S4x1x8x100000.size a ≤ S4x16x8x100000.size a
  inb_S16x1x32_S1x1x32_2_0_0 : ∀ a, (![2, 0, 0] : Fin 3 → Nat) a + S1x1x32.size a ≤ S16x1x32.size a
  inb_S4x16x8x100000_S4x1x8x100000_0_4_0_0 : ∀ a, (![0, 4, 0, 0] : Fin 4 → Nat) a + S4x1x8x100000.size a ≤ S4x16x8x100000.size a
  inb_S16x1x32_S1x1x32_3_0_0 : ∀ a, (![3, 0, 0] : Fin 3 → Nat) a + S1x1x32.size a ≤ S16x1x32.size a
  inb_S4x16x8x100000_S4x1x8x100000_0_5_0_0 : ∀ a, (![0, 5, 0, 0] : Fin 4 → Nat) a + S4x1x8x100000.size a ≤ S4x16x8x100000.size a
  inb_S16x1x32_S1x1x32_4_0_0 : ∀ a, (![4, 0, 0] : Fin 3 → Nat) a + S1x1x32.size a ≤ S16x1x32.size a
  inb_S4x16x8x100000_S4x1x8x100000_0_6_0_0 : ∀ a, (![0, 6, 0, 0] : Fin 4 → Nat) a + S4x1x8x100000.size a ≤ S4x16x8x100000.size a
  inb_S16x1x32_S1x1x32_5_0_0 : ∀ a, (![5, 0, 0] : Fin 3 → Nat) a + S1x1x32.size a ≤ S16x1x32.size a
  inb_S4x16x8x100000_S4x1x8x100000_0_7_0_0 : ∀ a, (![0, 7, 0, 0] : Fin 4 → Nat) a + S4x1x8x100000.size a ≤ S4x16x8x100000.size a
  inb_S16x1x32_S1x1x32_6_0_0 : ∀ a, (![6, 0, 0] : Fin 3 → Nat) a + S1x1x32.size a ≤ S16x1x32.size a
  inb_S4x16x8x100000_S4x1x8x100000_0_8_0_0 : ∀ a, (![0, 8, 0, 0] : Fin 4 → Nat) a + S4x1x8x100000.size a ≤ S4x16x8x100000.size a
  inb_S16x1x32_S1x1x32_7_0_0 : ∀ a, (![7, 0, 0] : Fin 3 → Nat) a + S1x1x32.size a ≤ S16x1x32.size a
  inb_S4x16x8x100000_S4x1x8x100000_0_9_0_0 : ∀ a, (![0, 9, 0, 0] : Fin 4 → Nat) a + S4x1x8x100000.size a ≤ S4x16x8x100000.size a
  inb_S16x1x32_S1x1x32_8_0_0 : ∀ a, (![8, 0, 0] : Fin 3 → Nat) a + S1x1x32.size a ≤ S16x1x32.size a
  inb_S4x16x8x100000_S4x1x8x100000_0_10_0_0 : ∀ a, (![0, 10, 0, 0] : Fin 4 → Nat) a + S4x1x8x100000.size a ≤ S4x16x8x100000.size a
  inb_S16x1x32_S1x1x32_9_0_0 : ∀ a, (![9, 0, 0] : Fin 3 → Nat) a + S1x1x32.size a ≤ S16x1x32.size a
  inb_S4x16x8x100000_S4x1x8x100000_0_11_0_0 : ∀ a, (![0, 11, 0, 0] : Fin 4 → Nat) a + S4x1x8x100000.size a ≤ S4x16x8x100000.size a
  inb_S16x1x32_S1x1x32_10_0_0 : ∀ a, (![10, 0, 0] : Fin 3 → Nat) a + S1x1x32.size a ≤ S16x1x32.size a
  inb_S4x16x8x100000_S4x1x8x100000_0_12_0_0 : ∀ a, (![0, 12, 0, 0] : Fin 4 → Nat) a + S4x1x8x100000.size a ≤ S4x16x8x100000.size a
  inb_S16x1x32_S1x1x32_11_0_0 : ∀ a, (![11, 0, 0] : Fin 3 → Nat) a + S1x1x32.size a ≤ S16x1x32.size a
  inb_S4x16x8x100000_S4x1x8x100000_0_13_0_0 : ∀ a, (![0, 13, 0, 0] : Fin 4 → Nat) a + S4x1x8x100000.size a ≤ S4x16x8x100000.size a
  inb_S16x1x32_S1x1x32_12_0_0 : ∀ a, (![12, 0, 0] : Fin 3 → Nat) a + S1x1x32.size a ≤ S16x1x32.size a
  inb_S4x16x8x100000_S4x1x8x100000_0_14_0_0 : ∀ a, (![0, 14, 0, 0] : Fin 4 → Nat) a + S4x1x8x100000.size a ≤ S4x16x8x100000.size a
  inb_S16x1x32_S1x1x32_13_0_0 : ∀ a, (![13, 0, 0] : Fin 3 → Nat) a + S1x1x32.size a ≤ S16x1x32.size a
  inb_S4x16x8x100000_S4x1x8x100000_0_15_0_0 : ∀ a, (![0, 15, 0, 0] : Fin 4 → Nat) a + S4x1x8x100000.size a ≤ S4x16x8x100000.size a
  inb_S16x1x32_S1x1x32_14_0_0 : ∀ a, (![14, 0, 0] : Fin 3 → Nat) a + S1x1x32.size a ≤ S16x1x32.size a
  inb_S16x1x32_S1x1x32_15_0_0 : ∀ a, (![15, 0, 0] : Fin 3 → Nat) a + S1x1x32.size a ≤ S16x1x32.size a
  shapeCasts_S1x100000_S1x1x100000 : S1x100000.ShapeCasts S1x1x100000
  reduces_S1x1x100000_S1 : S1x1x100000.Reduces [1, 2] S1
  shapeCasts_S1_S1x1x1 : S1.ShapeCasts S1x1x1
  inpos_S1x1x1_p0_0_0 : ∀ a, (![0, 0, 0] : Fin 3 → Nat) a < S1x1x1.size a
  dot_S1x2560_S2560x512_S1x512_1_0_0_1_n_n_wf : DotDims.WF S1x2560 S2560x512 S1x512 [1] [0] [0] [1] [] []
  dot_S1x32_S32x100000_S1x100000_1_0_0_1_n_n_wf : DotDims.WF S1x32 S32x100000 S1x100000 [1] [0] [0] [1] [] []
  hcc0_scratch2 : 0 + S_.numel ≤ 13
  hcc0_scoped0 : 1 + S_.numel ≤ 13
  hcc0_scoped1 : 2 + S_.numel ≤ 13
  hcc2_scratch1 : 10 + S3.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage2_0 : ∀ j, (stage2_0 j).IsWhole
  hstage2_1 : ∀ j, (stage2_1 j).IsWhole
  hstage2_2 : ∀ j, (stage2_2 j).IsWhole

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
abbrev cc2_scratch1 : DmaSems sig S3 := SemArray.consecutive 10 S3 hcc2_scratch1
def dot_S1x2560_S2560x512_S1x512_1_0_0_1_n_n : DotDims S1x2560 S2560x512 S1x512 where
  lhsContracting := [1]
  rhsContracting := [0]
  lhsNonContracting := [0]
  rhsNonContracting := [1]
  lhsBatch := []
  rhsBatch := []
  wf := dot_S1x2560_S2560x512_S1x512_1_0_0_1_n_n_wf
def dot_S1x32_S32x100000_S1x100000_1_0_0_1_n_n : DotDims S1x32 S32x100000 S1x100000 where
  lhsContracting := [1]
  rhsContracting := [0]
  lhsNonContracting := [0]
  rhsNonContracting := [1]
  lhsBatch := []
  rhsBatch := []
  wf := dot_S1x32_S32x100000_S1x100000_1_0_0_1_n_n_wf

abbrev win1_0 : Pipeline.Window sig grid1 :=
  Pipeline.Window.whole (Memref.whole main_v1) false false (stage1_0 0) (sem1_0 0) (Memref.isWhole_whole _) (hstage1_0 0)

abbrev win1_1 : Pipeline.Window sig grid1 :=
  Pipeline.Window.whole (Memref.whole main_arg2) false false (stage1_1 0) (sem1_1 0) (Memref.isWhole_whole _) (hstage1_1 0)

abbrev win1_2 : Pipeline.Window sig grid1 :=
  Pipeline.Window.whole (Memref.whole main_v2) false false (stage1_2 0) (sem1_2 0) (Memref.isWhole_whole _) (hstage1_2 0)

abbrev win1_3 : Pipeline.Window sig grid1 :=
  Pipeline.Window.whole (Memref.whole main_v3) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.whole (Memref.whole main_v6) false false (stage2_0 0) (sem2_0 0) (Memref.isWhole_whole _) (hstage2_0 0)

abbrev win2_1 : Pipeline.Window sig grid2 :=
  Pipeline.Window.whole (Memref.whole main_v7) false false (stage2_1 0) (sem2_1 0) (Memref.isWhole_whole _) (hstage2_1 0)

abbrev win2_2 : Pipeline.Window sig grid2 :=
  Pipeline.Window.whole (Memref.whole main_v9) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S20 : Shape := ⟨1, ![20]⟩
abbrev S100000x128 : Shape := ⟨2, ![100000, 128]⟩
abbrev S2560x512 : Shape := ⟨2, ![2560, 512]⟩
abbrev S512 : Shape := ⟨1, ![512]⟩
abbrev S512x100000 : Shape := ⟨2, ![512, 100000]⟩
abbrev S100000 : Shape := ⟨1, ![100000]⟩
abbrev S_ : Shape := ⟨0, ![]⟩
abbrev S20x1 : Shape := ⟨2, ![20, 1]⟩
abbrev S1 : Shape := ⟨1, ![1]⟩
abbrev S1x1 : Shape := ⟨2, ![1, 1]⟩
abbrev S20x128 : Shape := ⟨2, ![20, 128]⟩
abbrev S1x2560 : Shape := ⟨2, ![1, 2560]⟩
abbrev S1x512 : Shape := ⟨2, ![1, 512]⟩
abbrev S1x100000 : Shape := ⟨2, ![1, 100000]⟩

abbrev nBuf : Space → Nat
  | .hbm => 54
  | .vmem => 0
  | .smem => 0
  | _ => 0

abbrev bufTy : (tb : Table) → Fin (tcTables nBuf tb) → BufTy
  | .hbm, ⟨0, _⟩ => ⟨S20, .i32⟩
  | .hbm, ⟨1, _⟩ => ⟨S100000x128, .f32⟩
  | .hbm, ⟨2, _⟩ => ⟨S2560x512, .f32⟩
  | .hbm, ⟨3, _⟩ => ⟨S512, .f32⟩
  | .hbm, ⟨4, _⟩ => ⟨S512x100000, .f32⟩
  | .hbm, ⟨5, _⟩ => ⟨S100000, .f32⟩
  | .hbm, ⟨6, _⟩ => ⟨S_, .i32⟩
  | .hbm, ⟨7, _⟩ => ⟨S20, .i32⟩
  | .hbm, ⟨8, _⟩ => ⟨S20, .i1⟩
  | .hbm, ⟨9, _⟩ => ⟨S_, .i32⟩
  | .hbm, ⟨10, _⟩ => ⟨S20, .i32⟩
  | .hbm, ⟨11, _⟩ => ⟨S20, .i32⟩
  | .hbm, ⟨12, _⟩ => ⟨S20, .i32⟩
  | .hbm, ⟨13, _⟩ => ⟨S20x1, .i32⟩
  | .hbm, ⟨14, _⟩ => ⟨S1, .i32⟩
  | .hbm, ⟨15, _⟩ => ⟨S_, .i32⟩
  | .hbm, ⟨16, _⟩ => ⟨S20x1, .i32⟩
  | .hbm, ⟨17, _⟩ => ⟨S20x1, .i1⟩
  | .hbm, ⟨18, _⟩ => ⟨S1x1, .i32⟩
  | .hbm, ⟨19, _⟩ => ⟨S20x1, .i32⟩
  | .hbm, ⟨20, _⟩ => ⟨S20x1, .i1⟩
  | .hbm, ⟨21, _⟩ => ⟨S20x1, .i1⟩
  | .hbm, ⟨22, _⟩ => ⟨S_, .i1⟩
  | .hbm, ⟨23, _⟩ => ⟨S20, .i1⟩
  | .hbm, ⟨24, _⟩ => ⟨S20x128, .f32⟩
  | .hbm, ⟨25, _⟩ => ⟨S20x128, .i1⟩
  | .hbm, ⟨26, _⟩ => ⟨S_, .f32⟩
  | .hbm, ⟨27, _⟩ => ⟨S20x128, .f32⟩
  | .hbm, ⟨28, _⟩ => ⟨S20x128, .f32⟩
  | .hbm, ⟨29, _⟩ => ⟨S1x2560, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S_, .f32⟩
  | .hbm, ⟨34, _⟩ => ⟨S1x512, .f32⟩
  | .hbm, ⟨35, _⟩ => ⟨S1x512, .f32⟩
  | .hbm, ⟨36, _⟩ => ⟨S1x100000, .f32⟩
  | .hbm, ⟨37, _⟩ => ⟨S1x100000, .f32⟩
  | .hbm, ⟨38, _⟩ => ⟨S1x100000, .f32⟩
  | .hbm, ⟨39, _⟩ => ⟨S_, .f32⟩
  | .hbm, ⟨40, _⟩ => ⟨S1, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S1x1, .f32⟩
  | .hbm, ⟨45, _⟩ => ⟨S1x100000, .f32⟩
  | .hbm, ⟨46, _⟩ => ⟨S1x100000, .f32⟩
  | .hbm, ⟨47, _⟩ => ⟨S1x100000, .f32⟩
  | .hbm, ⟨48, _⟩ => ⟨S_, .f32⟩
  | .hbm, ⟨49, _⟩ => ⟨S1, .f32⟩
  | .hbm, ⟨50, _⟩ => ⟨S1x1, .f32⟩
  | .hbm, ⟨51, _⟩ => ⟨S1x1, .f32⟩
  | .hbm, ⟨52, _⟩ => ⟨S1x100000, .f32⟩
  | .hbm, ⟨53, _⟩ => ⟨S1x100000, .f32⟩
  | _, _ => ⟨S20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call1_cst : Ref sig .tc := ⟨.hbm, 33, rfl⟩
abbrev main_call1_v0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call2_cst : Ref sig .tc := ⟨.hbm, 39, rfl⟩
abbrev main_call2_v0 : Ref sig .tc := ⟨.hbm, 40, rfl⟩
abbrev main_call2_cst_0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_cst_1 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_v9 : Ref sig .tc := ⟨.hbm, 53, rfl⟩

abbrev nD : Nat := 1
abbrev τ : Topo := Topo.v7x

variable {F : FTy → Type} [FloatOps F]

class Facts₀ : Prop where
  bcast_S_S20 : S_.BroadcastsInDim S20 (![] : Fin 0 → Fin S20.rank)
  bcast_S20_S20x1_0 : S20.BroadcastsInDim S20x1 (![0] : Fin 1 → Fin S20x1.rank)
  bcast_S_S20x1 : S_.BroadcastsInDim S20x1 (![] : Fin 0 → Fin S20x1.rank)
  bcast_S1_S1x1_1 : S1.BroadcastsInDim S1x1 (![1] : Fin 1 → Fin S1x1.rank)
  bcast_S1x1_S20x1_0_1 : S1x1.BroadcastsInDim S20x1 (![0, 1] : Fin 2 → Fin S20x1.rank)
  reducesTo_S20x1_S20_d1 : S20x1.ReducesTo [1] S20
  h_S_ : 0 < S_.numel
  bcast_S20_S20x128_0 : S20.BroadcastsInDim S20x128 (![0] : Fin 1 → Fin S20x128.rank)
  bcast_S_S20x128 : S_.BroadcastsInDim S20x128 (![] : Fin 0 → Fin S20x128.rank)
  shapeCasts_S20x128_S1x2560 : S20x128.ShapeCasts S1x2560
  bcast_S512_S1x512_1 : S512.BroadcastsInDim S1x512 (![1] : Fin 1 → Fin S1x512.rank)
  bcast_S_S1x512 : S_.BroadcastsInDim S1x512 (![] : Fin 0 → Fin S1x512.rank)
  bcast_S100000_S1x100000_1 : S100000.BroadcastsInDim S1x100000 (![1] : Fin 1 → Fin S1x100000.rank)
  reducesTo_S1x100000_S1_d1 : S1x100000.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x100000_0_1 : S1x1.BroadcastsInDim S1x100000 (![0, 1] : Fin 2 → Fin S1x100000.rank)
  gather_S100000x128_S20x1_S20x128_1_0_n_n_0_1_1128_wf : GatherDims.WF S100000x128 S20x1 S20x128 [1] [0] [] [0] [] 1 ![1, 128]
  dot_S1x2560_S2560x512_S1x512_1_0_0_1_n_n_wf : DotDims.WF S1x2560 S2560x512 S1x512 [1] [0] [0] [1] [] []
  dot_S1x512_S512x100000_S1x100000_1_0_0_1_n_n_wf : DotDims.WF S1x512 S512x100000 S1x100000 [1] [0] [0] [1] [] []

variable [Facts₀]

def gather_S100000x128_S20x1_S20x128_1_0_n_n_0_1_1128 : GatherDims S100000x128 S20x1 S20x128 where
  offsetDims := [1]
  collapsedSliceDims := [0]
  operandBatchingDims := []
  startIndicesBatchingDims := []
  startIndexMap := [0]
  indexVectorDim := 1
  sliceSizes := ![1, 128]
  wf := gather_S100000x128_S20x1_S20x128_1_0_n_n_0_1_1128_wf
def dot_S1x2560_S2560x512_S1x512_1_0_0_1_n_n : DotDims S1x2560 S2560x512 S1x512 where
  lhsContracting := [1]
  rhsContracting := [0]
  lhsNonContracting := [0]
  rhsNonContracting := [1]
  lhsBatch := []
  rhsBatch := []
  wf := dot_S1x2560_S2560x512_S1x512_1_0_0_1_n_n_wf
def dot_S1x512_S512x100000_S1x100000_1_0_0_1_n_n : DotDims S1x512 S512x100000 S1x100000 where
  lhsContracting := [1]
  rhsContracting := [0]
  lhsNonContracting := [0]
  rhsNonContracting := [1]
  lhsBatch := []
  rhsBatch := []
  wf := dot_S1x512_S512x100000_S1x100000_1_0_0_1_n_n_wf

class Facts : Prop extends Facts₀ where

variable [Facts]
-- ==== Proof.Bits.GatherTile.lean ====
/-
  The row lookup on the SparseCore: of the 32 vector subcores the call runs on, the one at grid point (0, 0)
  copies the twenty row numbers into its index scratch, streams those rows of the table into its row scratch,
  and copies the row scratch out to the result array; every other subcore returns at once. Under the
  precondition every row number is below 100000, the table's height, so every entry of the stream names a row.
  Stated once, generic in the float instance.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«202118_g10599979286629_week1_w2_627_56_alg».proof.Proof.Gen.Kernel
import proofs.«202118_g10599979286629_week1_w2_627_56_alg».proof.Proof.Gen.Kernel.Skeleton

noncomputable section

namespace Cert.Kernel.Rows

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
/-- The rounds of the TensorCore pipelines' staging cells, duties unnamed. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The row numbers, the table and the gathered rows, as the TensorCore names them. -/
abbrev iLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

local notation "iV" => (Memref.whole Cert.Kernel.main_arg0_scv : Memref Cert.Kernel.sig Kind.scVector Space.hbm Cert.Kernel.S20 EltTy.i32)
local notation "tV" => (Memref.whole Cert.Kernel.main_arg1_scv : Memref Cert.Kernel.sig Kind.scVector Space.hbm Cert.Kernel.S100000x128 EltTy.f32)
local notation "oV" => (Memref.whole Cert.Kernel.main_v0_scv : Memref Cert.Kernel.sig Kind.scVector Space.hbm Cert.Kernel.S20x128 EltTy.f32)
local notation "sV" => (Memref.whole Cert.Kernel.cc0_scratch0 : Memref Cert.Kernel.sig Kind.scVector Space.vmem Cert.Kernel.S20 EltTy.i32)
local notation "rV" => (Memref.whole Cert.Kernel.cc0_scratch1 : Memref Cert.Kernel.sig Kind.scVector Space.vmem Cert.Kernel.S20x128 EltTy.f32)

variable [FloatOps F]

abbrev iPts (d : Dev nD) : sProp 𝕄 := iLoc d ↦{fullShare} m (iLoc d)
abbrev tPts (d : Dev nD) : sProp 𝕄 := tLoc d ↦{fullShare} m (tLoc d)
abbrev oPts (d : Dev nD) (f : Buf (Elt F) (oLoc d)) : sProp 𝕄 := oLoc d ↦{fullShare} f

/-- What the proof asks of the launch memory: every row number is below the table's height. -/
def PreOK : Prop := ∀ (d : Dev nD) (j : S20.Idx), (m (iLoc d) j).toNat < 100000

section Tile

variable (d : Dev nD) (L : grid0.Coords)

abbrev cV (L : grid0.Coords) : Fin τ.nSC := (L 0).castLE hcore0
abbrev jV (L : grid0.Coords) : Fin τ.nSub := (L 1).castLE hsub0

/-- The table as the stream addresses it: the whole array, sliced at the origin at full size. -/
abbrev tAllK : Memref sig .scVector .hbm S100000x128 .f32 := (tV).slice (Rect.unit (s := S100000x128) ![0, 0] S100000x128.size inb_S100000x128_S100000x128_0_0) (fun _ => rfl)

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The subcore that works: grid point (0, 0). -/
def Works (L : grid0.Coords) : Prop := (L 0).val = 0 ∧ (L 1).val = 0
instance (L : grid0.Coords) : Decidable (Works L) := inferInstanceAs (Decidable (_ ∧ _))

omit [FloatOps F] in
/-- The printed test of the subcore's number, twice its second coordinate plus its first, against zero. -/
theorem works_iff (L : grid0.Coords) :
    Scalar.cmpi .ne (Scalar.extui (Scalar.cmpi .eq (Scalar.addi (Scalar.muli (BitVec.ofNat 32 (L 1).val) 2#32) (BitVec.ofNat 32 (L 0).val)) 0#32) : BitVec 32) 0#32 = 1#1
      ↔ Works L := by
  have key : ∀ (a : Fin 2) (b : Fin 16),
      (Scalar.cmpi .ne (Scalar.extui (Scalar.cmpi .eq (Scalar.addi (Scalar.muli (BitVec.ofNat 32 b.val) 2#32) (BitVec.ofNat 32 a.val)) 0#32) : BitVec 32) 0#32 = 1#1)
        ↔ (a.val = 0 ∧ b.val = 0) := by decide
  exact key (L 0) (L 1)

/-- The rows of the table the twenty numbers name. -/
def rowsOf (hpre : PreOK m) (d : Dev nD) :
    Fin (S20x128.size gathers_S100000x128_S20x128.axis') → Fin (S100000x128.size gathers_S100000x128_S20x128.axis) :=
  SparseCore.rows (si := S20) (m (iLoc d)) rfl (hpre d)

/-- The gathered rows: entry (i, j) is the table's entry at (the i-th row number, j). -/
def gath (hpre : PreOK m) (d : Dev nD) : Buf (Elt F) (oLoc d) :=
  SparseCore.gatherPayload gathers_S100000x128_S20x128 (m (tLoc d)) (rowsOf m hpre d)

omit [FloatOps F] in
/-- The stream's row function depends on the list's words only. -/
theorem rows_congr {si : Shape} {o z : ℕ} {f g : si.Idx → Elt F .i32} (e : f = g) (hn : si.numel = o)
    (hf : ∀ x, (f x).toNat < z) (hg : ∀ x, (g x).toNat < z) : SparseCore.rows f hn hf = SparseCore.rows g hn hg := by
  subst e; rfl

/-- The offsets the stream reads name rows of the table: what the index copy landed is the row numbers, each below
    the table's height. -/
theorem inb_of_pre (hpre : PreOK m) (fs : Buf (Elt F) ((V d (cV L) (jV L)).loc cc0_scratch0)) (pay : S20.Idx → Elt F .i32)
    (hpay : pay = (iV).view.read (Elt F) (m (iLoc d))) :
    ∀ x, ((sV).view.read (Elt F) (View.write (Elt F) (sV).view fs pay Finset.univ) x).toNat < S100000x128.size gathers_S100000x128_S20x128.axis := by
  subst hpay; intro x
  rw [View.write_whole_univ]
  simp only [Memref.view_whole, View.read_whole]
  exact hpre d _

omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_oV (f : Buf (Elt F) (oLoc d)) :
    ((oV).view.loc (V d (cV L) (jV L)) ↦{fullShare} f : sProp 𝕄) = oLoc d ↦{fullShare} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

set_option maxHeartbeats 4000000 in
/-- The working subcore's task: the index copy and its wait, the stream of the named rows and its wait, the copy
    out and its wait. -/
theorem tile_body_works (hF : (K (F := F)).Facts) (hpre : PreOK m) (hw : Works L) (O : CellTallies nD τ sig (HIx 1)) (W : Waits sig (HIx 1)) (hO : ∀ g, O g none = 0) :
    iprop(levAts (K (F := F)).L (K (F := F)).lev ∗ emp
        ∗ (iPts m d ∗ tPts m d ∗ oPts d (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L tV (Memref.isWhole_whole _) iV (Memref.isWhole_whole _) oV (Memref.isWhole_whole _)
            sV (Memref.isWhole_whole _) rV (Memref.isWhole_whole _) cc0_scratch2 cc0_scoped0 cc0_scoped1)
          fun _ => iprop((iPts m d ∗ tPts m d ∗ oPts d (gath m hpre d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hwk := (works_iff L).mpr hw
  simp only [cc0_gather_k_eq_skeleton]; unfold cc0_gather_k_skel
  simp only [hwk, ↓reduceDIte]
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ht' := (Entails.of_eq (pts_tV (F := F) d L _ _).symm) $$ Ht
  ihave Ho' := (Entails.of_eq (pts_oV (F := F) d L _).symm) $$ Ho
  ihave Hs' := (Entails.of_eq (pts_sV (F := F) d L _).symm) $$ Hs
  ihave Hr' := (Entails.of_eq (pts_rV (F := F) d L _).symm) $$ Hr
  sl_exec
  have hin := inb_of_pre m d L hpre fs (tile_body_works.sl.dma0 m d) rfl
  sl_exec
  have hout : View.write (Elt F) (oV).view (m (oLoc d)) (tile_body_works.sl.dma0_1 m d L fs fr hin) Finset.univ = gath m hpre d := by
    unfold tile_body_works.sl.dma0_1 tile_body_works.sl.gather0 gath rowsOf
    simp only [ReadAs.apply_same, Memref.view_whole, View.read_whole, View.write_whole_univ, View.writes_singleton]
    refine (Memref.write_access_whole_univ (Elt F) cc0_scratch1 fr _).trans ?_
    have e1 : View.read (Elt F) ((View.whole main_arg1_scv).slice (Rect.unit ![0, 0] ![100000, 128] inb_S100000x128_S100000x128_0_0)) (m (tLoc d)) = m (tLoc d) :=
      Memref.read_access_unit_zero (Elt F) main_arg1_scv (funext fun a => by match a with | ⟨0, _⟩ => rfl | ⟨1, _⟩ => rfl) _ _
    have e2 : View.write (Elt F) (View.whole cc0_scratch0) fs (tile_body_works.sl.dma0 m d) Finset.univ = m (iLoc d) :=
      View.write_whole_univ cc0_scratch0 fs _
    rw [e1]
    exact congrArg _ (rows_congr e2 _ _ _)
  ihave Ho'' := (Entails.of_eq (congrArg (fun f => ((oV).view.loc (V d (cV L) (jV L)) ↦{fullShare} f : sProp 𝕄)) hout)) $$ Ho'
  sl_step
  isplitl [Hi' Ht' Ho'']
  · isplitl [Hi']; · iapply (Entails.of_eq (pts_iV (F := F) d L _ _)); iexact Hi'
    isplitl [Ht']; · iapply (Entails.of_eq (pts_tV (F := F) d L _ _)); iexact Ht'
    iapply (Entails.of_eq (pts_oV (F := F) d L _)); iexact Ho''
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

set_option maxHeartbeats 1000000 in
/-- Every other subcore's task: the test fails and it returns at once, everything it was handed untouched. -/
theorem tile_body_idle (hw : ¬ Works L) (O : CellTallies nD τ sig (HIx 1)) (W : Waits sig (HIx 1)) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_gather_k L tV (Memref.isWhole_whole _) iV (Memref.isWhole_whole _) oV (Memref.isWhole_whole _)
            sV (Memref.isWhole_whole _) rV (Memref.isWhole_whole _) cc0_scratch2 cc0_scoped0 cc0_scoped1)
          fun _ => iprop(emp
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hnw := (works_iff L).not.mpr hw
  simp only [cc0_gather_k_eq_skeleton]; unfold cc0_gather_k_skel
  simp only [hnw, ↓reduceDIte]
  iintro ⟨-, -, -, Hb, Hs, HO⟩
  sl_step
  isplitr; · iempintro
  isplitl [Hb]; · iexact Hb
  isplitl [Hs]; · iexact Hs
  iexists W; isplitr
  · ipureintro; exact fun p hp => .inl hp
  · iexact HO

end Tile

end Cert.Kernel.Rows

end
-- ==== Proof.Bits.GatherCall.lean ====
/-
  The row lookup as one SparseCore call: what the call takes from the TensorCore and brings back (the row numbers
  and the table unchanged, the result array at the gathered rows), how a SparseCore's share of that is dealt to its
  sixteen subcores (all of it to subcore 0 of SparseCore 0, nothing to the others), and each subcore's task.
-/
import proofs.«202118_g10599979286629_week1_w2_627_56_alg».proof.Proof.Bits.GatherTile

noncomputable section

namespace Cert.Kernel.Rows

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S20 EltTy.i32)
local notation "tV" => (Memref.whole Cert.Kernel.main_arg1_scv : Memref Cert.Kernel.sig Kind.scVector Space.hbm Cert.Kernel.S100000x128 EltTy.f32)
local notation "oV" => (Memref.whole Cert.Kernel.main_v0_scv : Memref Cert.Kernel.sig Kind.scVector Space.hbm Cert.Kernel.S20x128 EltTy.f32)
local notation "sV" => (Memref.whole Cert.Kernel.cc0_scratch0 : Memref Cert.Kernel.sig Kind.scVector Space.vmem Cert.Kernel.S20 EltTy.i32)
local notation "rV" => (Memref.whole Cert.Kernel.cc0_scratch1 : Memref Cert.Kernel.sig Kind.scVector Space.vmem Cert.Kernel.S20x128 EltTy.f32)

variable [FloatOps F]

/-- The three arrays before the call, and after it. -/
abbrev before (d : Dev nD) : sProp 𝕄 := iprop(iPts m d ∗ tPts m d ∗ oPts d (m (oLoc d)))
abbrev after (hpre : PreOK m) (d : Dev nD) : sProp 𝕄 := iprop(iPts m d ∗ tPts m d ∗ oPts d (gath m hpre d))

/-- The call takes the three arrays on SparseCore 0 and brings them back with the result array at the gathered rows;
    subcore 0 of SparseCore 0 is handed all of it; nothing travels anywhere else. -/
def P (hpre : PreOK m) : (K (F := F)).Pay (nD := nD) (Val := Elt F) (Name := ℕ) (U := UU) where
  st := fun q d c => match q with | 0 => if c.val = 0 then before m d else iprop(emp)
  dn := fun q d c => match q with | 0 => if c.val = 0 then after m hpre d else iprop(emp)
  go := fun q d c i => match q with | 0 => if c.val = 0 ∧ i.val = 0 then before m d else iprop(emp)
  td := fun q d c i => match q with | 0 => if c.val = 0 ∧ i.val = 0 then after m hpre d else iprop(emp)
  x := fun _ _ => iprop(emp)

instance P_storable (hpre : PreOK m) : (P (F := F) m hpre).IsStorable where
  st q d c := match q with
    | 0 => by
      show BI.Storable (upEmb : UEmb _ 𝕄) (if c.val = 0 then before m d else iprop(emp))
      split <;> infer_instance
  dn q d c := match q with
    | 0 => by
      show BI.Storable (upEmb : UEmb _ 𝕄) (if c.val = 0 then after m hpre d else iprop(emp))
      split <;> infer_instance
  go q d c i := match q with
    | 0 => by
      show BI.Storable (upEmb : UEmb _ 𝕄) (if c.val = 0 ∧ i.val = 0 then before m d else iprop(emp))
      split <;> infer_instance
  td q d c i := match q with
    | 0 => by
      show BI.Storable (upEmb : UEmb _ 𝕄) (if c.val = 0 ∧ i.val = 0 then after m hpre d else iprop(emp))
      split <;> infer_instance

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m hpre) v₀ 0 := by
  intro d c i O W hO _ _
  simp only [show (P m hpre).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  by_cases hw : c.val = 0 ∧ i.val = 0
  · rw [show (P m hpre).go 0 d c i = before m d from if_pos hw, show (P m hpre).td 0 d c i = after m hpre d from if_pos hw]
    exact (tile_body_works m d (coordsV ⟨_, hci.1⟩ ⟨_, hci.2⟩) hF hpre hw O W hO).trans (wp_mono frame _ _ fun _ => obl_post)
  · rw [show (P m hpre).go 0 d c i = iprop(emp) from if_neg hw, show (P m hpre).td 0 d c i = iprop(emp) from if_neg hw]
    exact (tile_body_idle d (coordsV ⟨_, hci.1⟩ ⟨_, hci.2⟩) hw O W).trans (wp_mono frame _ _ fun _ => obl_post)

/-! ## The split of a SparseCore's operands among its subcores -/

omit [FloatOps F] in
theorem bigSep_emp' {I : Type} (s : Finset I) : (bigSep s fun _ => iprop(emp)) = (iprop(emp) : sProp 𝕄) := bigSep_emp_const s

omit [FloatOps F] in
/-- Of a family over the sixteen subcores that is empty but at subcore 0, the whole is the member at 0. -/
theorem bigSep_at_zero (A : sProp 𝕄) :
    (bigSep (Finset.univ : Finset (Fin 16)) fun i => if i.val = 0 then A else iprop(emp)) = A := by
  show (bigSep (Finset.univ : Finset (Fin 16)) fun i => if i.val = 0 then A else (BI.emp : sProp 𝕄)) = A
  rw [← bigSep_filter Finset.univ (fun i : Fin 16 => i.val = 0) (fun _ => A),
    show (Finset.univ.filter fun i : Fin 16 => i.val = 0) = {(0 : Fin 16)} from by decide,
    bigSep_singleton]

theorem vecSplit (hpre : PreOK m) : (K (F := F)).VecSplit' (P m hpre) 0 := by
  intro d c
  by_cases hc : c.val = 0
  · show (if c.val = 0 then before m d else iprop(emp)) ⊢ |={Set.univ}=> iprop(
        (bigSep (Finset.univ : Finset (Fin 16)) fun i => if c.val = 0 ∧ i.val = 0 then before m d else iprop(emp))
        ∗ ((bigSep (Finset.univ : Finset (Fin 16)) fun i => if c.val = 0 ∧ i.val = 0 then after m hpre d else iprop(emp))
            -∗ if c.val = 0 then after m hpre d else iprop(emp)))
    simp only [hc, true_and, if_true]
    rw [bigSep_at_zero, bigSep_at_zero]
    iintro H; imodintro
    isplitl [H]; · iexact H
    iintro H; iexact H
  · show (if c.val = 0 then before m d else iprop(emp)) ⊢ |={Set.univ}=> iprop(
        (bigSep (Finset.univ : Finset (Fin 16)) fun i => if c.val = 0 ∧ i.val = 0 then before m d else iprop(emp))
        ∗ ((bigSep (Finset.univ : Finset (Fin 16)) fun i => if c.val = 0 ∧ i.val = 0 then after m hpre d else iprop(emp))
            -∗ if c.val = 0 then after m hpre d else iprop(emp)))
    simp only [hc, false_and, if_false]
    rw [bigSep_emp']
    iintro -; imodintro
    isplitr; · iempintro
    iintro -; iempintro

end Cert.Kernel.Rows

end
-- ==== Proof.Bits.LookupMain.lean ====
/-
  @main on the TensorCore: the SparseCore call, then — over the pipelines' own signature — the reshapes of the
  gathered rows and of the first bias, the hidden layer's region, the re-layout of the hidden row into sixteen
  blocks of thirty-two, the reshapes of the second bias and of the second weight matrix, and the output region.
-/
import proofs.«202118_g10599979286629_week1_w2_627_56_alg».proof.Proof.Bits.GatherCall
import Idealize.ShloMosaic.Lib.Pipeline.Regions

noncomputable section

namespace Cert.Kernel.Rows

open Cert.Kernel Cert.Kernel.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- @main after the SparseCore call, over the pipelines' signature. -/
def rest : Prog (TpuEff nD τ sig (Elt F) (ΛP (F := F)) .tc) PUnit := do
  hlo rfl (StableHlo.reshape main_v0 main_v1 rfl shapeCasts_S20x128_S1x2560) (fun _ => .ret ⟨⟩)
  hlo rfl (StableHlo.reshape main_arg3 main_v2 rfl shapeCasts_S512_S1x512) (fun _ => .ret ⟨⟩)
  Prog.lift (.customCall (Pipeline.entry 0) ())
  hlo rfl (StableHlo.reshape main_v3 main_v4 rfl shapeCasts_S1x512_S4x16x8) (fun _ => .ret ⟨⟩)
  hlo rfl (StableHlo.unary main_v4 main_v5 ((transpose S16x4x8 [1, 0, 2] · transposes_S4x16x8_S16x4x8_1_0_2) : (⟨S4x16x8, .f32⟩ : BufTy).Contents (Elt F) → (⟨S16x4x8, .f32⟩ : BufTy).Contents (Elt F))) (fun _ => .ret ⟨⟩)
  hlo rfl (StableHlo.reshape main_v5 main_v6 rfl shapeCasts_S16x4x8_S16x1x32) (fun _ => .ret ⟨⟩)
  hlo rfl (StableHlo.reshape main_arg5 main_v7 rfl shapeCasts_S100000_S1x100000) (fun _ => .ret ⟨⟩)
  hlo rfl (StableHlo.reshape main_arg4 main_v8 rfl shapeCasts_S512x100000_S4x16x8x100000) (fun _ => .ret ⟨⟩)
  Prog.lift (.customCall (Pipeline.entry 1) ())
  pure ⟨⟩

/-- @main is the call and then the rest, lifted. -/
theorem main_eq (d : Dev nD) : main (F := F) d = (do (K (F := F)).run d 0; SparseCore.liftProg (Q := 1) (rest (F := F))) := rfl

/-! ## The TensorCore's arrays as one held set -/

variable (m : (ℓ : Loc nD τ sig) → Buf (Elt F) ℓ) (ρ : Dev nD → PrngReg)

/-- The arrays at launch, as a valuation; -/
abbrev V₀ (d : Dev nD) : Valuation τ sig (Elt F) := fun b => m (d, b)
/-- the result array of the lookup, as a device buffer; -/
abbrev v0' : DevRef τ sig := Proc.devRef .tc main_v0
/-- and after the call: the result array at the gathered rows, everything else as launched. -/
def V₁ (hpre : PreOK m) (d : Dev nD) : Valuation τ sig (Elt F) := Function.update (V₀ m d) v0' (gath m hpre d)

/-- The TensorCore's unscoped references: @main's sixteen arrays. -/
def ucRefs : Finset (DevRef τ sig) := (StableHlo.tcRefs τ sig).filter fun b => ¬ b.isScoped
/-- The three of them the lookup takes. -/
def callRefs : Finset (DevRef τ sig) := {Proc.devRef .tc main_arg0, Proc.devRef .tc main_arg1, Proc.devRef .tc main_v0}

omit [FloatOps F] in
theorem callRefs_sub : callRefs ⊆ ucRefs := by decide

omit [FloatOps F] in
theorem unscopedBufs_held (d : Dev nD) (W : Valuation τ sig (Elt F)) :
    (unscopedBufs d (fun b => W b) : sProp 𝕄) = StableHlo.held (SparseCore.T d) ucRefs W := by
  unfold unscopedBufs StableHlo.held ucRefs StableHlo.tcRefs
  rw [Finset.filter_map, bigSep_map]
  rfl

omit [FloatOps F] in
/-- The call's three arrays held at a valuation, one by one. -/
theorem held_callRefs (d : Dev nD) (W : Valuation τ sig (Elt F)) :
    (StableHlo.held (SparseCore.T d) callRefs W : sProp 𝕄)
      = iprop((iLoc d ↦{fullShare} W (Proc.devRef .tc main_arg0)) ∗ (tLoc d ↦{fullShare} W (Proc.devRef .tc main_arg1)) ∗ (oLoc d ↦{fullShare} W v0')) := by
  unfold StableHlo.held callRefs
  rw [SparseCore.bigSep_insert' (by decide), SparseCore.bigSep_insert' (by decide), bigSep_singleton]

/-! ## What is asked of the rest of @main, over the pipelines' signature -/

/-- The TensorCore's debts after its one SparseCore call: none it has not paid, its recorded waits all below the
    next call's levels. -/
abbrev owesT (d : Dev nD) : sProp 𝕄 :=
  iprop(∃ W, ⌜(K (F := F)).WBelow (SparseCore.T d) W (8 * 1)⌝ ∗ owes (SparseCore.T d) ((K (F := F)).Otc d 1) W)

/-- The rest of @main, from the arrays as the lookup left them, the region-boundary holdings, the TensorCore's own
    semaphores at zero and whatever ghost state `G` the launch dealt it, runs to `FIN`, its debts as they were. -/
def RestSpec (hpre : PreOK m) (G FIN : Dev nD → sProp 𝕄) : Prop :=
  ∀ (κ : GSem nD τ sig → ℕ) (d : Dev nD),
    iprop((K (F := F)).ctx EH (P m hpre) κ ∗ owesT (F := F) d ∗ boundary (SparseCore.T d)
        ∗ StableHlo.held (SparseCore.T d) ucRefs (V₁ m hpre d) ∗ (K (F := F)).tcSems0 d ∗ prngReg d (ρ d) ∗ G d)
      ⊢ wp frame (wpE (D (F := F)) 𝒱 (SparseCore.T d) none) Set.univ (rest (F := F))
          fun _ => iprop(owesT (F := F) d ∗ FIN d)

/-! ## @main on the TensorCore -/

omit [FloatOps F] in
/-- Off the result array the two valuations agree. -/
theorem V₁_off (hpre : PreOK m) (d : Dev nD) : ∀ b ∈ ucRefs \ callRefs, V₀ m d b = V₁ m hpre d b := fun b hb => by
  have hne : b ≠ v0' := fun e => (Finset.mem_sdiff.mp hb).2 (e ▸ by decide)
  exact (Function.update_of_ne hne _ _).symm

theorem st0_eq (hpre : PreOK m) (d : Dev nD) :
    (bigSep Finset.univ fun c : Fin ((K (F := F)).nCore 0) => (P m hpre).st 0 d c) = iprop(before m d ∗ emp) := by
  show (bigSep (Finset.univ : Finset (Fin 2)) fun c => if c.val = 0 then before m d else iprop(emp)) = _
  rw [show (Finset.univ : Finset (Fin 2)) = {0, 1} by decide, SparseCore.bigSep_insert' (by decide), bigSep_singleton]
  rfl
theorem dn0_eq (hpre : PreOK m) (d : Dev nD) :
    (bigSep Finset.univ fun c : Fin ((K (F := F)).nCore 0) => (P m hpre).dn 0 d c) = iprop(after m hpre d ∗ emp) := by
  show (bigSep (Finset.univ : Finset (Fin 2)) fun c => if c.val = 0 then after m hpre d else iprop(emp)) = _
  rw [show (Finset.univ : Finset (Fin 2)) = {0, 1} by decide, SparseCore.bigSep_insert' (by decide), bigSep_singleton]
  rfl

omit [FloatOps F] in
/-- The TensorCore's state after the call gives up its debts and takes them back. -/
theorem tcSt_owes (d : Dev nD) :
    (K (F := F)).tcSt EH d 1 ⊢ iprop(owesT (F := F) d ∗ (owesT (F := F) d -∗ (K (F := F)).tcSt EH d 1)) := by
  unfold SparseCore.Cfg.tcSt
  iintro ⟨HW, Hrest⟩
  isplitl [HW]; · iexact HW
  iintro HW
  isplitl [HW]; · iexact HW
  iexact Hrest

omit [FloatOps F] in
/-- The sixteen arrays after the call: the lookup's three as it left them, the others as launched. -/
theorem held_after (hpre : PreOK m) (d : Dev nD) :
    (StableHlo.held (SparseCore.T d) ucRefs (V₁ m hpre d) : sProp 𝕄)
      = iprop((iPts m d ∗ tPts m d ∗ oPts d (gath m hpre d)) ∗ StableHlo.held (SparseCore.T d) (ucRefs \ callRefs) (V₀ m d)) := by
  rw [StableHlo.held_sub_split (SparseCore.T d) callRefs_sub, held_callRefs, ← StableHlo.held_congr (SparseCore.T d) (V₁_off m hpre d)]
  unfold V₁
  rw [Function.update_of_ne (by decide), Function.update_of_ne (by decide), Function.update_self]

/-- The rest of @main under the launch's body table: its specification over the pipelines' signature, framed by the
    wand that restores the TensorCore's handshake state, lifted. -/
theorem rest_lift (hpre : PreOK m) (G FIN : Dev nD → sProp 𝕄) (hrest : RestSpec m ρ hpre G FIN) (κ : GSem nD τ sig → ℕ) (d : Dev nD) :
    iprop(((K (F := F)).ctx EH (P m hpre) κ ∗ owesT (F := F) d ∗ boundary (SparseCore.T d)
          ∗ StableHlo.held (SparseCore.T d) ucRefs (V₁ m hpre d) ∗ (K (F := F)).tcSems0 d ∗ prngReg d (ρ d) ∗ G d)
        ∗ (owesT (F := F) d -∗ (K (F := F)).tcSt EH d 1))
      ⊢ wp frame (wpE ((K (F := F)).defs (D (F := F))) 𝒱 (SparseCore.T d) none) Set.univ (SparseCore.liftProg (Q := 1) (rest (F := F)))
          fun _ => iprop((K (F := F)).tcSt EH d 1 ∗ FIN d) :=
  ((sep_mono (hrest κ d) .rfl).trans <| (wp_frame_r frame _ _).trans <| wp_mono frame _ _ fun _ => by
      iintro ⟨⟨HW, HF⟩, Hback⟩
      isplitl [HW Hback]
      · iapply Hback; iexact HW
      · iexact HF).trans ((K (F := F)).wp_liftProg (D (F := F)) 𝒱 (SparseCore.T d) Set.univ none (rest (F := F)) _)

/-- @main on device `d`'s TensorCore: the lookup (the launch's rule for a SparseCore call, from the row numbers,
    the table and the result array), then the rest over the pipelines' signature, lifted. -/
theorem hmain (hpre : PreOK m) (G FIN : Dev nD → sProp 𝕄) (hrest : RestSpec m ρ hpre G FIN) (κ : GSem nD τ sig → ℕ) (d : Dev nD) :
    iprop((K (F := F)).ctx EH (P m hpre) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN d) := by
  unfold SparseCore.Cfg.tcRes
  rw [show (unscopedBufs d (fun b => m ((SparseCore.T d).loc b)) : sProp 𝕄) = StableHlo.held (SparseCore.T d) ucRefs (V₀ m d) from unscopedBufs_held d (V₀ m d),
    StableHlo.held_sub_split (SparseCore.T d) callRefs_sub (V₀ m d), held_callRefs, main_eq]
  simp only [wp_bind]
  iintro ⟨#Hctx, Hst, ⟨Hb, ⟨⟨Hi, Ht, Ho⟩, Hothers⟩, Hsems, Hprng⟩, HG⟩
  iapply ((K (F := F)).wp_run (D (F := F)) 𝒱 (EH := EH) (P := P m hpre) κ d 0) $$ [Hst Hi Ht Ho Hb Hothers Hsems Hprng HG]
  isplitr; · iexact Hctx
  isplitl [Hst]; · iexact Hst
  isplitl [Hi Ht Ho]
  · rw [st0_eq]
    isplitl [Hi Ht Ho]
    · isplitl [Hi]; · iexact Hi
      isplitl [Ht]; · iexact Ht
      iexact Ho
    · iempintro
  iintro ⟨Hst, Hdn⟩
  ihave Hdn' := (Entails.of_eq (dn0_eq m hpre d)) $$ Hdn
  icases Hdn' with ⟨⟨Hi, Ht, Ho⟩, -⟩
  ihave Hst1 := (Entails.of_eq (show (K (F := F)).tcSt EH d ((0 : Fin 1).val + 1) = (K (F := F)).tcSt EH d 1 from rfl)) $$ Hst
  ihave H := (tcSt_owes (F := F) d) $$ Hst1
  icases H with ⟨HW, Hback⟩
  iapply (rest_lift m ρ hpre G FIN hrest κ d)
  isplitr [Hback]
  · isplitr; · iexact Hctx
    isplitl [HW]; · iexact HW
    isplitl [Hb]; · iexact Hb
    isplitl [Hi Ht Ho Hothers]
    · rw [held_after]
      isplitl [Hi Ht Ho]
      · isplitl [Hi]; · iexact Hi
        isplitl [Ht]; · iexact Ht
        iexact Ho
      · iexact Hothers
    isplitl [Hsems]; · iexact Hsems
    isplitl [Hprng]; · iexact Hprng
    iexact HG
  · iexact Hback

/-! ## The end: the six arguments as launched -/

abbrev aLoc (b : Ref sig .tc) (d : Dev nD) : Loc nD τ sig := (SparseCore.T d).loc b

/-- What @main leaves the claim: each argument array whole at its launch contents. -/
abbrev FIN (d : Dev nD) : sProp 𝕄 :=
  iprop((aLoc main_arg0 d ↦{fullShare} m (aLoc main_arg0 d)) ∗ (aLoc main_arg1 d ↦{fullShare} m (aLoc main_arg1 d))
    ∗ (aLoc main_arg2 d ↦{fullShare} m (aLoc main_arg2 d)) ∗ (aLoc main_arg3 d ↦{fullShare} m (aLoc main_arg3 d))
    ∗ (aLoc main_arg4 d ↦{fullShare} m (aLoc main_arg4 d)) ∗ (aLoc main_arg5 d ↦{fullShare} m (aLoc main_arg5 d)))

def fq (d : Dev nD) (s' : Phys nD τ sig (Elt F)) : Prop :=
  s'.mem.mem (aLoc main_arg0 d) = m (aLoc main_arg0 d) ∧ s'.mem.mem (aLoc main_arg1 d) = m (aLoc main_arg1 d)
  ∧ s'.mem.mem (aLoc main_arg2 d) = m (aLoc main_arg2 d) ∧ s'.mem.mem (aLoc main_arg3 d) = m (aLoc main_arg3 d)
  ∧ s'.mem.mem (aLoc main_arg4 d) = m (aLoc main_arg4 d) ∧ s'.mem.mem (aLoc main_arg5 d) = m (aLoc main_arg5 d)

omit [FloatOps F] in
/-- An array held whole agrees with the final memory, which is kept. -/
theorem agree (ℓ : Loc nD τ sig) (s' : Phys nD τ sig (Elt F)) :
    iprop(SI s' ∗ (ℓ ↦{fullShare} m ℓ)) ⊢ (iprop(⌜s'.mem.mem ℓ = m ℓ⌝ ∗ SI s') : sProp 𝕄) := by
  iintro ⟨HSI, H⟩
  ihave H' := (persistent_entails_right (SI_pointsTo_agree (st := s') (ℓ := ℓ) (I := Finset.univ) (q := fullShare) (f := m ℓ))) $$ [HSI H]
  · isplitl [HSI] <;> iassumption
  icases H' with ⟨%h, HSI, -⟩
  isplitr
  · ipureintro; exact funext fun i => h i (Finset.mem_univ i)
  · iexact HSI

set_option maxRecDepth 16384 in
omit [FloatOps F] in
theorem hfin (d : Dev nD) (s' : Phys nD τ sig (Elt F)) : iprop(FIN m d ∗ SI s') ⊢ (⌜fq m d s'⌝ : sProp 𝕄) := by
  iintro ⟨⟨H0, H1, H2, H3, H4, H5⟩, HSI⟩
  ihave G0 := (agree m (aLoc main_arg0 d) s') $$ [HSI H0]; · isplitl [HSI] <;> iassumption
  icases G0 with ⟨%h0, HSI⟩
  ihave G1 := (agree m (aLoc main_arg1 d) s') $$ [HSI H1]; · isplitl [HSI] <;> iassumption
  icases G1 with ⟨%h1, HSI⟩
  ihave G2 := (agree m (aLoc main_arg2 d) s') $$ [HSI H2]; · isplitl [HSI] <;> iassumption
  icases G2 with ⟨%h2, HSI⟩
  ihave G3 := (agree m (aLoc main_arg3 d) s') $$ [HSI H3]; · isplitl [HSI] <;> iassumption
  icases G3 with ⟨%h3, HSI⟩
  ihave G4 := (agree m (aLoc main_arg4 d) s') $$ [HSI H4]; · isplitl [HSI] <;> iassumption
  icases G4 with ⟨%h4, HSI⟩
  ihave G5 := (agree m (aLoc main_arg5 d) s') $$ [HSI H5]; · isplitl [HSI] <;> iassumption
  icases G5 with ⟨%h5, -⟩
  ipureintro; exact ⟨h0, h1, h2, h3, h4, h5⟩

/-! ## The program's run -/

/-- The frame claim's post: on every device the six argument arrays end as launched. -/
def QC : PUnit × MemSt nD τ sig (Elt F) → Prop := fun r => ∀ c : Dev nD,
  r.2.mem (aLoc main_arg0 c) = m (aLoc main_arg0 c) ∧ r.2.mem (aLoc main_arg1 c) = m (aLoc main_arg1 c)
  ∧ r.2.mem (aLoc main_arg2 c) = m (aLoc main_arg2 c) ∧ r.2.mem (aLoc main_arg3 c) = m (aLoc main_arg3 c)
  ∧ r.2.mem (aLoc main_arg4 c) = m (aLoc main_arg4 c) ∧ r.2.mem (aLoc main_arg5 c) = m (aLoc main_arg5 c)

/-- From a launch memory whose row numbers name rows of the table, every weakly fair execution of the 35 threads
    ends, the arguments unchanged — GIVEN the launch element (`hu₀`: the handshakes' rounds, and whatever ghost state
    `G` the two TensorCore regions start from) and the rest of @main over the pipelines' signature (`hrest`). -/
theorem run_main [∀ e, Nonempty (Elt F e)] (hpre : PreOK m) (G : Dev nD → sProp 𝕄) (u₀ : UU)
    (hu₀ : iprop(ownU u₀ ∗ (P m hpre).oxCred ∗ (K (F := F)).freeSems0)
      ⊢ |={Set.univ}=> iprop(BI.own (EH (initOf (K (F := F)).hsCells (K (F := F)).hsToks)) ∗ bigSep Finset.univ G
        ∗ bigSep Finset.univ fun thr : Thread nD τ => bigSep Finset.univ fun q : Fin 1 => (P m hpre).x q thr))
    (hrest : RestSpec m ρ hpre G (FIN m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m hpre) facts v₀
    (fun q hq => match q with | 0 => nomatch hq)
    (fun q _ => match q with | 0 => tileObl m facts hpre)
    (fun q _ => match q with | 0 => SparseCore.Cfg.VecSplit.of_plain (vecSplit m hpre))
    m ρ main G (FIN m) u₀ hu₀ (hmain m ρ hpre G (FIN m) hrest) (fq m) (hfin m) (QC m) (fun _ h => h)

end Cert.Kernel.Rows

end
-- ==== Proof.Bits.LookupLaunch.lean ====
/-
  The launch element: the certificate's ghost element is the handshakes' rounds beside the rounds of the two
  TensorCore pipelines' staging cells (and the transfers' counters, which start empty). The first goes to the
  launch as it stands; the second funds, per device, each pipeline's cells' ghost state and tokens — what the
  TensorCore's two regions start from.
-/
import proofs.«202118_g10599979286629_week1_w2_627_56_alg».proof.Proof.Bits.LookupMain
import proofs.«202118_g10599979286629_week1_w2_627_56_alg».proof.Proof.Gen.Kernel.Launch

noncomputable section

namespace Cert.Kernel.Rows

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The pipelines' staging cells' rounds, inside the certificate's algebra: the left of its right component. -/
abbrev EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

/-- The launch element. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What the launch deals device `d`'s TensorCore for its two regions. -/
abbrev G (d : Dev nD) : sProp 𝕄 :=
  iprop((bigSep Finset.univ fun p : Fin 2 => Pipeline.cellsGhost (nD := nD) (τ := τ) cfgs (EP (F := F)) p d)
    ∗ bigSep Finset.univ fun p : Fin 2 => (Pipeline.toksInit (nD := nD) (τ := τ) cfgs (EP (F := F)) p d : sProp 𝕄))

omit [FloatOps F] in
theorem bigSep_emp'' {I : Type} (s : Finset I) : (bigSep s fun _ => iprop(emp)) = (iprop(emp) : sProp 𝕄) := bigSep_emp_const s

theorem hu₀ (hpre : PreOK m) :
    iprop(ownU (u₀ (F := F)) ∗ (P m hpre).oxCred ∗ (K (F := F)).freeSems0)
      ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m hpre).x q thr) := by
  unfold u₀
  iintro ⟨Hu, -, -⟩
  ihave H := (ownU_pair (initOf (K (F := F)).hsCells (K (F := F)).hsToks)
    ((initOf (Pipeline.cells (nD := nD) (τ := τ) cfgs cellOf_inj) (Pipeline.launchToks (nD := nD) (τ := τ) cfgs cellOf_inj), (1 : Counters)) : UP × Counters)) $$ Hu
  icases H with ⟨HH, HR⟩
  ihave H2 := (own_pair_emb (embR : Emb (UP × Counters) 𝕄) _ _) $$ HR
  icases H2 with ⟨HP, -⟩
  imod (Pipeline.fund_ghost (nD := nD) (τ := τ) cfgs (EP (F := F)) cellOf_inj) $$ HP with ⟨Hg, Ht⟩
  imodintro
  isplitl [HH]; · iexact HH
  isplitl [Hg Ht]
  · unfold G
    rw [bigSep_sep']
    isplitl [Hg]; · iexact Hg
    iexact Ht
  rw [show (bigSep Finset.univ fun thr : Thread nD τ => bigSep Finset.univ fun q : Fin 1 => (P (F := F) m hpre).x q thr) = bigSep Finset.univ fun _ => iprop(emp) from
    bigSep_congr fun _ _ => bigSep_univ_of_subsingleton (0 : Fin 1), bigSep_emp'']
  iempintro

/-- The run, the launch element supplied: what remains is the rest of @main over the pipelines' signature, from the
    arrays as the lookup left them and each pipeline's cells' ghost state. -/
theorem run_main' [∀ e, Nonempty (Elt F e)] (hpre : PreOK m) (hrest : RestSpec m ρ hpre (G (F := F)) (FIN m)) :
    θ_run (Cert.Kernel.defs (F := F)) (Cert.Kernel.threads (F := F)) ⟨m, fun _ => 0, ρ⟩ (QC m) :=
  run_main m ρ hpre (G (F := F)) (u₀ (F := F)) (hu₀ m hpre) hrest

end Cert.Kernel.Rows

end
-- ==== Proof.Bits.HidBody.lean ====
/-
  The hidden layer's kernel body on whole staging buffers: it loads the flattened rows, the first weight matrix
  and the first bias, and stores, over the whole output buffer, the maximum with zero of the rows times the
  weights plus the bias. One store, covering the buffer.
-/
import proofs.«202118_g10599979286629_week1_w2_627_56_alg».proof.Proof.Bits.GatherTile
import Idealize.ShloMosaic.Lib.Pipeline.FrameBody
import Idealize.ShloMosaic.Lib.Ring
import Idealize.ShloMosaic.Lib.Tactic

set_option maxRecDepth 16384

noncomputable section

namespace Cert.Kernel.Hidden

open Cert.Kernel Cert.Kernel.Gen Cert.Kernel.Rows
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses: each buffer whole -/

abbrev rx : Rect S1x2560 := Rect.unit (s := S1x2560) ![0, 0] S1x2560.size inb_S1x2560_S1x2560_0_0
abbrev rw1 : Rect S2560x512 := Rect.unit (s := S2560x512) ![0, 0] S2560x512.size inb_S2560x512_S2560x512_0_0
abbrev rh : Rect S1x512 := Rect.unit (s := S1x512) ![0, 0] S1x512.size inb_S1x512_S1x512_0_0

/-- What the body leaves in the output buffer, from the three inputs' contents: its one store, over the whole
    buffer, of relu(x · W₁ + b₁). -/
def hidOut (x0 : Vec F S1x2560 .f32) (x1 : Vec F S2560x512 .f32) (x2 : Vec F S1x512 .f32) : Vec F S1x512 .f32 :=
  View.canon [⟨rh, k1_pay1 (View.ld x0 rx) (View.ld x1 rw1) (View.ld x2 rh)⟩]

/-- The one store covers the buffer. -/
theorem cover_hid (p0 : Vec F S1x512 .f32) (y : S1x512.Idx) :
    ∃ pc ∈ ([⟨rh, p0⟩] : List (View.Piece (Elt F) S1x512 .f32)), y ∈ pc.1.set :=
  View.cover_of_tiled [⟨rh, p0⟩] S1x512.size (by rfl) y

set_option maxHeartbeats 1000000 in
/-- The body on whole staging memrefs, the inputs' at contents `x0`, `x1`, `x2` and the output's at anything, runs
    to the inputs' as they were and the output's at `hidOut` of them. -/
theorem sound_hid (c : Dev nD) (E : Set ℕ) (arg0 : Memref sig .tc .vmem S1x2560 .f32) (harg0 : arg0.IsWhole)
    (arg1 : Memref sig .tc .vmem S2560x512 .f32) (harg1 : arg1.IsWhole) (arg2 : Memref sig .tc .vmem S1x512 .f32) (harg2 : arg2.IsWhole)
    (arg3 : Memref sig .tc .vmem S1x512 .f32) (harg3 : arg3.IsWhole)
    (x0 : Vec F S1x2560 .f32) (x1 : Vec F S2560x512 .f32) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (hidOut x0 x1 x2)) -∗ K ⟨⟩))
      ⊢ wp frame (wpE (defs₀ (F := F)) Variants.none c none) E (cc1__hid_body arg0 harg0 arg1 harg1 arg2 harg2 arg3 harg3) K := by
  simp only [cc1__hid_body_eq_skeleton]; unfold cc1__hid_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_hid _)

end Cert.Kernel.Hidden

end
-- ==== Proof.Bits.HidRegion.lean ====
/-
  The hidden layer's region: the two reshapes before it, the arrays as the region finds them (the gathered rows
  flattened, the first weights, the first bias as a row), and the proof data of its one-point pipeline: every input
  window's buffer holds its whole array, the output window's buffer ends at the hidden row.
-/
import proofs.«202118_g10599979286629_week1_w2_627_56_alg».proof.Proof.Bits.LookupLaunch
import proofs.«202118_g10599979286629_week1_w2_627_56_alg».proof.Proof.Bits.HidBody
import proofs.«202118_g10599979286629_week1_w2_627_56_alg».proof.Proof.Gen.Kernel.Points
import Idealize.ShloMosaic.Lib.Pipeline.Regions

set_option maxRecDepth 16384

noncomputable section

namespace Cert.Kernel.Rows

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-- The pipelines' cells and the body's own semaphores are waited on at the index the launch keeps for a kernel's own
    waits. -/
abbrev ι₀ : HIx 1 := default

/-- The reshapes before the hidden layer's region. -/
def opsA : List (HloOp τ sig (Elt F)) :=
  [StableHlo.reshape main_v0 main_v1 rfl shapeCasts_S20x128_S1x2560, StableHlo.reshape main_arg3 main_v2 rfl shapeCasts_S512_S1x512]

/-- The arrays as the hidden layer's region finds them. -/
abbrev VA (hpre : PreOK m) (c : Dev nD) (b : Ref sig .tc) : Buf (Elt F) ((c : Thread nD τ).loc b) :=
  StableHlo.after (opsA (F := F)) (V₁ m hpre c) b

/-- Window `w`'s block at the one point, read off its array as the region finds it. -/
def iblk1 (hpre : PreOK m) (c : Dev nD) (w : Fin cfg1.W) (t : Fin cfg1.N) : ((cfg1.win w).xblock (cfg1.grid.coords t)).Idx → Elt F (cfg1.win w).elt :=
  ((cfg1.win w).blk t).view.read (Elt F) (VA m hpre c (Pipeline.arrRef spec1 w))

/-- The region's proof data on core `c`. -/
def dat1 (hpre : PreOK m) (c : Dev nD) : Dat τ (Elt F) (HIx 1) ℕ UU ℕ cfg1 c where
  A w := VA m hpre c (Pipeline.arrRef spec1 w)
  after w t := match w with
    | ⟨0, _⟩ => iblk1 m hpre c 0 t
    | ⟨1, _⟩ => iblk1 m hpre c 1 t
    | ⟨2, _⟩ => iblk1 m hpre c 2 t
    | ⟨3, _⟩ => Hidden.hidOut (iblk1 m hpre c 0 t) (iblk1 m hpre c 1 t) (iblk1 m hpre c 2 t)
  Φ _ := Pipeline.scopedRest (Ix := HIx 1) (Name := ℕ) (U := UU) (Lvl := ℕ) (Val := Elt F) spec1 c
  q _ := fullShare
  owed _ := 0

theorem A1_eq (hpre : PreOK m) (c : Dev nD) (w : Fin cfg1.W) : (dat1 m hpre c).A w = VA m hpre c (Pipeline.arrRef spec1 w) := by
  dsimp only [dat1]

theorem after1_0 (hpre : PreOK m) (c : Dev nD) (t : Fin cfg1.N) : (dat1 m hpre c).after 0 t = iblk1 m hpre c 0 t := by dsimp only [dat1]
theorem after1_1 (hpre : PreOK m) (c : Dev nD) (t : Fin cfg1.N) : (dat1 m hpre c).after 1 t = iblk1 m hpre c 1 t := by dsimp only [dat1]
theorem after1_2 (hpre : PreOK m) (c : Dev nD) (t : Fin cfg1.N) : (dat1 m hpre c).after 2 t = iblk1 m hpre c 2 t := by dsimp only [dat1]
theorem after1_3 (hpre : PreOK m) (c : Dev nD) (t : Fin cfg1.N) :
    (dat1 m hpre c).after 3 t = Hidden.hidOut (iblk1 m hpre c 0 t) (iblk1 m hpre c 1 t) (iblk1 m hpre c 2 t) := by dsimp only [dat1]

/-- Each input window is fetched at the point: its buffer holds its block. -/
theorem before1_0 (hpre : PreOK m) (c : Dev nD) (t : Fin cfg1.N) (d) : (dat1 m hpre c).before 0 t d = iblk1 m hpre c 0 t := by
  unfold Dat.before; rw [if_pos (fetch1_0 t)]; rfl
theorem before1_1 (hpre : PreOK m) (c : Dev nD) (t : Fin cfg1.N) (d) : (dat1 m hpre c).before 1 t d = iblk1 m hpre c 1 t := by
  unfold Dat.before; rw [if_pos (fetch1_1 t)]; rfl
theorem before1_2 (hpre : PreOK m) (c : Dev nD) (t : Fin cfg1.N) (d) : (dat1 m hpre c).before 2 t d = iblk1 m hpre c 2 t := by
  unfold Dat.before; rw [if_pos (fetch1_2 t)]; rfl

/-- The body at the point: the inputs' memrefs hold their blocks, so the body's run applies; the invariant and the
    core's debts pass through unread. -/
theorem sound_body1 (hpre : PreOK m) (c : Dev nD) (t : Fin cfg1.N) :
    iprop((dat1 m hpre c).Φ t.castSucc ∗ (dat1 m hpre c).owesAt ι₀ t.castSucc
        ∗ (∃ d, owns (c : Thread nD τ) (st1_0 t) fullShare ((dat1 m hpre c).before 0 t d))
        ∗ (∃ d, owns (c : Thread nD τ) (st1_1 t) fullShare ((dat1 m hpre c).before 1 t d))
        ∗ (∃ d, owns (c : Thread nD τ) (st1_2 t) fullShare ((dat1 m hpre c).before 2 t d))
        ∗ (∃ d, owns (c : Thread nD τ) (st1_3 t) fullShare ((dat1 m hpre c).before 3 t d)))
      ⊢ wp frame (wpE (defs₀ (F := F)) Variants.none c none) Set.univ (bodyAt1 t) (fun _ =>
          iprop((dat1 m hpre c).Φ t.succ ∗ (dat1 m hpre c).owesAt ι₀ t.succ
            ∗ owns (c : Thread nD τ) (st1_0 t) fullShare ((dat1 m hpre c).after 0 t)
            ∗ owns (c : Thread nD τ) (st1_1 t) fullShare ((dat1 m hpre c).after 1 t)
            ∗ owns (c : Thread nD τ) (st1_2 t) fullShare ((dat1 m hpre c).after 2 t)
            ∗ owns (c : Thread nD τ) (st1_3 t) fullShare ((dat1 m hpre c).after 3 t))) := by
  unfold bodyAt1
  simp only [before1_0, before1_1, before1_2]
  rw [show (dat1 m hpre c).Φ t.succ = (dat1 m hpre c).Φ t.castSucc from rfl,
    show (dat1 m hpre c).owesAt ι₀ t.succ = (dat1 m hpre c).owesAt ι₀ t.castSucc from rfl,
    after1_0, after1_1, after1_2, after1_3]
  iintro ⟨HΦ, Ho, ⟨%d0, H0⟩, ⟨%d1, H1⟩, ⟨%d2, H2⟩, ⟨%d3, H3⟩⟩
  iapply (Hidden.sound_hid c Set.univ _ (hstage1_0 0) _ (hstage1_1 0) _ (hstage1_2 0) _ (hstage1_3 0) (iblk1 m hpre c 0 t) (iblk1 m hpre c 1 t) (iblk1 m hpre c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the hidden layer's region. -/
theorem body_obligation1 (hpre : PreOK m) (c : Dev nD) :
    BodyObligation (dat1 m hpre c) (defs₀ (F := F)) Variants.none ι₀ Set.univ := fun t => by
  rw [bigSep_W1, bigSep_W1]
  exact sound_body1 m hpre c t

end Cert.Kernel.Rows

end
-- ==== Proof.Bits.OutBody.lean ====
/-
  The output layer's kernel body on whole buffers: sixteen blocks of the second weight matrix are copied, three
  buffers deep, from HBM into the scratch, each waited for before it is read; block q's thirty-two rows are
  multiplied by the q-th thirty-two entries of the hidden row and accumulated into the output buffer, which starts
  from the second bias; then the maximum and the log of the sum of exponentials are subtracted.
-/
import proofs.«202118_g10599979286629_week1_w2_627_56_alg».proof.Proof.Bits.GatherTile
import Idealize.ShloMosaic.Lib.Pipeline.FrameBody
import Idealize.ShloMosaic.Lib.Ring
import Idealize.ShloMosaic.Lib.Tactic

set_option maxRecDepth 16384

noncomputable section

namespace Cert.Kernel.Output

open Cert.Kernel Cert.Kernel.Gen Cert.Kernel.Rows
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M`'s buffer on core `c`: its contents type, and it held whole at `f`, at a share. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : Bf (F := F) c M) : sProp 𝕄 :=
  M.view.loc (c : Thread nD τ) ↦{q} f

/-- The body's own semaphores: its three scratch DMA semaphores. -/
abbrev osem : Fin 3 → SemLoc sig := fun | 0 => .dma 10 | 1 => .dma 11 | 2 => .dma 12

/-- The three counters at zero. -/
abbrev sems0 (c : Dev nD) : sProp 𝕄 :=
  iprop(semVal ((c : Thread nD τ), osem 0) 0 ∗ semVal ((c : Thread nD τ), osem 1) 0 ∗ semVal ((c : Thread nD τ), osem 2) 0)

/-- Slot `k` of the three-deep scratch, as the copies address it: the k-th of its three 4×8×100000 blocks. -/
abbrev slot0 : Memref sig .tc .vmem S4x8x100000 .f32 := ((Memref.whole cc2_scratch0 : Memref sig .tc .vmem S3x4x8x100000 .f32).slice (Rect.unit (s := S3x4x8x100000) ![0, 0, 0, 0] S1x4x8x100000.size inb_S3x4x8x100000_S1x4x8x100000_0_0_0_0) (fun _ => rfl)).squeeze S4x8x100000 squeezes_S1x4x8x100000_S4x8x100000
abbrev slot1 : Memref sig .tc .vmem S4x8x100000 .f32 := ((Memref.whole cc2_scratch0 : Memref sig .tc .vmem S3x4x8x100000 .f32).slice (Rect.unit (s := S3x4x8x100000) ![1, 0, 0, 0] S1x4x8x100000.size inb_S3x4x8x100000_S1x4x8x100000_1_0_0_0) (fun _ => rfl)).squeeze S4x8x100000 squeezes_S1x4x8x100000_S4x8x100000
abbrev slot2 : Memref sig .tc .vmem S4x8x100000 .f32 := ((Memref.whole cc2_scratch0 : Memref sig .tc .vmem S3x4x8x100000 .f32).slice (Rect.unit (s := S3x4x8x100000) ![2, 0, 0, 0] S1x4x8x100000.size inb_S3x4x8x100000_S1x4x8x100000_2_0_0_0) (fun _ => rfl)).squeeze S4x8x100000 squeezes_S1x4x8x100000_S4x8x100000

/-- A slot held by its own elements, at contents `f` of the scratch. -/
abbrev slotPt (c : Dev nD) (M : Memref sig .tc .vmem S4x8x100000 .f32) (f : Buf (Elt F) (M.view.loc (c : Thread nD τ))) : sProp 𝕄 :=
  M.view.loc (c : Thread nD τ) ↦[M.view.set]{fullShare} f

/-- The scratch held slot by slot, each at some contents. -/
abbrev slots (c : Dev nD) : sProp 𝕄 :=
  iprop((∃ f, slotPt c slot0 f) ∗ (∃ f, slotPt c slot1 f) ∗ (∃ f, slotPt c slot2 f))

set_option sl_exec.respelt true in
set_option maxHeartbeats 8000000 in
/-- The body runs to its return: from the hidden blocks and the bias row held whole, the output buffer and the three
    slots at anything, a share of the reshaped weights, the three counters at zero and the core owing nothing, it
    hands everything back, the output buffer and the slots at what it left, its sixteen waits recorded. Each copy's
    destination is one slot, held by its own elements; each load of a slot goes through the whole scratch memref. -/
theorem outRun (c : Dev nD) (M0 : Memref sig .tc .vmem S16x1x32 .f32) (h0 : M0.IsWhole) (M1 : Memref sig .tc .vmem S1x100000 .f32) (h1 : M1.IsWhole)
    (M3 : Memref sig .tc .vmem S1x100000 .f32) (h3 : M3.IsWhole)
    (x0 : Vec F S16x1x32 .f32) (x1 : Vec F S1x100000 .f32) (f8 : Bf (F := F) c (Memref.whole main_v8))
    (g0 : Buf (Elt F) ((slot0).view.loc (c : Thread nD τ))) (g1 : Buf (Elt F) ((slot1).view.loc (c : Thread nD τ))) (g2 : Buf (Elt F) ((slot2).view.loc (c : Thread nD τ)))
    (q : PosShare TreeShare) (W : Waits sig (HIx 1)) (Q : PUnit → sProp 𝕄) :
    iprop(owns (c : Thread nD τ) M0 fullShare x0 ∗ owns (c : Thread nD τ) M1 fullShare x1 ∗ (∃ d, owns (c : Thread nD τ) M3 fullShare d)
      ∗ pt c (Memref.whole main_v8) q f8
      ∗ slotPt c slot0 g0 ∗ slotPt c slot1 g1 ∗ slotPt c slot2 g2
      ∗ sems0 c ∗ owes (c : Thread nD τ) 0 W
      ∗ (iprop(owns (c : Thread nD τ) M0 fullShare x0 ∗ owns (c : Thread nD τ) M1 fullShare x1 ∗ (∃ X, owns (c : Thread nD τ) M3 fullShare X)
            ∗ pt c (Memref.whole main_v8) q f8 ∗ slots c ∗ sems0 c
            ∗ ∃ W, owes (c : Thread nD τ) 0 W) -∗ Q ⟨⟩))
    ⊢ wp frame (wpE (defs₀ (F := F)) Variants.none c none) Set.univ
        (cc2__out_body M0 h0 M1 h1 (Memref.whole main_v8) (Memref.isWhole_whole _) M3 h3 (Memref.whole cc2_scratch0) (Memref.isWhole_whole _) cc2_scratch1) Q := by
  unfold owns
  iintro ⟨⟨%f0, %hf0, H0⟩, ⟨%f1, %hf1, H1⟩, ⟨%d3, %f3, -, H3⟩, H8, Hs0, Hs1, Hs2, ⟨Hd0, Hd1, Hd2⟩, HO, Hk⟩
  subst hf0 hf1
  sl_exec!
  sl_exec
  sl_step
  iapply Hk
  isplitl [H0]
  · iexists f0; isplitr; · ipureintro; rfl
    iexact H0
  isplitl [H1]
  · iexists f1; isplitr; · ipureintro; rfl
    iexact H1
  isplitl [H3]
  · iexists _; iexists _; isplitr
    swap; · iexact H3
    ipureintro; rfl
  isplitl [H8]; · iexact H8
  isplitl [Hs0 Hs1 Hs2]
  · isplitl [Hs0]; · iexists _; iexact Hs0
    isplitl [Hs1]; · iexists _; iexact Hs1
    iexists _; iexact Hs2
  isplitl [Hd0 Hd1 Hd2]
  · isplitl [Hd0]; · iexact Hd0
    isplitl [Hd1]; · iexact Hd1
    iexact Hd2
  iexists _; iexact HO

end Cert.Kernel.Output

end
-- ==== Proof.Bits.ScratchSlots.lean ====
/-
  The three-deep scratch is its three slots: slot k is the k-th of the three equal parts of the scratch along its
  first axis, the parts are pairwise disjoint and cover it, so the scratch held whole is the three slots held each by
  its own elements, at the same contents, and back.
-/
import proofs.«202118_g10599979286629_week1_w2_627_56_alg».proof.Proof.Bits.OutBody
import proofs.«202118_g10599979286629_week1_w2_627_56_alg».proof.Proof.Gen.Kernel.Launch

set_option maxRecDepth 16384

noncomputable section

namespace Cert.Kernel.Output

open Cert.Kernel Cert.Kernel.Gen Cert.Kernel.Rows
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem sdiv : 3 ∣ S3x4x8x100000.size 0 := ⟨1, rfl⟩
/-- The k-th third of the scratch along its first axis. -/
abbrev third (k : Fin 3) : Rect S3x4x8x100000 := Rect.part (s := S3x4x8x100000) (a₀ := 0) sdiv k

theorem r0_eq : Rect.unit (s := S3x4x8x100000) ![0, 0, 0, 0] S1x4x8x100000.size inb_S3x4x8x100000_S1x4x8x100000_0_0_0_0 = third 0 := by
  unfold third Rect.part Rect.block
  congr 1 <;> funext a <;> match a with
    | 0 => simp [Shape.partIx, Shape.partSize]
    | 1 => simp [Shape.partIx, Shape.partSize]
    | 2 => simp [Shape.partIx, Shape.partSize]
    | 3 => simp [Shape.partIx, Shape.partSize]
theorem r1_eq : Rect.unit (s := S3x4x8x100000) ![1, 0, 0, 0] S1x4x8x100000.size inb_S3x4x8x100000_S1x4x8x100000_1_0_0_0 = third 1 := by
  unfold third Rect.part Rect.block
  congr 1 <;> funext a <;> match a with
    | 0 => simp [Shape.partIx, Shape.partSize]
    | 1 => simp [Shape.partIx, Shape.partSize]
    | 2 => simp [Shape.partIx, Shape.partSize]
    | 3 => simp [Shape.partIx, Shape.partSize]
theorem r2_eq : Rect.unit (s := S3x4x8x100000) ![2, 0, 0, 0] S1x4x8x100000.size inb_S3x4x8x100000_S1x4x8x100000_2_0_0_0 = third 2 := by
  unfold third Rect.part Rect.block
  congr 1 <;> funext a <;> match a with
    | 0 => simp [Shape.partIx, Shape.partSize]
    | 1 => simp [Shape.partIx, Shape.partSize]
    | 2 => simp [Shape.partIx, Shape.partSize]
    | 3 => simp [Shape.partIx, Shape.partSize]

/-- The elements of a third, as elements of the scratch. -/
abbrev thirdSet (k : Fin 3) : Finset S3x4x8x100000.Idx := ((Memref.whole cc2_scratch0 : Memref sig .tc .vmem S3x4x8x100000 .f32).view.slice (third k)).set

theorem thirdSet_eq (k : Fin 3) : thirdSet k = (third k).set := by
  show ((View.whole (cc2_scratch0 : Ref sig .tc)).slice (third k)).set = _
  rw [View.set_slice]; exact Finset.map_refl

theorem set_slot0 : (slot0).view.set = thirdSet 0 := by
  rw [thirdSet_eq]
  show ((((View.whole (cc2_scratch0 : Ref sig .tc)).slice (Rect.unit (s := S3x4x8x100000) ![0, 0, 0, 0] S1x4x8x100000.size inb_S3x4x8x100000_S1x4x8x100000_0_0_0_0)).reshape S4x8x100000 squeezes_S1x4x8x100000_S4x8x100000.numel_eq).set) = _
  rw [View.set_reshape, View.set_slice]
  exact Finset.map_refl.trans (congrArg (fun r : Rect S3x4x8x100000 => r.set) r0_eq)
theorem set_slot1 : (slot1).view.set = thirdSet 1 := by
  rw [thirdSet_eq]
  show ((((View.whole (cc2_scratch0 : Ref sig .tc)).slice (Rect.unit (s := S3x4x8x100000) ![1, 0, 0, 0] S1x4x8x100000.size inb_S3x4x8x100000_S1x4x8x100000_1_0_0_0)).reshape S4x8x100000 squeezes_S1x4x8x100000_S4x8x100000.numel_eq).set) = _
  rw [View.set_reshape, View.set_slice]
  exact Finset.map_refl.trans (congrArg (fun r : Rect S3x4x8x100000 => r.set) r1_eq)
theorem set_slot2 : (slot2).view.set = thirdSet 2 := by
  rw [thirdSet_eq]
  show ((((View.whole (cc2_scratch0 : Ref sig .tc)).slice (Rect.unit (s := S3x4x8x100000) ![2, 0, 0, 0] S1x4x8x100000.size inb_S3x4x8x100000_S1x4x8x100000_2_0_0_0)).reshape S4x8x100000 squeezes_S1x4x8x100000_S4x8x100000.numel_eq).set) = _
  rw [View.set_reshape, View.set_slice]
  exact Finset.map_refl.trans (congrArg (fun r : Rect S3x4x8x100000 => r.set) r2_eq)

theorem thirds_disjoint : ∀ i ∈ (Finset.univ : Finset (Fin 3)), ∀ j ∈ (Finset.univ : Finset (Fin 3)), i ≠ j → Disjoint (thirdSet i) (thirdSet j) :=
  fun i _ j _ h => by rw [thirdSet_eq, thirdSet_eq]; exact Rect.part_disjoint sdiv h
theorem thirds_cover : (Finset.univ : Finset (Fin 3)).biUnion thirdSet = Finset.univ :=
  (Finset.biUnion_congr rfl fun i _ => thirdSet_eq i).trans (Rect.biUnion_part sdiv)

/-! ## The scratch whole, and slot by slot -/

abbrev sLoc (c : Dev nD) : Loc nD τ sig := (c : Thread nD τ).loc cc2_scratch0

theorem slotPt0_eq (c : Dev nD) (f : Buf (Elt F) (sLoc c)) : (slotPt c slot0 f : sProp 𝕄) = (sLoc c ↦[thirdSet 0]{fullShare} f) := by
  unfold slotPt; rw [set_slot0]
theorem slotPt1_eq (c : Dev nD) (f : Buf (Elt F) (sLoc c)) : (slotPt c slot1 f : sProp 𝕄) = (sLoc c ↦[thirdSet 1]{fullShare} f) := by
  unfold slotPt; rw [set_slot1]
theorem slotPt2_eq (c : Dev nD) (f : Buf (Elt F) (sLoc c)) : (slotPt c slot2 f : sProp 𝕄) = (sLoc c ↦[thirdSet 2]{fullShare} f) := by
  unfold slotPt; rw [set_slot2]

/-- The scratch held whole is its three thirds held at the same contents. -/
theorem scratch_thirds (c : Dev nD) (f : Buf (Elt F) (sLoc c)) :
    (sLoc c ↦{fullShare} f : sProp 𝕄) = iprop((sLoc c ↦[thirdSet 0]{fullShare} f) ∗ (sLoc c ↦[thirdSet 1]{fullShare} f) ∗ (sLoc c ↦[thirdSet 2]{fullShare} f)) := by
  rw [← bigSep_W2 (fun k : Fin 3 => (sLoc c ↦[thirdSet k]{fullShare} f : sProp 𝕄)),
    ← pointsTo_biUnion Finset.univ (ℓ := sLoc c) thirdSet thirds_disjoint, thirds_cover]

/-- Held whole at some contents, the scratch is held slot by slot. -/
theorem scratch_to_slots (c : Dev nD) : (iprop(∃ f : Buf (Elt F) (sLoc c), sLoc c ↦{fullShare} f) : sProp 𝕄) ⊢ slots c := by
  iintro ⟨%f, H⟩
  ihave H' := (Entails.of_eq (scratch_thirds c f)) $$ H
  icases H' with ⟨H0, H1, H2⟩
  isplitl [H0]; · iexists f; iapply (Entails.of_eq (slotPt0_eq c f).symm); iexact H0
  isplitl [H1]; · iexists f; iapply (Entails.of_eq (slotPt1_eq c f).symm); iexact H1
  iexists f; iapply (Entails.of_eq (slotPt2_eq c f).symm); iexact H2

set_option maxRecDepth 4096 in
/-- Held slot by slot at any contents, the scratch is held whole at some contents. -/
theorem slots_to_scratch (c : Dev nD) : (slots c : sProp 𝕄) ⊢ iprop(∃ f : Buf (Elt F) (sLoc c), sLoc c ↦{fullShare} f) := by
  iintro ⟨⟨%f0, H0⟩, ⟨%f1, H1⟩, ⟨%f2, H2⟩⟩
  let fs : Fin 3 → Buf (Elt F) (sLoc c) := fun k => match k with | 0 => f0 | 1 => f1 | 2 => f2
  ihave H0' := (Entails.of_eq (slotPt0_eq c f0)) $$ H0
  ihave H1' := (Entails.of_eq (slotPt1_eq c f1)) $$ H1
  ihave H2' := (Entails.of_eq (slotPt2_eq c f2)) $$ H2
  ihave H' := (pointsTo_biUnion_join (ℓ := sLoc c) (q := fullShare) (Val := Elt F) Finset.univ thirdSet fs (fs 0) thirds_disjoint) $$ [H0' H1' H2']
  · rw [bigSep_W2]
    isplitl [H0']; · iexact H0'
    isplitl [H1']; · iexact H1'
    iexact H2'
  icases H' with ⟨%g, -, Hg⟩
  rw [thirds_cover]
  iexists g; iexact Hg

end Cert.Kernel.Output

end
-- ==== Proof.Bits.OutRegion.lean ====
/-
  The output layer's region: its one-point pipeline stages the sixteen hidden blocks and the second bias row and
  writes back the output row; the body also reads the reshaped second weights from HBM through its own three
  semaphores and its three-deep scratch. The proof data keeps, between the region's ends, the weights whole, the
  three counters at zero and the scratch slot by slot; what the body leaves in the output window is not named (nothing
  after the region reads it but the claim's frame, which does not).
-/
import proofs.«202118_g10599979286629_week1_w2_627_56_alg».proof.Proof.Bits.HidRegion
import proofs.«202118_g10599979286629_week1_w2_627_56_alg».proof.Proof.Bits.ScratchSlots
import proofs.«202118_g10599979286629_week1_w2_627_56_alg».proof.Proof.Gen.Kernel.Points
import proofs.«202118_g10599979286629_week1_w2_627_56_alg».proof.Proof.Gen.Kernel.Launch
import Idealize.ShloMosaic.Lib.Pipeline.Regions

set_option maxRecDepth 16384

noncomputable section

namespace Cert.Kernel.Rows

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

-- the arrays as the output layer's region finds them
variable (VB : (c : Dev nD) → (b : Ref sig .tc) → Buf (Elt F) ((c : Thread nD τ).loc b))

/-- Window `w`'s block at the one point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (VB c (Pipeline.arrRef spec2 w))

/-- The hidden layer's staging buffers, each whole at some contents. -/
abbrev otherStaging (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f))

/-- The invariant between the region's ends. -/
def Φ2 (c : Dev nD) : sProp 𝕄 :=
  iprop(Output.pt c (Memref.whole main_v8) fullShare (VB c main_v8) ∗ Output.sems0 c ∗ Output.slots c ∗ otherStaging (F := F) c)

/-- The output window is the one whose contents are not named. -/
def fgt2 : Fin cfg2.W → Bool := fun w => decide (w = 2)

/-- The region's proof data on core `c`. -/
def dat2 (c : Dev nD) : Dat τ (Elt F) (HIx 1) ℕ UU ℕ cfg2 c where
  A w := VB c (Pipeline.arrRef spec2 w)
  after w t := match w with
    | ⟨0, _⟩ => iblk2 VB c 0 t
    | ⟨1, _⟩ => iblk2 VB c 1 t
    | ⟨2, _⟩ => Pipeline.Dat.unnamed (cfg := cfg2) 2 t
  Φ _ := Φ2 VB c
  q _ := fullShare
  owed _ := 0

theorem A2_eq (c : Dev nD) (w : Fin cfg2.W) : (dat2 VB c).A w = VB c (Pipeline.arrRef spec2 w) := by dsimp only [dat2]
theorem after2_0 (c : Dev nD) (t : Fin cfg2.N) : (dat2 VB c).after 0 t = iblk2 VB c 0 t := by dsimp only [dat2]
theorem after2_1 (c : Dev nD) (t : Fin cfg2.N) : (dat2 VB c).after 1 t = iblk2 VB c 1 t := by dsimp only [dat2]

/-- Each input window is fetched at the point: its buffer holds its block. -/
theorem before2_0 (c : Dev nD) (t : Fin cfg2.N) (d) : (dat2 VB c).before 0 t d = iblk2 VB c 0 t := by
  unfold Dat.before; rw [if_pos (fetch2_0 t)]; rfl
theorem before2_1 (c : Dev nD) (t : Fin cfg2.N) (d) : (dat2 VB c).before 1 t d = iblk2 VB c 1 t := by
  unfold Dat.before; rw [if_pos (fetch2_1 t)]; rfl

/-- The body at the point: the staged blocks and bias row, the invariant's weights, counters and slots and the core's
    debts go to the body's run; everything comes back, the output window at whatever the body left. -/
theorem sound_body2 (c : Dev nD) (t : Fin cfg2.N) :
    iprop((dat2 VB c).Φ t.castSucc ∗ (dat2 VB c).owesAt ι₀ t.castSucc
        ∗ (∃ d, owns (c : Thread nD τ) (st2_0 t) fullShare ((dat2 VB c).before 0 t d))
        ∗ (∃ d, owns (c : Thread nD τ) (st2_1 t) fullShare ((dat2 VB c).before 1 t d))
        ∗ (∃ X, owns (c : Thread nD τ) (st2_2 t) fullShare X))
      ⊢ wp frame (wpE (defs₀ (F := F)) Variants.none c none) Set.univ (bodyAt2 t) (fun _ =>
          iprop((dat2 VB c).Φ t.succ ∗ (dat2 VB c).owesAt ι₀ t.succ
            ∗ owns (c : Thread nD τ) (st2_0 t) fullShare ((dat2 VB c).after 0 t)
            ∗ owns (c : Thread nD τ) (st2_1 t) fullShare ((dat2 VB c).after 1 t)
            ∗ (∃ X, owns (c : Thread nD τ) (st2_2 t) fullShare X))) := by
  unfold bodyAt2
  simp only [before2_0, before2_1]
  rw [show (dat2 VB c).Φ t.succ = Φ2 VB c from rfl, show (dat2 VB c).Φ t.castSucc = Φ2 VB c from rfl, after2_0, after2_1]
  unfold Φ2 Dat.owesAt Pipeline.owesWithin
  rw [show (dat2 VB c).owed t.castSucc = 0 from rfl, show (dat2 VB c).owed t.succ = 0 from rfl]
  iintro ⟨⟨H8, Hsems, ⟨⟨%g0, Hs0⟩, ⟨%g1, Hs1⟩, ⟨%g2, Hs2⟩⟩, Hoth⟩, ⟨%W, %hW, HO⟩, ⟨%d0, H0⟩, ⟨%d1, H1⟩, H3⟩
  iapply (Output.outRun c _ (hstage2_0 0) _ (hstage2_1 0) _ (hstage2_2 0) (iblk2 VB c 0 t) (iblk2 VB c 1 t) (VB c main_v8) g0 g1 g2 fullShare W _)
  isplitl [H0]; · iexact H0
  isplitl [H1]; · iexact H1
  isplitl [H3]; · iexact H3
  isplitl [H8]; · iexact H8
  isplitl [Hs0]; · iexact Hs0
  isplitl [Hs1]; · iexact Hs1
  isplitl [Hs2]; · iexact Hs2
  isplitl [Hsems]; · iexact Hsems
  isplitl [HO]; · iexact HO
  iintro ⟨H0, H1, H3, H8, Hsl, Hsems, ⟨%W', HO⟩⟩
  isplitl [H8 Hsems Hsl Hoth]
  · isplitl [H8]; · iexact H8
    isplitl [Hsems]; · iexact Hsems
    isplitl [Hsl]; · iexact Hsl
    iexact Hoth
  isplitl [HO]
  · iexists W'; isplitr; · ipureintro; exact fun _ _ => Or.inl trivial
    iexact HO
  isplitl [H0]; · iexact H0
  isplitl [H1]; · iexact H1
  iexact H3

/-- The library's body obligation for the output layer's region, its output window forgotten. -/
theorem body_obligation2 (c : Dev nD) :
    BodyObligation (dat2 VB c) (defs₀ (F := F)) Variants.none ι₀ Set.univ fgt2 := fun t => by
  rw [bigSep_W2, bigSep_W2]
  exact sound_body2 VB c t

end Cert.Kernel.Rows

end
-- ==== Proof.Bits.RestRun.lean ====
/-
  The rest of @main over the pipelines' signature, as four segments: the reshapes before the hidden layer, the
  hidden layer's region, the re-layout of the hidden row and the reshapes of the second bias and weights, the output
  layer's region. Each region is entered from the arrays as the segment before left them and leaves them for the
  next; the six argument arrays are written by no segment.
-/
import proofs.«202118_g10599979286629_week1_w2_627_56_alg».proof.Proof.Bits.OutRegion
import Idealize.ShloMosaic.Lib.Pipeline.RegionsLoop

set_option maxRecDepth 16384

noncomputable section

namespace Cert.Kernel.Rows

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- No prefetched table. -/
abbrev adm : (p : Fin 2) → (pcfgs (F := F) p).Adm := fun p => (cfgs p).toPCfg_adm
abbrev 𝒱₁ : Variants := Variants.none
/-- The two pipelines' indices, spelt as pairs. -/
abbrev p0 : Fin 2 := ⟨0, by decide⟩
abbrev p1 : Fin 2 := ⟨1, by decide⟩
abbrev LL : GSem nD τ sig → Finset (HIx 1) := (K (F := F)).L
abbrev lvv : GSem nD τ sig → HIx 1 → ℕ := (K (F := F)).lev

/-- The re-layout of the hidden row and the reshapes of the second bias and weights. -/
def opsB : List (HloOp τ sig (Elt F)) :=
  [StableHlo.reshape main_v3 main_v4 rfl shapeCasts_S1x512_S4x16x8,
   StableHlo.unary main_v4 main_v5 ((transpose S16x4x8 [1, 0, 2] · transposes_S4x16x8_S16x4x8_1_0_2) : (⟨S4x16x8, .f32⟩ : BufTy).Contents (Elt F) → (⟨S16x4x8, .f32⟩ : BufTy).Contents (Elt F)),
   StableHlo.reshape main_v5 main_v6 rfl shapeCasts_S16x4x8_S16x1x32,
   StableHlo.reshape main_arg5 main_v7 rfl shapeCasts_S100000_S1x100000,
   StableHlo.reshape main_arg4 main_v8 rfl shapeCasts_S512x100000_S4x16x8x100000]

/-- The rest of @main is the chain of the four fragments. -/
theorem rest_eq_chain : rest (F := F) = Pipeline.chain [StableHlo.seq (opsA (F := F)), Prog.lift (.customCall (Pipeline.entry 0) ()),
    StableHlo.seq (opsB (F := F)), Prog.lift (.customCall (Pipeline.entry 1) ())] := rfl

/-! ## The arrays from segment to segment -/

/-- Before the hidden layer's region; -/
abbrev WA (hpre : PreOK m) (c : Dev nD) : Valuation τ sig (Elt F) := StableHlo.after (opsA (F := F)) (V₁ m hpre c)
abbrev v3' : DevRef τ sig := Proc.devRef .tc main_v3
/-- after it: the hidden row's array at what the region wrote back; -/
def WB0 (hpre : PreOK m) (c : Dev nD) : Valuation τ sig (Elt F) := Function.update (WA m hpre c) v3' ((dat1 m hpre c).arrAt 3 cfg1.N)
/-- before the output layer's region. -/
abbrev WB (hpre : PreOK m) (c : Dev nD) : Valuation τ sig (Elt F) := StableHlo.after (opsB (F := F)) (WB0 m hpre c)
abbrev VBf (hpre : PreOK m) (c : Dev nD) (b : Ref sig .tc) : Buf (Elt F) ((c : Thread nD τ).loc b) := WB m hpre c b

/-- The two regions' proof data, each region's arrays stated directly. -/
def pdats (hpre : PreOK m) : (p : Fin 2) → (c : Dev nD) → Dat τ (Elt F) (HIx 1) ℕ UU ℕ (Pipeline.pin (pcfgs (F := F)) adm p) c
  | ⟨0, _⟩ => fun c => dat1 m hpre c
  | ⟨1, _⟩ => fun c => dat2 (VBf m hpre) c

/-- Which windows' final contents are not named: none of the hidden layer's, the output layer's output. -/
def fgts : (p : Fin 2) → Fin (Pipeline.pin (pcfgs (F := F)) adm p).W → Bool
  | ⟨0, _⟩ => fun _ => false
  | ⟨1, _⟩ => fgt2

/-- The proof data read relationally. -/
def rdats (hpre : PreOK m) (p : Fin 2) (c : Dev nD) : Pipeline.RDat τ (Elt F) (HIx 1) ℕ UU ℕ (Pipeline.pin (pcfgs (F := F)) adm p) c :=
  (pdats m hpre p c).toRForget (fgts (F := F) p)

/-! ## The segments -/

/-- What rides beside the arrays through the segments: the core's debts (none), its recorded waits unconstrained. -/
abbrev Rr (c : Dev nD) : sProp 𝕄 := iprop(∃ W, owes (c : Thread nD τ) (0 : CellTallies nD τ sig (HIx 1)) W)

omit [FloatOps F] [∀ e, Nonempty (Elt F e)] in
/-- An operation on TensorCore references touches unscoped ones only: a host operation names no scoped buffer. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

omit [∀ e, Nonempty (Elt F e)] in
theorem opsA_sub : ∀ op ∈ (opsA (F := F)), op.bufs ⊆ ucRefs := by
  intro op h
  simp only [opsA, List.mem_cons, List.mem_nil_iff, or_false] at h
  rcases h with rfl | rfl <;> exact sub_ucRefs _ (StableHlo.reshape_bufs_sub _ _ _ _ _ _)
omit [∀ e, Nonempty (Elt F e)] in
theorem opsB_sub : ∀ op ∈ (opsB (F := F)), op.bufs ⊆ ucRefs := by
  intro op h
  simp only [opsB, List.mem_cons, List.mem_nil_iff, or_false] at h
  rcases h with rfl | rfl | rfl | rfl | rfl
  · exact sub_ucRefs _ (StableHlo.reshape_bufs_sub _ _ _ _ _ _)
  · exact sub_ucRefs _ (StableHlo.unary_bufs_sub _ _ _ _ _)
  · exact sub_ucRefs _ (StableHlo.reshape_bufs_sub _ _ _ _ _ _)
  · exact sub_ucRefs _ (StableHlo.reshape_bufs_sub _ _ _ _ _ _)
  · exact sub_ucRefs _ (StableHlo.reshape_bufs_sub _ _ _ _ _ _)

/-- The reshapes before the hidden layer's region. -/
def segA (hpre : PreOK m) : Pipeline.HostSeg (Name := ℕ) (U := UU) (pcfgs (F := F)) defs₀ 𝒱₁ (LL (F := F)) (lvv (F := F)) :=
  Pipeline.HostSeg.ofOps _ _ _ _ _ ucRefs (opsA (F := F)) opsA_sub
    (by intro _ h; (repeat (cases h with | head => rfl | tail _ h => ?_)); exact nomatch h) (V₁ m hpre) Rr

/-- The re-layout and reshapes before the output layer's region. -/
def segB (hpre : PreOK m) : Pipeline.HostSeg (Name := ℕ) (U := UU) (pcfgs (F := F)) defs₀ 𝒱₁ (LL (F := F)) (lvv (F := F)) :=
  Pipeline.HostSeg.ofOps _ _ _ _ _ ucRefs (opsB (F := F)) opsB_sub
    (by intro _ h; (repeat (cases h with | head => rfl | tail _ h => ?_)); exact nomatch h) (WB0 m hpre) Rr

/-! ## The hidden layer's region -/

/-- The arrays before the hidden layer's region, as a function of the TensorCore's references; -/
abbrev VAf (hpre : PreOK m) (c : Dev nD) (b : Ref sig .tc) : Buf (Elt F) ((c : Thread nD τ).loc b) := WA m hpre c b
/-- and after it. -/
abbrev VB0f (hpre : PreOK m) (c : Dev nD) (b : Ref sig .tc) : Buf (Elt F) ((c : Thread nD τ).loc b) := WB0 m hpre c b

omit [∀ e, Nonempty (Elt F e)] in
/-- The hidden layer's three input windows keep their arrays; its output window's array is what was written back. -/
theorem arrAt1_eq (hpre : PreOK m) (c : Dev nD) (w : Fin cfg1.W) :
    (dat1 m hpre c).arrAt w cfg1.N = VB0f m hpre c (Pipeline.arrRef spec1 w) := by
  match w with
  | ⟨0, _⟩ =>
    refine ((dat1 m hpre c).arrAt_in 0 (by decide) _).trans ?_
    show WA m hpre c (Proc.devRef .tc main_v1) = WB0 m hpre c (Proc.devRef .tc main_v1)
    unfold WB0; rw [Function.update_of_ne (show (Proc.devRef .tc main_v1 : DevRef τ sig) ≠ v3' by decide)]
  | ⟨1, _⟩ =>
    refine ((dat1 m hpre c).arrAt_in 1 (by decide) _).trans ?_
    show WA m hpre c (Proc.devRef .tc main_arg2) = WB0 m hpre c (Proc.devRef .tc main_arg2)
    unfold WB0; rw [Function.update_of_ne (show (Proc.devRef .tc main_arg2 : DevRef τ sig) ≠ v3' by decide)]
  | ⟨2, _⟩ =>
    refine ((dat1 m hpre c).arrAt_in 2 (by decide) _).trans ?_
    show WA m hpre c (Proc.devRef .tc main_v2) = WB0 m hpre c (Proc.devRef .tc main_v2)
    unfold WB0; rw [Function.update_of_ne (show (Proc.devRef .tc main_v2 : DevRef τ sig) ≠ v3' by decide)]
  | ⟨3, _⟩ =>
    show _ = WB0 m hpre c v3'
    unfold WB0; rw [Function.update_self]; rfl

/-- THE HIDDEN LAYER'S REGION: entered from the arrays as the reshapes left them, its four arrays into the pipeline, the
    other twelve bypassing; left with the hidden row's array at what was written back, everything else as it was. -/
def reg1 (hpre : PreOK m) : Pipeline.RDat.RegionSeg (pcfgs (F := F)) adm (rdats m hpre) ι₀ defs₀ 𝒱₁ (LL (F := F)) (lvv (F := F)) p0 where
  win := launch1.win.to₀
  block_pos := launch1.block_pos
  stage_whole := launch1.stage_whole
  K := PEmpty
  osem := fun k => k.elim
  ho := Pipeline.OwnSemFacts.none spec1
  hbody c := (body_obligation1 m hpre c).loose.toRForget
  hwaits := Pipeline.RDat.hwaits_of_owed_zero _ _ _ _ (LL (F := F)) (lvv (F := F)) p0 fun _ _ => rfl
  pre c := iprop(StableHlo.held (c : Thread nD τ) ucRefs (WA m hpre c) ∗ Rr c)
  post c := iprop(StableHlo.held (c : Thread nD τ) ucRefs (WB0 m hpre c) ∗ Rr c)
  X _ := iprop(emp)
  Y _ := iprop(emp)
  Z c := Pipeline.unscopedRest (Ix := HIx 1) (Name := ℕ) (U := UU) (Lvl := ℕ) spec1 c (VAf m hpre c)
  hentry c := by
    rw [show StableHlo.held (c : Thread nD τ) ucRefs (WA m hpre c) = unscopedBufs c (VAf m hpre c) from (unscopedBufs_held c _).symm]
    have hsplit := Pipeline.RDat.arrays_of_unscopedBufs (pcfgs (F := F)) adm (rdats m hpre) (p := p0) launch1.win launch1.arr_whole c
      (show ∀ w, (dat1 m hpre c).share w = fullShare from (dat1 m hpre c).share_full fun _ => rfl) (VAf m hpre c) fun _ => rfl
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hz
  hin c := by
    change _ ⊢ Pipeline.scopedRest (Ix := HIx 1) (Name := ℕ) (U := UU) (Lvl := ℕ) (Val := Elt F) spec1 c
    iintro ⟨-, -, Hr⟩
    iexact Hr
  hout c := by
    change Pipeline.scopedRest (Ix := HIx 1) (Name := ℕ) (U := UU) (Lvl := ℕ) (Val := Elt F) spec1 c ⊢ _
    rw [Pipeline.ownSems0_none]
    iintro Hr
    isplitr; · iempintro
    isplitr; · iempintro
    iexact Hr
  hexit c := by
    have hjoin := Pipeline.unscopedBufs_of_arrays (pcfgs (F := F)) adm (p := p0) launch1.win launch1.arr_whole c (pdats m hpre)
      (show ∀ w, (dat1 m hpre c).share w = fullShare from (dat1 m hpre c).share_full fun _ => rfl)
      (VAf m hpre c) (VB0f m hpre c) (fun w => (dat1 m hpre c).arrAt w cfg1.N) (arrAt1_eq m hpre c)
      (fun b hb => Function.update_of_ne (fun e => hb (Finset.mem_image.mpr ⟨3, Finset.mem_univ _, (Proc.devRef_injective _ e).symm⟩)) _ _)
    unfold Pipeline.RDat.arraysAt
    rw [bigSep_W1]
    iintro ⟨⟨⟨%F0, %h0, Ha0⟩, ⟨%F1, %h1, Ha1⟩, ⟨%F2, %h2, Ha2⟩, ⟨%F3, %h3, Ha3⟩⟩, HO, -, Hz⟩
    have e0 := ((dat1 m hpre c).toRForget_arrAt_iff (fgt := fun _ => false) (w := 0) rfl cfg1.N F0).mp h0
    have e1 := ((dat1 m hpre c).toRForget_arrAt_iff (fgt := fun _ => false) (w := 1) rfl cfg1.N F1).mp h1
    have e2 := ((dat1 m hpre c).toRForget_arrAt_iff (fgt := fun _ => false) (w := 2) rfl cfg1.N F2).mp h2
    have e3 := ((dat1 m hpre c).toRForget_arrAt_iff (fgt := fun _ => false) (w := 3) rfl cfg1.N F3).mp h3
    subst e0 e1 e2 e3
    imodintro
    isplitr [HO]
    · rw [show StableHlo.held (c : Thread nD τ) ucRefs (WB0 m hpre c) = unscopedBufs c (VB0f m hpre c) from (unscopedBufs_held c _).symm]
      iapply hjoin
      isplitr [Hz]
      · unfold Pipeline.Dat.arrays
        rw [bigSep_W1]
        isplitl [Ha0]; · iexact Ha0
        isplitl [Ha1]; · iexact Ha1
        isplitl [Ha2]; · iexact Ha2
        iexact Ha3
      · iexact Hz
    · unfold Pipeline.RDat.owesAt Pipeline.owesWithin
      icases HO with ⟨%W, -, HO⟩; iexists W; iexact HO

/-! ## The argument arrays reach the end as launched -/

omit [∀ e, Nonempty (Elt F e)] in
theorem opsA_writes (b : Ref sig .tc) (h1 : b ≠ main_v1) (h2 : b ≠ main_v2) :
    ∀ op ∈ (opsA (F := F)), Proc.devRef .tc b ∉ op.writes := by
  intro op hop
  simp only [opsA, List.mem_cons, List.mem_nil_iff, or_false] at hop
  rcases hop with rfl | rfl <;>
    simp only [StableHlo.unary_writes, StableHlo.reshape_writes, Finset.mem_singleton] <;>
    exact StableHlo.devRef_ne_of_ne ‹_›

omit [∀ e, Nonempty (Elt F e)] in
theorem opsB_writes (b : Ref sig .tc) (h4 : b ≠ main_v4) (h5 : b ≠ main_v5) (h6 : b ≠ main_v6) (h7 : b ≠ main_v7) (h8 : b ≠ main_v8) :
    ∀ op ∈ (opsB (F := F)), Proc.devRef .tc b ∉ op.writes := by
  intro op hop
  simp only [opsB, List.mem_cons, List.mem_nil_iff, or_false] at hop
  rcases hop with rfl | rfl | rfl | rfl | rfl <;>
    simp only [StableHlo.unary_writes, StableHlo.reshape_writes, Finset.mem_singleton] <;>
    exact StableHlo.devRef_ne_of_ne ‹_›

omit [∀ e, Nonempty (Elt F e)] in
/-- A reference no segment writes holds its launch contents before the output layer's region. -/
theorem kept (hpre : PreOK m) (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) (h8 : b ≠ main_v8) :
    VBf m hpre c b = m ((c : Thread nD τ).loc b) := by
  show StableHlo.after (opsB (F := F)) (WB0 m hpre c) (Proc.devRef .tc b) = _
  rw [StableHlo.after_of_forall_not_mem (b := Proc.devRef .tc b) (opsB (F := F)) (WB0 m hpre c) (opsB_writes b h4 h5 h6 h7 h8)]
  unfold WB0
  rw [Function.update_of_ne (StableHlo.devRef_ne_of_ne h3)]
  show StableHlo.after (opsA (F := F)) (V₁ m hpre c) (Proc.devRef .tc b) = _
  rw [StableHlo.after_of_forall_not_mem (b := Proc.devRef .tc b) (opsA (F := F)) (V₁ m hpre c) (opsA_writes b h1 h2)]
  unfold V₁
  rw [Function.update_of_ne (StableHlo.devRef_ne_of_ne h0)]

/-! ## The output layer's region -/

omit [FloatOps F] [∀ e, Nonempty (Elt F e)] in
/-- The body's own three counters at zero, listed. -/
theorem ownSems0_eq2 (c : Dev nD) :
    (Pipeline.ownSems0 (Ix := HIx 1) (Name := ℕ) (U := UU) (Lvl := ℕ) (Val := Elt F) (τ := τ) Output.osem c : sProp 𝕄) = Output.sems0 c :=
  Pipeline.ownSems0_eq_of_list c Output.osem [0, 1, 2] (by decide) (by decide)

omit [FloatOps F] [∀ e, Nonempty (Elt F e)] in
/-- The body's three semaphores are scoped, distinct, and none of them a staging semaphore. -/
theorem ownSemFacts2 : Pipeline.OwnSemFacts spec2 Output.osem := by decide

/-- THE OUTPUT LAYER'S REGION: entered from the arrays as the re-layout left them — the staged blocks, the bias row and the
    result's array into the pipeline, the reshaped weights and the body's three counters into the invariant, the six
    argument arrays bypassing —, left with the argument arrays as launched. -/
def reg2 (hpre : PreOK m) : Pipeline.RDat.RegionSeg (pcfgs (F := F)) adm (rdats m hpre) ι₀ defs₀ 𝒱₁ (LL (F := F)) (lvv (F := F)) p1 where
  win := launch2.win.to₀
  block_pos := launch2.block_pos
  stage_whole := launch2.stage_whole
  K := Fin 3
  osem := Output.osem
  ho := ownSemFacts2
  hbody c := (body_obligation2 (VBf m hpre) c).loose.toRForget
  hwaits := Pipeline.RDat.hwaits_of_owed_zero _ _ _ _ (LL (F := F)) (lvv (F := F)) p1 fun _ _ => rfl
  pre c := iprop(StableHlo.held (c : Thread nD τ) ucRefs (WB m hpre c) ∗ Rr c)
  post c := iprop(FIN m c ∗ Rr c)
  X c := iprop(Output.pt c (Memref.whole main_v8) fullShare (VBf m hpre c main_v8) ∗ Output.sems0 c)
  Y _ := iprop(emp)
  Z c := FIN m c
  hentry c := by
    rw [show StableHlo.held (c : Thread nD τ) ucRefs (WB m hpre c) = unscopedBufs c (VBf m hpre c) from (unscopedBufs_held c _).symm, ownSems0_eq2]
    have hsplit := (Pipeline.RDat.arrays_of_unscopedBufs (pcfgs (F := F)) adm (rdats m hpre) (p := p1) launch2.win launch2.arr_whole c
      (show ∀ w, (dat2 (VBf m hpre) c).share w = fullShare from (dat2 (VBf m hpre) c).share_full fun _ => rfl) (VBf m hpre c) fun _ => rfl).trans (sep_mono .rfl (Entails.of_eq (unscopedRest2_eq c (VBf m hpre c))))
    rw [kept m hpre c main_arg0 (by decide) (by decide) (by decide) (by decide) (by decide) (by decide) (by decide) (by decide) (by decide),
      kept m hpre c main_arg1 (by decide) (by decide) (by decide) (by decide) (by decide) (by decide) (by decide) (by decide) (by decide),
      kept m hpre c main_arg2 (by decide) (by decide) (by decide) (by decide) (by decide) (by decide) (by decide) (by decide) (by decide),
      kept m hpre c main_arg3 (by decide) (by decide) (by decide) (by decide) (by decide) (by decide) (by decide) (by decide) (by decide),
      kept m hpre c main_arg4 (by decide) (by decide) (by decide) (by decide) (by decide) (by decide) (by decide) (by decide) (by decide),
      kept m hpre c main_arg5 (by decide) (by decide) (by decide) (by decide) (by decide) (by decide) (by decide) (by decide) (by decide)] at hsplit
    iintro ⟨⟨Hub, HO⟩, Hos, -⟩
    ihave H := hsplit $$ Hub
    icases H with ⟨Ha, A0, A1, A2, A3, A4, A5, -, -, -, -, -, -, H8⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [H8 Hos]
    · isplitl [H8]; · iexact H8
      iexact Hos
    isplitl [A0]; · iexact A0
    isplitl [A1]; · iexact A1
    isplitl [A2]; · iexact A2
    isplitl [A3]; · iexact A3
    isplitl [A4]; · iexact A4
    iexact A5
  hin c := by
    change iprop(_ ∗ _ ∗ Pipeline.scopedRest (Ix := HIx 1) (Name := ℕ) (U := UU) (Lvl := ℕ) (Val := Elt F) spec2 c) ⊢ Φ2 (VBf m hpre) c
    rw [scopedRest2_eq]; unfold Φ2
    iintro ⟨⟨H8, Hos⟩, -, ⟨S0, S1, S2, S3, Hsc⟩⟩
    isplitl [H8]; · iexact H8
    isplitl [Hos]; · iexact Hos
    isplitl [Hsc]; · iapply (Output.scratch_to_slots c); iexact Hsc
    isplitl [S0]; · iexact S0
    isplitl [S1]; · iexact S1
    isplitl [S2]; · iexact S2
    iexact S3
  hout c := by
    change Φ2 (VBf m hpre) c ⊢ iprop(_ ∗ _ ∗ Pipeline.scopedRest (Ix := HIx 1) (Name := ℕ) (U := UU) (Lvl := ℕ) (Val := Elt F) spec2 c)
    rw [scopedRest2_eq, ownSems0_eq2]; unfold Φ2
    iintro ⟨-, Hos, Hsl, ⟨S0, S1, S2, S3⟩⟩
    isplitr; · iempintro
    isplitl [Hos]; · iexact Hos
    isplitl [S0]; · iexact S0
    isplitl [S1]; · iexact S1
    isplitl [S2]; · iexact S2
    isplitl [S3]; · iexact S3
    iapply (Output.slots_to_scratch c); iexact Hsl
  hexit c := by
    iintro ⟨-, HO, -, HZ⟩
    imodintro
    isplitl [HZ]; · iexact HZ
    unfold Pipeline.RDat.owesAt Pipeline.owesWithin
    icases HO with ⟨%W, -, HO⟩; iexists W; iexact HO

/-! ## The four segments, and the rest of @main -/

abbrev segs (hpre : PreOK m) : List (Pipeline.RDat.Seg (pcfgs (F := F)) adm (rdats m hpre) ι₀ defs₀ 𝒱₁ (LL (F := F)) (lvv (F := F))) :=
  [.host (segA m hpre), .region (reg1 m hpre), .host (segB m hpre), .region (reg2 m hpre)]

omit [FloatOps F] [∀ e, Nonempty (Elt F e)] in
/-- After its one SparseCore call the TensorCore owes nothing. -/
theorem Otc_one (d : Dev nD) : (K (F := F)).Otc d 1 = 0 := by
  unfold SparseCore.Cfg.Otc
  exact Finset.sum_eq_zero fun q _ => if_neg (by have := q.isLt; omega)

omit [FloatOps F] [∀ e, Nonempty (Elt F e)] in
/-- With one call, every recorded pair sits at level 7 or below. -/
theorem wbelow_any (d : Dev nD) (W : Waits sig (HIx 1)) : (K (F := F)).WBelow (SparseCore.T d) W (8 * 1) := by
  intro p _
  match p.2 with
  | none => simp
  | some q => have := (K (F := F)).lev_some_le (SparseCore.T d, p.1) q; have := q.isLt; omega

/-- THE REST OF @MAIN, over the pipelines' signature: the four segments in order, from the arrays as the lookup left
    them and the two pipelines' ghost state, to the six argument arrays as launched. -/
theorem restSpec (hpre : PreOK m) : RestSpec m ρ hpre (G (F := F)) (FIN m) := by
  intro κ d
  have hrun : Pipeline.RDat.Seg.run (segs m hpre) = rest (F := F) :=
    (Pipeline.RDat.Seg.run_eq_chain (segs m hpre)).trans (rest_eq_chain (F := F)).symm
  rw [← hrun]
  iintro ⟨#Hctx, ⟨%W, -, HO⟩, Hb, Hheld, -, -, HG⟩
  ihave Hlev := ((K (F := F)).ctx_levAts κ) $$ Hctx
  iapply (Pipeline.RDat.wp_segs (pcfgs (F := F)) adm (rdats m hpre) ι₀ cellOf_inj (EP (F := F)) defs₀ 𝒱₁ (LL (F := F)) (lvv (F := F)) d
    (segs m hpre) Finset.univ (fun c => iprop(StableHlo.held (c : Thread nD τ) ucRefs (V₁ m hpre c) ∗ Rr c)) (fun c => iprop(FIN m c ∗ Rr c))
    (by show ([p0, p1] : List (Fin 2)).Nodup; decide) (fun p _ => Finset.mem_univ p) ⟨.rfl, .rfl, .rfl, .rfl, .rfl⟩)
  isplitr [Hb Hheld HO HG]
  · iintro ⟨-, HF, ⟨%W', HO'⟩⟩
    isplitl [HO']
    · iexists W'; isplitr; · ipureintro; exact wbelow_any d W'
      rw [Otc_one]; iexact HO'
    · iexact HF
  · isplitl [Hb]; · iexact Hb
    isplitl [Hheld HO]
    · isplitl [Hheld]; · iexact Hheld
      iexists W; rw [Otc_one]; iexact HO
    isplitr; · iexact Hlev
    unfold Pipeline.ghostOn Pipeline.PerCore.ghostOn G
    rw [bigSep_sep']
    iexact HG

end Cert.Kernel.Rows

end
-- ==== Proof.PreRange.lean ====
/-
  What the precondition says of the row numbers: its last conjunct is the conjunction over all twenty entries of
  0 ≤ entry and entry ≤ 99999, as signed words; so each entry, read as a natural number, is below 100000.
-/
import proofs.«202118_g10599979286629_week1_w2_627_56_alg».proof.Pre_input_domain
import proofs.«202118_g10599979286629_week1_w2_627_56_alg».proof.Proof.Gen.Pre_input_domain
import Idealize.ShloMosaic.Lib.ReduceAll
import Idealize.ShloMosaic.Lib.Affine

noncomputable section

namespace Cert.Pre_input_domain.Range

open Idealize.ShloMosaic Cert.Pre_input_domain Cert.Pre_input_domain.Gen

variable {F : FTy → Type} [FloatOps F]

instance : Subsingleton S_.Idx := ⟨fun a b => funext fun d => d.elim0⟩

/-- A signed word between 0 and 99999 is, unsigned, below 100000. -/
theorem word_range (v : BitVec 32) (e : IntOp.andi (IntOp.cmpi .sge v 0#32) (IntOp.cmpi .sle v 99999#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at e
  omega

/-- Every row number is below 100000 when the precondition's value is one. -/
theorem range_of_pre (a0 : IVec S20 32) (a1 : FVec F S100000x128 .f32) (a2 : FVec F S2560x512 .f32) (a3 : FVec F S512 .f32)
    (a4 : FVec F S512x100000 .f32) (a5 : FVec F S100000 .f32)
    (h : fn (F := F) a0 a1 a2 a3 a4 a5 = fun _ => 1#1) (j : S20.Idx) : (a0 j).toNat < 100000 := by
  have e := congrFun h (fun d => d.elim0)
  dsimp only [fn, fn_part1] at e
  have e29 := (IntOp.andi_eq_one.mp e).2
  have hj := Host.reduce_andi_all _ _ _ _ _ e29 j
  simp only [andi, cmpi, broadcastInDim, constantI] at hj
  exact word_range _ hj

end Cert.Pre_input_domain.Range

end
-- ==== Proof.FrameBits.lean ====
/-
  The frame of the kernel as printed, at the word-level instance: under the precondition every row number names a row
  of the table, so the 35 threads' run ends with the six argument arrays as launched.
-/
import proofs.«202118_g10599979286629_week1_w2_627_56_alg».proof.Defs
import proofs.«202118_g10599979286629_week1_w2_627_56_alg».proof.Proof.Bits.RestRun
import proofs.«202118_g10599979286629_week1_w2_627_56_alg».proof.Proof.PreRange
import proofs.«202118_g10599979286629_week1_w2_627_56_alg».proof.Proof.Gen.Pre_input_domain
import proofs.«202118_g10599979286629_week1_w2_627_56_alg».proof.Proof.Gen.Kernel

noncomputable section

namespace Cert.Proof.KernelClaims

open Idealize.ShloMosaic Idealize.SL.Sem

/-- The precondition gives what the run asks of the launch memory: each of the twenty row numbers is below 100000. -/
theorem ok_of_pre (m : (ℓ : Loc Cert.Kernel.nD Cert.Kernel.τ Cert.Kernel.sig) → Buf (Elt Bits) ℓ)
    (h : Cert.Pre_Kernel (hPre_input_domain := Cert.Pre_input_domain.Gen.facts) m) : Cert.Kernel.Rows.PreOK (F := Bits) m :=
  fun d j => Cert.Pre_input_domain.Range.range_of_pre _ _ _ _ _ _ (h d) j

theorem frame_p : Cert.frame_Kernel (hKernel := Cert.Kernel.Gen.facts) (hPre_input_domain := Cert.Pre_input_domain.Gen.facts) :=
  fun m ρ hpre =>
    (θ_run Cert.Kernel.defs _ _).mono (fun _ h c => h c)
      (Cert.Kernel.Rows.run_main' (F := Bits) m ρ (ok_of_pre m hpre) (Cert.Kernel.Rows.restSpec m ρ (ok_of_pre m hpre)))

end Cert.Proof.KernelClaims

end
-- ==== Proof.GatherTile.lean ====
/-
  The row lookup on the SparseCore: of the 32 vector subcores the call runs on, the one at grid point (0, 0)
  copies the twenty row numbers into its index scratch, streams those rows of the table into its row scratch,
  and copies the row scratch out to the result array; every other subcore returns at once. Under the
  precondition every row number is below 100000, the table's height, so every entry of the stream names a row.
  Stated once, generic in the float instance.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«202118_g10599979286629_week1_w2_627_56_alg».proof.Proof.Gen.KernelIdeal
import proofs.«202118_g10599979286629_week1_w2_627_56_alg».proof.Proof.Gen.KernelIdeal.Skeleton

noncomputable section

namespace Cert.KernelIdeal.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
/-- The rounds of the TensorCore pipelines' staging cells, duties unnamed. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The row numbers, the table and the gathered rows, as the TensorCore names them. -/
abbrev iLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

local notation "iV" => (Memref.whole Cert.KernelIdeal.main_arg0_scv : Memref Cert.KernelIdeal.sig Kind.scVector Space.hbm Cert.KernelIdeal.S20 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S20x128 EltTy.f32)
local notation "sV" => (Memref.whole Cert.KernelIdeal.cc0_scratch0 : Memref Cert.KernelIdeal.sig Kind.scVector Space.vmem Cert.KernelIdeal.S20 EltTy.i32)
local notation "rV" => (Memref.whole Cert.KernelIdeal.cc0_scratch1 : Memref Cert.KernelIdeal.sig Kind.scVector Space.vmem Cert.KernelIdeal.S20x128 EltTy.f32)

variable [FloatOps F]

abbrev iPts (d : Dev nD) : sProp 𝕄 := iLoc d ↦{fullShare} m (iLoc d)
abbrev tPts (d : Dev nD) : sProp 𝕄 := tLoc d ↦{fullShare} m (tLoc d)
abbrev oPts (d : Dev nD) (f : Buf (Elt F) (oLoc d)) : sProp 𝕄 := oLoc d ↦{fullShare} f

/-- What the proof asks of the launch memory: every row number is below the table's height. -/
def PreOK : Prop := ∀ (d : Dev nD) (j : S20.Idx), (m (iLoc d) j).toNat < 100000

section Tile

variable (d : Dev nD) (L : grid0.Coords)

abbrev cV (L : grid0.Coords) : Fin τ.nSC := (L 0).castLE hcore0
abbrev jV (L : grid0.Coords) : Fin τ.nSub := (L 1).castLE hsub0

/-- The table as the stream addresses it: the whole array, sliced at the origin at full size. -/
abbrev tAllK : Memref sig .scVector .hbm S100000x128 .f32 := (tV).slice (Rect.unit (s := S100000x128) ![0, 0] S100000x128.size inb_S100000x128_S100000x128_0_0) (fun _ => rfl)

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The subcore that works: grid point (0, 0). -/
def Works (L : grid0.Coords) : Prop := (L 0).val = 0 ∧ (L 1).val = 0
instance (L : grid0.Coords) : Decidable (Works L) := inferInstanceAs (Decidable (_ ∧ _))

omit [FloatOps F] in
/-- The printed test of the subcore's number, twice its second coordinate plus its first, against zero. -/
theorem works_iff (L : grid0.Coords) :
    Scalar.cmpi .ne (Scalar.extui (Scalar.cmpi .eq (Scalar.addi (Scalar.muli (BitVec.ofNat 32 (L 1).val) 2#32) (BitVec.ofNat 32 (L 0).val)) 0#32) : BitVec 32) 0#32 = 1#1
      ↔ Works L := by
  have key : ∀ (a : Fin 2) (b : Fin 16),
      (Scalar.cmpi .ne (Scalar.extui (Scalar.cmpi .eq (Scalar.addi (Scalar.muli (BitVec.ofNat 32 b.val) 2#32) (BitVec.ofNat 32 a.val)) 0#32) : BitVec 32) 0#32 = 1#1)
        ↔ (a.val = 0 ∧ b.val = 0) := by decide
  exact key (L 0) (L 1)

/-- The rows of the table the twenty numbers name. -/
def rowsOf (hpre : PreOK m) (d : Dev nD) :
    Fin (S20x128.size gathers_S100000x128_S20x128.axis') → Fin (S100000x128.size gathers_S100000x128_S20x128.axis) :=
  SparseCore.rows (si := S20) (m (iLoc d)) rfl (hpre d)

/-- The gathered rows: entry (i, j) is the table's entry at (the i-th row number, j). -/
def gath (hpre : PreOK m) (d : Dev nD) : Buf (Elt F) (oLoc d) :=
  SparseCore.gatherPayload gathers_S100000x128_S20x128 (m (tLoc d)) (rowsOf m hpre d)

omit [FloatOps F] in
/-- The stream's row function depends on the list's words only. -/
theorem rows_congr {si : Shape} {o z : ℕ} {f g : si.Idx → Elt F .i32} (e : f = g) (hn : si.numel = o)
    (hf : ∀ x, (f x).toNat < z) (hg : ∀ x, (g x).toNat < z) : SparseCore.rows f hn hf = SparseCore.rows g hn hg := by
  subst e; rfl

/-- The offsets the stream reads name rows of the table: what the index copy landed is the row numbers, each below
    the table's height. -/
theorem inb_of_pre (hpre : PreOK m) (fs : Buf (Elt F) ((V d (cV L) (jV L)).loc cc0_scratch0)) (pay : S20.Idx → Elt F .i32)
    (hpay : pay = (iV).view.read (Elt F) (m (iLoc d))) :
    ∀ x, ((sV).view.read (Elt F) (View.write (Elt F) (sV).view fs pay Finset.univ) x).toNat < S100000x128.size gathers_S100000x128_S20x128.axis := by
  subst hpay; intro x
  rw [View.write_whole_univ]
  simp only [Memref.view_whole, View.read_whole]
  exact hpre d _

omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_oV (f : Buf (Elt F) (oLoc d)) :
    ((oV).view.loc (V d (cV L) (jV L)) ↦{fullShare} f : sProp 𝕄) = oLoc d ↦{fullShare} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

set_option maxHeartbeats 4000000 in
/-- The working subcore's task: the index copy and its wait, the stream of the named rows and its wait, the copy
    out and its wait. -/
theorem tile_body_works (hF : (K (F := F)).Facts) (hpre : PreOK m) (hw : Works L) (O : CellTallies nD τ sig (HIx 1)) (W : Waits sig (HIx 1)) (hO : ∀ g, O g none = 0) :
    iprop(levAts (K (F := F)).L (K (F := F)).lev ∗ emp
        ∗ (iPts m d ∗ tPts m d ∗ oPts d (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L tV (Memref.isWhole_whole _) iV (Memref.isWhole_whole _) oV (Memref.isWhole_whole _)
            sV (Memref.isWhole_whole _) rV (Memref.isWhole_whole _) cc0_scratch2 cc0_scoped0 cc0_scoped1)
          fun _ => iprop((iPts m d ∗ tPts m d ∗ oPts d (gath m hpre d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hwk := (works_iff L).mpr hw
  simp only [cc0_gather_k_eq_skeleton]; unfold cc0_gather_k_skel
  simp only [hwk, ↓reduceDIte]
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ht' := (Entails.of_eq (pts_tV (F := F) d L _ _).symm) $$ Ht
  ihave Ho' := (Entails.of_eq (pts_oV (F := F) d L _).symm) $$ Ho
  ihave Hs' := (Entails.of_eq (pts_sV (F := F) d L _).symm) $$ Hs
  ihave Hr' := (Entails.of_eq (pts_rV (F := F) d L _).symm) $$ Hr
  sl_exec
  have hin := inb_of_pre m d L hpre fs (tile_body_works.sl.dma0 m d) rfl
  sl_exec
  have hout : View.write (Elt F) (oV).view (m (oLoc d)) (tile_body_works.sl.dma0_1 m d L fs fr hin) Finset.univ = gath m hpre d := by
    unfold tile_body_works.sl.dma0_1 tile_body_works.sl.gather0 gath rowsOf
    simp only [ReadAs.apply_same, Memref.view_whole, View.read_whole, View.write_whole_univ, View.writes_singleton]
    refine (Memref.write_access_whole_univ (Elt F) cc0_scratch1 fr _).trans ?_
    have e1 : View.read (Elt F) ((View.whole main_arg1_scv).slice (Rect.unit ![0, 0] ![100000, 128] inb_S100000x128_S100000x128_0_0)) (m (tLoc d)) = m (tLoc d) :=
      Memref.read_access_unit_zero (Elt F) main_arg1_scv (funext fun a => by match a with | ⟨0, _⟩ => rfl | ⟨1, _⟩ => rfl) _ _
    have e2 : View.write (Elt F) (View.whole cc0_scratch0) fs (tile_body_works.sl.dma0 m d) Finset.univ = m (iLoc d) :=
      View.write_whole_univ cc0_scratch0 fs _
    rw [e1]
    exact congrArg _ (rows_congr e2 _ _ _)
  ihave Ho'' := (Entails.of_eq (congrArg (fun f => ((oV).view.loc (V d (cV L) (jV L)) ↦{fullShare} f : sProp 𝕄)) hout)) $$ Ho'
  sl_step
  isplitl [Hi' Ht' Ho'']
  · isplitl [Hi']; · iapply (Entails.of_eq (pts_iV (F := F) d L _ _)); iexact Hi'
    isplitl [Ht']; · iapply (Entails.of_eq (pts_tV (F := F) d L _ _)); iexact Ht'
    iapply (Entails.of_eq (pts_oV (F := F) d L _)); iexact Ho''
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

set_option maxHeartbeats 1000000 in
/-- Every other subcore's task: the test fails and it returns at once, everything it was handed untouched. -/
theorem tile_body_idle (hw : ¬ Works L) (O : CellTallies nD τ sig (HIx 1)) (W : Waits sig (HIx 1)) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_gather_k L tV (Memref.isWhole_whole _) iV (Memref.isWhole_whole _) oV (Memref.isWhole_whole _)
            sV (Memref.isWhole_whole _) rV (Memref.isWhole_whole _) cc0_scratch2 cc0_scoped0 cc0_scoped1)
          fun _ => iprop(emp
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hnw := (works_iff L).not.mpr hw
  simp only [cc0_gather_k_eq_skeleton]; unfold cc0_gather_k_skel
  simp only [hnw, ↓reduceDIte]
  iintro ⟨-, -, -, Hb, Hs, HO⟩
  sl_step
  isplitr; · iempintro
  isplitl [Hb]; · iexact Hb
  isplitl [Hs]; · iexact Hs
  iexists W; isplitr
  · ipureintro; exact fun p hp => .inl hp
  · iexact HO

end Tile

end Cert.KernelIdeal.Rows

end
-- ==== Proof.GatherCall.lean ====
/-
  The row lookup as one SparseCore call: what the call takes from the TensorCore and brings back (the row numbers
  and the table unchanged, the result array at the gathered rows), how a SparseCore's share of that is dealt to its
  sixteen subcores (all of it to subcore 0 of SparseCore 0, nothing to the others), and each subcore's task.
-/
import proofs.«202118_g10599979286629_week1_w2_627_56_alg».proof.Proof.GatherTile

noncomputable section

namespace Cert.KernelIdeal.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S20 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S20x128 EltTy.f32)
local notation "sV" => (Memref.whole Cert.KernelIdeal.cc0_scratch0 : Memref Cert.KernelIdeal.sig Kind.scVector Space.vmem Cert.KernelIdeal.S20 EltTy.i32)
local notation "rV" => (Memref.whole Cert.KernelIdeal.cc0_scratch1 : Memref Cert.KernelIdeal.sig Kind.scVector Space.vmem Cert.KernelIdeal.S20x128 EltTy.f32)

variable [FloatOps F]

/-- The three arrays before the call, and after it. -/
abbrev before (d : Dev nD) : sProp 𝕄 := iprop(iPts m d ∗ tPts m d ∗ oPts d (m (oLoc d)))
abbrev after (hpre : PreOK m) (d : Dev nD) : sProp 𝕄 := iprop(iPts m d ∗ tPts m d ∗ oPts d (gath m hpre d))

/-- The call takes the three arrays on SparseCore 0 and brings them back with the result array at the gathered rows;
    subcore 0 of SparseCore 0 is handed all of it; nothing travels anywhere else. -/
def P (hpre : PreOK m) : (K (F := F)).Pay (nD := nD) (Val := Elt F) (Name := ℕ) (U := UU) where
  st := fun q d c => match q with | 0 => if c.val = 0 then before m d else iprop(emp)
  dn := fun q d c => match q with | 0 => if c.val = 0 then after m hpre d else iprop(emp)
  go := fun q d c i => match q with | 0 => if c.val = 0 ∧ i.val = 0 then before m d else iprop(emp)
  td := fun q d c i => match q with | 0 => if c.val = 0 ∧ i.val = 0 then after m hpre d else iprop(emp)
  x := fun _ _ => iprop(emp)

instance P_storable (hpre : PreOK m) : (P (F := F) m hpre).IsStorable where
  st q d c := match q with
    | 0 => by
      show BI.Storable (upEmb : UEmb _ 𝕄) (if c.val = 0 then before m d else iprop(emp))
      split <;> infer_instance
  dn q d c := match q with
    | 0 => by
      show BI.Storable (upEmb : UEmb _ 𝕄) (if c.val = 0 then after m hpre d else iprop(emp))
      split <;> infer_instance
  go q d c i := match q with
    | 0 => by
      show BI.Storable (upEmb : UEmb _ 𝕄) (if c.val = 0 ∧ i.val = 0 then before m d else iprop(emp))
      split <;> infer_instance
  td q d c i := match q with
    | 0 => by
      show BI.Storable (upEmb : UEmb _ 𝕄) (if c.val = 0 ∧ i.val = 0 then after m hpre d else iprop(emp))
      split <;> infer_instance

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m hpre) v₀ 0 := by
  intro d c i O W hO _ _
  simp only [show (P m hpre).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  by_cases hw : c.val = 0 ∧ i.val = 0
  · rw [show (P m hpre).go 0 d c i = before m d from if_pos hw, show (P m hpre).td 0 d c i = after m hpre d from if_pos hw]
    exact (tile_body_works m d (coordsV ⟨_, hci.1⟩ ⟨_, hci.2⟩) hF hpre hw O W hO).trans (wp_mono frame _ _ fun _ => obl_post)
  · rw [show (P m hpre).go 0 d c i = iprop(emp) from if_neg hw, show (P m hpre).td 0 d c i = iprop(emp) from if_neg hw]
    exact (tile_body_idle d (coordsV ⟨_, hci.1⟩ ⟨_, hci.2⟩) hw O W).trans (wp_mono frame _ _ fun _ => obl_post)

/-! ## The split of a SparseCore's operands among its subcores -/

omit [FloatOps F] in
theorem bigSep_emp' {I : Type} (s : Finset I) : (bigSep s fun _ => iprop(emp)) = (iprop(emp) : sProp 𝕄) := bigSep_emp_const s

omit [FloatOps F] in
/-- Of a family over the sixteen subcores that is empty but at subcore 0, the whole is the member at 0. -/
theorem bigSep_at_zero (A : sProp 𝕄) :
    (bigSep (Finset.univ : Finset (Fin 16)) fun i => if i.val = 0 then A else iprop(emp)) = A := by
  show (bigSep (Finset.univ : Finset (Fin 16)) fun i => if i.val = 0 then A else (BI.emp : sProp 𝕄)) = A
  rw [← bigSep_filter Finset.univ (fun i : Fin 16 => i.val = 0) (fun _ => A),
    show (Finset.univ.filter fun i : Fin 16 => i.val = 0) = {(0 : Fin 16)} from by decide,
    bigSep_singleton]

theorem vecSplit (hpre : PreOK m) : (K (F := F)).VecSplit' (P m hpre) 0 := by
  intro d c
  by_cases hc : c.val = 0
  · show (if c.val = 0 then before m d else iprop(emp)) ⊢ |={Set.univ}=> iprop(
        (bigSep (Finset.univ : Finset (Fin 16)) fun i => if c.val = 0 ∧ i.val = 0 then before m d else iprop(emp))
        ∗ ((bigSep (Finset.univ : Finset (Fin 16)) fun i => if c.val = 0 ∧ i.val = 0 then after m hpre d else iprop(emp))
            -∗ if c.val = 0 then after m hpre d else iprop(emp)))
    simp only [hc, true_and, if_true]
    rw [bigSep_at_zero, bigSep_at_zero]
    iintro H; imodintro
    isplitl [H]; · iexact H
    iintro H; iexact H
  · show (if c.val = 0 then before m d else iprop(emp)) ⊢ |={Set.univ}=> iprop(
        (bigSep (Finset.univ : Finset (Fin 16)) fun i => if c.val = 0 ∧ i.val = 0 then before m d else iprop(emp))
        ∗ ((bigSep (Finset.univ : Finset (Fin 16)) fun i => if c.val = 0 ∧ i.val = 0 then after m hpre d else iprop(emp))
            -∗ if c.val = 0 then after m hpre d else iprop(emp)))
    simp only [hc, false_and, if_false]
    rw [bigSep_emp']
    iintro -; imodintro
    isplitr; · iempintro
    iintro -; iempintro

end Cert.KernelIdeal.Rows

end
-- ==== Proof.LookupMain.lean ====
/-
  @main on the TensorCore: the SparseCore call, then — over the pipelines' own signature — the reshapes of the
  gathered rows and of the first bias, the hidden layer's region, the re-layout of the hidden row into sixteen
  blocks of thirty-two, the reshapes of the second bias and of the second weight matrix, and the output region.
-/
import proofs.«202118_g10599979286629_week1_w2_627_56_alg».proof.Proof.GatherCall
import Idealize.ShloMosaic.Lib.Pipeline.Regions

noncomputable section

namespace Cert.KernelIdeal.Rows

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- @main after the SparseCore call, over the pipelines' signature. -/
def rest : Prog (TpuEff nD τ sig (Elt F) (ΛP (F := F)) .tc) PUnit := do
  hlo rfl (StableHlo.reshape main_v0 main_v1 rfl shapeCasts_S20x128_S1x2560) (fun _ => .ret ⟨⟩)
  hlo rfl (StableHlo.reshape main_arg3 main_v2 rfl shapeCasts_S512_S1x512) (fun _ => .ret ⟨⟩)
  Prog.lift (.customCall (Pipeline.entry 0) ())
  hlo rfl (StableHlo.reshape main_v3 main_v4 rfl shapeCasts_S1x512_S4x16x8) (fun _ => .ret ⟨⟩)
  hlo rfl (StableHlo.unary main_v4 main_v5 ((transpose S16x4x8 [1, 0, 2] · transposes_S4x16x8_S16x4x8_1_0_2) : (⟨S4x16x8, .f32⟩ : BufTy).Contents (Elt F) → (⟨S16x4x8, .f32⟩ : BufTy).Contents (Elt F))) (fun _ => .ret ⟨⟩)
  hlo rfl (StableHlo.reshape main_v5 main_v6 rfl shapeCasts_S16x4x8_S16x1x32) (fun _ => .ret ⟨⟩)
  hlo rfl (StableHlo.reshape main_arg5 main_v7 rfl shapeCasts_S100000_S1x100000) (fun _ => .ret ⟨⟩)
  hlo rfl (StableHlo.reshape main_arg4 main_v8 rfl shapeCasts_S512x100000_S4x16x8x100000) (fun _ => .ret ⟨⟩)
  Prog.lift (.customCall (Pipeline.entry 1) ())
  pure ⟨⟩

/-- @main is the call and then the rest, lifted. -/
theorem main_eq (d : Dev nD) : main (F := F) d = (do (K (F := F)).run d 0; SparseCore.liftProg (Q := 1) (rest (F := F))) := rfl

/-! ## The TensorCore's arrays as one held set -/

variable (m : (ℓ : Loc nD τ sig) → Buf (Elt F) ℓ) (ρ : Dev nD → PrngReg)

/-- The arrays at launch, as a valuation; -/
abbrev V₀ (d : Dev nD) : Valuation τ sig (Elt F) := fun b => m (d, b)
/-- the result array of the lookup, as a device buffer; -/
abbrev v0' : DevRef τ sig := Proc.devRef .tc main_v0
/-- and after the call: the result array at the gathered rows, everything else as launched. -/
def V₁ (hpre : PreOK m) (d : Dev nD) : Valuation τ sig (Elt F) := Function.update (V₀ m d) v0' (gath m hpre d)

/-- The TensorCore's unscoped references: @main's sixteen arrays. -/
def ucRefs : Finset (DevRef τ sig) := (StableHlo.tcRefs τ sig).filter fun b => ¬ b.isScoped
/-- The three of them the lookup takes. -/
def callRefs : Finset (DevRef τ sig) := {Proc.devRef .tc main_arg0, Proc.devRef .tc main_arg1, Proc.devRef .tc main_v0}

omit [FloatOps F] in
theorem callRefs_sub : callRefs ⊆ ucRefs := by decide

omit [FloatOps F] in
theorem unscopedBufs_held (d : Dev nD) (W : Valuation τ sig (Elt F)) :
    (unscopedBufs d (fun b => W b) : sProp 𝕄) = StableHlo.held (SparseCore.T d) ucRefs W := by
  unfold unscopedBufs StableHlo.held ucRefs StableHlo.tcRefs
  rw [Finset.filter_map, bigSep_map]
  rfl

omit [FloatOps F] in
/-- The call's three arrays held at a valuation, one by one. -/
theorem held_callRefs (d : Dev nD) (W : Valuation τ sig (Elt F)) :
    (StableHlo.held (SparseCore.T d) callRefs W : sProp 𝕄)
      = iprop((iLoc d ↦{fullShare} W (Proc.devRef .tc main_arg0)) ∗ (tLoc d ↦{fullShare} W (Proc.devRef .tc main_arg1)) ∗ (oLoc d ↦{fullShare} W v0')) := by
  unfold StableHlo.held callRefs
  rw [SparseCore.bigSep_insert' (by decide), SparseCore.bigSep_insert' (by decide), bigSep_singleton]

/-! ## What is asked of the rest of @main, over the pipelines' signature -/

/-- The TensorCore's debts after its one SparseCore call: none it has not paid, its recorded waits all below the
    next call's levels. -/
abbrev owesT (d : Dev nD) : sProp 𝕄 :=
  iprop(∃ W, ⌜(K (F := F)).WBelow (SparseCore.T d) W (8 * 1)⌝ ∗ owes (SparseCore.T d) ((K (F := F)).Otc d 1) W)

/-- The rest of @main, from the arrays as the lookup left them, the region-boundary holdings, the TensorCore's own
    semaphores at zero and whatever ghost state `G` the launch dealt it, runs to `FIN`, its debts as they were. -/
def RestSpec (hpre : PreOK m) (G FIN : Dev nD → sProp 𝕄) : Prop :=
  ∀ (κ : GSem nD τ sig → ℕ) (d : Dev nD),
    iprop((K (F := F)).ctx EH (P m hpre) κ ∗ owesT (F := F) d ∗ boundary (SparseCore.T d)
        ∗ StableHlo.held (SparseCore.T d) ucRefs (V₁ m hpre d) ∗ (K (F := F)).tcSems0 d ∗ prngReg d (ρ d) ∗ G d)
      ⊢ wp frame (wpE (D (F := F)) 𝒱 (SparseCore.T d) none) Set.univ (rest (F := F))
          fun _ => iprop(owesT (F := F) d ∗ FIN d)

/-! ## @main on the TensorCore -/

omit [FloatOps F] in
/-- Off the result array the two valuations agree. -/
theorem V₁_off (hpre : PreOK m) (d : Dev nD) : ∀ b ∈ ucRefs \ callRefs, V₀ m d b = V₁ m hpre d b := fun b hb => by
  have hne : b ≠ v0' := fun e => (Finset.mem_sdiff.mp hb).2 (e ▸ by decide)
  exact (Function.update_of_ne hne _ _).symm

theorem st0_eq (hpre : PreOK m) (d : Dev nD) :
    (bigSep Finset.univ fun c : Fin ((K (F := F)).nCore 0) => (P m hpre).st 0 d c) = iprop(before m d ∗ emp) := by
  show (bigSep (Finset.univ : Finset (Fin 2)) fun c => if c.val = 0 then before m d else iprop(emp)) = _
  rw [show (Finset.univ : Finset (Fin 2)) = {0, 1} by decide, SparseCore.bigSep_insert' (by decide), bigSep_singleton]
  rfl
theorem dn0_eq (hpre : PreOK m) (d : Dev nD) :
    (bigSep Finset.univ fun c : Fin ((K (F := F)).nCore 0) => (P m hpre).dn 0 d c) = iprop(after m hpre d ∗ emp) := by
  show (bigSep (Finset.univ : Finset (Fin 2)) fun c => if c.val = 0 then after m hpre d else iprop(emp)) = _
  rw [show (Finset.univ : Finset (Fin 2)) = {0, 1} by decide, SparseCore.bigSep_insert' (by decide), bigSep_singleton]
  rfl

omit [FloatOps F] in
/-- The TensorCore's state after the call gives up its debts and takes them back. -/
theorem tcSt_owes (d : Dev nD) :
    (K (F := F)).tcSt EH d 1 ⊢ iprop(owesT (F := F) d ∗ (owesT (F := F) d -∗ (K (F := F)).tcSt EH d 1)) := by
  unfold SparseCore.Cfg.tcSt
  iintro ⟨HW, Hrest⟩
  isplitl [HW]; · iexact HW
  iintro HW
  isplitl [HW]; · iexact HW
  iexact Hrest

omit [FloatOps F] in
/-- The sixteen arrays after the call: the lookup's three as it left them, the others as launched. -/
theorem held_after (hpre : PreOK m) (d : Dev nD) :
    (StableHlo.held (SparseCore.T d) ucRefs (V₁ m hpre d) : sProp 𝕄)
      = iprop((iPts m d ∗ tPts m d ∗ oPts d (gath m hpre d)) ∗ StableHlo.held (SparseCore.T d) (ucRefs \ callRefs) (V₀ m d)) := by
  rw [StableHlo.held_sub_split (SparseCore.T d) callRefs_sub, held_callRefs, ← StableHlo.held_congr (SparseCore.T d) (V₁_off m hpre d)]
  unfold V₁
  rw [Function.update_of_ne (by decide), Function.update_of_ne (by decide), Function.update_self]

/-- The rest of @main under the launch's body table: its specification over the pipelines' signature, framed by the
    wand that restores the TensorCore's handshake state, lifted. -/
theorem rest_lift (hpre : PreOK m) (G FIN : Dev nD → sProp 𝕄) (hrest : RestSpec m ρ hpre G FIN) (κ : GSem nD τ sig → ℕ) (d : Dev nD) :
    iprop(((K (F := F)).ctx EH (P m hpre) κ ∗ owesT (F := F) d ∗ boundary (SparseCore.T d)
          ∗ StableHlo.held (SparseCore.T d) ucRefs (V₁ m hpre d) ∗ (K (F := F)).tcSems0 d ∗ prngReg d (ρ d) ∗ G d)
        ∗ (owesT (F := F) d -∗ (K (F := F)).tcSt EH d 1))
      ⊢ wp frame (wpE ((K (F := F)).defs (D (F := F))) 𝒱 (SparseCore.T d) none) Set.univ (SparseCore.liftProg (Q := 1) (rest (F := F)))
          fun _ => iprop((K (F := F)).tcSt EH d 1 ∗ FIN d) :=
  ((sep_mono (hrest κ d) .rfl).trans <| (wp_frame_r frame _ _).trans <| wp_mono frame _ _ fun _ => by
      iintro ⟨⟨HW, HF⟩, Hback⟩
      isplitl [HW Hback]
      · iapply Hback; iexact HW
      · iexact HF).trans ((K (F := F)).wp_liftProg (D (F := F)) 𝒱 (SparseCore.T d) Set.univ none (rest (F := F)) _)

/-- @main on device `d`'s TensorCore: the lookup (the launch's rule for a SparseCore call, from the row numbers,
    the table and the result array), then the rest over the pipelines' signature, lifted. -/
theorem hmain (hpre : PreOK m) (G FIN : Dev nD → sProp 𝕄) (hrest : RestSpec m ρ hpre G FIN) (κ : GSem nD τ sig → ℕ) (d : Dev nD) :
    iprop((K (F := F)).ctx EH (P m hpre) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN d) := by
  unfold SparseCore.Cfg.tcRes
  rw [show (unscopedBufs d (fun b => m ((SparseCore.T d).loc b)) : sProp 𝕄) = StableHlo.held (SparseCore.T d) ucRefs (V₀ m d) from unscopedBufs_held d (V₀ m d),
    StableHlo.held_sub_split (SparseCore.T d) callRefs_sub (V₀ m d), held_callRefs, main_eq]
  simp only [wp_bind]
  iintro ⟨#Hctx, Hst, ⟨Hb, ⟨⟨Hi, Ht, Ho⟩, Hothers⟩, Hsems, Hprng⟩, HG⟩
  iapply ((K (F := F)).wp_run (D (F := F)) 𝒱 (EH := EH) (P := P m hpre) κ d 0) $$ [Hst Hi Ht Ho Hb Hothers Hsems Hprng HG]
  isplitr; · iexact Hctx
  isplitl [Hst]; · iexact Hst
  isplitl [Hi Ht Ho]
  · rw [st0_eq]
    isplitl [Hi Ht Ho]
    · isplitl [Hi]; · iexact Hi
      isplitl [Ht]; · iexact Ht
      iexact Ho
    · iempintro
  iintro ⟨Hst, Hdn⟩
  ihave Hdn' := (Entails.of_eq (dn0_eq m hpre d)) $$ Hdn
  icases Hdn' with ⟨⟨Hi, Ht, Ho⟩, -⟩
  ihave Hst1 := (Entails.of_eq (show (K (F := F)).tcSt EH d ((0 : Fin 1).val + 1) = (K (F := F)).tcSt EH d 1 from rfl)) $$ Hst
  ihave H := (tcSt_owes (F := F) d) $$ Hst1
  icases H with ⟨HW, Hback⟩
  iapply (rest_lift m ρ hpre G FIN hrest κ d)
  isplitr [Hback]
  · isplitr; · iexact Hctx
    isplitl [HW]; · iexact HW
    isplitl [Hb]; · iexact Hb
    isplitl [Hi Ht Ho Hothers]
    · rw [held_after]
      isplitl [Hi Ht Ho]
      · isplitl [Hi]; · iexact Hi
        isplitl [Ht]; · iexact Ht
        iexact Ho
      · iexact Hothers
    isplitl [Hsems]; · iexact Hsems
    isplitl [Hprng]; · iexact Hprng
    iexact HG
  · iexact Hback

/-! ## The end: the six arguments as launched -/

abbrev aLoc (b : Ref sig .tc) (d : Dev nD) : Loc nD τ sig := (SparseCore.T d).loc b

/-- What @main leaves the claim: each argument array whole at its launch contents. -/
abbrev FIN (d : Dev nD) : sProp 𝕄 :=
  iprop((aLoc main_arg0 d ↦{fullShare} m (aLoc main_arg0 d)) ∗ (aLoc main_arg1 d ↦{fullShare} m (aLoc main_arg1 d))
    ∗ (aLoc main_arg2 d ↦{fullShare} m (aLoc main_arg2 d)) ∗ (aLoc main_arg3 d ↦{fullShare} m (aLoc main_arg3 d))
    ∗ (aLoc main_arg4 d ↦{fullShare} m (aLoc main_arg4 d)) ∗ (aLoc main_arg5 d ↦{fullShare} m (aLoc main_arg5 d)))

def fq (d : Dev nD) (s' : Phys nD τ sig (Elt F)) : Prop :=
  s'.mem.mem (aLoc main_arg0 d) = m (aLoc main_arg0 d) ∧ s'.mem.mem (aLoc main_arg1 d) = m (aLoc main_arg1 d)
  ∧ s'.mem.mem (aLoc main_arg2 d) = m (aLoc main_arg2 d) ∧ s'.mem.mem (aLoc main_arg3 d) = m (aLoc main_arg3 d)
  ∧ s'.mem.mem (aLoc main_arg4 d) = m (aLoc main_arg4 d) ∧ s'.mem.mem (aLoc main_arg5 d) = m (aLoc main_arg5 d)

omit [FloatOps F] in
/-- An array held whole agrees with the final memory, which is kept. -/
theorem agree (ℓ : Loc nD τ sig) (s' : Phys nD τ sig (Elt F)) :
    iprop(SI s' ∗ (ℓ ↦{fullShare} m ℓ)) ⊢ (iprop(⌜s'.mem.mem ℓ = m ℓ⌝ ∗ SI s') : sProp 𝕄) := by
  iintro ⟨HSI, H⟩
  ihave H' := (persistent_entails_right (SI_pointsTo_agree (st := s') (ℓ := ℓ) (I := Finset.univ) (q := fullShare) (f := m ℓ))) $$ [HSI H]
  · isplitl [HSI] <;> iassumption
  icases H' with ⟨%h, HSI, -⟩
  isplitr
  · ipureintro; exact funext fun i => h i (Finset.mem_univ i)
  · iexact HSI

set_option maxRecDepth 16384 in
omit [FloatOps F] in
theorem hfin (d : Dev nD) (s' : Phys nD τ sig (Elt F)) : iprop(FIN m d ∗ SI s') ⊢ (⌜fq m d s'⌝ : sProp 𝕄) := by
  iintro ⟨⟨H0, H1, H2, H3, H4, H5⟩, HSI⟩
  ihave G0 := (agree m (aLoc main_arg0 d) s') $$ [HSI H0]; · isplitl [HSI] <;> iassumption
  icases G0 with ⟨%h0, HSI⟩
  ihave G1 := (agree m (aLoc main_arg1 d) s') $$ [HSI H1]; · isplitl [HSI] <;> iassumption
  icases G1 with ⟨%h1, HSI⟩
  ihave G2 := (agree m (aLoc main_arg2 d) s') $$ [HSI H2]; · isplitl [HSI] <;> iassumption
  icases G2 with ⟨%h2, HSI⟩
  ihave G3 := (agree m (aLoc main_arg3 d) s') $$ [HSI H3]; · isplitl [HSI] <;> iassumption
  icases G3 with ⟨%h3, HSI⟩
  ihave G4 := (agree m (aLoc main_arg4 d) s') $$ [HSI H4]; · isplitl [HSI] <;> iassumption
  icases G4 with ⟨%h4, HSI⟩
  ihave G5 := (agree m (aLoc main_arg5 d) s') $$ [HSI H5]; · isplitl [HSI] <;> iassumption
  icases G5 with ⟨%h5, -⟩
  ipureintro; exact ⟨h0, h1, h2, h3, h4, h5⟩

/-! ## The program's run -/

/-- The frame claim's post: on every device the six argument arrays end as launched. -/
def QC : PUnit × MemSt nD τ sig (Elt F) → Prop := fun r => ∀ c : Dev nD,
  r.2.mem (aLoc main_arg0 c) = m (aLoc main_arg0 c) ∧ r.2.mem (aLoc main_arg1 c) = m (aLoc main_arg1 c)
  ∧ r.2.mem (aLoc main_arg2 c) = m (aLoc main_arg2 c) ∧ r.2.mem (aLoc main_arg3 c) = m (aLoc main_arg3 c)
  ∧ r.2.mem (aLoc main_arg4 c) = m (aLoc main_arg4 c) ∧ r.2.mem (aLoc main_arg5 c) = m (aLoc main_arg5 c)

/-- From a launch memory whose row numbers name rows of the table, every weakly fair execution of the 35 threads
    ends, the arguments unchanged — GIVEN the launch element (`hu₀`: the handshakes' rounds, and whatever ghost state
    `G` the two TensorCore regions start from) and the rest of @main over the pipelines' signature (`hrest`). -/
theorem run_main [∀ e, Nonempty (Elt F e)] (hpre : PreOK m) (G : Dev nD → sProp 𝕄) (u₀ : UU)
    (hu₀ : iprop(ownU u₀ ∗ (P m hpre).oxCred ∗ (K (F := F)).freeSems0)
      ⊢ |={Set.univ}=> iprop(BI.own (EH (initOf (K (F := F)).hsCells (K (F := F)).hsToks)) ∗ bigSep Finset.univ G
        ∗ bigSep Finset.univ fun thr : Thread nD τ => bigSep Finset.univ fun q : Fin 1 => (P m hpre).x q thr))
    (hrest : RestSpec m ρ hpre G (FIN m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m hpre) facts v₀
    (fun q hq => match q with | 0 => nomatch hq)
    (fun q _ => match q with | 0 => tileObl m facts hpre)
    (fun q _ => match q with | 0 => SparseCore.Cfg.VecSplit.of_plain (vecSplit m hpre))
    m ρ main G (FIN m) u₀ hu₀ (hmain m ρ hpre G (FIN m) hrest) (fq m) (hfin m) (QC m) (fun _ h => h)

end Cert.KernelIdeal.Rows

end
-- ==== Proof.LookupLaunch.lean ====
/-
  The launch element: the certificate's ghost element is the handshakes' rounds beside the rounds of the two
  TensorCore pipelines' staging cells (and the transfers' counters, which start empty). The first goes to the
  launch as it stands; the second funds, per device, each pipeline's cells' ghost state and tokens — what the
  TensorCore's two regions start from.
-/
import proofs.«202118_g10599979286629_week1_w2_627_56_alg».proof.Proof.LookupMain
import proofs.«202118_g10599979286629_week1_w2_627_56_alg».proof.Proof.Gen.KernelIdeal.Launch

noncomputable section

namespace Cert.KernelIdeal.Rows

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The pipelines' staging cells' rounds, inside the certificate's algebra: the left of its right component. -/
abbrev EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

/-- The launch element. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What the launch deals device `d`'s TensorCore for its two regions. -/
abbrev G (d : Dev nD) : sProp 𝕄 :=
  iprop((bigSep Finset.univ fun p : Fin 2 => Pipeline.cellsGhost (nD := nD) (τ := τ) cfgs (EP (F := F)) p d)
    ∗ bigSep Finset.univ fun p : Fin 2 => (Pipeline.toksInit (nD := nD) (τ := τ) cfgs (EP (F := F)) p d : sProp 𝕄))

omit [FloatOps F] in
theorem bigSep_emp'' {I : Type} (s : Finset I) : (bigSep s fun _ => iprop(emp)) = (iprop(emp) : sProp 𝕄) := bigSep_emp_const s

theorem hu₀ (hpre : PreOK m) :
    iprop(ownU (u₀ (F := F)) ∗ (P m hpre).oxCred ∗ (K (F := F)).freeSems0)
      ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m hpre).x q thr) := by
  unfold u₀
  iintro ⟨Hu, -, -⟩
  ihave H := (ownU_pair (initOf (K (F := F)).hsCells (K (F := F)).hsToks)
    ((initOf (Pipeline.cells (nD := nD) (τ := τ) cfgs cellOf_inj) (Pipeline.launchToks (nD := nD) (τ := τ) cfgs cellOf_inj), (1 : Counters)) : UP × Counters)) $$ Hu
  icases H with ⟨HH, HR⟩
  ihave H2 := (own_pair_emb (embR : Emb (UP × Counters) 𝕄) _ _) $$ HR
  icases H2 with ⟨HP, -⟩
  imod (Pipeline.fund_ghost (nD := nD) (τ := τ) cfgs (EP (F := F)) cellOf_inj) $$ HP with ⟨Hg, Ht⟩
  imodintro
  isplitl [HH]; · iexact HH
  isplitl [Hg Ht]
  · unfold G
    rw [bigSep_sep']
    isplitl [Hg]; · iexact Hg
    iexact Ht
  rw [show (bigSep Finset.univ fun thr : Thread nD τ => bigSep Finset.univ fun q : Fin 1 => (P (F := F) m hpre).x q thr) = bigSep Finset.univ fun _ => iprop(emp) from
    bigSep_congr fun _ _ => bigSep_univ_of_subsingleton (0 : Fin 1), bigSep_emp'']
  iempintro

/-- The run, the launch element supplied: what remains is the rest of @main over the pipelines' signature, from the
    arrays as the lookup left them and each pipeline's cells' ghost state. -/
theorem run_main' [∀ e, Nonempty (Elt F e)] (hpre : PreOK m) (hrest : RestSpec m ρ hpre (G (F := F)) (FIN m)) :
    θ_run (Cert.KernelIdeal.defs (F := F)) (Cert.KernelIdeal.threads (F := F)) ⟨m, fun _ => 0, ρ⟩ (QC m) :=
  run_main m ρ hpre (G (F := F)) (u₀ (F := F)) (hu₀ m hpre) hrest

end Cert.KernelIdeal.Rows

end
-- ==== Proof.HidBody.lean ====
/-
  The hidden layer's kernel body on whole staging buffers: it loads the flattened rows, the first weight matrix
  and the first bias, and stores, over the whole output buffer, the maximum with zero of the rows times the
  weights plus the bias. One store, covering the buffer.
-/
import proofs.«202118_g10599979286629_week1_w2_627_56_alg».proof.Proof.GatherTile
import Idealize.ShloMosaic.Lib.Pipeline.FrameBody
import Idealize.ShloMosaic.Lib.Ring
import Idealize.ShloMosaic.Lib.Tactic

set_option maxRecDepth 16384

noncomputable section

namespace Cert.KernelIdeal.Hidden

open Cert.KernelIdeal Cert.KernelIdeal.Gen Cert.KernelIdeal.Rows
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses: each buffer whole -/

abbrev rx : Rect S1x2560 := Rect.unit (s := S1x2560) ![0, 0] S1x2560.size inb_S1x2560_S1x2560_0_0
abbrev rw1 : Rect S2560x512 := Rect.unit (s := S2560x512) ![0, 0] S2560x512.size inb_S2560x512_S2560x512_0_0
abbrev rh : Rect S1x512 := Rect.unit (s := S1x512) ![0, 0] S1x512.size inb_S1x512_S1x512_0_0

/-- What the body leaves in the output buffer, from the three inputs' contents: its one store, over the whole
    buffer, of relu(x · W₁ + b₁). -/
def hidOut (x0 : Vec F S1x2560 .f32) (x1 : Vec F S2560x512 .f32) (x2 : Vec F S1x512 .f32) : Vec F S1x512 .f32 :=
  View.canon [⟨rh, k1_pay1 (View.ld x0 rx) (View.ld x1 rw1) (View.ld x2 rh)⟩]

/-- The one store covers the buffer. -/
theorem cover_hid (p0 : Vec F S1x512 .f32) (y : S1x512.Idx) :
    ∃ pc ∈ ([⟨rh, p0⟩] : List (View.Piece (Elt F) S1x512 .f32)), y ∈ pc.1.set :=
  View.cover_of_tiled [⟨rh, p0⟩] S1x512.size (by rfl) y

set_option maxHeartbeats 1000000 in
/-- The body on whole staging memrefs, the inputs' at contents `x0`, `x1`, `x2` and the output's at anything, runs
    to the inputs' as they were and the output's at `hidOut` of them. -/
theorem sound_hid (c : Dev nD) (E : Set ℕ) (arg0 : Memref sig .tc .vmem S1x2560 .f32) (harg0 : arg0.IsWhole)
    (arg1 : Memref sig .tc .vmem S2560x512 .f32) (harg1 : arg1.IsWhole) (arg2 : Memref sig .tc .vmem S1x512 .f32) (harg2 : arg2.IsWhole)
    (arg3 : Memref sig .tc .vmem S1x512 .f32) (harg3 : arg3.IsWhole)
    (x0 : Vec F S1x2560 .f32) (x1 : Vec F S2560x512 .f32) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (hidOut x0 x1 x2)) -∗ K ⟨⟩))
      ⊢ wp frame (wpE (defs₀ (F := F)) Variants.none c none) E (cc1__hid_body arg0 harg0 arg1 harg1 arg2 harg2 arg3 harg3) K := by
  simp only [cc1__hid_body_eq_skeleton]; unfold cc1__hid_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_hid _)

end Cert.KernelIdeal.Hidden

end
-- ==== Proof.HidRegion.lean ====
/-
  The hidden layer's region: the two reshapes before it, the arrays as the region finds them (the gathered rows
  flattened, the first weights, the first bias as a row), and the proof data of its one-point pipeline: every input
  window's buffer holds its whole array, the output window's buffer ends at the hidden row.
-/
import proofs.«202118_g10599979286629_week1_w2_627_56_alg».proof.Proof.LookupLaunch
import proofs.«202118_g10599979286629_week1_w2_627_56_alg».proof.Proof.HidBody
import proofs.«202118_g10599979286629_week1_w2_627_56_alg».proof.Proof.Gen.KernelIdeal.Points
import Idealize.ShloMosaic.Lib.Pipeline.Regions

set_option maxRecDepth 16384

noncomputable section

namespace Cert.KernelIdeal.Rows

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-- The pipelines' cells and the body's own semaphores are waited on at the index the launch keeps for a kernel's own
    waits. -/
abbrev ι₀ : HIx 1 := default

/-- The reshapes before the hidden layer's region. -/
def opsA : List (HloOp τ sig (Elt F)) :=
  [StableHlo.reshape main_v0 main_v1 rfl shapeCasts_S20x128_S1x2560, StableHlo.reshape main_arg3 main_v2 rfl shapeCasts_S512_S1x512]

/-- The arrays as the hidden layer's region finds them. -/
abbrev VA (hpre : PreOK m) (c : Dev nD) (b : Ref sig .tc) : Buf (Elt F) ((c : Thread nD τ).loc b) :=
  StableHlo.after (opsA (F := F)) (V₁ m hpre c) b

/-- Window `w`'s block at the one point, read off its array as the region finds it. -/
def iblk1 (hpre : PreOK m) (c : Dev nD) (w : Fin cfg1.W) (t : Fin cfg1.N) : ((cfg1.win w).xblock (cfg1.grid.coords t)).Idx → Elt F (cfg1.win w).elt :=
  ((cfg1.win w).blk t).view.read (Elt F) (VA m hpre c (Pipeline.arrRef spec1 w))

/-- The region's proof data on core `c`. -/
def dat1 (hpre : PreOK m) (c : Dev nD) : Dat τ (Elt F) (HIx 1) ℕ UU ℕ cfg1 c where
  A w := VA m hpre c (Pipeline.arrRef spec1 w)
  after w t := match w with
    | ⟨0, _⟩ => iblk1 m hpre c 0 t
    | ⟨1, _⟩ => iblk1 m hpre c 1 t
    | ⟨2, _⟩ => iblk1 m hpre c 2 t
    | ⟨3, _⟩ => Hidden.hidOut (iblk1 m hpre c 0 t) (iblk1 m hpre c 1 t) (iblk1 m hpre c 2 t)
  Φ _ := Pipeline.scopedRest (Ix := HIx 1) (Name := ℕ) (U := UU) (Lvl := ℕ) (Val := Elt F) spec1 c
  q _ := fullShare
  owed _ := 0

theorem A1_eq (hpre : PreOK m) (c : Dev nD) (w : Fin cfg1.W) : (dat1 m hpre c).A w = VA m hpre c (Pipeline.arrRef spec1 w) := by
  dsimp only [dat1]

theorem after1_0 (hpre : PreOK m) (c : Dev nD) (t : Fin cfg1.N) : (dat1 m hpre c).after 0 t = iblk1 m hpre c 0 t := by dsimp only [dat1]
theorem after1_1 (hpre : PreOK m) (c : Dev nD) (t : Fin cfg1.N) : (dat1 m hpre c).after 1 t = iblk1 m hpre c 1 t := by dsimp only [dat1]
theorem after1_2 (hpre : PreOK m) (c : Dev nD) (t : Fin cfg1.N) : (dat1 m hpre c).after 2 t = iblk1 m hpre c 2 t := by dsimp only [dat1]
theorem after1_3 (hpre : PreOK m) (c : Dev nD) (t : Fin cfg1.N) :
    (dat1 m hpre c).after 3 t = Hidden.hidOut (iblk1 m hpre c 0 t) (iblk1 m hpre c 1 t) (iblk1 m hpre c 2 t) := by dsimp only [dat1]

/-- Each input window is fetched at the point: its buffer holds its block. -/
theorem before1_0 (hpre : PreOK m) (c : Dev nD) (t : Fin cfg1.N) (d) : (dat1 m hpre c).before 0 t d = iblk1 m hpre c 0 t := by
  unfold Dat.before; rw [if_pos (fetch1_0 t)]; rfl
theorem before1_1 (hpre : PreOK m) (c : Dev nD) (t : Fin cfg1.N) (d) : (dat1 m hpre c).before 1 t d = iblk1 m hpre c 1 t := by
  unfold Dat.before; rw [if_pos (fetch1_1 t)]; rfl
theorem before1_2 (hpre : PreOK m) (c : Dev nD) (t : Fin cfg1.N) (d) : (dat1 m hpre c).before 2 t d = iblk1 m hpre c 2 t := by
  unfold Dat.before; rw [if_pos (fetch1_2 t)]; rfl

/-- The body at the point: the inputs' memrefs hold their blocks, so the body's run applies; the invariant and the
    core's debts pass through unread. -/
theorem sound_body1 (hpre : PreOK m) (c : Dev nD) (t : Fin cfg1.N) :
    iprop((dat1 m hpre c).Φ t.castSucc ∗ (dat1 m hpre c).owesAt ι₀ t.castSucc
        ∗ (∃ d, owns (c : Thread nD τ) (st1_0 t) fullShare ((dat1 m hpre c).before 0 t d))
        ∗ (∃ d, owns (c : Thread nD τ) (st1_1 t) fullShare ((dat1 m hpre c).before 1 t d))
        ∗ (∃ d, owns (c : Thread nD τ) (st1_2 t) fullShare ((dat1 m hpre c).before 2 t d))
        ∗ (∃ d, owns (c : Thread nD τ) (st1_3 t) fullShare ((dat1 m hpre c).before 3 t d)))
      ⊢ wp frame (wpE (defs₀ (F := F)) Variants.none c none) Set.univ (bodyAt1 t) (fun _ =>
          iprop((dat1 m hpre c).Φ t.succ ∗ (dat1 m hpre c).owesAt ι₀ t.succ
            ∗ owns (c : Thread nD τ) (st1_0 t) fullShare ((dat1 m hpre c).after 0 t)
            ∗ owns (c : Thread nD τ) (st1_1 t) fullShare ((dat1 m hpre c).after 1 t)
            ∗ owns (c : Thread nD τ) (st1_2 t) fullShare ((dat1 m hpre c).after 2 t)
            ∗ owns (c : Thread nD τ) (st1_3 t) fullShare ((dat1 m hpre c).after 3 t))) := by
  unfold bodyAt1
  simp only [before1_0, before1_1, before1_2]
  rw [show (dat1 m hpre c).Φ t.succ = (dat1 m hpre c).Φ t.castSucc from rfl,
    show (dat1 m hpre c).owesAt ι₀ t.succ = (dat1 m hpre c).owesAt ι₀ t.castSucc from rfl,
    after1_0, after1_1, after1_2, after1_3]
  iintro ⟨HΦ, Ho, ⟨%d0, H0⟩, ⟨%d1, H1⟩, ⟨%d2, H2⟩, ⟨%d3, H3⟩⟩
  iapply (Hidden.sound_hid c Set.univ _ (hstage1_0 0) _ (hstage1_1 0) _ (hstage1_2 0) _ (hstage1_3 0) (iblk1 m hpre c 0 t) (iblk1 m hpre c 1 t) (iblk1 m hpre c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the hidden layer's region. -/
theorem body_obligation1 (hpre : PreOK m) (c : Dev nD) :
    BodyObligation (dat1 m hpre c) (defs₀ (F := F)) Variants.none ι₀ Set.univ := fun t => by
  rw [bigSep_W1, bigSep_W1]
  exact sound_body1 m hpre c t

end Cert.KernelIdeal.Rows

end
-- ==== Proof.OutBody.lean ====
/-
  The output layer's kernel body on whole buffers: sixteen blocks of the second weight matrix are copied, three
  buffers deep, from HBM into the scratch, each waited for before it is read; block q's thirty-two rows are
  multiplied by the q-th thirty-two entries of the hidden row and accumulated into the output buffer, which starts
  from the second bias; then the maximum and the log of the sum of exponentials are subtracted.
-/
import proofs.«202118_g10599979286629_week1_w2_627_56_alg».proof.Proof.GatherTile
import Idealize.ShloMosaic.Lib.Pipeline.FrameBody
import Idealize.ShloMosaic.Lib.Ring
import Idealize.ShloMosaic.Lib.Tactic

set_option maxRecDepth 16384

noncomputable section

namespace Cert.KernelIdeal.Output

open Cert.KernelIdeal Cert.KernelIdeal.Gen Cert.KernelIdeal.Rows
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M`'s buffer on core `c`: its contents type, and it held whole at `f`, at a share. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : Bf (F := F) c M) : sProp 𝕄 :=
  M.view.loc (c : Thread nD τ) ↦{q} f

/-- The body's own semaphores: its three scratch DMA semaphores. -/
abbrev osem : Fin 3 → SemLoc sig := fun | 0 => .dma 10 | 1 => .dma 11 | 2 => .dma 12

/-- The three counters at zero. -/
abbrev sems0 (c : Dev nD) : sProp 𝕄 :=
  iprop(semVal ((c : Thread nD τ), osem 0) 0 ∗ semVal ((c : Thread nD τ), osem 1) 0 ∗ semVal ((c : Thread nD τ), osem 2) 0)

/-- Slot `k` of the three-deep scratch, as the copies address it: the k-th of its three 4×8×100000 blocks. -/
abbrev slot0 : Memref sig .tc .vmem S4x8x100000 .f32 := ((Memref.whole cc2_scratch0 : Memref sig .tc .vmem S3x4x8x100000 .f32).slice (Rect.unit (s := S3x4x8x100000) ![0, 0, 0, 0] S1x4x8x100000.size inb_S3x4x8x100000_S1x4x8x100000_0_0_0_0) (fun _ => rfl)).squeeze S4x8x100000 squeezes_S1x4x8x100000_S4x8x100000
abbrev slot1 : Memref sig .tc .vmem S4x8x100000 .f32 := ((Memref.whole cc2_scratch0 : Memref sig .tc .vmem S3x4x8x100000 .f32).slice (Rect.unit (s := S3x4x8x100000) ![1, 0, 0, 0] S1x4x8x100000.size inb_S3x4x8x100000_S1x4x8x100000_1_0_0_0) (fun _ => rfl)).squeeze S4x8x100000 squeezes_S1x4x8x100000_S4x8x100000
abbrev slot2 : Memref sig .tc .vmem S4x8x100000 .f32 := ((Memref.whole cc2_scratch0 : Memref sig .tc .vmem S3x4x8x100000 .f32).slice (Rect.unit (s := S3x4x8x100000) ![2, 0, 0, 0] S1x4x8x100000.size inb_S3x4x8x100000_S1x4x8x100000_2_0_0_0) (fun _ => rfl)).squeeze S4x8x100000 squeezes_S1x4x8x100000_S4x8x100000

/-- A slot held by its own elements, at contents `f` of the scratch. -/
abbrev slotPt (c : Dev nD) (M : Memref sig .tc .vmem S4x8x100000 .f32) (f : Buf (Elt F) (M.view.loc (c : Thread nD τ))) : sProp 𝕄 :=
  M.view.loc (c : Thread nD τ) ↦[M.view.set]{fullShare} f

/-- The scratch held slot by slot, each at some contents. -/
abbrev slots (c : Dev nD) : sProp 𝕄 :=
  iprop((∃ f, slotPt c slot0 f) ∗ (∃ f, slotPt c slot1 f) ∗ (∃ f, slotPt c slot2 f))

set_option sl_exec.respelt true in
set_option maxHeartbeats 8000000 in
/-- The body runs to its return: from the hidden blocks and the bias row held whole, the output buffer and the three
    slots at anything, a share of the reshaped weights, the three counters at zero and the core owing nothing, it
    hands everything back, the output buffer and the slots at what it left, its sixteen waits recorded. Each copy's
    destination is one slot, held by its own elements; each load of a slot goes through the whole scratch memref. -/
theorem outRun (c : Dev nD) (M0 : Memref sig .tc .vmem S16x1x32 .f32) (h0 : M0.IsWhole) (M1 : Memref sig .tc .vmem S1x100000 .f32) (h1 : M1.IsWhole)
    (M3 : Memref sig .tc .vmem S1x100000 .f32) (h3 : M3.IsWhole)
    (x0 : Vec F S16x1x32 .f32) (x1 : Vec F S1x100000 .f32) (f8 : Bf (F := F) c (Memref.whole main_v8))
    (g0 : Buf (Elt F) ((slot0).view.loc (c : Thread nD τ))) (g1 : Buf (Elt F) ((slot1).view.loc (c : Thread nD τ))) (g2 : Buf (Elt F) ((slot2).view.loc (c : Thread nD τ)))
    (q : PosShare TreeShare) (W : Waits sig (HIx 1)) (Q : PUnit → sProp 𝕄) :
    iprop(owns (c : Thread nD τ) M0 fullShare x0 ∗ owns (c : Thread nD τ) M1 fullShare x1 ∗ (∃ d, owns (c : Thread nD τ) M3 fullShare d)
      ∗ pt c (Memref.whole main_v8) q f8
      ∗ slotPt c slot0 g0 ∗ slotPt c slot1 g1 ∗ slotPt c slot2 g2
      ∗ sems0 c ∗ owes (c : Thread nD τ) 0 W
      ∗ (iprop(owns (c : Thread nD τ) M0 fullShare x0 ∗ owns (c : Thread nD τ) M1 fullShare x1 ∗ (∃ X, owns (c : Thread nD τ) M3 fullShare X)
            ∗ pt c (Memref.whole main_v8) q f8 ∗ slots c ∗ sems0 c
            ∗ ∃ W, owes (c : Thread nD τ) 0 W) -∗ Q ⟨⟩))
    ⊢ wp frame (wpE (defs₀ (F := F)) Variants.none c none) Set.univ
        (cc2__out_body M0 h0 M1 h1 (Memref.whole main_v8) (Memref.isWhole_whole _) M3 h3 (Memref.whole cc2_scratch0) (Memref.isWhole_whole _) cc2_scratch1) Q := by
  unfold owns
  iintro ⟨⟨%f0, %hf0, H0⟩, ⟨%f1, %hf1, H1⟩, ⟨%d3, %f3, -, H3⟩, H8, Hs0, Hs1, Hs2, ⟨Hd0, Hd1, Hd2⟩, HO, Hk⟩
  subst hf0 hf1
  sl_exec!
  sl_exec
  sl_step
  iapply Hk
  isplitl [H0]
  · iexists f0; isplitr; · ipureintro; rfl
    iexact H0
  isplitl [H1]
  · iexists f1; isplitr; · ipureintro; rfl
    iexact H1
  isplitl [H3]
  · iexists _; iexists _; isplitr
    swap; · iexact H3
    ipureintro; rfl
  isplitl [H8]; · iexact H8
  isplitl [Hs0 Hs1 Hs2]
  · isplitl [Hs0]; · iexists _; iexact Hs0
    isplitl [Hs1]; · iexists _; iexact Hs1
    iexists _; iexact Hs2
  isplitl [Hd0 Hd1 Hd2]
  · isplitl [Hd0]; · iexact Hd0
    isplitl [Hd1]; · iexact Hd1
    iexact Hd2
  iexists _; iexact HO

end Cert.KernelIdeal.Output

end
-- ==== Proof.ScratchSlots.lean ====
/-
  The three-deep scratch is its three slots: slot k is the k-th of the three equal parts of the scratch along its
  first axis, the parts are pairwise disjoint and cover it, so the scratch held whole is the three slots held each by
  its own elements, at the same contents, and back.
-/
import proofs.«202118_g10599979286629_week1_w2_627_56_alg».proof.Proof.OutBody
import proofs.«202118_g10599979286629_week1_w2_627_56_alg».proof.Proof.Gen.KernelIdeal.Launch

set_option maxRecDepth 16384

noncomputable section

namespace Cert.KernelIdeal.Output

open Cert.KernelIdeal Cert.KernelIdeal.Gen Cert.KernelIdeal.Rows
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem sdiv : 3 ∣ S3x4x8x100000.size 0 := ⟨1, rfl⟩
/-- The k-th third of the scratch along its first axis. -/
abbrev third (k : Fin 3) : Rect S3x4x8x100000 := Rect.part (s := S3x4x8x100000) (a₀ := 0) sdiv k

theorem r0_eq : Rect.unit (s := S3x4x8x100000) ![0, 0, 0, 0] S1x4x8x100000.size inb_S3x4x8x100000_S1x4x8x100000_0_0_0_0 = third 0 := by
  unfold third Rect.part Rect.block
  congr 1 <;> funext a <;> match a with
    | 0 => simp [Shape.partIx, Shape.partSize]
    | 1 => simp [Shape.partIx, Shape.partSize]
    | 2 => simp [Shape.partIx, Shape.partSize]
    | 3 => simp [Shape.partIx, Shape.partSize]
theorem r1_eq : Rect.unit (s := S3x4x8x100000) ![1, 0, 0, 0] S1x4x8x100000.size inb_S3x4x8x100000_S1x4x8x100000_1_0_0_0 = third 1 := by
  unfold third Rect.part Rect.block
  congr 1 <;> funext a <;> match a with
    | 0 => simp [Shape.partIx, Shape.partSize]
    | 1 => simp [Shape.partIx, Shape.partSize]
    | 2 => simp [Shape.partIx, Shape.partSize]
    | 3 => simp [Shape.partIx, Shape.partSize]
theorem r2_eq : Rect.unit (s := S3x4x8x100000) ![2, 0, 0, 0] S1x4x8x100000.size inb_S3x4x8x100000_S1x4x8x100000_2_0_0_0 = third 2 := by
  unfold third Rect.part Rect.block
  congr 1 <;> funext a <;> match a with
    | 0 => simp [Shape.partIx, Shape.partSize]
    | 1 => simp [Shape.partIx, Shape.partSize]
    | 2 => simp [Shape.partIx, Shape.partSize]
    | 3 => simp [Shape.partIx, Shape.partSize]

/-- The elements of a third, as elements of the scratch. -/
abbrev thirdSet (k : Fin 3) : Finset S3x4x8x100000.Idx := ((Memref.whole cc2_scratch0 : Memref sig .tc .vmem S3x4x8x100000 .f32).view.slice (third k)).set

theorem thirdSet_eq (k : Fin 3) : thirdSet k = (third k).set := by
  show ((View.whole (cc2_scratch0 : Ref sig .tc)).slice (third k)).set = _
  rw [View.set_slice]; exact Finset.map_refl

theorem set_slot0 : (slot0).view.set = thirdSet 0 := by
  rw [thirdSet_eq]
  show ((((View.whole (cc2_scratch0 : Ref sig .tc)).slice (Rect.unit (s := S3x4x8x100000) ![0, 0, 0, 0] S1x4x8x100000.size inb_S3x4x8x100000_S1x4x8x100000_0_0_0_0)).reshape S4x8x100000 squeezes_S1x4x8x100000_S4x8x100000.numel_eq).set) = _
  rw [View.set_reshape, View.set_slice]
  exact Finset.map_refl.trans (congrArg (fun r : Rect S3x4x8x100000 => r.set) r0_eq)
theorem set_slot1 : (slot1).view.set = thirdSet 1 := by
  rw [thirdSet_eq]
  show ((((View.whole (cc2_scratch0 : Ref sig .tc)).slice (Rect.unit (s := S3x4x8x100000) ![1, 0, 0, 0] S1x4x8x100000.size inb_S3x4x8x100000_S1x4x8x100000_1_0_0_0)).reshape S4x8x100000 squeezes_S1x4x8x100000_S4x8x100000.numel_eq).set) = _
  rw [View.set_reshape, View.set_slice]
  exact Finset.map_refl.trans (congrArg (fun r : Rect S3x4x8x100000 => r.set) r1_eq)
theorem set_slot2 : (slot2).view.set = thirdSet 2 := by
  rw [thirdSet_eq]
  show ((((View.whole (cc2_scratch0 : Ref sig .tc)).slice (Rect.unit (s := S3x4x8x100000) ![2, 0, 0, 0] S1x4x8x100000.size inb_S3x4x8x100000_S1x4x8x100000_2_0_0_0)).reshape S4x8x100000 squeezes_S1x4x8x100000_S4x8x100000.numel_eq).set) = _
  rw [View.set_reshape, View.set_slice]
  exact Finset.map_refl.trans (congrArg (fun r : Rect S3x4x8x100000 => r.set) r2_eq)

theorem thirds_disjoint : ∀ i ∈ (Finset.univ : Finset (Fin 3)), ∀ j ∈ (Finset.univ : Finset (Fin 3)), i ≠ j → Disjoint (thirdSet i) (thirdSet j) :=
  fun i _ j _ h => by rw [thirdSet_eq, thirdSet_eq]; exact Rect.part_disjoint sdiv h
theorem thirds_cover : (Finset.univ : Finset (Fin 3)).biUnion thirdSet = Finset.univ :=
  (Finset.biUnion_congr rfl fun i _ => thirdSet_eq i).trans (Rect.biUnion_part sdiv)

/-! ## The scratch whole, and slot by slot -/

abbrev sLoc (c : Dev nD) : Loc nD τ sig := (c : Thread nD τ).loc cc2_scratch0

theorem slotPt0_eq (c : Dev nD) (f : Buf (Elt F) (sLoc c)) : (slotPt c slot0 f : sProp 𝕄) = (sLoc c ↦[thirdSet 0]{fullShare} f) := by
  unfold slotPt; rw [set_slot0]
theorem slotPt1_eq (c : Dev nD) (f : Buf (Elt F) (sLoc c)) : (slotPt c slot1 f : sProp 𝕄) = (sLoc c ↦[thirdSet 1]{fullShare} f) := by
  unfold slotPt; rw [set_slot1]
theorem slotPt2_eq (c : Dev nD) (f : Buf (Elt F) (sLoc c)) : (slotPt c slot2 f : sProp 𝕄) = (sLoc c ↦[thirdSet 2]{fullShare} f) := by
  unfold slotPt; rw [set_slot2]

/-- The scratch held whole is its three thirds held at the same contents. -/
theorem scratch_thirds (c : Dev nD) (f : Buf (Elt F) (sLoc c)) :
    (sLoc c ↦{fullShare} f : sProp 𝕄) = iprop((sLoc c ↦[thirdSet 0]{fullShare} f) ∗ (sLoc c ↦[thirdSet 1]{fullShare} f) ∗ (sLoc c ↦[thirdSet 2]{fullShare} f)) := by
  rw [← bigSep_W2 (fun k : Fin 3 => (sLoc c ↦[thirdSet k]{fullShare} f : sProp 𝕄)),
    ← pointsTo_biUnion Finset.univ (ℓ := sLoc c) thirdSet thirds_disjoint, thirds_cover]

/-- Held whole at some contents, the scratch is held slot by slot. -/
theorem scratch_to_slots (c : Dev nD) : (iprop(∃ f : Buf (Elt F) (sLoc c), sLoc c ↦{fullShare} f) : sProp 𝕄) ⊢ slots c := by
  iintro ⟨%f, H⟩
  ihave H' := (Entails.of_eq (scratch_thirds c f)) $$ H
  icases H' with ⟨H0, H1, H2⟩
  isplitl [H0]; · iexists f; iapply (Entails.of_eq (slotPt0_eq c f).symm); iexact H0
  isplitl [H1]; · iexists f; iapply (Entails.of_eq (slotPt1_eq c f).symm); iexact H1
  iexists f; iapply (Entails.of_eq (slotPt2_eq c f).symm); iexact H2

set_option maxRecDepth 4096 in
/-- Held slot by slot at any contents, the scratch is held whole at some contents. -/
theorem slots_to_scratch (c : Dev nD) : (slots c : sProp 𝕄) ⊢ iprop(∃ f : Buf (Elt F) (sLoc c), sLoc c ↦{fullShare} f) := by
  iintro ⟨⟨%f0, H0⟩, ⟨%f1, H1⟩, ⟨%f2, H2⟩⟩
  let fs : Fin 3 → Buf (Elt F) (sLoc c) := fun k => match k with | 0 => f0 | 1 => f1 | 2 => f2
  ihave H0' := (Entails.of_eq (slotPt0_eq c f0)) $$ H0
  ihave H1' := (Entails.of_eq (slotPt1_eq c f1)) $$ H1
  ihave H2' := (Entails.of_eq (slotPt2_eq c f2)) $$ H2
  ihave H' := (pointsTo_biUnion_join (ℓ := sLoc c) (q := fullShare) (Val := Elt F) Finset.univ thirdSet fs (fs 0) thirds_disjoint) $$ [H0' H1' H2']
  · rw [bigSep_W2]
    isplitl [H0']; · iexact H0'
    isplitl [H1']; · iexact H1'
    iexact H2'
  icases H' with ⟨%g, -, Hg⟩
  rw [thirds_cover]
  iexists g; iexact Hg

end Cert.KernelIdeal.Output

end
-- ==== Proof.OutRegion.lean ====
/-
  The output layer's region: its one-point pipeline stages the sixteen hidden blocks and the second bias row and
  writes back the output row; the body also reads the reshaped second weights from HBM through its own three
  semaphores and its three-deep scratch. The proof data keeps, between the region's ends, the weights whole, the
  three counters at zero and the scratch slot by slot; what the body leaves in the output window is not named (nothing
  after the region reads it but the claim's frame, which does not).
-/
import proofs.«202118_g10599979286629_week1_w2_627_56_alg».proof.Proof.HidRegion
import proofs.«202118_g10599979286629_week1_w2_627_56_alg».proof.Proof.ScratchSlots
import proofs.«202118_g10599979286629_week1_w2_627_56_alg».proof.Proof.Gen.KernelIdeal.Points
import proofs.«202118_g10599979286629_week1_w2_627_56_alg».proof.Proof.Gen.KernelIdeal.Launch
import Idealize.ShloMosaic.Lib.Pipeline.Regions

set_option maxRecDepth 16384

noncomputable section

namespace Cert.KernelIdeal.Rows

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

-- the arrays as the output layer's region finds them
variable (VB : (c : Dev nD) → (b : Ref sig .tc) → Buf (Elt F) ((c : Thread nD τ).loc b))

/-- Window `w`'s block at the one point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (VB c (Pipeline.arrRef spec2 w))

/-- The hidden layer's staging buffers, each whole at some contents. -/
abbrev otherStaging (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f))

/-- The invariant between the region's ends. -/
def Φ2 (c : Dev nD) : sProp 𝕄 :=
  iprop(Output.pt c (Memref.whole main_v8) fullShare (VB c main_v8) ∗ Output.sems0 c ∗ Output.slots c ∗ otherStaging (F := F) c)

/-- The output window is the one whose contents are not named. -/
def fgt2 : Fin cfg2.W → Bool := fun w => decide (w = 2)

/-- The region's proof data on core `c`. -/
def dat2 (c : Dev nD) : Dat τ (Elt F) (HIx 1) ℕ UU ℕ cfg2 c where
  A w := VB c (Pipeline.arrRef spec2 w)
  after w t := match w with
    | ⟨0, _⟩ => iblk2 VB c 0 t
    | ⟨1, _⟩ => iblk2 VB c 1 t
    | ⟨2, _⟩ => Pipeline.Dat.unnamed (cfg := cfg2) 2 t
  Φ _ := Φ2 VB c
  q _ := fullShare
  owed _ := 0

theorem A2_eq (c : Dev nD) (w : Fin cfg2.W) : (dat2 VB c).A w = VB c (Pipeline.arrRef spec2 w) := by dsimp only [dat2]
theorem after2_0 (c : Dev nD) (t : Fin cfg2.N) : (dat2 VB c).after 0 t = iblk2 VB c 0 t := by dsimp only [dat2]
theorem after2_1 (c : Dev nD) (t : Fin cfg2.N) : (dat2 VB c).after 1 t = iblk2 VB c 1 t := by dsimp only [dat2]

/-- Each input window is fetched at the point: its buffer holds its block. -/
theorem before2_0 (c : Dev nD) (t : Fin cfg2.N) (d) : (dat2 VB c).before 0 t d = iblk2 VB c 0 t := by
  unfold Dat.before; rw [if_pos (fetch2_0 t)]; rfl
theorem before2_1 (c : Dev nD) (t : Fin cfg2.N) (d) : (dat2 VB c).before 1 t d = iblk2 VB c 1 t := by
  unfold Dat.before; rw [if_pos (fetch2_1 t)]; rfl

/-- The body at the point: the staged blocks and bias row, the invariant's weights, counters and slots and the core's
    debts go to the body's run; everything comes back, the output window at whatever the body left. -/
theorem sound_body2 (c : Dev nD) (t : Fin cfg2.N) :
    iprop((dat2 VB c).Φ t.castSucc ∗ (dat2 VB c).owesAt ι₀ t.castSucc
        ∗ (∃ d, owns (c : Thread nD τ) (st2_0 t) fullShare ((dat2 VB c).before 0 t d))
        ∗ (∃ d, owns (c : Thread nD τ) (st2_1 t) fullShare ((dat2 VB c).before 1 t d))
        ∗ (∃ X, owns (c : Thread nD τ) (st2_2 t) fullShare X))
      ⊢ wp frame (wpE (defs₀ (F := F)) Variants.none c none) Set.univ (bodyAt2 t) (fun _ =>
          iprop((dat2 VB c).Φ t.succ ∗ (dat2 VB c).owesAt ι₀ t.succ
            ∗ owns (c : Thread nD τ) (st2_0 t) fullShare ((dat2 VB c).after 0 t)
            ∗ owns (c : Thread nD τ) (st2_1 t) fullShare ((dat2 VB c).after 1 t)
            ∗ (∃ X, owns (c : Thread nD τ) (st2_2 t) fullShare X))) := by
  unfold bodyAt2
  simp only [before2_0, before2_1]
  rw [show (dat2 VB c).Φ t.succ = Φ2 VB c from rfl, show (dat2 VB c).Φ t.castSucc = Φ2 VB c from rfl, after2_0, after2_1]
  unfold Φ2 Dat.owesAt Pipeline.owesWithin
  rw [show (dat2 VB c).owed t.castSucc = 0 from rfl, show (dat2 VB c).owed t.succ = 0 from rfl]
  iintro ⟨⟨H8, Hsems, ⟨⟨%g0, Hs0⟩, ⟨%g1, Hs1⟩, ⟨%g2, Hs2⟩⟩, Hoth⟩, ⟨%W, %hW, HO⟩, ⟨%d0, H0⟩, ⟨%d1, H1⟩, H3⟩
  iapply (Output.outRun c _ (hstage2_0 0) _ (hstage2_1 0) _ (hstage2_2 0) (iblk2 VB c 0 t) (iblk2 VB c 1 t) (VB c main_v8) g0 g1 g2 fullShare W _)
  isplitl [H0]; · iexact H0
  isplitl [H1]; · iexact H1
  isplitl [H3]; · iexact H3
  isplitl [H8]; · iexact H8
  isplitl [Hs0]; · iexact Hs0
  isplitl [Hs1]; · iexact Hs1
  isplitl [Hs2]; · iexact Hs2
  isplitl [Hsems]; · iexact Hsems
  isplitl [HO]; · iexact HO
  iintro ⟨H0, H1, H3, H8, Hsl, Hsems, ⟨%W', HO⟩⟩
  isplitl [H8 Hsems Hsl Hoth]
  · isplitl [H8]; · iexact H8
    isplitl [Hsems]; · iexact Hsems
    isplitl [Hsl]; · iexact Hsl
    iexact Hoth
  isplitl [HO]
  · iexists W'; isplitr; · ipureintro; exact fun _ _ => Or.inl trivial
    iexact HO
  isplitl [H0]; · iexact H0
  isplitl [H1]; · iexact H1
  iexact H3

/-- The library's body obligation for the output layer's region, its output window forgotten. -/
theorem body_obligation2 (c : Dev nD) :
    BodyObligation (dat2 VB c) (defs₀ (F := F)) Variants.none ι₀ Set.univ fgt2 := fun t => by
  rw [bigSep_W2, bigSep_W2]
  exact sound_body2 VB c t

end Cert.KernelIdeal.Rows

end
-- ==== Proof.RestRun.lean ====
/-
  The rest of @main over the pipelines' signature, as four segments: the reshapes before the hidden layer, the
  hidden layer's region, the re-layout of the hidden row and the reshapes of the second bias and weights, the output
  layer's region. Each region is entered from the arrays as the segment before left them and leaves them for the
  next; the six argument arrays are written by no segment.
-/
import proofs.«202118_g10599979286629_week1_w2_627_56_alg».proof.Proof.OutRegion
import Idealize.ShloMosaic.Lib.Pipeline.RegionsLoop

set_option maxRecDepth 16384

noncomputable section

namespace Cert.KernelIdeal.Rows

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- No prefetched table. -/
abbrev adm : (p : Fin 2) → (pcfgs (F := F) p).Adm := fun p => (cfgs p).toPCfg_adm
abbrev 𝒱₁ : Variants := Variants.none
/-- The two pipelines' indices, spelt as pairs. -/
abbrev p0 : Fin 2 := ⟨0, by decide⟩
abbrev p1 : Fin 2 := ⟨1, by decide⟩
abbrev LL : GSem nD τ sig → Finset (HIx 1) := (K (F := F)).L
abbrev lvv : GSem nD τ sig → HIx 1 → ℕ := (K (F := F)).lev

/-- The re-layout of the hidden row and the reshapes of the second bias and weights. -/
def opsB : List (HloOp τ sig (Elt F)) :=
  [StableHlo.reshape main_v3 main_v4 rfl shapeCasts_S1x512_S4x16x8,
   StableHlo.unary main_v4 main_v5 ((transpose S16x4x8 [1, 0, 2] · transposes_S4x16x8_S16x4x8_1_0_2) : (⟨S4x16x8, .f32⟩ : BufTy).Contents (Elt F) → (⟨S16x4x8, .f32⟩ : BufTy).Contents (Elt F)),
   StableHlo.reshape main_v5 main_v6 rfl shapeCasts_S16x4x8_S16x1x32,
   StableHlo.reshape main_arg5 main_v7 rfl shapeCasts_S100000_S1x100000,
   StableHlo.reshape main_arg4 main_v8 rfl shapeCasts_S512x100000_S4x16x8x100000]

/-- The rest of @main is the chain of the four fragments. -/
theorem rest_eq_chain : rest (F := F) = Pipeline.chain [StableHlo.seq (opsA (F := F)), Prog.lift (.customCall (Pipeline.entry 0) ()),
    StableHlo.seq (opsB (F := F)), Prog.lift (.customCall (Pipeline.entry 1) ())] := rfl

/-! ## The arrays from segment to segment -/

/-- Before the hidden layer's region; -/
abbrev WA (hpre : PreOK m) (c : Dev nD) : Valuation τ sig (Elt F) := StableHlo.after (opsA (F := F)) (V₁ m hpre c)
abbrev v3' : DevRef τ sig := Proc.devRef .tc main_v3
/-- after it: the hidden row's array at what the region wrote back; -/
def WB0 (hpre : PreOK m) (c : Dev nD) : Valuation τ sig (Elt F) := Function.update (WA m hpre c) v3' ((dat1 m hpre c).arrAt 3 cfg1.N)
/-- before the output layer's region. -/
abbrev WB (hpre : PreOK m) (c : Dev nD) : Valuation τ sig (Elt F) := StableHlo.after (opsB (F := F)) (WB0 m hpre c)
abbrev VBf (hpre : PreOK m) (c : Dev nD) (b : Ref sig .tc) : Buf (Elt F) ((c : Thread nD τ).loc b) := WB m hpre c b

/-- The two regions' proof data, each region's arrays stated directly. -/
def pdats (hpre : PreOK m) : (p : Fin 2) → (c : Dev nD) → Dat τ (Elt F) (HIx 1) ℕ UU ℕ (Pipeline.pin (pcfgs (F := F)) adm p) c
  | ⟨0, _⟩ => fun c => dat1 m hpre c
  | ⟨1, _⟩ => fun c => dat2 (VBf m hpre) c

/-- Which windows' final contents are not named: none of the hidden layer's, the output layer's output. -/
def fgts : (p : Fin 2) → Fin (Pipeline.pin (pcfgs (F := F)) adm p).W → Bool
  | ⟨0, _⟩ => fun _ => false
  | ⟨1, _⟩ => fgt2

/-- The proof data read relationally. -/
def rdats (hpre : PreOK m) (p : Fin 2) (c : Dev nD) : Pipeline.RDat τ (Elt F) (HIx 1) ℕ UU ℕ (Pipeline.pin (pcfgs (F := F)) adm p) c :=
  (pdats m hpre p c).toRForget (fgts (F := F) p)

/-! ## The segments -/

/-- What rides beside the arrays through the segments: the core's debts (none), its recorded waits unconstrained. -/
abbrev Rr (c : Dev nD) : sProp 𝕄 := iprop(∃ W, owes (c : Thread nD τ) (0 : CellTallies nD τ sig (HIx 1)) W)

omit [FloatOps F] [∀ e, Nonempty (Elt F e)] in
/-- An operation on TensorCore references touches unscoped ones only: a host operation names no scoped buffer. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

omit [∀ e, Nonempty (Elt F e)] in
theorem opsA_sub : ∀ op ∈ (opsA (F := F)), op.bufs ⊆ ucRefs := by
  intro op h
  simp only [opsA, List.mem_cons, List.mem_nil_iff, or_false] at h
  rcases h with rfl | rfl <;> exact sub_ucRefs _ (StableHlo.reshape_bufs_sub _ _ _ _ _ _)
omit [∀ e, Nonempty (Elt F e)] in
theorem opsB_sub : ∀ op ∈ (opsB (F := F)), op.bufs ⊆ ucRefs := by
  intro op h
  simp only [opsB, List.mem_cons, List.mem_nil_iff, or_false] at h
  rcases h with rfl | rfl | rfl | rfl | rfl
  · exact sub_ucRefs _ (StableHlo.reshape_bufs_sub _ _ _ _ _ _)
  · exact sub_ucRefs _ (StableHlo.unary_bufs_sub _ _ _ _ _)
  · exact sub_ucRefs _ (StableHlo.reshape_bufs_sub _ _ _ _ _ _)
  · exact sub_ucRefs _ (StableHlo.reshape_bufs_sub _ _ _ _ _ _)
  · exact sub_ucRefs _ (StableHlo.reshape_bufs_sub _ _ _ _ _ _)

/-- The reshapes before the hidden layer's region. -/
def segA (hpre : PreOK m) : Pipeline.HostSeg (Name := ℕ) (U := UU) (pcfgs (F := F)) defs₀ 𝒱₁ (LL (F := F)) (lvv (F := F)) :=
  Pipeline.HostSeg.ofOps _ _ _ _ _ ucRefs (opsA (F := F)) opsA_sub
    (by intro _ h; (repeat (cases h with | head => rfl | tail _ h => ?_)); exact nomatch h) (V₁ m hpre) Rr

/-- The re-layout and reshapes before the output layer's region. -/
def segB (hpre : PreOK m) : Pipeline.HostSeg (Name := ℕ) (U := UU) (pcfgs (F := F)) defs₀ 𝒱₁ (LL (F := F)) (lvv (F := F)) :=
  Pipeline.HostSeg.ofOps _ _ _ _ _ ucRefs (opsB (F := F)) opsB_sub
    (by intro _ h; (repeat (cases h with | head => rfl | tail _ h => ?_)); exact nomatch h) (WB0 m hpre) Rr

/-! ## The hidden layer's region -/

/-- The arrays before the hidden layer's region, as a function of the TensorCore's references; -/
abbrev VAf (hpre : PreOK m) (c : Dev nD) (b : Ref sig .tc) : Buf (Elt F) ((c : Thread nD τ).loc b) := WA m hpre c b
/-- and after it. -/
abbrev VB0f (hpre : PreOK m) (c : Dev nD) (b : Ref sig .tc) : Buf (Elt F) ((c : Thread nD τ).loc b) := WB0 m hpre c b

omit [∀ e, Nonempty (Elt F e)] in
/-- The hidden layer's three input windows keep their arrays; its output window's array is what was written back. -/
theorem arrAt1_eq (hpre : PreOK m) (c : Dev nD) (w : Fin cfg1.W) :
    (dat1 m hpre c).arrAt w cfg1.N = VB0f m hpre c (Pipeline.arrRef spec1 w) := by
  match w with
  | ⟨0, _⟩ =>
    refine ((dat1 m hpre c).arrAt_in 0 (by decide) _).trans ?_
    show WA m hpre c (Proc.devRef .tc main_v1) = WB0 m hpre c (Proc.devRef .tc main_v1)
    unfold WB0; rw [Function.update_of_ne (show (Proc.devRef .tc main_v1 : DevRef τ sig) ≠ v3' by decide)]
  | ⟨1, _⟩ =>
    refine ((dat1 m hpre c).arrAt_in 1 (by decide) _).trans ?_
    show WA m hpre c (Proc.devRef .tc main_arg2) = WB0 m hpre c (Proc.devRef .tc main_arg2)
    unfold WB0; rw [Function.update_of_ne (show (Proc.devRef .tc main_arg2 : DevRef τ sig) ≠ v3' by decide)]
  | ⟨2, _⟩ =>
    refine ((dat1 m hpre c).arrAt_in 2 (by decide) _).trans ?_
    show WA m hpre c (Proc.devRef .tc main_v2) = WB0 m hpre c (Proc.devRef .tc main_v2)
    unfold WB0; rw [Function.update_of_ne (show (Proc.devRef .tc main_v2 : DevRef τ sig) ≠ v3' by decide)]
  | ⟨3, _⟩ =>
    show _ = WB0 m hpre c v3'
    unfold WB0; rw [Function.update_self]; rfl

/-- THE HIDDEN LAYER'S REGION: entered from the arrays as the reshapes left them, its four arrays into the pipeline, the
    other twelve bypassing; left with the hidden row's array at what was written back, everything else as it was. -/
def reg1 (hpre : PreOK m) : Pipeline.RDat.RegionSeg (pcfgs (F := F)) adm (rdats m hpre) ι₀ defs₀ 𝒱₁ (LL (F := F)) (lvv (F := F)) p0 where
  win := launch1.win.to₀
  block_pos := launch1.block_pos
  stage_whole := launch1.stage_whole
  K := PEmpty
  osem := fun k => k.elim
  ho := Pipeline.OwnSemFacts.none spec1
  hbody c := (body_obligation1 m hpre c).loose.toRForget
  hwaits := Pipeline.RDat.hwaits_of_owed_zero _ _ _ _ (LL (F := F)) (lvv (F := F)) p0 fun _ _ => rfl
  pre c := iprop(StableHlo.held (c : Thread nD τ) ucRefs (WA m hpre c) ∗ Rr c)
  post c := iprop(StableHlo.held (c : Thread nD τ) ucRefs (WB0 m hpre c) ∗ Rr c)
  X _ := iprop(emp)
  Y _ := iprop(emp)
  Z c := Pipeline.unscopedRest (Ix := HIx 1) (Name := ℕ) (U := UU) (Lvl := ℕ) spec1 c (VAf m hpre c)
  hentry c := by
    rw [show StableHlo.held (c : Thread nD τ) ucRefs (WA m hpre c) = unscopedBufs c (VAf m hpre c) from (unscopedBufs_held c _).symm]
    have hsplit := Pipeline.RDat.arrays_of_unscopedBufs (pcfgs (F := F)) adm (rdats m hpre) (p := p0) launch1.win launch1.arr_whole c
      (show ∀ w, (dat1 m hpre c).share w = fullShare from (dat1 m hpre c).share_full fun _ => rfl) (VAf m hpre c) fun _ => rfl
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hz
  hin c := by
    change _ ⊢ Pipeline.scopedRest (Ix := HIx 1) (Name := ℕ) (U := UU) (Lvl := ℕ) (Val := Elt F) spec1 c
    iintro ⟨-, -, Hr⟩
    iexact Hr
  hout c := by
    change Pipeline.scopedRest (Ix := HIx 1) (Name := ℕ) (U := UU) (Lvl := ℕ) (Val := Elt F) spec1 c ⊢ _
    rw [Pipeline.ownSems0_none]
    iintro Hr
    isplitr; · iempintro
    isplitr; · iempintro
    iexact Hr
  hexit c := by
    have hjoin := Pipeline.unscopedBufs_of_arrays (pcfgs (F := F)) adm (p := p0) launch1.win launch1.arr_whole c (pdats m hpre)
      (show ∀ w, (dat1 m hpre c).share w = fullShare from (dat1 m hpre c).share_full fun _ => rfl)
      (VAf m hpre c) (VB0f m hpre c) (fun w => (dat1 m hpre c).arrAt w cfg1.N) (arrAt1_eq m hpre c)
      (fun b hb => Function.update_of_ne (fun e => hb (Finset.mem_image.mpr ⟨3, Finset.mem_univ _, (Proc.devRef_injective _ e).symm⟩)) _ _)
    unfold Pipeline.RDat.arraysAt
    rw [bigSep_W1]
    iintro ⟨⟨⟨%F0, %h0, Ha0⟩, ⟨%F1, %h1, Ha1⟩, ⟨%F2, %h2, Ha2⟩, ⟨%F3, %h3, Ha3⟩⟩, HO, -, Hz⟩
    have e0 := ((dat1 m hpre c).toRForget_arrAt_iff (fgt := fun _ => false) (w := 0) rfl cfg1.N F0).mp h0
    have e1 := ((dat1 m hpre c).toRForget_arrAt_iff (fgt := fun _ => false) (w := 1) rfl cfg1.N F1).mp h1
    have e2 := ((dat1 m hpre c).toRForget_arrAt_iff (fgt := fun _ => false) (w := 2) rfl cfg1.N F2).mp h2
    have e3 := ((dat1 m hpre c).toRForget_arrAt_iff (fgt := fun _ => false) (w := 3) rfl cfg1.N F3).mp h3
    subst e0 e1 e2 e3
    imodintro
    isplitr [HO]
    · rw [show StableHlo.held (c : Thread nD τ) ucRefs (WB0 m hpre c) = unscopedBufs c (VB0f m hpre c) from (unscopedBufs_held c _).symm]
      iapply hjoin
      isplitr [Hz]
      · unfold Pipeline.Dat.arrays
        rw [bigSep_W1]
        isplitl [Ha0]; · iexact Ha0
        isplitl [Ha1]; · iexact Ha1
        isplitl [Ha2]; · iexact Ha2
        iexact Ha3
      · iexact Hz
    · unfold Pipeline.RDat.owesAt Pipeline.owesWithin
      icases HO with ⟨%W, -, HO⟩; iexists W; iexact HO

/-! ## The argument arrays reach the end as launched -/

omit [∀ e, Nonempty (Elt F e)] in
theorem opsA_writes (b : Ref sig .tc) (h1 : b ≠ main_v1) (h2 : b ≠ main_v2) :
    ∀ op ∈ (opsA (F := F)), Proc.devRef .tc b ∉ op.writes := by
  intro op hop
  simp only [opsA, List.mem_cons, List.mem_nil_iff, or_false] at hop
  rcases hop with rfl | rfl <;>
    simp only [StableHlo.unary_writes, StableHlo.reshape_writes, Finset.mem_singleton] <;>
    exact StableHlo.devRef_ne_of_ne ‹_›

omit [∀ e, Nonempty (Elt F e)] in
theorem opsB_writes (b : Ref sig .tc) (h4 : b ≠ main_v4) (h5 : b ≠ main_v5) (h6 : b ≠ main_v6) (h7 : b ≠ main_v7) (h8 : b ≠ main_v8) :
    ∀ op ∈ (opsB (F := F)), Proc.devRef .tc b ∉ op.writes := by
  intro op hop
  simp only [opsB, List.mem_cons, List.mem_nil_iff, or_false] at hop
  rcases hop with rfl | rfl | rfl | rfl | rfl <;>
    simp only [StableHlo.unary_writes, StableHlo.reshape_writes, Finset.mem_singleton] <;>
    exact StableHlo.devRef_ne_of_ne ‹_›

omit [∀ e, Nonempty (Elt F e)] in
/-- A reference no segment writes holds its launch contents before the output layer's region. -/
theorem kept (hpre : PreOK m) (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) (h8 : b ≠ main_v8) :
    VBf m hpre c b = m ((c : Thread nD τ).loc b) := by
  show StableHlo.after (opsB (F := F)) (WB0 m hpre c) (Proc.devRef .tc b) = _
  rw [StableHlo.after_of_forall_not_mem (b := Proc.devRef .tc b) (opsB (F := F)) (WB0 m hpre c) (opsB_writes b h4 h5 h6 h7 h8)]
  unfold WB0
  rw [Function.update_of_ne (StableHlo.devRef_ne_of_ne h3)]
  show StableHlo.after (opsA (F := F)) (V₁ m hpre c) (Proc.devRef .tc b) = _
  rw [StableHlo.after_of_forall_not_mem (b := Proc.devRef .tc b) (opsA (F := F)) (V₁ m hpre c) (opsA_writes b h1 h2)]
  unfold V₁
  rw [Function.update_of_ne (StableHlo.devRef_ne_of_ne h0)]

/-! ## The output layer's region -/

omit [FloatOps F] [∀ e, Nonempty (Elt F e)] in
/-- The body's own three counters at zero, listed. -/
theorem ownSems0_eq2 (c : Dev nD) :
    (Pipeline.ownSems0 (Ix := HIx 1) (Name := ℕ) (U := UU) (Lvl := ℕ) (Val := Elt F) (τ := τ) Output.osem c : sProp 𝕄) = Output.sems0 c :=
  Pipeline.ownSems0_eq_of_list c Output.osem [0, 1, 2] (by decide) (by decide)

omit [FloatOps F] [∀ e, Nonempty (Elt F e)] in
/-- The body's three semaphores are scoped, distinct, and none of them a staging semaphore. -/
theorem ownSemFacts2 : Pipeline.OwnSemFacts spec2 Output.osem := by decide

/-- THE OUTPUT LAYER'S REGION: entered from the arrays as the re-layout left them — the staged blocks, the bias row and the
    result's array into the pipeline, the reshaped weights and the body's three counters into the invariant, the six
    argument arrays bypassing —, left with the argument arrays as launched. -/
def reg2 (hpre : PreOK m) : Pipeline.RDat.RegionSeg (pcfgs (F := F)) adm (rdats m hpre) ι₀ defs₀ 𝒱₁ (LL (F := F)) (lvv (F := F)) p1 where
  win := launch2.win.to₀
  block_pos := launch2.block_pos
  stage_whole := launch2.stage_whole
  K := Fin 3
  osem := Output.osem
  ho := ownSemFacts2
  hbody c := (body_obligation2 (VBf m hpre) c).loose.toRForget
  hwaits := Pipeline.RDat.hwaits_of_owed_zero _ _ _ _ (LL (F := F)) (lvv (F := F)) p1 fun _ _ => rfl
  pre c := iprop(StableHlo.held (c : Thread nD τ) ucRefs (WB m hpre c) ∗ Rr c)
  post c := iprop(FIN m c ∗ Rr c)
  X c := iprop(Output.pt c (Memref.whole main_v8) fullShare (VBf m hpre c main_v8) ∗ Output.sems0 c)
  Y _ := iprop(emp)
  Z c := FIN m c
  hentry c := by
    rw [show StableHlo.held (c : Thread nD τ) ucRefs (WB m hpre c) = unscopedBufs c (VBf m hpre c) from (unscopedBufs_held c _).symm, ownSems0_eq2]
    have hsplit := (Pipeline.RDat.arrays_of_unscopedBufs (pcfgs (F := F)) adm (rdats m hpre) (p := p1) launch2.win launch2.arr_whole c
      (show ∀ w, (dat2 (VBf m hpre) c).share w = fullShare from (dat2 (VBf m hpre) c).share_full fun _ => rfl) (VBf m hpre c) fun _ => rfl).trans (sep_mono .rfl (Entails.of_eq (unscopedRest2_eq c (VBf m hpre c))))
    rw [kept m hpre c main_arg0 (by decide) (by decide) (by decide) (by decide) (by decide) (by decide) (by decide) (by decide) (by decide),
      kept m hpre c main_arg1 (by decide) (by decide) (by decide) (by decide) (by decide) (by decide) (by decide) (by decide) (by decide),
      kept m hpre c main_arg2 (by decide) (by decide) (by decide) (by decide) (by decide) (by decide) (by decide) (by decide) (by decide),
      kept m hpre c main_arg3 (by decide) (by decide) (by decide) (by decide) (by decide) (by decide) (by decide) (by decide) (by decide),
      kept m hpre c main_arg4 (by decide) (by decide) (by decide) (by decide) (by decide) (by decide) (by decide) (by decide) (by decide),
      kept m hpre c main_arg5 (by decide) (by decide) (by decide) (by decide) (by decide) (by decide) (by decide) (by decide) (by decide)] at hsplit
    iintro ⟨⟨Hub, HO⟩, Hos, -⟩
    ihave H := hsplit $$ Hub
    icases H with ⟨Ha, A0, A1, A2, A3, A4, A5, -, -, -, -, -, -, H8⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [H8 Hos]
    · isplitl [H8]; · iexact H8
      iexact Hos
    isplitl [A0]; · iexact A0
    isplitl [A1]; · iexact A1
    isplitl [A2]; · iexact A2
    isplitl [A3]; · iexact A3
    isplitl [A4]; · iexact A4
    iexact A5
  hin c := by
    change iprop(_ ∗ _ ∗ Pipeline.scopedRest (Ix := HIx 1) (Name := ℕ) (U := UU) (Lvl := ℕ) (Val := Elt F) spec2 c) ⊢ Φ2 (VBf m hpre) c
    rw [scopedRest2_eq]; unfold Φ2
    iintro ⟨⟨H8, Hos⟩, -, ⟨S0, S1, S2, S3, Hsc⟩⟩
    isplitl [H8]; · iexact H8
    isplitl [Hos]; · iexact Hos
    isplitl [Hsc]; · iapply (Output.scratch_to_slots c); iexact Hsc
    isplitl [S0]; · iexact S0
    isplitl [S1]; · iexact S1
    isplitl [S2]; · iexact S2
    iexact S3
  hout c := by
    change Φ2 (VBf m hpre) c ⊢ iprop(_ ∗ _ ∗ Pipeline.scopedRest (Ix := HIx 1) (Name := ℕ) (U := UU) (Lvl := ℕ) (Val := Elt F) spec2 c)
    rw [scopedRest2_eq, ownSems0_eq2]; unfold Φ2
    iintro ⟨-, Hos, Hsl, ⟨S0, S1, S2, S3⟩⟩
    isplitr; · iempintro
    isplitl [Hos]; · iexact Hos
    isplitl [S0]; · iexact S0
    isplitl [S1]; · iexact S1
    isplitl [S2]; · iexact S2
    isplitl [S3]; · iexact S3
    iapply (Output.slots_to_scratch c); iexact Hsl
  hexit c := by
    iintro ⟨-, HO, -, HZ⟩
    imodintro
    isplitl [HZ]; · iexact HZ
    unfold Pipeline.RDat.owesAt Pipeline.owesWithin
    icases HO with ⟨%W, -, HO⟩; iexists W; iexact HO

/-! ## The four segments, and the rest of @main -/

abbrev segs (hpre : PreOK m) : List (Pipeline.RDat.Seg (pcfgs (F := F)) adm (rdats m hpre) ι₀ defs₀ 𝒱₁ (LL (F := F)) (lvv (F := F))) :=
  [.host (segA m hpre), .region (reg1 m hpre), .host (segB m hpre), .region (reg2 m hpre)]

omit [FloatOps F] [∀ e, Nonempty (Elt F e)] in
/-- After its one SparseCore call the TensorCore owes nothing. -/
theorem Otc_one (d : Dev nD) : (K (F := F)).Otc d 1 = 0 := by
  unfold SparseCore.Cfg.Otc
  exact Finset.sum_eq_zero fun q _ => if_neg (by have := q.isLt; omega)

omit [FloatOps F] [∀ e, Nonempty (Elt F e)] in
/-- With one call, every recorded pair sits at level 7 or below. -/
theorem wbelow_any (d : Dev nD) (W : Waits sig (HIx 1)) : (K (F := F)).WBelow (SparseCore.T d) W (8 * 1) := by
  intro p _
  match p.2 with
  | none => simp
  | some q => have := (K (F := F)).lev_some_le (SparseCore.T d, p.1) q; have := q.isLt; omega

/-- THE REST OF @MAIN, over the pipelines' signature: the four segments in order, from the arrays as the lookup left
    them and the two pipelines' ghost state, to the six argument arrays as launched. -/
theorem restSpec (hpre : PreOK m) : RestSpec m ρ hpre (G (F := F)) (FIN m) := by
  intro κ d
  have hrun : Pipeline.RDat.Seg.run (segs m hpre) = rest (F := F) :=
    (Pipeline.RDat.Seg.run_eq_chain (segs m hpre)).trans (rest_eq_chain (F := F)).symm
  rw [← hrun]
  iintro ⟨#Hctx, ⟨%W, -, HO⟩, Hb, Hheld, -, -, HG⟩
  ihave Hlev := ((K (F := F)).ctx_levAts κ) $$ Hctx
  iapply (Pipeline.RDat.wp_segs (pcfgs (F := F)) adm (rdats m hpre) ι₀ cellOf_inj (EP (F := F)) defs₀ 𝒱₁ (LL (F := F)) (lvv (F := F)) d
    (segs m hpre) Finset.univ (fun c => iprop(StableHlo.held (c : Thread nD τ) ucRefs (V₁ m hpre c) ∗ Rr c)) (fun c => iprop(FIN m c ∗ Rr c))
    (by show ([p0, p1] : List (Fin 2)).Nodup; decide) (fun p _ => Finset.mem_univ p) ⟨.rfl, .rfl, .rfl, .rfl, .rfl⟩)
  isplitr [Hb Hheld HO HG]
  · iintro ⟨-, HF, ⟨%W', HO'⟩⟩
    isplitl [HO']
    · iexists W'; isplitr; · ipureintro; exact wbelow_any d W'
      rw [Otc_one]; iexact HO'
    · iexact HF
  · isplitl [Hb]; · iexact Hb
    isplitl [Hheld HO]
    · isplitl [Hheld]; · iexact Hheld
      iexists W; rw [Otc_one]; iexact HO
    isplitr; · iexact Hlev
    unfold Pipeline.ghostOn Pipeline.PerCore.ghostOn G
    rw [bigSep_sep']
    iexact HG

end Cert.KernelIdeal.Rows

end
-- ==== Proof.FrameIdeal.lean ====
/-
  The frame of the idealized kernel: under the precondition every row number names a row of the table, so the 35
  threads' run ends with the six argument arrays as launched.
-/
import proofs.«202118_g10599979286629_week1_w2_627_56_alg».proof.Defs
import proofs.«202118_g10599979286629_week1_w2_627_56_alg».proof.Proof.RestRun
import proofs.«202118_g10599979286629_week1_w2_627_56_alg».proof.Proof.PreRange
import proofs.«202118_g10599979286629_week1_w2_627_56_alg».proof.Proof.Gen.Pre_input_domain
import proofs.«202118_g10599979286629_week1_w2_627_56_alg».proof.Proof.Gen.KernelIdeal

noncomputable section

namespace Cert.Proof.KernelIdealClaims

open Idealize.ShloMosaic Idealize.SL.Sem

/-- The precondition gives what the run asks of the launch memory: each of the twenty row numbers is below 100000. -/
theorem ok_of_pre (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.KernelIdeal.Rows.PreOK (F := Ideal) m :=
  fun d j => Cert.Pre_input_domain.Range.range_of_pre _ _ _ _ _ _ (h d) j

theorem frame_pi : Cert.frame_KernelIdeal (hKernelIdeal := Cert.KernelIdeal.Gen.facts) (hPre_input_domain := Cert.Pre_input_domain.Gen.facts) :=
  fun m ρ hpre =>
    (θ_run Cert.KernelIdeal.defs _ _).mono (fun _ h c => h c)
      (Cert.KernelIdeal.Rows.run_main' (F := Ideal) m ρ (ok_of_pre m hpre) (Cert.KernelIdeal.Rows.restSpec m ρ (ok_of_pre m hpre)))

end Cert.Proof.KernelIdealClaims

end
-- ==== Proof.RefOps.lean ====
import proofs.«202118_g10599979286629_week1_w2_627_56_alg».proof.Proof.Gen.ReferenceIdeal
import Idealize.ShloMosaic.Lib.StableHlo.Run

/-!
The reference program as a straight line: its forty-eight operations in order, the three
outlined functions (the embedding lookup with its index wrap, the rectifier, the log-softmax)
written out at their call sites over the buffers of each call. Every fair execution ends with
each buffer at the fold of the operations over the launch contents.
-/

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- The operations in order. Lookup: the wrapped index `select (idx < 0) (idx + 100000) idx`, its
    range test `0 ≤ · ≤ 99999` reduced over the unit axis, the gathered rows, and the select between
    them and the not-a-number fill. Then the flattening to one row, the first affine layer and the
    rectifier, the second affine layer, and the log-softmax (maximum, shift, exponential, sum,
    logarithm, shift). -/
abbrev ops : List (HloOp τ sig (Elt F)) :=
  [ TRef.nullary main_call0.c (constantI S_ 32 0#32),
    TRef.unary main_call0.c main_call0.v0 (broadcastInDim S20 ![] bcast_S_S20),
    TRef.binary (TRef.of main_arg0 : TRef sig ⟨S20, .i32⟩) main_call0.v0 main_call0.v1 (cmpi .slt),
    TRef.nullary main_call0.c_0 (constantI S_ 32 100000#32),
    TRef.unary main_call0.c_0 main_call0.v2 (broadcastInDim S20 ![] bcast_S_S20),
    TRef.binary (TRef.of main_arg0 : TRef sig ⟨S20, .i32⟩) main_call0.v2 main_call0.v3 addi,
    TRef.ternary main_call0.v1 main_call0.v3 (TRef.of main_arg0 : TRef sig ⟨S20, .i32⟩) main_call0.call0.v0 select,
    TRef.unary main_call0.call0.v0 main_call0.v5 (broadcastInDim S20x1 ![0] bcast_S20_S20x1_0),
    TRef.nullary main_call0.c_1 (constantI S1 32 99999#32),
    TRef.nullary main_call0.c_2 (constantI S_ 32 0#32),
    TRef.unary main_call0.c_2 main_call0.v6 (broadcastInDim S20x1 ![] bcast_S_S20x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S20x1 ![0, 1] bcast_S1x1_S20x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S20x1_S20_d1 h_S_),
    TRef.binary (TRef.of main_arg1 : TRef sig ⟨S100000x128, .f32⟩) main_call0.v5 main_call0.v13 (fun x i => Host.gather gather_S100000x128_S20x1_S20x128_1_0_n_n_0_1_1128 x i),
    TRef.unary main_call0.v12 main_call0.v14 (broadcastInDim S20x128 ![0] bcast_S20_S20x128_0),
    TRef.nullary main_call0.cst (constant S_ .f32 0x7FC00000#32),
    TRef.unary main_call0.cst main_call0.v15 (broadcastInDim S20x128 ![] bcast_S_S20x128),
    TRef.ternary main_call0.v14 main_call0.v13 main_call0.v15 main_call0.v16 select,
    reshape main_v0 main_v1 rfl shapeCasts_S20x128_S1x2560,
    binary main_v1 main_arg2 main_v2 ((fun l r => Host.dotGeneral dot_S1x2560_S2560x512_S1x512_1_0_0_1_n_n none l r) : (⟨S1x2560, .f32⟩ : BufTy).Contents (Elt F) → (⟨S2560x512, .f32⟩ : BufTy).Contents (Elt F) → (⟨S1x512, .f32⟩ : BufTy).Contents (Elt F)),
    unary main_arg3 main_v3 (broadcastInDim S1x512 ![1] bcast_S512_S1x512_1 : (⟨S512, .f32⟩ : BufTy).Contents (Elt F) → (⟨S1x512, .f32⟩ : BufTy).Contents (Elt F)),
    binary main_v2 main_v3 main_v4 (addf : (⟨S1x512, .f32⟩ : BufTy).Contents (Elt F) → (⟨S1x512, .f32⟩ : BufTy).Contents (Elt F) → (⟨S1x512, .f32⟩ : BufTy).Contents (Elt F)),
    TRef.nullary main_call1.cst (constant S_ .f32 0x00000000#32),
    TRef.unary main_call1.cst main_call1.v0 (broadcastInDim S1x512 ![] bcast_S_S1x512),
    TRef.binary (TRef.of main_v4 : TRef sig ⟨S1x512, .f32⟩) main_call1.v0 main_call1.v1 maximumf,
    binary main_v5 main_arg4 main_v6 ((fun l r => Host.dotGeneral dot_S1x512_S512x100000_S1x100000_1_0_0_1_n_n none l r) : (⟨S1x512, .f32⟩ : BufTy).Contents (Elt F) → (⟨S512x100000, .f32⟩ : BufTy).Contents (Elt F) → (⟨S1x100000, .f32⟩ : BufTy).Contents (Elt F)),
    unary main_arg5 main_v7 (broadcastInDim S1x100000 ![1] bcast_S100000_S1x100000_1 : (⟨S100000, .f32⟩ : BufTy).Contents (Elt F) → (⟨S1x100000, .f32⟩ : BufTy).Contents (Elt F)),
    binary main_v6 main_v7 main_v8 (addf : (⟨S1x100000, .f32⟩ : BufTy).Contents (Elt F) → (⟨S1x100000, .f32⟩ : BufTy).Contents (Elt F) → (⟨S1x100000, .f32⟩ : BufTy).Contents (Elt F)),
    TRef.nullary main_call2.cst (constant S_ .f32 0xFF800000#32),
    TRef.binary (TRef.of main_v8 : TRef sig ⟨S1x100000, .f32⟩) main_call2.cst main_call2.v0 (fun x v => Host.reduce FloatOps.maximumf x v reducesTo_S1x100000_S1_d1 h_S_),
    TRef.nullary main_call2.cst_0 (constant S_ .f32 0xFF800000#32),
    TRef.unary main_call2.cst_0 main_call2.v1 (broadcastInDim S1 ![] bcast_S_S1),
    TRef.binary main_call2.v1 main_call2.v0 main_call2.v2 maximumf,
    TRef.unary main_call2.v2 main_call2.v3 (broadcastInDim S1x1 ![0] bcast_S1_S1x1_0),
    TRef.unary main_call2.v3 main_call2.v4 (broadcastInDim S1x100000 ![0, 1] bcast_S1x1_S1x100000_0_1),
    TRef.binary (TRef.of main_v8 : TRef sig ⟨S1x100000, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S1x100000_S1_d1 h_S_),
    TRef.unary main_call2.v7 main_call2.v8 (broadcastInDim S1x1 ![0] bcast_S1_S1x1_0),
    TRef.unary main_call2.v8 main_call2.v9 Host.log,
    TRef.unary main_call2.v9 main_call2.v10 (broadcastInDim S1x100000 ![0, 1] bcast_S1x1_S1x100000_0_1),
    TRef.binary main_call2.v5 main_call2.v10 main_call2.v11 subf ]

-- forty-eight binds re-associated, one recursion per statement
set_option maxRecDepth 1024 in
/-- The program is that line: the three functions unfolded at their calls, the sequencing re-associated. -/
theorem main_eq (c : Dev nD) : main (F := F) c = seq ops := by
  simp only [main, fn_take.body, fn_where.body, fn_relu.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    reshape_bufs_sub .., binary_bufs_sub .., unary_bufs_sub .., binary_bufs_sub ..,
    nullary_bufs_sub .., unary_bufs_sub .., binary_bufs_sub ..,
    binary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

/-- Every fair execution ends with each buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefArgs.lean ====
import proofs.«202118_g10599979286629_week1_w2_627_56_alg».proof.Proof.RefOps

/-!
No operation of the reference writes an argument buffer: after the whole line each of the six
arguments holds what it held at launch.
-/

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- Every fair execution of the reference terminates with its six arguments unchanged. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_all m ρ)

end Cert.ReferenceIdeal.RefRun

end
-- ==== Proof.RefFrame.lean ====
import proofs.«202118_g10599979286629_week1_w2_627_56_alg».proof.Defs
import proofs.«202118_g10599979286629_week1_w2_627_56_alg».proof.Proof.Gen.Pre_input_domain
import proofs.«202118_g10599979286629_week1_w2_627_56_alg».proof.Proof.RefArgs

/-!
The reference's frame: it runs to the end, nothing faults, and its arguments end unchanged —
the run of the straight line with the result's value dropped. The precondition is not used.
-/

noncomputable section

namespace Cert.Proof.RefClaims

open Idealize.ShloMosaic Idealize.SL.Sem

theorem frame_ri :
    Cert.frame_ReferenceIdeal (hReferenceIdeal := Cert.ReferenceIdeal.Gen.facts)
      (hPre_input_domain := Cert.Pre_input_domain.Gen.facts) :=
  fun m ρ _ => Cert.ReferenceIdeal.RefRun.run_args (F := Ideal) m ρ

end Cert.Proof.RefClaims

end
-- ==== Proof.OutBodyV.lean ====
/-
  The output layer's body again, now saying what it leaves in the output buffer: the buffer's contents after the
  body's seventeen stores, the last of which covers it.
-/
import proofs.«202118_g10599979286629_week1_w2_627_56_alg».proof.Proof.OutBody

set_option maxRecDepth 16384

noncomputable section

namespace Cert.KernelIdeal.Output

open Cert.KernelIdeal Cert.KernelIdeal.Gen Cert.KernelIdeal.Rows
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The output buffer's contents after the body: its stores, newest first, over anything. -/
def outBuf (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) : BufTy.Contents (Elt F) M3.view.ty :=
  M3.view.writes (Elt F) M3.view.junk (outRun.sl.H3_17 c M0 M1 M3 f8 f0 f1)

set_option sl_exec.respelt true in
set_option maxHeartbeats 8000000 in
/-- The body's run, the output buffer's final contents named. -/
theorem outRunV (c : Dev nD) (M0 : Memref sig .tc .vmem S16x1x32 .f32) (h0 : M0.IsWhole) (M1 : Memref sig .tc .vmem S1x100000 .f32) (h1 : M1.IsWhole)
    (M3 : Memref sig .tc .vmem S1x100000 .f32) (h3 : M3.IsWhole)
    (f0 : BufTy.Contents (Elt F) M0.view.ty) (f1 : BufTy.Contents (Elt F) M1.view.ty) (f3 : BufTy.Contents (Elt F) M3.view.ty) (f8 : Bf (F := F) c (Memref.whole main_v8))
    (g0 : Buf (Elt F) ((slot0).view.loc (c : Thread nD τ))) (g1 : Buf (Elt F) ((slot1).view.loc (c : Thread nD τ))) (g2 : Buf (Elt F) ((slot2).view.loc (c : Thread nD τ)))
    (q : PosShare TreeShare) (W : Waits sig (HIx 1)) (Q : PUnit → sProp 𝕄) :
    iprop((M0.view.loc (c : Thread nD τ) ↦[M0.view.set]{fullShare} f0) ∗ (M1.view.loc (c : Thread nD τ) ↦[M1.view.set]{fullShare} f1)
      ∗ (M3.view.loc (c : Thread nD τ) ↦[M3.view.set]{fullShare} f3)
      ∗ pt c (Memref.whole main_v8) q f8
      ∗ slotPt c slot0 g0 ∗ slotPt c slot1 g1 ∗ slotPt c slot2 g2
      ∗ sems0 c ∗ owes (c : Thread nD τ) 0 W
      ∗ (iprop((M0.view.loc (c : Thread nD τ) ↦[M0.view.set]{fullShare} f0) ∗ (M1.view.loc (c : Thread nD τ) ↦[M1.view.set]{fullShare} f1)
            ∗ (M3.view.loc (c : Thread nD τ) ↦[M3.view.set]{fullShare} outBuf c M0 M1 M3 f8 f0 f1)
            ∗ pt c (Memref.whole main_v8) q f8 ∗ slots c ∗ sems0 c
            ∗ ∃ W, owes (c : Thread nD τ) 0 W) -∗ Q ⟨⟩))
    ⊢ wp frame (wpE (defs₀ (F := F)) Variants.none c none) Set.univ
        (cc2__out_body M0 h0 M1 h1 (Memref.whole main_v8) (Memref.isWhole_whole _) M3 h3 (Memref.whole cc2_scratch0) (Memref.isWhole_whole _) cc2_scratch1) Q := by
  iintro ⟨H0, H1, H3, H8, Hs0, Hs1, Hs2, ⟨Hd0, Hd1, Hd2⟩, HO, Hk⟩
  sl_exec!
  sl_exec
  sl_step
  iapply Hk
  isplitl [H0]; · iexact H0
  isplitl [H1]; · iexact H1
  isplitl [H3]; · iexact H3
  isplitl [H8]; · iexact H8
  isplitl [Hs0 Hs1 Hs2]
  · isplitl [Hs0]; · iexists _; iexact Hs0
    isplitl [Hs1]; · iexists _; iexact Hs1
    iexists _; iexact Hs2
  isplitl [Hd0 Hd1 Hd2]
  · isplitl [Hd0]; · iexact Hd0
    isplitl [Hd1]; · iexact Hd1
    iexact Hd2
  iexists _; iexact HO

end Cert.KernelIdeal.Output

end
-- ==== Proof.OutRegionV.lean ====
/-
  The output layer's region again, now naming what the body leaves in the output window: the proof data's output
  window ends at the output buffer's contents after the body's stores, computed from the two staged blocks as the
  region finds them and the reshaped second weights; the body obligation hands every window back at named contents.
-/
import proofs.«202118_g10599979286629_week1_w2_627_56_alg».proof.Proof.OutRegion
import proofs.«202118_g10599979286629_week1_w2_627_56_alg».proof.Proof.OutBodyV

set_option maxRecDepth 16384

noncomputable section

namespace Cert.KernelIdeal.Rows

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

-- the arrays as the output layer's region finds them
variable (VB : (c : Dev nD) → (b : Ref sig .tc) → Buf (Elt F) ((c : Thread nD τ).loc b))

/-- What the body leaves in the output window's buffer at the one point: the output buffer's contents after the body's
    stores, from the two staged blocks as the region finds them and the reshaped second weights. -/
def oblk2 (c : Dev nD) (t : Fin cfg2.N) : (cfg2.win 2).block.Idx → Elt F (cfg2.win 2).elt :=
  Output.outBuf c (st2_0 t) (st2_1 t) (st2_2 t) (VB c main_v8) (iblk2 VB c 0 t) (iblk2 VB c 1 t)

/-- The region's proof data on core `c`, the output window's contents named. -/
def dat2V (c : Dev nD) : Dat τ (Elt F) (HIx 1) ℕ UU ℕ cfg2 c where
  A w := VB c (Pipeline.arrRef spec2 w)
  after w t := match w with
    | ⟨0, _⟩ => iblk2 VB c 0 t
    | ⟨1, _⟩ => iblk2 VB c 1 t
    | ⟨2, _⟩ => oblk2 VB c t
  Φ _ := Φ2 VB c
  q _ := fullShare
  owed _ := 0

theorem A2V_eq (c : Dev nD) (w : Fin cfg2.W) : (dat2V VB c).A w = VB c (Pipeline.arrRef spec2 w) := by dsimp only [dat2V]
theorem after2V_0 (c : Dev nD) (t : Fin cfg2.N) : (dat2V VB c).after 0 t = iblk2 VB c 0 t := by dsimp only [dat2V]
theorem after2V_1 (c : Dev nD) (t : Fin cfg2.N) : (dat2V VB c).after 1 t = iblk2 VB c 1 t := by dsimp only [dat2V]
/-- The output window's buffer ends at the output buffer's named contents. -/
theorem after2V_2 (c : Dev nD) (t : Fin cfg2.N) : (dat2V VB c).after 2 t = oblk2 VB c t := by dsimp only [dat2V]

/-- Each input window is fetched at the point: its buffer holds its block. -/
theorem before2V_0 (c : Dev nD) (t : Fin cfg2.N) (d) : (dat2V VB c).before 0 t d = iblk2 VB c 0 t := by
  unfold Dat.before; rw [if_pos (fetch2_0 t)]; rfl
theorem before2V_1 (c : Dev nD) (t : Fin cfg2.N) (d) : (dat2V VB c).before 1 t d = iblk2 VB c 1 t := by
  unfold Dat.before; rw [if_pos (fetch2_1 t)]; rfl

omit [∀ e, Nonempty (Elt F e)] in
/-- The output window's staging memref is a whole buffer: it reads its buffer's contents as they are. -/
theorem read_st2_2 (t : Fin cfg2.N) (f : BufTy.Contents (Elt F) (st2_2 t).view.ty) : (st2_2 t).view.read (Elt F) f = f := rfl

/-- The body at the point: the staged blocks and bias row, the invariant's weights, counters and slots and the core's
    debts go to the body's run; everything comes back, the output window at the output buffer's named contents. -/
theorem sound_body2V (c : Dev nD) (t : Fin cfg2.N) :
    iprop((dat2V VB c).Φ t.castSucc ∗ (dat2V VB c).owesAt ι₀ t.castSucc
        ∗ (∃ d, owns (c : Thread nD τ) (st2_0 t) fullShare ((dat2V VB c).before 0 t d))
        ∗ (∃ d, owns (c : Thread nD τ) (st2_1 t) fullShare ((dat2V VB c).before 1 t d))
        ∗ (∃ d, owns (c : Thread nD τ) (st2_2 t) fullShare ((dat2V VB c).before 2 t d)))
      ⊢ wp frame (wpE (defs₀ (F := F)) Variants.none c none) Set.univ (bodyAt2 t) (fun _ =>
          iprop((dat2V VB c).Φ t.succ ∗ (dat2V VB c).owesAt ι₀ t.succ
            ∗ owns (c : Thread nD τ) (st2_0 t) fullShare ((dat2V VB c).after 0 t)
            ∗ owns (c : Thread nD τ) (st2_1 t) fullShare ((dat2V VB c).after 1 t)
            ∗ owns (c : Thread nD τ) (st2_2 t) fullShare ((dat2V VB c).after 2 t))) := by
  unfold bodyAt2
  simp only [before2V_0, before2V_1]
  rw [show (dat2V VB c).Φ t.succ = Φ2 VB c from rfl, show (dat2V VB c).Φ t.castSucc = Φ2 VB c from rfl, after2V_0, after2V_1, after2V_2]
  unfold oblk2
  unfold Φ2 Dat.owesAt Pipeline.owesWithin owns
  rw [show (dat2V VB c).owed t.castSucc = 0 from rfl, show (dat2V VB c).owed t.succ = 0 from rfl]
  iintro ⟨⟨H8, Hsems, ⟨⟨%g0, Hs0⟩, ⟨%g1, Hs1⟩, ⟨%g2, Hs2⟩⟩, Hoth⟩, ⟨%W, %hW, HO⟩, ⟨%d0, %f0, %hf0, H0⟩, ⟨%d1, %f1, %hf1, H1⟩, ⟨%d3, %f3, -, H3⟩⟩
  have e0 : f0 = iblk2 VB c 0 t := hf0
  have e1 : f1 = iblk2 VB c 1 t := hf1
  subst e0 e1
  iapply (Output.outRunV c _ (hstage2_0 0) _ (hstage2_1 0) _ (hstage2_2 0) (iblk2 VB c 0 t) (iblk2 VB c 1 t) f3 (VB c main_v8) g0 g1 g2 fullShare W _)
  isplitl [H0]; · iexact H0
  isplitl [H1]; · iexact H1
  isplitl [H3]; · iexact H3
  isplitl [H8]; · iexact H8
  isplitl [Hs0]; · iexact Hs0
  isplitl [Hs1]; · iexact Hs1
  isplitl [Hs2]; · iexact Hs2
  isplitl [Hsems]; · iexact Hsems
  isplitl [HO]; · iexact HO
  iintro ⟨H0, H1, H3, H8, Hsl, Hsems, ⟨%W', HO⟩⟩
  isplitl [H8 Hsems Hsl Hoth]
  · isplitl [H8]; · iexact H8
    isplitl [Hsems]; · iexact Hsems
    isplitl [Hsl]; · iexact Hsl
    iexact Hoth
  isplitl [HO]
  · iexists W'; isplitr; · ipureintro; exact fun _ _ => Or.inl trivial
    iexact HO
  isplitl [H0]
  · iexists _; isplitr; · ipureintro; exact hf0
    iexact H0
  isplitl [H1]
  · iexists _; isplitr; · ipureintro; exact hf1
    iexact H1
  iexists _; isplitr
  swap; · iexact H3
  ipureintro; exact read_st2_2 t _

/-- The library's body obligation for the output layer's region, nothing forgotten. -/
theorem body_obligation2V (c : Dev nD) :
    BodyObligation (dat2V VB c) (defs₀ (F := F)) Variants.none ι₀ Set.univ := fun t => by
  rw [bigSep_W2, bigSep_W2]
  exact sound_body2V VB c t

end Cert.KernelIdeal.Rows

end
-- ==== Proof.RestRunV.lean ====
/-
  The rest of @main again, the result named: the same four segments, the output layer's region now keeping the
  result's array at what its one write-back left there, so that the run ends with the six argument arrays as launched
  and the result's array at named contents.
-/
import proofs.«202118_g10599979286629_week1_w2_627_56_alg».proof.Proof.RestRun
import proofs.«202118_g10599979286629_week1_w2_627_56_alg».proof.Proof.OutRegionV

set_option maxRecDepth 16384

noncomputable section

namespace Cert.KernelIdeal.Rows

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- The two regions' proof data, the output layer's naming what its body leaves in the output window. -/
def pdatsV (hpre : PreOK m) : (p : Fin 2) → (c : Dev nD) → Dat τ (Elt F) (HIx 1) ℕ UU ℕ (Pipeline.pin (pcfgs (F := F)) adm p) c
  | ⟨0, _⟩ => fun c => dat1 m hpre c
  | ⟨1, _⟩ => fun c => dat2V (VBf m hpre) c

/-- The proof data read relationally, no window forgotten. -/
def rdatsV (hpre : PreOK m) (p : Fin 2) (c : Dev nD) : Pipeline.RDat τ (Elt F) (HIx 1) ℕ UU ℕ (Pipeline.pin (pcfgs (F := F)) adm p) c :=
  (pdatsV m hpre p c).toRForget (fun _ => false)

/-! ## The hidden layer's region -/

/-- THE HIDDEN LAYER'S REGION: entered from the arrays as the reshapes left them, its four arrays into the pipeline, the
    other twelve bypassing; left with the hidden row's array at what was written back, everything else as it was. -/
def reg1V (hpre : PreOK m) : Pipeline.RDat.RegionSeg (pcfgs (F := F)) adm (rdatsV m hpre) ι₀ defs₀ 𝒱₁ (LL (F := F)) (lvv (F := F)) p0 where
  win := launch1.win.to₀
  block_pos := launch1.block_pos
  stage_whole := launch1.stage_whole
  K := PEmpty
  osem := fun k => k.elim
  ho := Pipeline.OwnSemFacts.none spec1
  hbody c := (body_obligation1 m hpre c).loose.toRForget
  hwaits := Pipeline.RDat.hwaits_of_owed_zero _ _ _ _ (LL (F := F)) (lvv (F := F)) p0 fun _ _ => rfl
  pre c := iprop(StableHlo.held (c : Thread nD τ) ucRefs (WA m hpre c) ∗ Rr c)
  post c := iprop(StableHlo.held (c : Thread nD τ) ucRefs (WB0 m hpre c) ∗ Rr c)
  X _ := iprop(emp)
  Y _ := iprop(emp)
  Z c := Pipeline.unscopedRest (Ix := HIx 1) (Name := ℕ) (U := UU) (Lvl := ℕ) spec1 c (VAf m hpre c)
  hentry c := by
    rw [show StableHlo.held (c : Thread nD τ) ucRefs (WA m hpre c) = unscopedBufs c (VAf m hpre c) from (unscopedBufs_held c _).symm]
    have hsplit := Pipeline.RDat.arrays_of_unscopedBufs (pcfgs (F := F)) adm (rdatsV m hpre) (p := p0) launch1.win launch1.arr_whole c
      (show ∀ w, (dat1 m hpre c).share w = fullShare from (dat1 m hpre c).share_full fun _ => rfl) (VAf m hpre c) fun _ => rfl
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hz
  hin c := by
    change _ ⊢ Pipeline.scopedRest (Ix := HIx 1) (Name := ℕ) (U := UU) (Lvl := ℕ) (Val := Elt F) spec1 c
    iintro ⟨-, -, Hr⟩
    iexact Hr
  hout c := by
    change Pipeline.scopedRest (Ix := HIx 1) (Name := ℕ) (U := UU) (Lvl := ℕ) (Val := Elt F) spec1 c ⊢ _
    rw [Pipeline.ownSems0_none]
    iintro Hr
    isplitr; · iempintro
    isplitr; · iempintro
    iexact Hr
  hexit c := by
    have hjoin := Pipeline.unscopedBufs_of_arrays (pcfgs (F := F)) adm (p := p0) launch1.win launch1.arr_whole c (pdatsV m hpre)
      (show ∀ w, (dat1 m hpre c).share w = fullShare from (dat1 m hpre c).share_full fun _ => rfl)
      (VAf m hpre c) (VB0f m hpre c) (fun w => (dat1 m hpre c).arrAt w cfg1.N) (arrAt1_eq m hpre c)
      (fun b hb => Function.update_of_ne (fun e => hb (Finset.mem_image.mpr ⟨3, Finset.mem_univ _, (Proc.devRef_injective _ e).symm⟩)) _ _)
    unfold Pipeline.RDat.arraysAt
    rw [bigSep_W1]
    iintro ⟨⟨⟨%F0, %h0, Ha0⟩, ⟨%F1, %h1, Ha1⟩, ⟨%F2, %h2, Ha2⟩, ⟨%F3, %h3, Ha3⟩⟩, HO, -, Hz⟩
    have e0 := ((dat1 m hpre c).toRForget_arrAt_iff (fgt := fun _ => false) (w := 0) rfl cfg1.N F0).mp h0
    have e1 := ((dat1 m hpre c).toRForget_arrAt_iff (fgt := fun _ => false) (w := 1) rfl cfg1.N F1).mp h1
    have e2 := ((dat1 m hpre c).toRForget_arrAt_iff (fgt := fun _ => false) (w := 2) rfl cfg1.N F2).mp h2
    have e3 := ((dat1 m hpre c).toRForget_arrAt_iff (fgt := fun _ => false) (w := 3) rfl cfg1.N F3).mp h3
    subst e0 e1 e2 e3
    imodintro
    isplitr [HO]
    · rw [show StableHlo.held (c : Thread nD τ) ucRefs (WB0 m hpre c) = unscopedBufs c (VB0f m hpre c) from (unscopedBufs_held c _).symm]
      iapply hjoin
      isplitr [Hz]
      · unfold Pipeline.Dat.arrays
        rw [bigSep_W1]
        isplitl [Ha0]; · iexact Ha0
        isplitl [Ha1]; · iexact Ha1
        isplitl [Ha2]; · iexact Ha2
        iexact Ha3
      · iexact Hz
    · unfold Pipeline.RDat.owesAt Pipeline.owesWithin
      icases HO with ⟨%W, -, HO⟩; iexists W; iexact HO

/-! ## The output layer's region -/

omit [FloatOps F] [∀ e, Nonempty (Elt F e)] in
/-- A buffer held over a set of elements that is all of them, at a share that is the full one, is held whole. -/
theorem pointsTo_univ_full (ℓ : Loc nD τ sig) (I : Finset (Idx ℓ)) (q : PosShare TreeShare) (f : Buf (Elt F) ℓ)
    (hI : I = Finset.univ) (hq : q = fullShare) : ((ℓ ↦[I]{q} f) : sProp 𝕄) ⊢ (ℓ ↦{fullShare} f) := by
  subst hI hq; exact .rfl

/-- What the run leaves in the result's array on core `c`: its launch contents after the output window's one
    write-back, of what the body left in the window's buffer. -/
def kernVal (hpre : PreOK m) (c : Dev nD) : Buf (Elt F) (aLoc main_v9 c) := (dat2V (VBf m hpre) c).arrAt 2 cfg2.N

/-- What @main leaves the claim: the six argument arrays as launched and the result's array at `kernVal`. -/
abbrev FINV (hpre : PreOK m) (c : Dev nD) : sProp 𝕄 := iprop(FIN m c ∗ (aLoc main_v9 c ↦{fullShare} kernVal m hpre c))

/-- THE OUTPUT LAYER'S REGION: entered from the arrays as the re-layout left them — the staged blocks, the bias row and the
    result's array into the pipeline, the reshaped weights and the body's three counters into the invariant, the six
    argument arrays bypassing —, left with the argument arrays as launched and the result's array at what was written
    back. -/
def reg2V (hpre : PreOK m) : Pipeline.RDat.RegionSeg (pcfgs (F := F)) adm (rdatsV m hpre) ι₀ defs₀ 𝒱₁ (LL (F := F)) (lvv (F := F)) p1 where
  win := launch2.win.to₀
  block_pos := launch2.block_pos
  stage_whole := launch2.stage_whole
  K := Fin 3
  osem := Output.osem
  ho := ownSemFacts2
  hbody c := (body_obligation2V (VBf m hpre) c).loose.toRForget
  hwaits := Pipeline.RDat.hwaits_of_owed_zero _ _ _ _ (LL (F := F)) (lvv (F := F)) p1 fun _ _ => rfl
  pre c := iprop(StableHlo.held (c : Thread nD τ) ucRefs (WB m hpre c) ∗ Rr c)
  post c := iprop(FINV m hpre c ∗ Rr c)
  X c := iprop(Output.pt c (Memref.whole main_v8) fullShare (VBf m hpre c main_v8) ∗ Output.sems0 c)
  Y _ := iprop(emp)
  Z c := FIN m c
  hentry c := by
    rw [show StableHlo.held (c : Thread nD τ) ucRefs (WB m hpre c) = unscopedBufs c (VBf m hpre c) from (unscopedBufs_held c _).symm, ownSems0_eq2]
    have hsplit := (Pipeline.RDat.arrays_of_unscopedBufs (pcfgs (F := F)) adm (rdatsV m hpre) (p := p1) launch2.win launch2.arr_whole c
      (show ∀ w, (dat2V (VBf m hpre) c).share w = fullShare from (dat2V (VBf m hpre) c).share_full fun _ => rfl) (VBf m hpre c) fun _ => rfl).trans (sep_mono .rfl (Entails.of_eq (unscopedRest2_eq c (VBf m hpre c))))
    rw [kept m hpre c main_arg0 (by decide) (by decide) (by decide) (by decide) (by decide) (by decide) (by decide) (by decide) (by decide),
      kept m hpre c main_arg1 (by decide) (by decide) (by decide) (by decide) (by decide) (by decide) (by decide) (by decide) (by decide),
      kept m hpre c main_arg2 (by decide) (by decide) (by decide) (by decide) (by decide) (by decide) (by decide) (by decide) (by decide),
      kept m hpre c main_arg3 (by decide) (by decide) (by decide) (by decide) (by decide) (by decide) (by decide) (by decide) (by decide),
      kept m hpre c main_arg4 (by decide) (by decide) (by decide) (by decide) (by decide) (by decide) (by decide) (by decide) (by decide),
      kept m hpre c main_arg5 (by decide) (by decide) (by decide) (by decide) (by decide) (by decide) (by decide) (by decide) (by decide)] at hsplit
    iintro ⟨⟨Hub, HO⟩, Hos, -⟩
    ihave H := hsplit $$ Hub
    icases H with ⟨Ha, A0, A1, A2, A3, A4, A5, -, -, -, -, -, -, H8⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [H8 Hos]
    · isplitl [H8]; · iexact H8
      iexact Hos
    isplitl [A0]; · iexact A0
    isplitl [A1]; · iexact A1
    isplitl [A2]; · iexact A2
    isplitl [A3]; · iexact A3
    isplitl [A4]; · iexact A4
    iexact A5
  hin c := by
    change iprop(_ ∗ _ ∗ Pipeline.scopedRest (Ix := HIx 1) (Name := ℕ) (U := UU) (Lvl := ℕ) (Val := Elt F) spec2 c) ⊢ Φ2 (VBf m hpre) c
    rw [scopedRest2_eq]; unfold Φ2
    iintro ⟨⟨H8, Hos⟩, -, ⟨S0, S1, S2, S3, Hsc⟩⟩
    isplitl [H8]; · iexact H8
    isplitl [Hos]; · iexact Hos
    isplitl [Hsc]; · iapply (Output.scratch_to_slots c); iexact Hsc
    isplitl [S0]; · iexact S0
    isplitl [S1]; · iexact S1
    isplitl [S2]; · iexact S2
    iexact S3
  hout c := by
    change Φ2 (VBf m hpre) c ⊢ iprop(_ ∗ _ ∗ Pipeline.scopedRest (Ix := HIx 1) (Name := ℕ) (U := UU) (Lvl := ℕ) (Val := Elt F) spec2 c)
    rw [scopedRest2_eq, ownSems0_eq2]; unfold Φ2
    iintro ⟨-, Hos, Hsl, ⟨S0, S1, S2, S3⟩⟩
    isplitr; · iempintro
    isplitl [Hos]; · iexact Hos
    isplitl [S0]; · iexact S0
    isplitl [S1]; · iexact S1
    isplitl [S2]; · iexact S2
    isplitl [S3]; · iexact S3
    iapply (Output.slots_to_scratch c); iexact Hsl
  hexit c := by
    have hset : (((Pipeline.pin (pcfgs (F := F)) adm p1).win 2).arr.view.set) = Finset.univ := (launch2.arr_whole 2).set_eq_univ
    have hsh : (rdatsV m hpre p1 c).share 2 = fullShare := (dat2V (VBf m hpre) c).share_full (fun _ => rfl) 2
    unfold Pipeline.RDat.arraysAt
    rw [bigSep_W2]
    iintro ⟨⟨-, -, ⟨%F2, %h2, Ha2⟩⟩, HO, -, HZ⟩
    have e2 := ((dat2V (VBf m hpre) c).toRForget_arrAt_iff (fgt := fun _ => false) (w := 2) rfl cfg2.N F2).mp h2
    subst e2
    imodintro
    isplitr [HO]
    · isplitl [HZ]; · iexact HZ
      iapply (pointsTo_univ_full (F := F) (aLoc main_v9 c) _ _ (kernVal m hpre c) hset hsh)
      iexact Ha2
    unfold Pipeline.RDat.owesAt Pipeline.owesWithin
    icases HO with ⟨%W, -, HO⟩; iexists W; iexact HO

/-! ## The four segments, and the rest of @main -/

abbrev segsV (hpre : PreOK m) : List (Pipeline.RDat.Seg (pcfgs (F := F)) adm (rdatsV m hpre) ι₀ defs₀ 𝒱₁ (LL (F := F)) (lvv (F := F))) :=
  [.host (segA m hpre), .region (reg1V m hpre), .host (segB m hpre), .region (reg2V m hpre)]

/-- THE REST OF @MAIN, over the pipelines' signature: the four segments in order, from the arrays as the lookup left
    them and the two pipelines' ghost state, to the six argument arrays as launched and the result's array at what
    the output layer wrote back. -/
theorem restSpecV (hpre : PreOK m) : RestSpec m ρ hpre (G (F := F)) (FINV m hpre) := by
  intro κ d
  have hrun : Pipeline.RDat.Seg.run (segsV m hpre) = rest (F := F) :=
    (Pipeline.RDat.Seg.run_eq_chain (segsV m hpre)).trans (rest_eq_chain (F := F)).symm
  rw [← hrun]
  iintro ⟨#Hctx, ⟨%W, -, HO⟩, Hb, Hheld, -, -, HG⟩
  ihave Hlev := ((K (F := F)).ctx_levAts κ) $$ Hctx
  iapply (Pipeline.RDat.wp_segs (pcfgs (F := F)) adm (rdatsV m hpre) ι₀ cellOf_inj (EP (F := F)) defs₀ 𝒱₁ (LL (F := F)) (lvv (F := F)) d
    (segsV m hpre) Finset.univ (fun c => iprop(StableHlo.held (c : Thread nD τ) ucRefs (V₁ m hpre c) ∗ Rr c)) (fun c => iprop(FINV m hpre c ∗ Rr c))
    (by show ([p0, p1] : List (Fin 2)).Nodup; decide) (fun p _ => Finset.mem_univ p) ⟨.rfl, .rfl, .rfl, .rfl, .rfl⟩)
  isplitr [Hb Hheld HO HG]
  · iintro ⟨-, HF, ⟨%W', HO'⟩⟩
    isplitl [HO']
    · iexists W'; isplitr; · ipureintro; exact wbelow_any d W'
      rw [Otc_one]; iexact HO'
    · iexact HF
  · isplitl [Hb]; · iexact Hb
    isplitl [Hheld HO]
    · isplitl [Hheld]; · iexact Hheld
      iexists W; rw [Otc_one]; iexact HO
    isplitr; · iexact Hlev
    unfold Pipeline.ghostOn Pipeline.PerCore.ghostOn G
    rw [bigSep_sep']
    iexact HG

end Cert.KernelIdeal.Rows

end
-- ==== Proof.RunV.lean ====
/-
  The program's run, the result named: every weakly fair execution of the 35 threads from a launch memory whose row
  numbers name rows of the table ends with the result's array, on every device, at the contents the output layer's
  region wrote back, and the six argument arrays as launched.
-/
import proofs.«202118_g10599979286629_week1_w2_627_56_alg».proof.Proof.RestRunV

set_option maxRecDepth 16384

noncomputable section

namespace Cert.KernelIdeal.Rows

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

omit [FloatOps F] [∀ e, Nonempty (Elt F e)] in
/-- An array held whole at contents `f` agrees with the final memory, which is kept. -/
theorem agreeAt (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

/-- What the final memory holds on device `d`: the result's array at `kernVal`, then the six argument arrays as
    launched. -/
def fqV (hpre : PreOK m) (d : Dev nD) (s' : Phys nD τ sig (Elt F)) : Prop :=
  s'.mem.mem (aLoc main_v9 d) = kernVal m hpre d
  ∧ s'.mem.mem (aLoc main_arg0 d) = m (aLoc main_arg0 d) ∧ s'.mem.mem (aLoc main_arg1 d) = m (aLoc main_arg1 d)
  ∧ s'.mem.mem (aLoc main_arg2 d) = m (aLoc main_arg2 d) ∧ s'.mem.mem (aLoc main_arg3 d) = m (aLoc main_arg3 d)
  ∧ s'.mem.mem (aLoc main_arg4 d) = m (aLoc main_arg4 d) ∧ s'.mem.mem (aLoc main_arg5 d) = m (aLoc main_arg5 d)

/-- The seven arrays @main leaves held agree with the final memory. -/
theorem hfinV (hpre : PreOK m) (d : Dev nD) (s' : Phys nD τ sig (Elt F)) :
    iprop(FINV m hpre d ∗ SI s') ⊢ (⌜fqV m hpre d s'⌝ : sProp 𝕄) := by
  iintro ⟨⟨HF, H9⟩, HSI⟩
  ihave G9 := (agreeAt (aLoc main_v9 d) (kernVal m hpre d) s') $$ [HSI H9]; · isplitl [HSI] <;> iassumption
  icases G9 with ⟨%h9, HSI⟩
  ihave G := (hfin m d s') $$ [HF HSI]; · isplitl [HF] <;> iassumption
  icases G with %h
  ipureintro; exact ⟨h9, h⟩

/-- The run's post: on every device the result's array ends at `kernVal` and the six argument arrays as launched. -/
def QCV (hpre : PreOK m) : PUnit × MemSt nD τ sig (Elt F) → Prop := fun r => ∀ c : Dev nD,
  r.2.mem (aLoc main_v9 c) = kernVal m hpre c
  ∧ r.2.mem (aLoc main_arg0 c) = m (aLoc main_arg0 c) ∧ r.2.mem (aLoc main_arg1 c) = m (aLoc main_arg1 c)
  ∧ r.2.mem (aLoc main_arg2 c) = m (aLoc main_arg2 c) ∧ r.2.mem (aLoc main_arg3 c) = m (aLoc main_arg3 c)
  ∧ r.2.mem (aLoc main_arg4 c) = m (aLoc main_arg4 c) ∧ r.2.mem (aLoc main_arg5 c) = m (aLoc main_arg5 c)

/-- From a launch memory whose row numbers name rows of the table, every weakly fair execution of the 35 threads
    ends, the result's array at `kernVal` on every device and the arguments unchanged: the launch element, @main on
    each TensorCore — the lookup, then the rest of @main keeping the result's array —, and the agreement of what is
    held at the end with the final memory. -/
theorem run_mainV (hpre : PreOK m) :
    θ_run (Cert.KernelIdeal.defs (F := F)) (Cert.KernelIdeal.threads (F := F)) ⟨m, fun _ => 0, ρ⟩ (QCV m hpre) :=
  SparseCore.Cfg.θ_run_sc (K := K (F := F)) (D := D (F := F)) (𝒱 := 𝒱) (EH := EH) (P := P m hpre) facts v₀
    (fun q hq => match q with | 0 => nomatch hq)
    (fun q _ => match q with | 0 => tileObl m facts hpre)
    (fun q _ => match q with | 0 => SparseCore.Cfg.VecSplit.of_plain (vecSplit m hpre))
    m ρ main (G (F := F)) (FINV m hpre) (u₀ (F := F)) (hu₀ m hpre)
    (hmain m ρ hpre (G (F := F)) (FINV m hpre) (restSpecV m ρ hpre)) (fqV m hpre) (hfinV m hpre) (QCV m hpre) (fun _ h => h)

end Cert.KernelIdeal.Rows

end
-- ==== Proof.OutValue.lean ====
/-
  What the output layer's body leaves in the output buffer, as a formula: the bias row plus, block after block, the
  product of the q-th thirty-two entries of the hidden row with the q-th block of the reshaped weights; then the
  subtraction of the maximum plus the log of the sum of exponentials. Each of the body's seventeen stores covers the
  buffer, so each of its loads of the buffer reads the store before it.
-/
import proofs.«202118_g10599979286629_week1_w2_627_56_alg».proof.Proof.OutBodyV
import Idealize.ShloMosaic.Lib.Pipeline.Value
import Idealize.ShloMosaic.Lib.Pipeline.FrameBody
import Idealize.ShloMosaic.Lib.ValueIdx

set_option maxRecDepth 16384

noncomputable section

namespace Cert.KernelIdeal.Output

open Cert.KernelIdeal Cert.KernelIdeal.Gen Cert.KernelIdeal.Rows
open Idealize.ShloMosaic Idealize.ShloMosaic.TcCoe
open Idealize.ShloMosaic.SparseCore.Cfg (HIx)

variable {F : FTy → Type} [FloatOps F] [∀ e, Nonempty (Elt F e)]

omit [FloatOps F] in
theorem h00 : (![0, 0] : Fin 2 → ℕ) = fun _ => 0 := by
  funext a; match a with
  | ⟨0, _⟩ => rfl
  | ⟨1, _⟩ => rfl

omit [FloatOps F] [∀ e, Nonempty (Elt F e)] in
/-- Every index lies in the full-size rectangle at the origin. -/
theorem mem_unit_zero {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

omit [FloatOps F] in
/-- A load of a whole buffer after stores the newest of which covers it reads that store's payload. -/
theorem readCov_head {sig : RefSig} {κ : Kind} {sp : Space} {S : Shape} {e : EltTy} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## One block's step -/

/-- The product of one block: thirty-two entries of the hidden row, as a row, times the block's 32 × 100000 weights. -/
def blockProd (hb : Vec F S1x1x32 .f32) (s : Vec F S1x4x8x100000 .f32) : FVec F S1x100000 .f32 :=
  matmul dot_S1x32_S32x100000_S1x100000_1_0_0_1_n_n none (shapeCast S1x32 hb shapeCasts_S1x1x32_S1x32)
    (shapeCast S32x100000 (shapeCast S4x8x100000 s shapeCasts_S1x4x8x100000_S4x8x100000) shapeCasts_S4x8x100000_S32x100000)
    (constant S1x100000 .f32 0x00000000#32)
/-- A later block: the contents so far plus the block's product; -/
def step (prev : Vec F S1x100000 .f32) (hb : Vec F S1x1x32 .f32) (s : Vec F S1x4x8x100000 .f32) : FVec F S1x100000 .f32 :=
  addf (shapeCast S1x100000 prev shapeCasts_S1x100000_S1x100000) (blockProd hb s)
/-- the first block: its product plus the bias row. -/
def first (bias : Vec F S1x100000 .f32) (hb : Vec F S1x1x32 .f32) (s : Vec F S1x4x8x100000 .f32) : FVec F S1x100000 .f32 :=
  addf (blockProd hb s) (shapeCast S1x100000 bias shapeCasts_S1x100000_S1x100000)
/-- The end: the maximum plus the log of the sum of exponentials subtracted. -/
def finish (a : Vec F S1x100000 .f32) : FVec F S1x100000 .f32 := k2_pay1 (k2_pay25 a) (k2_pay26 a)

/-! ## The sixteen blocks -/

/-- The output buffer's contents after the first block: the block product plus the bias row; -/
def a0 (c : Dev nD) (M0 : Memref sig .tc .vmem S16x1x32 .f32) (M1 : Memref sig .tc .vmem S1x100000 .f32) (f8 : Bf (F := F) c (Memref.whole main_v8))
    (f0 : BufTy.Contents (Elt F) M0.view.ty) (f1 : BufTy.Contents (Elt F) M1.view.ty) : FVec F S1x100000 .f32 :=
  first (View.readAt (Elt F) M1.view (Rect.unit (s := S1x100000) ![0, 0] S1x100000.size inb_S1x100000_S1x100000_0_0).toLoadRect f1) (View.readAt (Elt F) M0.view (Rect.unit (s := S16x1x32) ![0, 0, 0] S1x1x32.size inb_S16x1x32_S1x1x32_0_0_0).toLoadRect f0) (outRun.sl.v18 c f8)
/-- after block 1: the previous contents plus block 1's product. -/
def a1 (c : Dev nD) (M0 : Memref sig .tc .vmem S16x1x32 .f32) (M1 : Memref sig .tc .vmem S1x100000 .f32) (f8 : Bf (F := F) c (Memref.whole main_v8))
    (f0 : BufTy.Contents (Elt F) M0.view.ty) (f1 : BufTy.Contents (Elt F) M1.view.ty) : FVec F S1x100000 .f32 :=
  step (a0 c M0 M1 f8 f0 f1) (View.readAt (Elt F) M0.view (Rect.unit (s := S16x1x32) ![1, 0, 0] S1x1x32.size inb_S16x1x32_S1x1x32_1_0_0).toLoadRect f0) (outRun.sl.v40 c f8)
/-- after block 2: the previous contents plus block 2's product. -/
def a2 (c : Dev nD) (M0 : Memref sig .tc .vmem S16x1x32 .f32) (M1 : Memref sig .tc .vmem S1x100000 .f32) (f8 : Bf (F := F) c (Memref.whole main_v8))
    (f0 : BufTy.Contents (Elt F) M0.view.ty) (f1 : BufTy.Contents (Elt F) M1.view.ty) : FVec F S1x100000 .f32 :=
  step (a1 c M0 M1 f8 f0 f1) (View.readAt (Elt F) M0.view (Rect.unit (s := S16x1x32) ![2, 0, 0] S1x1x32.size inb_S16x1x32_S1x1x32_2_0_0).toLoadRect f0) (outRun.sl.v62 c f8)
/-- after block 3: the previous contents plus block 3's product. -/
def a3 (c : Dev nD) (M0 : Memref sig .tc .vmem S16x1x32 .f32) (M1 : Memref sig .tc .vmem S1x100000 .f32) (f8 : Bf (F := F) c (Memref.whole main_v8))
    (f0 : BufTy.Contents (Elt F) M0.view.ty) (f1 : BufTy.Contents (Elt F) M1.view.ty) : FVec F S1x100000 .f32 :=
  step (a2 c M0 M1 f8 f0 f1) (View.readAt (Elt F) M0.view (Rect.unit (s := S16x1x32) ![3, 0, 0] S1x1x32.size inb_S16x1x32_S1x1x32_3_0_0).toLoadRect f0) (outRun.sl.v84 c f8)
/-- after block 4: the previous contents plus block 4's product. -/
def a4 (c : Dev nD) (M0 : Memref sig .tc .vmem S16x1x32 .f32) (M1 : Memref sig .tc .vmem S1x100000 .f32) (f8 : Bf (F := F) c (Memref.whole main_v8))
    (f0 : BufTy.Contents (Elt F) M0.view.ty) (f1 : BufTy.Contents (Elt F) M1.view.ty) : FVec F S1x100000 .f32 :=
  step (a3 c M0 M1 f8 f0 f1) (View.readAt (Elt F) M0.view (Rect.unit (s := S16x1x32) ![4, 0, 0] S1x1x32.size inb_S16x1x32_S1x1x32_4_0_0).toLoadRect f0) (outRun.sl.v106 c f8)
/-- after block 5: the previous contents plus block 5's product. -/
def a5 (c : Dev nD) (M0 : Memref sig .tc .vmem S16x1x32 .f32) (M1 : Memref sig .tc .vmem S1x100000 .f32) (f8 : Bf (F := F) c (Memref.whole main_v8))
    (f0 : BufTy.Contents (Elt F) M0.view.ty) (f1 : BufTy.Contents (Elt F) M1.view.ty) : FVec F S1x100000 .f32 :=
  step (a4 c M0 M1 f8 f0 f1) (View.readAt (Elt F) M0.view (Rect.unit (s := S16x1x32) ![5, 0, 0] S1x1x32.size inb_S16x1x32_S1x1x32_5_0_0).toLoadRect f0) (outRun.sl.v128 c f8)
/-- after block 6: the previous contents plus block 6's product. -/
def a6 (c : Dev nD) (M0 : Memref sig .tc .vmem S16x1x32 .f32) (M1 : Memref sig .tc .vmem S1x100000 .f32) (f8 : Bf (F := F) c (Memref.whole main_v8))
    (f0 : BufTy.Contents (Elt F) M0.view.ty) (f1 : BufTy.Contents (Elt F) M1.view.ty) : FVec F S1x100000 .f32 :=
  step (a5 c M0 M1 f8 f0 f1) (View.readAt (Elt F) M0.view (Rect.unit (s := S16x1x32) ![6, 0, 0] S1x1x32.size inb_S16x1x32_S1x1x32_6_0_0).toLoadRect f0) (outRun.sl.v150 c f8)
/-- after block 7: the previous contents plus block 7's product. -/
def a7 (c : Dev nD) (M0 : Memref sig .tc .vmem S16x1x32 .f32) (M1 : Memref sig .tc .vmem S1x100000 .f32) (f8 : Bf (F := F) c (Memref.whole main_v8))
    (f0 : BufTy.Contents (Elt F) M0.view.ty) (f1 : BufTy.Contents (Elt F) M1.view.ty) : FVec F S1x100000 .f32 :=
  step (a6 c M0 M1 f8 f0 f1) (View.readAt (Elt F) M0.view (Rect.unit (s := S16x1x32) ![7, 0, 0] S1x1x32.size inb_S16x1x32_S1x1x32_7_0_0).toLoadRect f0) (outRun.sl.v172 c f8)
/-- after block 8: the previous contents plus block 8's product. -/
def a8 (c : Dev nD) (M0 : Memref sig .tc .vmem S16x1x32 .f32) (M1 : Memref sig .tc .vmem S1x100000 .f32) (f8 : Bf (F := F) c (Memref.whole main_v8))
    (f0 : BufTy.Contents (Elt F) M0.view.ty) (f1 : BufTy.Contents (Elt F) M1.view.ty) : FVec F S1x100000 .f32 :=
  step (a7 c M0 M1 f8 f0 f1) (View.readAt (Elt F) M0.view (Rect.unit (s := S16x1x32) ![8, 0, 0] S1x1x32.size inb_S16x1x32_S1x1x32_8_0_0).toLoadRect f0) (outRun.sl.v194 c f8)
/-- after block 9: the previous contents plus block 9's product. -/
def a9 (c : Dev nD) (M0 : Memref sig .tc .vmem S16x1x32 .f32) (M1 : Memref sig .tc .vmem S1x100000 .f32) (f8 : Bf (F := F) c (Memref.whole main_v8))
    (f0 : BufTy.Contents (Elt F) M0.view.ty) (f1 : BufTy.Contents (Elt F) M1.view.ty) : FVec F S1x100000 .f32 :=
  step (a8 c M0 M1 f8 f0 f1) (View.readAt (Elt F) M0.view (Rect.unit (s := S16x1x32) ![9, 0, 0] S1x1x32.size inb_S16x1x32_S1x1x32_9_0_0).toLoadRect f0) (outRun.sl.v216 c f8)
/-- after block 10: the previous contents plus block 10's product. -/
def a10 (c : Dev nD) (M0 : Memref sig .tc .vmem S16x1x32 .f32) (M1 : Memref sig .tc .vmem S1x100000 .f32) (f8 : Bf (F := F) c (Memref.whole main_v8))
    (f0 : BufTy.Contents (Elt F) M0.view.ty) (f1 : BufTy.Contents (Elt F) M1.view.ty) : FVec F S1x100000 .f32 :=
  step (a9 c M0 M1 f8 f0 f1) (View.readAt (Elt F) M0.view (Rect.unit (s := S16x1x32) ![10, 0, 0] S1x1x32.size inb_S16x1x32_S1x1x32_10_0_0).toLoadRect f0) (outRun.sl.v238 c f8)
/-- after block 11: the previous contents plus block 11's product. -/
def a11 (c : Dev nD) (M0 : Memref sig .tc .vmem S16x1x32 .f32) (M1 : Memref sig .tc .vmem S1x100000 .f32) (f8 : Bf (F := F) c (Memref.whole main_v8))
    (f0 : BufTy.Contents (Elt F) M0.view.ty) (f1 : BufTy.Contents (Elt F) M1.view.ty) : FVec F S1x100000 .f32 :=
  step (a10 c M0 M1 f8 f0 f1) (View.readAt (Elt F) M0.view (Rect.unit (s := S16x1x32) ![11, 0, 0] S1x1x32.size inb_S16x1x32_S1x1x32_11_0_0).toLoadRect f0) (outRun.sl.v260 c f8)
/-- after block 12: the previous contents plus block 12's product. -/
def a12 (c : Dev nD) (M0 : Memref sig .tc .vmem S16x1x32 .f32) (M1 : Memref sig .tc .vmem S1x100000 .f32) (f8 : Bf (F := F) c (Memref.whole main_v8))
    (f0 : BufTy.Contents (Elt F) M0.view.ty) (f1 : BufTy.Contents (Elt F) M1.view.ty) : FVec F S1x100000 .f32 :=
  step (a11 c M0 M1 f8 f0 f1) (View.readAt (Elt F) M0.view (Rect.unit (s := S16x1x32) ![12, 0, 0] S1x1x32.size inb_S16x1x32_S1x1x32_12_0_0).toLoadRect f0) (outRun.sl.v282 c f8)
/-- after block 13: the previous contents plus block 13's product. -/
def a13 (c : Dev nD) (M0 : Memref sig .tc .vmem S16x1x32 .f32) (M1 : Memref sig .tc .vmem S1x100000 .f32) (f8 : Bf (F := F) c (Memref.whole main_v8))
    (f0 : BufTy.Contents (Elt F) M0.view.ty) (f1 : BufTy.Contents (Elt F) M1.view.ty) : FVec F S1x100000 .f32 :=
  step (a12 c M0 M1 f8 f0 f1) (View.readAt (Elt F) M0.view (Rect.unit (s := S16x1x32) ![13, 0, 0] S1x1x32.size inb_S16x1x32_S1x1x32_13_0_0).toLoadRect f0) (outRun.sl.v304 c f8)
/-- after block 14: the previous contents plus block 14's product. -/
def a14 (c : Dev nD) (M0 : Memref sig .tc .vmem S16x1x32 .f32) (M1 : Memref sig .tc .vmem S1x100000 .f32) (f8 : Bf (F := F) c (Memref.whole main_v8))
    (f0 : BufTy.Contents (Elt F) M0.view.ty) (f1 : BufTy.Contents (Elt F) M1.view.ty) : FVec F S1x100000 .f32 :=
  step (a13 c M0 M1 f8 f0 f1) (View.readAt (Elt F) M0.view (Rect.unit (s := S16x1x32) ![14, 0, 0] S1x1x32.size inb_S16x1x32_S1x1x32_14_0_0).toLoadRect f0) (outRun.sl.v326 c f8)
/-- after block 15: the previous contents plus block 15's product. -/
def a15 (c : Dev nD) (M0 : Memref sig .tc .vmem S16x1x32 .f32) (M1 : Memref sig .tc .vmem S1x100000 .f32) (f8 : Bf (F := F) c (Memref.whole main_v8))
    (f0 : BufTy.Contents (Elt F) M0.view.ty) (f1 : BufTy.Contents (Elt F) M1.view.ty) : FVec F S1x100000 .f32 :=
  step (a14 c M0 M1 f8 f0 f1) (View.readAt (Elt F) M0.view (Rect.unit (s := S16x1x32) ![15, 0, 0] S1x1x32.size inb_S16x1x32_S1x1x32_15_0_0).toLoadRect f0) (outRun.sl.v342 c f8)

theorem load1 (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    outRun.sl.v46 c M0 M1 M3 f8 f0 f1 = a0 c M0 M1 f8 f0 f1 := by
  unfold outRun.sl.v46 outRun.sl.H3_1 outRun.sl.v20 outRun.sl.v19 outRun.sl.v22
  rw [readCov_head M3.view h00]
  rfl
theorem load2 (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    outRun.sl.v68 c M0 M1 M3 f8 f0 f1 = a1 c M0 M1 f8 f0 f1 := by
  unfold outRun.sl.v68 outRun.sl.H3_2 outRun.sl.r
  rw [readCov_head M3.view h00]
  rw [load1 c M0 M1 M3 f8 f0 f1]; rfl
theorem load3 (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    outRun.sl.v90 c M0 M1 M3 f8 f0 f1 = a2 c M0 M1 f8 f0 f1 := by
  unfold outRun.sl.v90 outRun.sl.H3_3 outRun.sl.r_1
  rw [readCov_head M3.view h00]
  rw [load2 c M0 M1 M3 f8 f0 f1]; rfl
theorem load4 (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    outRun.sl.v112 c M0 M1 M3 f8 f0 f1 = a3 c M0 M1 f8 f0 f1 := by
  unfold outRun.sl.v112 outRun.sl.H3_4
  rw [readCov_head M3.view h00]
  rw [load3 c M0 M1 M3 f8 f0 f1]; rfl
theorem load5 (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    outRun.sl.v134 c M0 M1 M3 f8 f0 f1 = a4 c M0 M1 f8 f0 f1 := by
  unfold outRun.sl.v134 outRun.sl.H3_5
  rw [readCov_head M3.view h00]
  rw [load4 c M0 M1 M3 f8 f0 f1]; rfl
theorem load6 (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    outRun.sl.v156 c M0 M1 M3 f8 f0 f1 = a5 c M0 M1 f8 f0 f1 := by
  unfold outRun.sl.v156 outRun.sl.H3_6
  rw [readCov_head M3.view h00]
  rw [load5 c M0 M1 M3 f8 f0 f1]; rfl
theorem load7 (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    outRun.sl.v178 c M0 M1 M3 f8 f0 f1 = a6 c M0 M1 f8 f0 f1 := by
  unfold outRun.sl.v178 outRun.sl.H3_7
  rw [readCov_head M3.view h00]
  rw [load6 c M0 M1 M3 f8 f0 f1]; rfl
theorem load8 (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    outRun.sl.v200 c M0 M1 M3 f8 f0 f1 = a7 c M0 M1 f8 f0 f1 := by
  unfold outRun.sl.v200 outRun.sl.H3_8
  rw [readCov_head M3.view h00]
  rw [load7 c M0 M1 M3 f8 f0 f1]; rfl
theorem load9 (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    outRun.sl.v222 c M0 M1 M3 f8 f0 f1 = a8 c M0 M1 f8 f0 f1 := by
  unfold outRun.sl.v222 outRun.sl.H3_9
  rw [readCov_head M3.view h00]
  rw [load8 c M0 M1 M3 f8 f0 f1]; rfl
theorem load10 (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    outRun.sl.v244 c M0 M1 M3 f8 f0 f1 = a9 c M0 M1 f8 f0 f1 := by
  unfold outRun.sl.v244 outRun.sl.H3_10
  rw [readCov_head M3.view h00]
  rw [load9 c M0 M1 M3 f8 f0 f1]; rfl
theorem load11 (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    outRun.sl.v266 c M0 M1 M3 f8 f0 f1 = a10 c M0 M1 f8 f0 f1 := by
  unfold outRun.sl.v266 outRun.sl.H3_11
  rw [readCov_head M3.view h00]
  rw [load10 c M0 M1 M3 f8 f0 f1]; rfl
theorem load12 (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    outRun.sl.v288 c M0 M1 M3 f8 f0 f1 = a11 c M0 M1 f8 f0 f1 := by
  unfold outRun.sl.v288 outRun.sl.H3_12 outRun.sl.r_2
  rw [readCov_head M3.view h00]
  rw [load11 c M0 M1 M3 f8 f0 f1]; rfl
theorem load13 (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    outRun.sl.v310 c M0 M1 M3 f8 f0 f1 = a12 c M0 M1 f8 f0 f1 := by
  unfold outRun.sl.v310 outRun.sl.H3_13 outRun.sl.r_3 outRun.sl.r_4
  rw [readCov_head M3.view h00]
  rw [load12 c M0 M1 M3 f8 f0 f1]; rfl
theorem load14 (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    outRun.sl.v332 c M0 M1 M3 f8 f0 f1 = a13 c M0 M1 f8 f0 f1 := by
  unfold outRun.sl.v332 outRun.sl.H3_14 outRun.sl.r_5
  rw [readCov_head M3.view h00]
  rw [load13 c M0 M1 M3 f8 f0 f1]; rfl
theorem load15 (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    outRun.sl.v348 c M0 M1 M3 f8 f0 f1 = a14 c M0 M1 f8 f0 f1 := by
  unfold outRun.sl.v348 outRun.sl.H3_15 outRun.sl.r_6
  rw [readCov_head M3.view h00]
  rw [load14 c M0 M1 M3 f8 f0 f1]; rfl
theorem load16 (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    outRun.sl.v352 c M0 M1 M3 f8 f0 f1 = a15 c M0 M1 f8 f0 f1 := by
  unfold outRun.sl.v352 outRun.sl.H3_16
  rw [readCov_head M3.view h00]
  rw [load15 c M0 M1 M3 f8 f0 f1]; rfl

/-- The output buffer, read whole, after the body: the end applied to the contents after the sixteenth block. -/
theorem read_outBuf (c : Dev nD) (M0 : Memref sig .tc .vmem S16x1x32 .f32) (M1 : Memref sig .tc .vmem S1x100000 .f32) (M3 : Memref sig .tc .vmem S1x100000 .f32)
    (f8 : Bf (F := F) c (Memref.whole main_v8)) (f0 : BufTy.Contents (Elt F) M0.view.ty) (f1 : BufTy.Contents (Elt F) M1.view.ty) :
    M3.view.read (Elt F) (outBuf c M0 M1 M3 f8 f0 f1) = finish (a15 c M0 M1 f8 f0 f1) := by
  unfold outBuf outRun.sl.H3_17 outRun.sl.r_7 outRun.sl.r_8
  rw [View.read_writes_eq_canon _ _ _ (fun y => ⟨_, List.mem_cons_self, mem_unit_zero h00 inb_S1x100000_S1x100000_0_0 y⟩), View.canon_cons_unit_zero h00, load16 c M0 M1 M3 f8 f0 f1]
  rfl

end Cert.KernelIdeal.Output

end
-- ==== Proof.KernValue.lean ====
/-
  What the run leaves in the result's array, as a formula: the output layer's one write-back covers the array, so the
  array ends at what the body left in the output window's buffer — the end applied to the sixteenth accumulator of the
  hidden blocks, the bias row and the reshaped weights as the region finds them; and each input window's one block is
  its whole array.
-/
import proofs.«202118_g10599979286629_week1_w2_627_56_alg».proof.Proof.RunV
import proofs.«202118_g10599979286629_week1_w2_627_56_alg».proof.Proof.OutValue
import Idealize.ShloMosaic.Lib.Pipeline.Value

set_option maxRecDepth 16384

noncomputable section

namespace Cert.KernelIdeal.Rows

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

-- the arrays as the output layer's region finds them
variable (VB : (c : Dev nD) → (b : Ref sig .tc) → Buf (Elt F) ((c : Thread nD τ).loc b))

/-- What the output layer's body leaves in the output buffer, as a formula of the two staged blocks and the reshaped
    weights: the end applied to the contents after the sixteenth block. -/
def outVal (c : Dev nD) (t : Fin cfg2.N) : Buf (Elt F) ((c : Thread nD τ).loc main_v9) :=
  Output.finish (Output.a15 c (st2_0 t) (st2_1 t) (VB c main_v8) (iblk2 VB c 0 t) (iblk2 VB c 1 t))

omit [∀ e, Nonempty (Elt F e)] in
/-- The output window's buffer ends at that formula. -/
theorem oblk2_eq (c : Dev nD) (t : Fin cfg2.N) : oblk2 VB c t = outVal VB c t := by
  unfold oblk2 outVal
  exact (read_st2_2 t _).symm.trans (Output.read_outBuf c (st2_0 t) (st2_1 t) (st2_2 t) (VB c main_v8) (iblk2 VB c 0 t) (iblk2 VB c 1 t))

omit [FloatOps F] [∀ e, Nonempty (Elt F e)] in
/-- The output window's one block starts at the array's origin; -/
theorem hz2_2 : (fun a => win2_2.index t2_0 a * main_v9.ty.shape.size a) = fun _ => 0 := funext fun a => by fin_cases a <;> decide
omit [FloatOps F] [∀ e, Nonempty (Elt F e)] in
/-- so do the two input windows'. -/
theorem hz2_0 : (fun a => win2_0.index t2_0 a * main_v6.ty.shape.size a) = fun _ => 0 := funext fun a => by fin_cases a <;> decide
omit [FloatOps F] [∀ e, Nonempty (Elt F e)] in
theorem hz2_1 : (fun a => win2_1.index t2_0 a * main_v7.ty.shape.size a) = fun _ => 0 := funext fun a => by fin_cases a <;> decide

omit [∀ e, Nonempty (Elt F e)] in
/-- The one write-back writes the formula: the block at the origin of the whole array, read, is the array. -/
theorem flushed2V_eq (c : Dev nD) (t : Fin cfg2.N) (hf : (cfg2.win 2).flush t = true) :
    (dat2V VB c).flushed 2 t = ((cfg2.win 2).blk t).view.read (Elt F) (outVal VB c t2_0) := by
  obtain rfl : t = t2_0 := fin_N2 t
  show (cfg2.win 2).cut (grid2.coords t2_0) ((dat2V VB c).after 2 t2_0) = _
  rw [after2V_2, oblk2_eq]
  exact (Memref.read_access_unit_zero (Elt F) main_v9 hz2_2 (fun a => by rw [congrFun hz2_2 a]; simp) (outVal VB c t2_0)).symm

omit [∀ e, Nonempty (Elt F e)] in
/-- So the result's array ends holding the formula: the one point's block covers the array. -/
theorem final2V (c : Dev nD) : (dat2V VB c).arrAt 2 cfg2.N = outVal VB c t2_0 :=
  (dat2V VB c).arrAt_eq_of_cover 2 (outVal VB c t2_0) (flushed2V_eq VB c) fun i =>
    ⟨t2_0, flush2_2 t2_0, by
      show i ∈ ((View.whole main_v9).slice (win2_2.rect t2_0)).set
      rw [View.set_slice_whole, Rect.mem_set_unit]
      intro a
      have h0 : (i 0 : Nat) < 1 := (i 0).isLt
      have h1 : (i 1 : Nat) < 100000 := (i 1).isLt
      match a with
      | ⟨0, _⟩ => show win2_2.index t2_0 0 * win2_2.size 0 ≤ (i 0 : Nat) ∧ (i 0 : Nat) < win2_2.index t2_0 0 * win2_2.size 0 + win2_2.xsize (grid2.coords t2_0) 0
                  rw [show win2_2.index t2_0 0 * win2_2.size 0 = 0 from by decide +kernel, show win2_2.xsize (grid2.coords t2_0) 0 = 1 from by decide +kernel]; omega
      | ⟨1, _⟩ => show win2_2.index t2_0 1 * win2_2.size 1 ≤ (i 1 : Nat) ∧ (i 1 : Nat) < win2_2.index t2_0 1 * win2_2.size 1 + win2_2.xsize (grid2.coords t2_0) 1
                  rw [show win2_2.index t2_0 1 * win2_2.size 1 = 0 from by decide +kernel, show win2_2.xsize (grid2.coords t2_0) 1 = 100000 from by decide +kernel]; omega⟩

omit [∀ e, Nonempty (Elt F e)] in
/-- Each input window's one block is its whole array. -/
theorem iblk2_0' (c : Dev nD) : iblk2 VB c 0 t2_0 = VB c main_v6 := by
  unfold iblk2
  exact Memref.read_access_unit_zero (Elt F) main_v6 hz2_0 (fun a => by rw [congrFun hz2_0 a]; simp) (VB c main_v6)
omit [∀ e, Nonempty (Elt F e)] in
theorem iblk2_1' (c : Dev nD) : iblk2 VB c 1 t2_0 = VB c main_v7 := by
  unfold iblk2
  exact Memref.read_access_unit_zero (Elt F) main_v7 hz2_1 (fun a => by rw [congrFun hz2_1 a]; simp) (VB c main_v7)

variable (m : (ℓ : Loc nD τ sig) → Buf (Elt F) ℓ) (ρ : Dev nD → PrngReg)

omit [∀ e, Nonempty (Elt F e)] in
/-- WHAT THE RUN LEAVES IN THE RESULT'S ARRAY: the end applied to the sixteenth accumulator, of the hidden blocks, the
    bias row and the reshaped weights as the output layer's region finds them. -/
theorem kernVal_eq (hpre : PreOK m) (c : Dev nD) :
    kernVal m hpre c = Output.finish (Output.a15 c (st2_0 t2_0) (st2_1 t2_0) (VBf m hpre c main_v8) (iblk2 (VBf m hpre) c 0 t2_0) (iblk2 (VBf m hpre) c 1 t2_0)) := by
  unfold kernVal
  exact final2V (VBf m hpre) c

omit [∀ e, Nonempty (Elt F e)] in
theorem iblk2_0 (hpre : PreOK m) (c : Dev nD) : iblk2 (VBf m hpre) c 0 t2_0 = VBf m hpre c main_v6 := iblk2_0' (VBf m hpre) c
omit [∀ e, Nonempty (Elt F e)] in
theorem iblk2_1 (hpre : PreOK m) (c : Dev nD) : iblk2 (VBf m hpre) c 1 t2_0 = VBf m hpre c main_v7 := iblk2_1' (VBf m hpre) c

end Cert.KernelIdeal.Rows

end
-- ==== Proof.KernValueArgs.lean ====
/-
  The bias row and the reshaped weights the output layer's region finds, read at an index: the second stretch of
  reshapes writes neither the second bias nor the second weight matrix, and a reshape keeps the row-major position.
-/
import proofs.«202118_g10599979286629_week1_w2_627_56_alg».proof.Proof.KernValue
import Idealize.ShloMosaic.Lib.ValueIdx

set_option maxRecDepth 16384

noncomputable section

namespace Cert.KernelIdeal.Rows

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

omit [∀ e, Nonempty (Elt F e)] in
/-- A reference neither the lookup, the first reshapes nor the hidden layer's region writes holds its launch contents
    after that region. -/
theorem kept0 (hpre : PreOK m) (c : Dev nD) (b : Ref sig .tc) (h0 : b ≠ main_v0) (h1 : b ≠ main_v1) (h2 : b ≠ main_v2) (h3 : b ≠ main_v3) :
    WB0 m hpre c (Proc.devRef .tc b) = m ((c : Thread nD τ).loc b) := by
  unfold WB0
  rw [Function.update_of_ne (StableHlo.devRef_ne_of_ne h3)]
  show StableHlo.after (opsA (F := F)) (V₁ m hpre c) (Proc.devRef .tc b) = _
  rw [StableHlo.after_of_forall_not_mem (b := Proc.devRef .tc b) (opsA (F := F)) (V₁ m hpre c) (opsA_writes b h1 h2)]
  unfold V₁
  rw [Function.update_of_ne (StableHlo.devRef_ne_of_ne h0)]

omit [∀ e, Nonempty (Elt F e)] in
/-- The second stretch of reshapes leaves the second bias as a row, -/
theorem afterB_v7 (W : Valuation τ sig (Elt F)) :
    StableHlo.after (opsB (F := F)) W (Proc.devRef .tc main_v7) = shapeCast S1x100000 (W (Proc.devRef .tc main_arg5)) shapeCasts_S100000_S1x100000 := by
  unfold opsB
  after_results_simp
  rfl
omit [∀ e, Nonempty (Elt F e)] in
/-- and the second weights in four by sixteen by eight row blocks. -/
theorem afterB_v8 (W : Valuation τ sig (Elt F)) :
    StableHlo.after (opsB (F := F)) W (Proc.devRef .tc main_v8) = shapeCast S4x16x8x100000 (W (Proc.devRef .tc main_arg4)) shapeCasts_S512x100000_S4x16x8x100000 := by
  unfold opsB
  after_results_simp
  rfl

omit [∀ e, Nonempty (Elt F e)] in
/-- THE BIAS ROW the output layer's region finds: entry `v` of the second bias. -/
theorem bias_eq (hpre : PreOK m) (c : Dev nD) (v : Fin 100000) :
    VBf m hpre c main_v7 (ix2 0 v) = m (aLoc main_arg5 c) (ix1 v) := by
  show StableHlo.after (opsB (F := F)) (WB0 m hpre c) (Proc.devRef .tc main_v7) (ix2 0 v) = _
  rw [afterB_v7, kept0 m hpre c main_arg5 (by decide) (by decide) (by decide) (by decide)]
  refine shapeCast_apply _ _ _ _ ?_
  refine (Shape.rowMajor_val_one (d := ![100000]) (ix1 v)).trans (Eq.trans ?_ (Shape.rowMajor_val_two (d := ![1, 100000]) (ix2 0 v)).symm)
  show v.val = 0 * 100000 + v.val
  omega

omit [∀ e, Nonempty (Elt F e)] in
/-- THE WEIGHTS the output layer's region finds: row `128 s + 8 q + j` of the second weight matrix, at column `v`. -/
theorem weights_eq (hpre : PreOK m) (c : Dev nD) (s : Fin 4) (q : Fin 16) (j : Fin 8) (v : Fin 100000) :
    VBf m hpre c main_v8 (ix4 s q j v) = m (aLoc main_arg4 c) (ix2 ⟨s.val * 128 + q.val * 8 + j.val, by have := s.isLt; have := q.isLt; have := j.isLt; omega⟩ v) := by
  show StableHlo.after (opsB (F := F)) (WB0 m hpre c) (Proc.devRef .tc main_v8) (ix4 s q j v) = _
  rw [afterB_v8, kept0 m hpre c main_arg4 (by decide) (by decide) (by decide) (by decide)]
  refine shapeCast_apply _ _ _ _ ?_
  refine (Shape.rowMajor_val_two (d := ![512, 100000]) (ix2 _ v)).trans (Eq.trans ?_ (Shape.rowMajor_val_four (d := ![4, 16, 8, 100000]) (ix4 s q j v)).symm)
  show (s.val * 128 + q.val * 8 + j.val) * 100000 + v.val = ((s.val * 16 + q.val) * 8 + j.val) * 100000 + v.val
  omega

end Cert.KernelIdeal.Rows

end
-- ==== Proof.OutValueIdx.lean ====
/-
  The output layer's accumulation read at an index, at the ideal values: a block's product at column v is the sum
  over its thirty-two rows of the hidden entry times the weight; a step adds it to what was there.
-/
import proofs.«202118_g10599979286629_week1_w2_627_56_alg».proof.Proof.OutValue
import Idealize.ShloMosaic.PureOps.Ideal.Laws
import Idealize.ShloMosaic.Lib.ValueIdx
import Idealize.ShloMosaic.Lib.Pipeline.Value

set_option maxRecDepth 16384

noncomputable section

namespace Cert.KernelIdeal.Output

open Cert.KernelIdeal Cert.KernelIdeal.Gen
open Idealize.ShloMosaic Idealize.ShloMosaic.ValueIdx

/-- Row k of a 32-row block is row (k / 8, k % 8) of its 4 × 8 layout. -/
abbrev kq (k : Fin 32) : Fin 4 := ⟨k.val / 8, by omega⟩
abbrev kr (k : Fin 32) : Fin 8 := ⟨k.val % 8, by omega⟩

/-- A block's product at column `v`. -/
theorem blockProd_apply (hb : Vec Ideal S1x1x32 .f32) (s : Vec Ideal S1x4x8x100000 .f32) (v : Fin 100000) :
    blockProd hb s (ix2 0 v)
      = ∑ k : Fin 32, hb (ix3 0 0 k) * (shapeCast S4x8x100000 s shapeCasts_S1x4x8x100000_S4x8x100000) (ix3 (kq k) (kr k) v) := by
  unfold blockProd
  show FloatOps.matmul _ none _ _ (constant S1x100000 .f32 0x00000000#32) (ix2 0 v) = _
  rw [Ideal.matmul_constant_zero_apply,
    ← Equiv.sum_comp (contrEquiv1 (dot_S1x32_S32x100000_S1x100000_1_0_0_1_n_n) 32 rfl rfl).symm]
  refine Finset.sum_congr rfl fun k _ => ?_
  have c2 := contrEquiv1_symm_val (dot_S1x32_S32x100000_S1x100000_1_0_0_1_n_n) 32 rfl rfl k
  have l2 : (dot_S1x32_S32x100000_S1x100000_1_0_0_1_n_n).lhsIdx (ix2 0 v) ((contrEquiv1 _ 32 rfl rfl).symm k) = ix2 0 k := by
    funext ax; apply Fin.ext
    match ax with
    | ⟨0, _⟩ => simp [DotDims.lhsIdx, dot_S1x32_S32x100000_S1x100000_1_0_0_1_n_n] <;> rfl
    | ⟨1, _⟩ => simp [DotDims.lhsIdx, dot_S1x32_S32x100000_S1x100000_1_0_0_1_n_n]; exact c2
  have r2 : (dot_S1x32_S32x100000_S1x100000_1_0_0_1_n_n).rhsIdx (ix2 0 v) ((contrEquiv1 _ 32 rfl rfl).symm k) = ix2 k v := by
    funext ax; apply Fin.ext
    match ax with
    | ⟨0, _⟩ => simp [DotDims.rhsIdx, dot_S1x32_S32x100000_S1x100000_1_0_0_1_n_n]; exact c2
    | ⟨1, _⟩ => simp [DotDims.rhsIdx, dot_S1x32_S32x100000_S1x100000_1_0_0_1_n_n] <;> rfl
  rw [l2, r2]
  have e1 : (shapeCast S1x32 hb shapeCasts_S1x1x32_S1x32) (ix2 0 k) = hb (ix3 0 0 k) :=
    shapeCast_apply hb shapeCasts_S1x1x32_S1x32 (ix2 0 k) (ix3 0 0 k) (by
      rw [Shape.rowMajor_val_three, Shape.rowMajor_val_two]
      show ((0 : ℕ) * 1 + 0) * 32 + k.val = 0 * 32 + k.val
      omega)
  have e2 : (shapeCast S32x100000 (shapeCast S4x8x100000 s shapeCasts_S1x4x8x100000_S4x8x100000) shapeCasts_S4x8x100000_S32x100000) (ix2 k v)
      = (shapeCast S4x8x100000 s shapeCasts_S1x4x8x100000_S4x8x100000) (ix3 (kq k) (kr k) v) :=
    shapeCast_apply _ shapeCasts_S4x8x100000_S32x100000 (ix2 k v) (ix3 (kq k) (kr k) v) (by
      rw [Shape.rowMajor_val_three, Shape.rowMajor_val_two]
      show ((k.val / 8) * 8 + k.val % 8) * 100000 + v.val = k.val * 100000 + v.val
      omega)
  exact congrArg₂ (· * ·) e1 e2

/-- A later block's step at column `v`; -/
theorem step_apply (prev : Vec Ideal S1x100000 .f32) (hb : Vec Ideal S1x1x32 .f32) (s : Vec Ideal S1x4x8x100000 .f32) (v : Fin 100000) :
    step prev hb s (ix2 0 v) = prev (ix2 0 v) + blockProd hb s (ix2 0 v) := by
  unfold step
  rw [addf_apply]
  exact congrArg (· + blockProd hb s (ix2 0 v)) (shapeCast_apply prev shapeCasts_S1x100000_S1x100000 (ix2 0 v) (ix2 0 v) rfl)

/-- the first block's. -/
theorem first_apply (bias : Vec Ideal S1x100000 .f32) (hb : Vec Ideal S1x1x32 .f32) (s : Vec Ideal S1x4x8x100000 .f32) (v : Fin 100000) :
    first bias hb s (ix2 0 v) = blockProd hb s (ix2 0 v) + bias (ix2 0 v) := by
  unfold first
  rw [addf_apply]
  exact congrArg (blockProd hb s (ix2 0 v) + ·) (shapeCast_apply bias shapeCasts_S1x100000_S1x100000 (ix2 0 v) (ix2 0 v) rfl)

section AnyF
variable {F : FTy → Type} [FloatOps F] [∀ e, Nonempty (Elt F e)]

/-! ## The slots' data and the hidden blocks -/

omit [FloatOps F] in
/-- A store of the whole shape, LAST, leaves its payload whatever the earlier stores were. -/
theorem canon_cons_whole {S : Shape} {e : EltTy} (w : S.Idx → Elt F e) (L : List (View.Piece (Elt F) S e)) :
    View.canon ((⟨Rect.whole S, w⟩ : View.Piece (Elt F) S e) :: L) = w := by
  funext y
  have e := View.canon_cons_emb (Val := Elt F) (Rect.whole S) w L y
  rw [Rect.emb_whole_apply] at e
  exact e

omit [FloatOps F] in
/-- A view read after writes the newest of which covers it reads that write's payload. -/
theorem read_writes_whole_head {sig : RefSig} {κ : Kind} {sp : Space} {S : Shape} {e : EltTy} (v : View sig κ sp S e)
    (w : S.Idx → Elt F e) (L : List (View.Piece (Elt F) S e)) :
    v.read (Elt F) (v.writes (Elt F) v.junk ((⟨Rect.whole S, w⟩ : View.Piece (Elt F) S e) :: L)) = w := by
  rw [View.read_writes_eq_canon _ _ _ (fun y => ⟨_, List.mem_cons_self, by
    show y ∈ (Rect.whole S).set; rw [Rect.set_whole]; exact Finset.mem_univ y⟩), canon_cons_whole]

/-- Block 0's slot, loaded through the scratch, holds what copy 0 delivered. -/
theorem slotData0 (c : Dev nD) (f8 : Bf (F := F) c (Memref.whole main_v8)) :
    shapeCast S4x8x100000 (outRun.sl.v18 c f8) shapeCasts_S1x4x8x100000_S4x8x100000 = outRun.sl.dma0 c f8 := by
  unfold outRun.sl.v18
  exact (Memref.read_squeeze_slice (Val := Elt F) (Memref.whole cc2_scratch0 : Memref sig .tc .vmem S3x4x8x100000 .f32)
    (Rect.unit (s := S3x4x8x100000) ![0, 0, 0, 0] S1x4x8x100000.size inb_S3x4x8x100000_S1x4x8x100000_0_0_0_0) (fun _ => rfl)
    squeezes_S1x4x8x100000_S4x8x100000 shapeCasts_S1x4x8x100000_S4x8x100000 _).symm.trans (read_writes_whole_head (slot0).view _ _)
/-- Block 1's slot, loaded through the scratch, holds what copy 1 delivered. -/
theorem slotData1 (c : Dev nD) (f8 : Bf (F := F) c (Memref.whole main_v8)) :
    shapeCast S4x8x100000 (outRun.sl.v40 c f8) shapeCasts_S1x4x8x100000_S4x8x100000 = outRun.sl.dma0_1 c f8 := by
  unfold outRun.sl.v40
  exact (Memref.read_squeeze_slice (Val := Elt F) (Memref.whole cc2_scratch0 : Memref sig .tc .vmem S3x4x8x100000 .f32)
    (Rect.unit (s := S3x4x8x100000) ![1, 0, 0, 0] S1x4x8x100000.size inb_S3x4x8x100000_S1x4x8x100000_1_0_0_0) (fun _ => rfl)
    squeezes_S1x4x8x100000_S4x8x100000 shapeCasts_S1x4x8x100000_S4x8x100000 _).symm.trans (read_writes_whole_head (slot1).view _ _)
/-- Block 2's slot, loaded through the scratch, holds what copy 2 delivered. -/
theorem slotData2 (c : Dev nD) (f8 : Bf (F := F) c (Memref.whole main_v8)) :
    shapeCast S4x8x100000 (outRun.sl.v62 c f8) shapeCasts_S1x4x8x100000_S4x8x100000 = outRun.sl.dma5 c f8 := by
  unfold outRun.sl.v62
  exact (Memref.read_squeeze_slice (Val := Elt F) (Memref.whole cc2_scratch0 : Memref sig .tc .vmem S3x4x8x100000 .f32)
    (Rect.unit (s := S3x4x8x100000) ![2, 0, 0, 0] S1x4x8x100000.size inb_S3x4x8x100000_S1x4x8x100000_2_0_0_0) (fun _ => rfl)
    squeezes_S1x4x8x100000_S4x8x100000 shapeCasts_S1x4x8x100000_S4x8x100000 _).symm.trans (read_writes_whole_head (slot2).view _ _)
/-- Block 3's slot, loaded through the scratch, holds what copy 3 delivered. -/
theorem slotData3 (c : Dev nD) (f8 : Bf (F := F) c (Memref.whole main_v8)) :
    shapeCast S4x8x100000 (outRun.sl.v84 c f8) shapeCasts_S1x4x8x100000_S4x8x100000 = outRun.sl.dma10 c f8 := by
  unfold outRun.sl.v84
  exact (Memref.read_squeeze_slice (Val := Elt F) (Memref.whole cc2_scratch0 : Memref sig .tc .vmem S3x4x8x100000 .f32)
    (Rect.unit (s := S3x4x8x100000) ![0, 0, 0, 0] S1x4x8x100000.size inb_S3x4x8x100000_S1x4x8x100000_0_0_0_0) (fun _ => rfl)
    squeezes_S1x4x8x100000_S4x8x100000 shapeCasts_S1x4x8x100000_S4x8x100000 _).symm.trans (read_writes_whole_head (slot0).view _ _)
/-- Block 4's slot, loaded through the scratch, holds what copy 4 delivered. -/
theorem slotData4 (c : Dev nD) (f8 : Bf (F := F) c (Memref.whole main_v8)) :
    shapeCast S4x8x100000 (outRun.sl.v106 c f8) shapeCasts_S1x4x8x100000_S4x8x100000 = outRun.sl.dma15 c f8 := by
  unfold outRun.sl.v106
  exact (Memref.read_squeeze_slice (Val := Elt F) (Memref.whole cc2_scratch0 : Memref sig .tc .vmem S3x4x8x100000 .f32)
    (Rect.unit (s := S3x4x8x100000) ![1, 0, 0, 0] S1x4x8x100000.size inb_S3x4x8x100000_S1x4x8x100000_1_0_0_0) (fun _ => rfl)
    squeezes_S1x4x8x100000_S4x8x100000 shapeCasts_S1x4x8x100000_S4x8x100000 _).symm.trans (read_writes_whole_head (slot1).view _ _)
/-- Block 5's slot, loaded through the scratch, holds what copy 5 delivered. -/
theorem slotData5 (c : Dev nD) (f8 : Bf (F := F) c (Memref.whole main_v8)) :
    shapeCast S4x8x100000 (outRun.sl.v128 c f8) shapeCasts_S1x4x8x100000_S4x8x100000 = outRun.sl.dma20 c f8 := by
  unfold outRun.sl.v128
  exact (Memref.read_squeeze_slice (Val := Elt F) (Memref.whole cc2_scratch0 : Memref sig .tc .vmem S3x4x8x100000 .f32)
    (Rect.unit (s := S3x4x8x100000) ![2, 0, 0, 0] S1x4x8x100000.size inb_S3x4x8x100000_S1x4x8x100000_2_0_0_0) (fun _ => rfl)
    squeezes_S1x4x8x100000_S4x8x100000 shapeCasts_S1x4x8x100000_S4x8x100000 _).symm.trans (read_writes_whole_head (slot2).view _ _)
/-- Block 6's slot, loaded through the scratch, holds what copy 6 delivered. -/
theorem slotData6 (c : Dev nD) (f8 : Bf (F := F) c (Memref.whole main_v8)) :
    shapeCast S4x8x100000 (outRun.sl.v150 c f8) shapeCasts_S1x4x8x100000_S4x8x100000 = outRun.sl.dma25 c f8 := by
  unfold outRun.sl.v150
  exact (Memref.read_squeeze_slice (Val := Elt F) (Memref.whole cc2_scratch0 : Memref sig .tc .vmem S3x4x8x100000 .f32)
    (Rect.unit (s := S3x4x8x100000) ![0, 0, 0, 0] S1x4x8x100000.size inb_S3x4x8x100000_S1x4x8x100000_0_0_0_0) (fun _ => rfl)
    squeezes_S1x4x8x100000_S4x8x100000 shapeCasts_S1x4x8x100000_S4x8x100000 _).symm.trans (read_writes_whole_head (slot0).view _ _)
/-- Block 7's slot, loaded through the scratch, holds what copy 7 delivered. -/
theorem slotData7 (c : Dev nD) (f8 : Bf (F := F) c (Memref.whole main_v8)) :
    shapeCast S4x8x100000 (outRun.sl.v172 c f8) shapeCasts_S1x4x8x100000_S4x8x100000 = outRun.sl.dma30 c f8 := by
  unfold outRun.sl.v172
  exact (Memref.read_squeeze_slice (Val := Elt F) (Memref.whole cc2_scratch0 : Memref sig .tc .vmem S3x4x8x100000 .f32)
    (Rect.unit (s := S3x4x8x100000) ![1, 0, 0, 0] S1x4x8x100000.size inb_S3x4x8x100000_S1x4x8x100000_1_0_0_0) (fun _ => rfl)
    squeezes_S1x4x8x100000_S4x8x100000 shapeCasts_S1x4x8x100000_S4x8x100000 _).symm.trans (read_writes_whole_head (slot1).view _ _)
/-- Block 8's slot, loaded through the scratch, holds what copy 8 delivered. -/
theorem slotData8 (c : Dev nD) (f8 : Bf (F := F) c (Memref.whole main_v8)) :
    shapeCast S4x8x100000 (outRun.sl.v194 c f8) shapeCasts_S1x4x8x100000_S4x8x100000 = outRun.sl.dma35 c f8 := by
  unfold outRun.sl.v194
  exact (Memref.read_squeeze_slice (Val := Elt F) (Memref.whole cc2_scratch0 : Memref sig .tc .vmem S3x4x8x100000 .f32)
    (Rect.unit (s := S3x4x8x100000) ![2, 0, 0, 0] S1x4x8x100000.size inb_S3x4x8x100000_S1x4x8x100000_2_0_0_0) (fun _ => rfl)
    squeezes_S1x4x8x100000_S4x8x100000 shapeCasts_S1x4x8x100000_S4x8x100000 _).symm.trans (read_writes_whole_head (slot2).view _ _)
/-- Block 9's slot, loaded through the scratch, holds what copy 9 delivered. -/
theorem slotData9 (c : Dev nD) (f8 : Bf (F := F) c (Memref.whole main_v8)) :
    shapeCast S4x8x100000 (outRun.sl.v216 c f8) shapeCasts_S1x4x8x100000_S4x8x100000 = outRun.sl.dma40 c f8 := by
  unfold outRun.sl.v216
  exact (Memref.read_squeeze_slice (Val := Elt F) (Memref.whole cc2_scratch0 : Memref sig .tc .vmem S3x4x8x100000 .f32)
    (Rect.unit (s := S3x4x8x100000) ![0, 0, 0, 0] S1x4x8x100000.size inb_S3x4x8x100000_S1x4x8x100000_0_0_0_0) (fun _ => rfl)
    squeezes_S1x4x8x100000_S4x8x100000 shapeCasts_S1x4x8x100000_S4x8x100000 _).symm.trans (read_writes_whole_head (slot0).view _ _)
/-- Block 10's slot, loaded through the scratch, holds what copy 10 delivered. -/
theorem slotData10 (c : Dev nD) (f8 : Bf (F := F) c (Memref.whole main_v8)) :
    shapeCast S4x8x100000 (outRun.sl.v238 c f8) shapeCasts_S1x4x8x100000_S4x8x100000 = outRun.sl.dma45 c f8 := by
  unfold outRun.sl.v238
  exact (Memref.read_squeeze_slice (Val := Elt F) (Memref.whole cc2_scratch0 : Memref sig .tc .vmem S3x4x8x100000 .f32)
    (Rect.unit (s := S3x4x8x100000) ![1, 0, 0, 0] S1x4x8x100000.size inb_S3x4x8x100000_S1x4x8x100000_1_0_0_0) (fun _ => rfl)
    squeezes_S1x4x8x100000_S4x8x100000 shapeCasts_S1x4x8x100000_S4x8x100000 _).symm.trans (read_writes_whole_head (slot1).view _ _)
/-- Block 11's slot, loaded through the scratch, holds what copy 11 delivered. -/
theorem slotData11 (c : Dev nD) (f8 : Bf (F := F) c (Memref.whole main_v8)) :
    shapeCast S4x8x100000 (outRun.sl.v260 c f8) shapeCasts_S1x4x8x100000_S4x8x100000 = outRun.sl.dma50 c f8 := by
  unfold outRun.sl.v260
  exact (Memref.read_squeeze_slice (Val := Elt F) (Memref.whole cc2_scratch0 : Memref sig .tc .vmem S3x4x8x100000 .f32)
    (Rect.unit (s := S3x4x8x100000) ![2, 0, 0, 0] S1x4x8x100000.size inb_S3x4x8x100000_S1x4x8x100000_2_0_0_0) (fun _ => rfl)
    squeezes_S1x4x8x100000_S4x8x100000 shapeCasts_S1x4x8x100000_S4x8x100000 _).symm.trans (read_writes_whole_head (slot2).view _ _)
/-- Block 12's slot, loaded through the scratch, holds what copy 12 delivered. -/
theorem slotData12 (c : Dev nD) (f8 : Bf (F := F) c (Memref.whole main_v8)) :
    shapeCast S4x8x100000 (outRun.sl.v282 c f8) shapeCasts_S1x4x8x100000_S4x8x100000 = outRun.sl.dma55 c f8 := by
  unfold outRun.sl.v282
  exact (Memref.read_squeeze_slice (Val := Elt F) (Memref.whole cc2_scratch0 : Memref sig .tc .vmem S3x4x8x100000 .f32)
    (Rect.unit (s := S3x4x8x100000) ![0, 0, 0, 0] S1x4x8x100000.size inb_S3x4x8x100000_S1x4x8x100000_0_0_0_0) (fun _ => rfl)
    squeezes_S1x4x8x100000_S4x8x100000 shapeCasts_S1x4x8x100000_S4x8x100000 _).symm.trans (read_writes_whole_head (slot0).view _ _)
/-- Block 13's slot, loaded through the scratch, holds what copy 13 delivered. -/
theorem slotData13 (c : Dev nD) (f8 : Bf (F := F) c (Memref.whole main_v8)) :
    shapeCast S4x8x100000 (outRun.sl.v304 c f8) shapeCasts_S1x4x8x100000_S4x8x100000 = outRun.sl.dma60 c f8 := by
  unfold outRun.sl.v304
  exact (Memref.read_squeeze_slice (Val := Elt F) (Memref.whole cc2_scratch0 : Memref sig .tc .vmem S3x4x8x100000 .f32)
    (Rect.unit (s := S3x4x8x100000) ![1, 0, 0, 0] S1x4x8x100000.size inb_S3x4x8x100000_S1x4x8x100000_1_0_0_0) (fun _ => rfl)
    squeezes_S1x4x8x100000_S4x8x100000 shapeCasts_S1x4x8x100000_S4x8x100000 _).symm.trans (read_writes_whole_head (slot1).view _ _)
/-- Block 14's slot, loaded through the scratch, holds what copy 14 delivered. -/
theorem slotData14 (c : Dev nD) (f8 : Bf (F := F) c (Memref.whole main_v8)) :
    shapeCast S4x8x100000 (outRun.sl.v326 c f8) shapeCasts_S1x4x8x100000_S4x8x100000 = outRun.sl.dma65 c f8 := by
  unfold outRun.sl.v326
  exact (Memref.read_squeeze_slice (Val := Elt F) (Memref.whole cc2_scratch0 : Memref sig .tc .vmem S3x4x8x100000 .f32)
    (Rect.unit (s := S3x4x8x100000) ![2, 0, 0, 0] S1x4x8x100000.size inb_S3x4x8x100000_S1x4x8x100000_2_0_0_0) (fun _ => rfl)
    squeezes_S1x4x8x100000_S4x8x100000 shapeCasts_S1x4x8x100000_S4x8x100000 _).symm.trans (read_writes_whole_head (slot2).view _ _)
/-- Block 15's slot, loaded through the scratch, holds what copy 15 delivered. -/
theorem slotData15 (c : Dev nD) (f8 : Bf (F := F) c (Memref.whole main_v8)) :
    shapeCast S4x8x100000 (outRun.sl.v342 c f8) shapeCasts_S1x4x8x100000_S4x8x100000 = outRun.sl.dma70 c f8 := by
  unfold outRun.sl.v342
  exact (Memref.read_squeeze_slice (Val := Elt F) (Memref.whole cc2_scratch0 : Memref sig .tc .vmem S3x4x8x100000 .f32)
    (Rect.unit (s := S3x4x8x100000) ![0, 0, 0, 0] S1x4x8x100000.size inb_S3x4x8x100000_S1x4x8x100000_0_0_0_0) (fun _ => rfl)
    squeezes_S1x4x8x100000_S4x8x100000 shapeCasts_S1x4x8x100000_S4x8x100000 _).symm.trans (read_writes_whole_head (slot0).view _ _)

end AnyF

/-! ## At the ideal values: the copies' payloads and the hidden blocks at an index -/

theorem dmaAt0 (c : Dev nD) (f8 : Bf (F := Ideal) c (Memref.whole main_v8)) (s : Fin 4) (j : Fin 8) (v : Fin 100000) :
    outRun.sl.dma0 c f8 (ix3 s j v) = f8 (ix4 s 0 j v) := by
  unfold outRun.sl.dma0
  rw [ReadAs.apply_same]
  rw [Memref.read_squeeze_slice (Val := Elt Ideal) (Memref.whole main_v8 : Memref sig .tc .hbm S4x16x8x100000 .f32)
    (Rect.unit (s := S4x16x8x100000) ![0, 0, 0, 0] S4x1x8x100000.size inb_S4x16x8x100000_S4x1x8x100000_0_0_0_0) (fun _ => rfl)
    squeezes_S4x1x8x100000_S4x8x100000 (by decide) f8]
  rw [shapeCast_apply _ _ (ix3 s j v) (ix4 s 0 j v) (by
    rw [Shape.rowMajor_val_four, Shape.rowMajor_val_three]
    show ((s.val * 1 + 0) * 8 + j.val) * 100000 + v.val = (s.val * 8 + j.val) * 100000 + v.val
    omega)]
  show f8 _ = f8 _
  congr 1; funext a
  match a with
  | ⟨0, _⟩ => exact Fin.ext (by show 0 + 1 * s.val = s.val; omega)
  | ⟨1, _⟩ => exact Fin.ext (by show 0 + 1 * 0 = 0; omega)
  | ⟨2, _⟩ => exact Fin.ext (by show 0 + 1 * j.val = j.val; omega)
  | ⟨3, _⟩ => exact Fin.ext (by show 0 + 1 * v.val = v.val; omega)
theorem dmaAt1 (c : Dev nD) (f8 : Bf (F := Ideal) c (Memref.whole main_v8)) (s : Fin 4) (j : Fin 8) (v : Fin 100000) :
    outRun.sl.dma0_1 c f8 (ix3 s j v) = f8 (ix4 s 1 j v) := by
  unfold outRun.sl.dma0_1
  rw [ReadAs.apply_same]
  rw [Memref.read_squeeze_slice (Val := Elt Ideal) (Memref.whole main_v8 : Memref sig .tc .hbm S4x16x8x100000 .f32)
    (Rect.unit (s := S4x16x8x100000) ![0, 1, 0, 0] S4x1x8x100000.size inb_S4x16x8x100000_S4x1x8x100000_0_1_0_0) (fun _ => rfl)
    squeezes_S4x1x8x100000_S4x8x100000 (by decide) f8]
  rw [shapeCast_apply _ _ (ix3 s j v) (ix4 s 0 j v) (by
    rw [Shape.rowMajor_val_four, Shape.rowMajor_val_three]
    show ((s.val * 1 + 0) * 8 + j.val) * 100000 + v.val = (s.val * 8 + j.val) * 100000 + v.val
    omega)]
  show f8 _ = f8 _
  congr 1; funext a
  match a with
  | ⟨0, _⟩ => exact Fin.ext (by show 0 + 1 * s.val = s.val; omega)
  | ⟨1, _⟩ => exact Fin.ext (by show 1 + 1 * 0 = 1; omega)
  | ⟨2, _⟩ => exact Fin.ext (by show 0 + 1 * j.val = j.val; omega)
  | ⟨3, _⟩ => exact Fin.ext (by show 0 + 1 * v.val = v.val; omega)
theorem dmaAt2 (c : Dev nD) (f8 : Bf (F := Ideal) c (Memref.whole main_v8)) (s : Fin 4) (j : Fin 8) (v : Fin 100000) :
    outRun.sl.dma5 c f8 (ix3 s j v) = f8 (ix4 s 2 j v) := by
  unfold outRun.sl.dma5
  rw [ReadAs.apply_same]
  rw [Memref.read_squeeze_slice (Val := Elt Ideal) (Memref.whole main_v8 : Memref sig .tc .hbm S4x16x8x100000 .f32)
    (Rect.unit (s := S4x16x8x100000) ![0, 2, 0, 0] S4x1x8x100000.size inb_S4x16x8x100000_S4x1x8x100000_0_2_0_0) (fun _ => rfl)
    squeezes_S4x1x8x100000_S4x8x100000 (by decide) f8]
  rw [shapeCast_apply _ _ (ix3 s j v) (ix4 s 0 j v) (by
    rw [Shape.rowMajor_val_four, Shape.rowMajor_val_three]
    show ((s.val * 1 + 0) * 8 + j.val) * 100000 + v.val = (s.val * 8 + j.val) * 100000 + v.val
    omega)]
  show f8 _ = f8 _
  congr 1; funext a
  match a with
  | ⟨0, _⟩ => exact Fin.ext (by show 0 + 1 * s.val = s.val; omega)
  | ⟨1, _⟩ => exact Fin.ext (by show 2 + 1 * 0 = 2; omega)
  | ⟨2, _⟩ => exact Fin.ext (by show 0 + 1 * j.val = j.val; omega)
  | ⟨3, _⟩ => exact Fin.ext (by show 0 + 1 * v.val = v.val; omega)
theorem dmaAt3 (c : Dev nD) (f8 : Bf (F := Ideal) c (Memref.whole main_v8)) (s : Fin 4) (j : Fin 8) (v : Fin 100000) :
    outRun.sl.dma10 c f8 (ix3 s j v) = f8 (ix4 s 3 j v) := by
  unfold outRun.sl.dma10
  rw [ReadAs.apply_same]
  rw [Memref.read_squeeze_slice (Val := Elt Ideal) (Memref.whole main_v8 : Memref sig .tc .hbm S4x16x8x100000 .f32)
    (Rect.unit (s := S4x16x8x100000) ![0, 3, 0, 0] S4x1x8x100000.size inb_S4x16x8x100000_S4x1x8x100000_0_3_0_0) (fun _ => rfl)
    squeezes_S4x1x8x100000_S4x8x100000 (by decide) f8]
  rw [shapeCast_apply _ _ (ix3 s j v) (ix4 s 0 j v) (by
    rw [Shape.rowMajor_val_four, Shape.rowMajor_val_three]
    show ((s.val * 1 + 0) * 8 + j.val) * 100000 + v.val = (s.val * 8 + j.val) * 100000 + v.val
    omega)]
  show f8 _ = f8 _
  congr 1; funext a
  match a with
  | ⟨0, _⟩ => exact Fin.ext (by show 0 + 1 * s.val = s.val; omega)
  | ⟨1, _⟩ => exact Fin.ext (by show 3 + 1 * 0 = 3; omega)
  | ⟨2, _⟩ => exact Fin.ext (by show 0 + 1 * j.val = j.val; omega)
  | ⟨3, _⟩ => exact Fin.ext (by show 0 + 1 * v.val = v.val; omega)
theorem dmaAt4 (c : Dev nD) (f8 : Bf (F := Ideal) c (Memref.whole main_v8)) (s : Fin 4) (j : Fin 8) (v : Fin 100000) :
    outRun.sl.dma15 c f8 (ix3 s j v) = f8 (ix4 s 4 j v) := by
  unfold outRun.sl.dma15
  rw [ReadAs.apply_same]
  rw [Memref.read_squeeze_slice (Val := Elt Ideal) (Memref.whole main_v8 : Memref sig .tc .hbm S4x16x8x100000 .f32)
    (Rect.unit (s := S4x16x8x100000) ![0, 4, 0, 0] S4x1x8x100000.size inb_S4x16x8x100000_S4x1x8x100000_0_4_0_0) (fun _ => rfl)
    squeezes_S4x1x8x100000_S4x8x100000 (by decide) f8]
  rw [shapeCast_apply _ _ (ix3 s j v) (ix4 s 0 j v) (by
    rw [Shape.rowMajor_val_four, Shape.rowMajor_val_three]
    show ((s.val * 1 + 0) * 8 + j.val) * 100000 + v.val = (s.val * 8 + j.val) * 100000 + v.val
    omega)]
  show f8 _ = f8 _
  congr 1; funext a
  match a with
  | ⟨0, _⟩ => exact Fin.ext (by show 0 + 1 * s.val = s.val; omega)
  | ⟨1, _⟩ => exact Fin.ext (by show 4 + 1 * 0 = 4; omega)
  | ⟨2, _⟩ => exact Fin.ext (by show 0 + 1 * j.val = j.val; omega)
  | ⟨3, _⟩ => exact Fin.ext (by show 0 + 1 * v.val = v.val; omega)
theorem dmaAt5 (c : Dev nD) (f8 : Bf (F := Ideal) c (Memref.whole main_v8)) (s : Fin 4) (j : Fin 8) (v : Fin 100000) :
    outRun.sl.dma20 c f8 (ix3 s j v) = f8 (ix4 s 5 j v) := by
  unfold outRun.sl.dma20
  rw [ReadAs.apply_same]
  rw [Memref.read_squeeze_slice (Val := Elt Ideal) (Memref.whole main_v8 : Memref sig .tc .hbm S4x16x8x100000 .f32)
    (Rect.unit (s := S4x16x8x100000) ![0, 5, 0, 0] S4x1x8x100000.size inb_S4x16x8x100000_S4x1x8x100000_0_5_0_0) (fun _ => rfl)
    squeezes_S4x1x8x100000_S4x8x100000 (by decide) f8]
  rw [shapeCast_apply _ _ (ix3 s j v) (ix4 s 0 j v) (by
    rw [Shape.rowMajor_val_four, Shape.rowMajor_val_three]
    show ((s.val * 1 + 0) * 8 + j.val) * 100000 + v.val = (s.val * 8 + j.val) * 100000 + v.val
    omega)]
  show f8 _ = f8 _
  congr 1; funext a
  match a with
  | ⟨0, _⟩ => exact Fin.ext (by show 0 + 1 * s.val = s.val; omega)
  | ⟨1, _⟩ => exact Fin.ext (by show 5 + 1 * 0 = 5; omega)
  | ⟨2, _⟩ => exact Fin.ext (by show 0 + 1 * j.val = j.val; omega)
  | ⟨3, _⟩ => exact Fin.ext (by show 0 + 1 * v.val = v.val; omega)
theorem dmaAt6 (c : Dev nD) (f8 : Bf (F := Ideal) c (Memref.whole main_v8)) (s : Fin 4) (j : Fin 8) (v : Fin 100000) :
    outRun.sl.dma25 c f8 (ix3 s j v) = f8 (ix4 s 6 j v) := by
  unfold outRun.sl.dma25
  rw [ReadAs.apply_same]
  rw [Memref.read_squeeze_slice (Val := Elt Ideal) (Memref.whole main_v8 : Memref sig .tc .hbm S4x16x8x100000 .f32)
    (Rect.unit (s := S4x16x8x100000) ![0, 6, 0, 0] S4x1x8x100000.size inb_S4x16x8x100000_S4x1x8x100000_0_6_0_0) (fun _ => rfl)
    squeezes_S4x1x8x100000_S4x8x100000 (by decide) f8]
  rw [shapeCast_apply _ _ (ix3 s j v) (ix4 s 0 j v) (by
    rw [Shape.rowMajor_val_four, Shape.rowMajor_val_three]
    show ((s.val * 1 + 0) * 8 + j.val) * 100000 + v.val = (s.val * 8 + j.val) * 100000 + v.val
    omega)]
  show f8 _ = f8 _
  congr 1; funext a
  match a with
  | ⟨0, _⟩ => exact Fin.ext (by show 0 + 1 * s.val = s.val; omega)
  | ⟨1, _⟩ => exact Fin.ext (by show 6 + 1 * 0 = 6; omega)
  | ⟨2, _⟩ => exact Fin.ext (by show 0 + 1 * j.val = j.val; omega)
  | ⟨3, _⟩ => exact Fin.ext (by show 0 + 1 * v.val = v.val; omega)
theorem dmaAt7 (c : Dev nD) (f8 : Bf (F := Ideal) c (Memref.whole main_v8)) (s : Fin 4) (j : Fin 8) (v : Fin 100000) :
    outRun.sl.dma30 c f8 (ix3 s j v) = f8 (ix4 s 7 j v) := by
  unfold outRun.sl.dma30
  rw [ReadAs.apply_same]
  rw [Memref.read_squeeze_slice (Val := Elt Ideal) (Memref.whole main_v8 : Memref sig .tc .hbm S4x16x8x100000 .f32)
    (Rect.unit (s := S4x16x8x100000) ![0, 7, 0, 0] S4x1x8x100000.size inb_S4x16x8x100000_S4x1x8x100000_0_7_0_0) (fun _ => rfl)
    squeezes_S4x1x8x100000_S4x8x100000 (by decide) f8]
  rw [shapeCast_apply _ _ (ix3 s j v) (ix4 s 0 j v) (by
    rw [Shape.rowMajor_val_four, Shape.rowMajor_val_three]
    show ((s.val * 1 + 0) * 8 + j.val) * 100000 + v.val = (s.val * 8 + j.val) * 100000 + v.val
    omega)]
  show f8 _ = f8 _
  congr 1; funext a
  match a with
  | ⟨0, _⟩ => exact Fin.ext (by show 0 + 1 * s.val = s.val; omega)
  | ⟨1, _⟩ => exact Fin.ext (by show 7 + 1 * 0 = 7; omega)
  | ⟨2, _⟩ => exact Fin.ext (by show 0 + 1 * j.val = j.val; omega)
  | ⟨3, _⟩ => exact Fin.ext (by show 0 + 1 * v.val = v.val; omega)
theorem dmaAt8 (c : Dev nD) (f8 : Bf (F := Ideal) c (Memref.whole main_v8)) (s : Fin 4) (j : Fin 8) (v : Fin 100000) :
    outRun.sl.dma35 c f8 (ix3 s j v) = f8 (ix4 s 8 j v) := by
  unfold outRun.sl.dma35
  rw [ReadAs.apply_same]
  rw [Memref.read_squeeze_slice (Val := Elt Ideal) (Memref.whole main_v8 : Memref sig .tc .hbm S4x16x8x100000 .f32)
    (Rect.unit (s := S4x16x8x100000) ![0, 8, 0, 0] S4x1x8x100000.size inb_S4x16x8x100000_S4x1x8x100000_0_8_0_0) (fun _ => rfl)
    squeezes_S4x1x8x100000_S4x8x100000 (by decide) f8]
  rw [shapeCast_apply _ _ (ix3 s j v) (ix4 s 0 j v) (by
    rw [Shape.rowMajor_val_four, Shape.rowMajor_val_three]
    show ((s.val * 1 + 0) * 8 + j.val) * 100000 + v.val = (s.val * 8 + j.val) * 100000 + v.val
    omega)]
  show f8 _ = f8 _
  congr 1; funext a
  match a with
  | ⟨0, _⟩ => exact Fin.ext (by show 0 + 1 * s.val = s.val; omega)
  | ⟨1, _⟩ => exact Fin.ext (by show 8 + 1 * 0 = 8; omega)
  | ⟨2, _⟩ => exact Fin.ext (by show 0 + 1 * j.val = j.val; omega)
  | ⟨3, _⟩ => exact Fin.ext (by show 0 + 1 * v.val = v.val; omega)
theorem dmaAt9 (c : Dev nD) (f8 : Bf (F := Ideal) c (Memref.whole main_v8)) (s : Fin 4) (j : Fin 8) (v : Fin 100000) :
    outRun.sl.dma40 c f8 (ix3 s j v) = f8 (ix4 s 9 j v) := by
  unfold outRun.sl.dma40
  rw [ReadAs.apply_same]
  rw [Memref.read_squeeze_slice (Val := Elt Ideal) (Memref.whole main_v8 : Memref sig .tc .hbm S4x16x8x100000 .f32)
    (Rect.unit (s := S4x16x8x100000) ![0, 9, 0, 0] S4x1x8x100000.size inb_S4x16x8x100000_S4x1x8x100000_0_9_0_0) (fun _ => rfl)
    squeezes_S4x1x8x100000_S4x8x100000 (by decide) f8]
  rw [shapeCast_apply _ _ (ix3 s j v) (ix4 s 0 j v) (by
    rw [Shape.rowMajor_val_four, Shape.rowMajor_val_three]
    show ((s.val * 1 + 0) * 8 + j.val) * 100000 + v.val = (s.val * 8 + j.val) * 100000 + v.val
    omega)]
  show f8 _ = f8 _
  congr 1; funext a
  match a with
  | ⟨0, _⟩ => exact Fin.ext (by show 0 + 1 * s.val = s.val; omega)
  | ⟨1, _⟩ => exact Fin.ext (by show 9 + 1 * 0 = 9; omega)
  | ⟨2, _⟩ => exact Fin.ext (by show 0 + 1 * j.val = j.val; omega)
  | ⟨3, _⟩ => exact Fin.ext (by show 0 + 1 * v.val = v.val; omega)
theorem dmaAt10 (c : Dev nD) (f8 : Bf (F := Ideal) c (Memref.whole main_v8)) (s : Fin 4) (j : Fin 8) (v : Fin 100000) :
    outRun.sl.dma45 c f8 (ix3 s j v) = f8 (ix4 s 10 j v) := by
  unfold outRun.sl.dma45
  rw [ReadAs.apply_same]
  rw [Memref.read_squeeze_slice (Val := Elt Ideal) (Memref.whole main_v8 : Memref sig .tc .hbm S4x16x8x100000 .f32)
    (Rect.unit (s := S4x16x8x100000) ![0, 10, 0, 0] S4x1x8x100000.size inb_S4x16x8x100000_S4x1x8x100000_0_10_0_0) (fun _ => rfl)
    squeezes_S4x1x8x100000_S4x8x100000 (by decide) f8]
  rw [shapeCast_apply _ _ (ix3 s j v) (ix4 s 0 j v) (by
    rw [Shape.rowMajor_val_four, Shape.rowMajor_val_three]
    show ((s.val * 1 + 0) * 8 + j.val) * 100000 + v.val = (s.val * 8 + j.val) * 100000 + v.val
    omega)]
  show f8 _ = f8 _
  congr 1; funext a
  match a with
  | ⟨0, _⟩ => exact Fin.ext (by show 0 + 1 * s.val = s.val; omega)
  | ⟨1, _⟩ => exact Fin.ext (by show 10 + 1 * 0 = 10; omega)
  | ⟨2, _⟩ => exact Fin.ext (by show 0 + 1 * j.val = j.val; omega)
  | ⟨3, _⟩ => exact Fin.ext (by show 0 + 1 * v.val = v.val; omega)
theorem dmaAt11 (c : Dev nD) (f8 : Bf (F := Ideal) c (Memref.whole main_v8)) (s : Fin 4) (j : Fin 8) (v : Fin 100000) :
    outRun.sl.dma50 c f8 (ix3 s j v) = f8 (ix4 s 11 j v) := by
  unfold outRun.sl.dma50
  rw [ReadAs.apply_same]
  rw [Memref.read_squeeze_slice (Val := Elt Ideal) (Memref.whole main_v8 : Memref sig .tc .hbm S4x16x8x100000 .f32)
    (Rect.unit (s := S4x16x8x100000) ![0, 11, 0, 0] S4x1x8x100000.size inb_S4x16x8x100000_S4x1x8x100000_0_11_0_0) (fun _ => rfl)
    squeezes_S4x1x8x100000_S4x8x100000 (by decide) f8]
  rw [shapeCast_apply _ _ (ix3 s j v) (ix4 s 0 j v) (by
    rw [Shape.rowMajor_val_four, Shape.rowMajor_val_three]
    show ((s.val * 1 + 0) * 8 + j.val) * 100000 + v.val = (s.val * 8 + j.val) * 100000 + v.val
    omega)]
  show f8 _ = f8 _
  congr 1; funext a
  match a with
  | ⟨0, _⟩ => exact Fin.ext (by show 0 + 1 * s.val = s.val; omega)
  | ⟨1, _⟩ => exact Fin.ext (by show 11 + 1 * 0 = 11; omega)
  | ⟨2, _⟩ => exact Fin.ext (by show 0 + 1 * j.val = j.val; omega)
  | ⟨3, _⟩ => exact Fin.ext (by show 0 + 1 * v.val = v.val; omega)
theorem dmaAt12 (c : Dev nD) (f8 : Bf (F := Ideal) c (Memref.whole main_v8)) (s : Fin 4) (j : Fin 8) (v : Fin 100000) :
    outRun.sl.dma55 c f8 (ix3 s j v) = f8 (ix4 s 12 j v) := by
  unfold outRun.sl.dma55
  rw [ReadAs.apply_same]
  rw [Memref.read_squeeze_slice (Val := Elt Ideal) (Memref.whole main_v8 : Memref sig .tc .hbm S4x16x8x100000 .f32)
    (Rect.unit (s := S4x16x8x100000) ![0, 12, 0, 0] S4x1x8x100000.size inb_S4x16x8x100000_S4x1x8x100000_0_12_0_0) (fun _ => rfl)
    squeezes_S4x1x8x100000_S4x8x100000 (by decide) f8]
  rw [shapeCast_apply _ _ (ix3 s j v) (ix4 s 0 j v) (by
    rw [Shape.rowMajor_val_four, Shape.rowMajor_val_three]
    show ((s.val * 1 + 0) * 8 + j.val) * 100000 + v.val = (s.val * 8 + j.val) * 100000 + v.val
    omega)]
  show f8 _ = f8 _
  congr 1; funext a
  match a with
  | ⟨0, _⟩ => exact Fin.ext (by show 0 + 1 * s.val = s.val; omega)
  | ⟨1, _⟩ => exact Fin.ext (by show 12 + 1 * 0 = 12; omega)
  | ⟨2, _⟩ => exact Fin.ext (by show 0 + 1 * j.val = j.val; omega)
  | ⟨3, _⟩ => exact Fin.ext (by show 0 + 1 * v.val = v.val; omega)
theorem dmaAt13 (c : Dev nD) (f8 : Bf (F := Ideal) c (Memref.whole main_v8)) (s : Fin 4) (j : Fin 8) (v : Fin 100000) :
    outRun.sl.dma60 c f8 (ix3 s j v) = f8 (ix4 s 13 j v) := by
  unfold outRun.sl.dma60
  rw [ReadAs.apply_same]
  rw [Memref.read_squeeze_slice (Val := Elt Ideal) (Memref.whole main_v8 : Memref sig .tc .hbm S4x16x8x100000 .f32)
    (Rect.unit (s := S4x16x8x100000) ![0, 13, 0, 0] S4x1x8x100000.size inb_S4x16x8x100000_S4x1x8x100000_0_13_0_0) (fun _ => rfl)
    squeezes_S4x1x8x100000_S4x8x100000 (by decide) f8]
  rw [shapeCast_apply _ _ (ix3 s j v) (ix4 s 0 j v) (by
    rw [Shape.rowMajor_val_four, Shape.rowMajor_val_three]
    show ((s.val * 1 + 0) * 8 + j.val) * 100000 + v.val = (s.val * 8 + j.val) * 100000 + v.val
    omega)]
  show f8 _ = f8 _
  congr 1; funext a
  match a with
  | ⟨0, _⟩ => exact Fin.ext (by show 0 + 1 * s.val = s.val; omega)
  | ⟨1, _⟩ => exact Fin.ext (by show 13 + 1 * 0 = 13; omega)
  | ⟨2, _⟩ => exact Fin.ext (by show 0 + 1 * j.val = j.val; omega)
  | ⟨3, _⟩ => exact Fin.ext (by show 0 + 1 * v.val = v.val; omega)
theorem dmaAt14 (c : Dev nD) (f8 : Bf (F := Ideal) c (Memref.whole main_v8)) (s : Fin 4) (j : Fin 8) (v : Fin 100000) :
    outRun.sl.dma65 c f8 (ix3 s j v) = f8 (ix4 s 14 j v) := by
  unfold outRun.sl.dma65
  rw [ReadAs.apply_same]
  rw [Memref.read_squeeze_slice (Val := Elt Ideal) (Memref.whole main_v8 : Memref sig .tc .hbm S4x16x8x100000 .f32)
    (Rect.unit (s := S4x16x8x100000) ![0, 14, 0, 0] S4x1x8x100000.size inb_S4x16x8x100000_S4x1x8x100000_0_14_0_0) (fun _ => rfl)
    squeezes_S4x1x8x100000_S4x8x100000 (by decide) f8]
  rw [shapeCast_apply _ _ (ix3 s j v) (ix4 s 0 j v) (by
    rw [Shape.rowMajor_val_four, Shape.rowMajor_val_three]
    show ((s.val * 1 + 0) * 8 + j.val) * 100000 + v.val = (s.val * 8 + j.val) * 100000 + v.val
    omega)]
  show f8 _ = f8 _
  congr 1; funext a
  match a with
  | ⟨0, _⟩ => exact Fin.ext (by show 0 + 1 * s.val = s.val; omega)
  | ⟨1, _⟩ => exact Fin.ext (by show 14 + 1 * 0 = 14; omega)
  | ⟨2, _⟩ => exact Fin.ext (by show 0 + 1 * j.val = j.val; omega)
  | ⟨3, _⟩ => exact Fin.ext (by show 0 + 1 * v.val = v.val; omega)
theorem dmaAt15 (c : Dev nD) (f8 : Bf (F := Ideal) c (Memref.whole main_v8)) (s : Fin 4) (j : Fin 8) (v : Fin 100000) :
    outRun.sl.dma70 c f8 (ix3 s j v) = f8 (ix4 s 15 j v) := by
  unfold outRun.sl.dma70
  rw [ReadAs.apply_same]
  rw [Memref.read_squeeze_slice (Val := Elt Ideal) (Memref.whole main_v8 : Memref sig .tc .hbm S4x16x8x100000 .f32)
    (Rect.unit (s := S4x16x8x100000) ![0, 15, 0, 0] S4x1x8x100000.size inb_S4x16x8x100000_S4x1x8x100000_0_15_0_0) (fun _ => rfl)
    squeezes_S4x1x8x100000_S4x8x100000 (by decide) f8]
  rw [shapeCast_apply _ _ (ix3 s j v) (ix4 s 0 j v) (by
    rw [Shape.rowMajor_val_four, Shape.rowMajor_val_three]
    show ((s.val * 1 + 0) * 8 + j.val) * 100000 + v.val = (s.val * 8 + j.val) * 100000 + v.val
    omega)]
  show f8 _ = f8 _
  congr 1; funext a
  match a with
  | ⟨0, _⟩ => exact Fin.ext (by show 0 + 1 * s.val = s.val; omega)
  | ⟨1, _⟩ => exact Fin.ext (by show 15 + 1 * 0 = 15; omega)
  | ⟨2, _⟩ => exact Fin.ext (by show 0 + 1 * j.val = j.val; omega)
  | ⟨3, _⟩ => exact Fin.ext (by show 0 + 1 * v.val = v.val; omega)
theorem hbAt0 (f0 : (S16x1x32).Idx → EReal) (k : Fin 32) :
    View.readAt (Elt Ideal) (Memref.whole cc2_stg0_0 : Memref sig .tc .vmem S16x1x32 .f32).view (Rect.unit (s := S16x1x32) ![0, 0, 0] S1x1x32.size inb_S16x1x32_S1x1x32_0_0_0).toLoadRect f0 (ix3 0 0 k) = f0 (ix3 0 0 k) := by
  show f0 _ = f0 _
  congr 1; funext a
  match a with
  | ⟨0, _⟩ => exact Fin.ext (by show 0 + 1 * 0 = 0; omega)
  | ⟨1, _⟩ => exact Fin.ext (by show 0 + 1 * 0 = 0; omega)
  | ⟨2, _⟩ => exact Fin.ext (by show 0 + 1 * k.val = k.val; omega)
theorem hbAt1 (f0 : (S16x1x32).Idx → EReal) (k : Fin 32) :
    View.readAt (Elt Ideal) (Memref.whole cc2_stg0_0 : Memref sig .tc .vmem S16x1x32 .f32).view (Rect.unit (s := S16x1x32) ![1, 0, 0] S1x1x32.size inb_S16x1x32_S1x1x32_1_0_0).toLoadRect f0 (ix3 0 0 k) = f0 (ix3 1 0 k) := by
  show f0 _ = f0 _
  congr 1; funext a
  match a with
  | ⟨0, _⟩ => exact Fin.ext (by show 1 + 1 * 0 = 1; omega)
  | ⟨1, _⟩ => exact Fin.ext (by show 0 + 1 * 0 = 0; omega)
  | ⟨2, _⟩ => exact Fin.ext (by show 0 + 1 * k.val = k.val; omega)
theorem hbAt2 (f0 : (S16x1x32).Idx → EReal) (k : Fin 32) :
    View.readAt (Elt Ideal) (Memref.whole cc2_stg0_0 : Memref sig .tc .vmem S16x1x32 .f32).view (Rect.unit (s := S16x1x32) ![2, 0, 0] S1x1x32.size inb_S16x1x32_S1x1x32_2_0_0).toLoadRect f0 (ix3 0 0 k) = f0 (ix3 2 0 k) := by
  show f0 _ = f0 _
  congr 1; funext a
  match a with
  | ⟨0, _⟩ => exact Fin.ext (by show 2 + 1 * 0 = 2; omega)
  | ⟨1, _⟩ => exact Fin.ext (by show 0 + 1 * 0 = 0; omega)
  | ⟨2, _⟩ => exact Fin.ext (by show 0 + 1 * k.val = k.val; omega)
theorem hbAt3 (f0 : (S16x1x32).Idx → EReal) (k : Fin 32) :
    View.readAt (Elt Ideal) (Memref.whole cc2_stg0_0 : Memref sig .tc .vmem S16x1x32 .f32).view (Rect.unit (s := S16x1x32) ![3, 0, 0] S1x1x32.size inb_S16x1x32_S1x1x32_3_0_0).toLoadRect f0 (ix3 0 0 k) = f0 (ix3 3 0 k) := by
  show f0 _ = f0 _
  congr 1; funext a
  match a with
  | ⟨0, _⟩ => exact Fin.ext (by show 3 + 1 * 0 = 3; omega)
  | ⟨1, _⟩ => exact Fin.ext (by show 0 + 1 * 0 = 0; omega)
  | ⟨2, _⟩ => exact Fin.ext (by show 0 + 1 * k.val = k.val; omega)
theorem hbAt4 (f0 : (S16x1x32).Idx → EReal) (k : Fin 32) :
    View.readAt (Elt Ideal) (Memref.whole cc2_stg0_0 : Memref sig .tc .vmem S16x1x32 .f32).view (Rect.unit (s := S16x1x32) ![4, 0, 0] S1x1x32.size inb_S16x1x32_S1x1x32_4_0_0).toLoadRect f0 (ix3 0 0 k) = f0 (ix3 4 0 k) := by
  show f0 _ = f0 _
  congr 1; funext a
  match a with
  | ⟨0, _⟩ => exact Fin.ext (by show 4 + 1 * 0 = 4; omega)
  | ⟨1, _⟩ => exact Fin.ext (by show 0 + 1 * 0 = 0; omega)
  | ⟨2, _⟩ => exact Fin.ext (by show 0 + 1 * k.val = k.val; omega)
theorem hbAt5 (f0 : (S16x1x32).Idx → EReal) (k : Fin 32) :
    View.readAt (Elt Ideal) (Memref.whole cc2_stg0_0 : Memref sig .tc .vmem S16x1x32 .f32).view (Rect.unit (s := S16x1x32) ![5, 0, 0] S1x1x32.size inb_S16x1x32_S1x1x32_5_0_0).toLoadRect f0 (ix3 0 0 k) = f0 (ix3 5 0 k) := by
  show f0 _ = f0 _
  congr 1; funext a
  match a with
  | ⟨0, _⟩ => exact Fin.ext (by show 5 + 1 * 0 = 5; omega)
  | ⟨1, _⟩ => exact Fin.ext (by show 0 + 1 * 0 = 0; omega)
  | ⟨2, _⟩ => exact Fin.ext (by show 0 + 1 * k.val = k.val; omega)
theorem hbAt6 (f0 : (S16x1x32).Idx → EReal) (k : Fin 32) :
    View.readAt (Elt Ideal) (Memref.whole cc2_stg0_0 : Memref sig .tc .vmem S16x1x32 .f32).view (Rect.unit (s := S16x1x32) ![6, 0, 0] S1x1x32.size inb_S16x1x32_S1x1x32_6_0_0).toLoadRect f0 (ix3 0 0 k) = f0 (ix3 6 0 k) := by
  show f0 _ = f0 _
  congr 1; funext a
  match a with
  | ⟨0, _⟩ => exact Fin.ext (by show 6 + 1 * 0 = 6; omega)
  | ⟨1, _⟩ => exact Fin.ext (by show 0 + 1 * 0 = 0; omega)
  | ⟨2, _⟩ => exact Fin.ext (by show 0 + 1 * k.val = k.val; omega)
theorem hbAt7 (f0 : (S16x1x32).Idx → EReal) (k : Fin 32) :
    View.readAt (Elt Ideal) (Memref.whole cc2_stg0_0 : Memref sig .tc .vmem S16x1x32 .f32).view (Rect.unit (s := S16x1x32) ![7, 0, 0] S1x1x32.size inb_S16x1x32_S1x1x32_7_0_0).toLoadRect f0 (ix3 0 0 k) = f0 (ix3 7 0 k) := by
  show f0 _ = f0 _
  congr 1; funext a
  match a with
  | ⟨0, _⟩ => exact Fin.ext (by show 7 + 1 * 0 = 7; omega)
  | ⟨1, _⟩ => exact Fin.ext (by show 0 + 1 * 0 = 0; omega)
  | ⟨2, _⟩ => exact Fin.ext (by show 0 + 1 * k.val = k.val; omega)
theorem hbAt8 (f0 : (S16x1x32).Idx → EReal) (k : Fin 32) :
    View.readAt (Elt Ideal) (Memref.whole cc2_stg0_0 : Memref sig .tc .vmem S16x1x32 .f32).view (Rect.unit (s := S16x1x32) ![8, 0, 0] S1x1x32.size inb_S16x1x32_S1x1x32_8_0_0).toLoadRect f0 (ix3 0 0 k) = f0 (ix3 8 0 k) := by
  show f0 _ = f0 _
  congr 1; funext a
  match a with
  | ⟨0, _⟩ => exact Fin.ext (by show 8 + 1 * 0 = 8; omega)
  | ⟨1, _⟩ => exact Fin.ext (by show 0 + 1 * 0 = 0; omega)
  | ⟨2, _⟩ => exact Fin.ext (by show 0 + 1 * k.val = k.val; omega)
theorem hbAt9 (f0 : (S16x1x32).Idx → EReal) (k : Fin 32) :
    View.readAt (Elt Ideal) (Memref.whole cc2_stg0_0 : Memref sig .tc .vmem S16x1x32 .f32).view (Rect.unit (s := S16x1x32) ![9, 0, 0] S1x1x32.size inb_S16x1x32_S1x1x32_9_0_0).toLoadRect f0 (ix3 0 0 k) = f0 (ix3 9 0 k) := by
  show f0 _ = f0 _
  congr 1; funext a
  match a with
  | ⟨0, _⟩ => exact Fin.ext (by show 9 + 1 * 0 = 9; omega)
  | ⟨1, _⟩ => exact Fin.ext (by show 0 + 1 * 0 = 0; omega)
  | ⟨2, _⟩ => exact Fin.ext (by show 0 + 1 * k.val = k.val; omega)
theorem hbAt10 (f0 : (S16x1x32).Idx → EReal) (k : Fin 32) :
    View.readAt (Elt Ideal) (Memref.whole cc2_stg0_0 : Memref sig .tc .vmem S16x1x32 .f32).view (Rect.unit (s := S16x1x32) ![10, 0, 0] S1x1x32.size inb_S16x1x32_S1x1x32_10_0_0).toLoadRect f0 (ix3 0 0 k) = f0 (ix3 10 0 k) := by
  show f0 _ = f0 _
  congr 1; funext a
  match a with
  | ⟨0, _⟩ => exact Fin.ext (by show 10 + 1 * 0 = 10; omega)
  | ⟨1, _⟩ => exact Fin.ext (by show 0 + 1 * 0 = 0; omega)
  | ⟨2, _⟩ => exact Fin.ext (by show 0 + 1 * k.val = k.val; omega)
theorem hbAt11 (f0 : (S16x1x32).Idx → EReal) (k : Fin 32) :
    View.readAt (Elt Ideal) (Memref.whole cc2_stg0_0 : Memref sig .tc .vmem S16x1x32 .f32).view (Rect.unit (s := S16x1x32) ![11, 0, 0] S1x1x32.size inb_S16x1x32_S1x1x32_11_0_0).toLoadRect f0 (ix3 0 0 k) = f0 (ix3 11 0 k) := by
  show f0 _ = f0 _
  congr 1; funext a
  match a with
  | ⟨0, _⟩ => exact Fin.ext (by show 11 + 1 * 0 = 11; omega)
  | ⟨1, _⟩ => exact Fin.ext (by show 0 + 1 * 0 = 0; omega)
  | ⟨2, _⟩ => exact Fin.ext (by show 0 + 1 * k.val = k.val; omega)
theorem hbAt12 (f0 : (S16x1x32).Idx → EReal) (k : Fin 32) :
    View.readAt (Elt Ideal) (Memref.whole cc2_stg0_0 : Memref sig .tc .vmem S16x1x32 .f32).view (Rect.unit (s := S16x1x32) ![12, 0, 0] S1x1x32.size inb_S16x1x32_S1x1x32_12_0_0).toLoadRect f0 (ix3 0 0 k) = f0 (ix3 12 0 k) := by
  show f0 _ = f0 _
  congr 1; funext a
  match a with
  | ⟨0, _⟩ => exact Fin.ext (by show 12 + 1 * 0 = 12; omega)
  | ⟨1, _⟩ => exact Fin.ext (by show 0 + 1 * 0 = 0; omega)
  | ⟨2, _⟩ => exact Fin.ext (by show 0 + 1 * k.val = k.val; omega)
theorem hbAt13 (f0 : (S16x1x32).Idx → EReal) (k : Fin 32) :
    View.readAt (Elt Ideal) (Memref.whole cc2_stg0_0 : Memref sig .tc .vmem S16x1x32 .f32).view (Rect.unit (s := S16x1x32) ![13, 0, 0] S1x1x32.size inb_S16x1x32_S1x1x32_13_0_0).toLoadRect f0 (ix3 0 0 k) = f0 (ix3 13 0 k) := by
  show f0 _ = f0 _
  congr 1; funext a
  match a with
  | ⟨0, _⟩ => exact Fin.ext (by show 13 + 1 * 0 = 13; omega)
  | ⟨1, _⟩ => exact Fin.ext (by show 0 + 1 * 0 = 0; omega)
  | ⟨2, _⟩ => exact Fin.ext (by show 0 + 1 * k.val = k.val; omega)
theorem hbAt14 (f0 : (S16x1x32).Idx → EReal) (k : Fin 32) :
    View.readAt (Elt Ideal) (Memref.whole cc2_stg0_0 : Memref sig .tc .vmem S16x1x32 .f32).view (Rect.unit (s := S16x1x32) ![14, 0, 0] S1x1x32.size inb_S16x1x32_S1x1x32_14_0_0).toLoadRect f0 (ix3 0 0 k) = f0 (ix3 14 0 k) := by
  show f0 _ = f0 _
  congr 1; funext a
  match a with
  | ⟨0, _⟩ => exact Fin.ext (by show 14 + 1 * 0 = 14; omega)
  | ⟨1, _⟩ => exact Fin.ext (by show 0 + 1 * 0 = 0; omega)
  | ⟨2, _⟩ => exact Fin.ext (by show 0 + 1 * k.val = k.val; omega)
theorem hbAt15 (f0 : (S16x1x32).Idx → EReal) (k : Fin 32) :
    View.readAt (Elt Ideal) (Memref.whole cc2_stg0_0 : Memref sig .tc .vmem S16x1x32 .f32).view (Rect.unit (s := S16x1x32) ![15, 0, 0] S1x1x32.size inb_S16x1x32_S1x1x32_15_0_0).toLoadRect f0 (ix3 0 0 k) = f0 (ix3 15 0 k) := by
  show f0 _ = f0 _
  congr 1; funext a
  match a with
  | ⟨0, _⟩ => exact Fin.ext (by show 15 + 1 * 0 = 15; omega)
  | ⟨1, _⟩ => exact Fin.ext (by show 0 + 1 * 0 = 0; omega)
  | ⟨2, _⟩ => exact Fin.ext (by show 0 + 1 * k.val = k.val; omega)

end Cert.KernelIdeal.Output

end
-- ==== Proof.OutSum.lean ====
/-
  The sixteen blocks summed: at column v the output buffer holds, after the sixteenth block, the bias entry plus the
  sum over the blocks q and their rows k of the hidden entry (q, k) times the weight (k / 8, q, k % 8, v).
-/
import proofs.«202118_g10599979286629_week1_w2_627_56_alg».proof.Proof.OutValueIdx

set_option maxRecDepth 16384

noncomputable section

namespace Cert.KernelIdeal.Output

open Cert.KernelIdeal Cert.KernelIdeal.Gen
open Idealize.ShloMosaic Idealize.ShloMosaic.ValueIdx

/-- Block `n`'s contribution at column `v`: the sum over its thirty-two rows. -/
def term (f0 : (S16x1x32).Idx → EReal) (f8 : (S4x16x8x100000).Idx → EReal) (n : ℕ) (v : Fin 100000) : EReal :=
  ∑ k : Fin 32, f0 (ix3 ⟨n % 16, Nat.mod_lt _ (by decide)⟩ 0 k) * f8 (ix4 (kq k) ⟨n % 16, Nat.mod_lt _ (by decide)⟩ (kr k) v)

theorem biasAt (f1 : (S1x100000).Idx → EReal) (v : Fin 100000) :
    View.readAt (Elt Ideal) (Memref.whole cc2_stg1_0 : Memref sig .tc .vmem S1x100000 .f32).view (Rect.unit (s := S1x100000) ![0, 0] S1x100000.size inb_S1x100000_S1x100000_0_0).toLoadRect f1 (ix2 0 v) = f1 (ix2 0 v) := by
  show f1 _ = f1 _
  congr 1; funext a
  match a with
  | ⟨0, _⟩ => exact Fin.ext (by show 0 + 1 * 0 = 0; omega)
  | ⟨1, _⟩ => exact Fin.ext (by show 0 + 1 * v.val = v.val; omega)

theorem bp0 (c : Dev nD) (f8 : Bf (F := Ideal) c (Memref.whole main_v8)) (f0 : (S16x1x32).Idx → EReal) (v : Fin 100000) :
    blockProd (View.readAt (Elt Ideal) (Memref.whole cc2_stg0_0 : Memref sig .tc .vmem S16x1x32 .f32).view (Rect.unit (s := S16x1x32) ![0, 0, 0] S1x1x32.size inb_S16x1x32_S1x1x32_0_0_0).toLoadRect f0) (outRun.sl.v18 c f8) (ix2 0 v)
      = term f0 f8 0 v := by
  rw [blockProd_apply, slotData0]
  exact Finset.sum_congr rfl fun k _ => by rw [hbAt0, dmaAt0]; rfl
theorem bp1 (c : Dev nD) (f8 : Bf (F := Ideal) c (Memref.whole main_v8)) (f0 : (S16x1x32).Idx → EReal) (v : Fin 100000) :
    blockProd (View.readAt (Elt Ideal) (Memref.whole cc2_stg0_0 : Memref sig .tc .vmem S16x1x32 .f32).view (Rect.unit (s := S16x1x32) ![1, 0, 0] S1x1x32.size inb_S16x1x32_S1x1x32_1_0_0).toLoadRect f0) (outRun.sl.v40 c f8) (ix2 0 v)
      = term f0 f8 1 v := by
  rw [blockProd_apply, slotData1]
  exact Finset.sum_congr rfl fun k _ => by rw [hbAt1, dmaAt1]; rfl
theorem bp2 (c : Dev nD) (f8 : Bf (F := Ideal) c (Memref.whole main_v8)) (f0 : (S16x1x32).Idx → EReal) (v : Fin 100000) :
    blockProd (View.readAt (Elt Ideal) (Memref.whole cc2_stg0_0 : Memref sig .tc .vmem S16x1x32 .f32).view (Rect.unit (s := S16x1x32) ![2, 0, 0] S1x1x32.size inb_S16x1x32_S1x1x32_2_0_0).toLoadRect f0) (outRun.sl.v62 c f8) (ix2 0 v)
      = term f0 f8 2 v := by
  rw [blockProd_apply, slotData2]
  exact Finset.sum_congr rfl fun k _ => by rw [hbAt2, dmaAt2]; rfl
theorem bp3 (c : Dev nD) (f8 : Bf (F := Ideal) c (Memref.whole main_v8)) (f0 : (S16x1x32).Idx → EReal) (v : Fin 100000) :
    blockProd (View.readAt (Elt Ideal) (Memref.whole cc2_stg0_0 : Memref sig .tc .vmem S16x1x32 .f32).view (Rect.unit (s := S16x1x32) ![3, 0, 0] S1x1x32.size inb_S16x1x32_S1x1x32_3_0_0).toLoadRect f0) (outRun.sl.v84 c f8) (ix2 0 v)
      = term f0 f8 3 v := by
  rw [blockProd_apply, slotData3]
  exact Finset.sum_congr rfl fun k _ => by rw [hbAt3, dmaAt3]; rfl
theorem bp4 (c : Dev nD) (f8 : Bf (F := Ideal) c (Memref.whole main_v8)) (f0 : (S16x1x32).Idx → EReal) (v : Fin 100000) :
    blockProd (View.readAt (Elt Ideal) (Memref.whole cc2_stg0_0 : Memref sig .tc .vmem S16x1x32 .f32).view (Rect.unit (s := S16x1x32) ![4, 0, 0] S1x1x32.size inb_S16x1x32_S1x1x32_4_0_0).toLoadRect f0) (outRun.sl.v106 c f8) (ix2 0 v)
      = term f0 f8 4 v := by
  rw [blockProd_apply, slotData4]
  exact Finset.sum_congr rfl fun k _ => by rw [hbAt4, dmaAt4]; rfl
theorem bp5 (c : Dev nD) (f8 : Bf (F := Ideal) c (Memref.whole main_v8)) (f0 : (S16x1x32).Idx → EReal) (v : Fin 100000) :
    blockProd (View.readAt (Elt Ideal) (Memref.whole cc2_stg0_0 : Memref sig .tc .vmem S16x1x32 .f32).view (Rect.unit (s := S16x1x32) ![5, 0, 0] S1x1x32.size inb_S16x1x32_S1x1x32_5_0_0).toLoadRect f0) (outRun.sl.v128 c f8) (ix2 0 v)
      = term f0 f8 5 v := by
  rw [blockProd_apply, slotData5]
  exact Finset.sum_congr rfl fun k _ => by rw [hbAt5, dmaAt5]; rfl
theorem bp6 (c : Dev nD) (f8 : Bf (F := Ideal) c (Memref.whole main_v8)) (f0 : (S16x1x32).Idx → EReal) (v : Fin 100000) :
    blockProd (View.readAt (Elt Ideal) (Memref.whole cc2_stg0_0 : Memref sig .tc .vmem S16x1x32 .f32).view (Rect.unit (s := S16x1x32) ![6, 0, 0] S1x1x32.size inb_S16x1x32_S1x1x32_6_0_0).toLoadRect f0) (outRun.sl.v150 c f8) (ix2 0 v)
      = term f0 f8 6 v := by
  rw [blockProd_apply, slotData6]
  exact Finset.sum_congr rfl fun k _ => by rw [hbAt6, dmaAt6]; rfl
theorem bp7 (c : Dev nD) (f8 : Bf (F := Ideal) c (Memref.whole main_v8)) (f0 : (S16x1x32).Idx → EReal) (v : Fin 100000) :
    blockProd (View.readAt (Elt Ideal) (Memref.whole cc2_stg0_0 : Memref sig .tc .vmem S16x1x32 .f32).view (Rect.unit (s := S16x1x32) ![7, 0, 0] S1x1x32.size inb_S16x1x32_S1x1x32_7_0_0).toLoadRect f0) (outRun.sl.v172 c f8) (ix2 0 v)
      = term f0 f8 7 v := by
  rw [blockProd_apply, slotData7]
  exact Finset.sum_congr rfl fun k _ => by rw [hbAt7, dmaAt7]; rfl
theorem bp8 (c : Dev nD) (f8 : Bf (F := Ideal) c (Memref.whole main_v8)) (f0 : (S16x1x32).Idx → EReal) (v : Fin 100000) :
    blockProd (View.readAt (Elt Ideal) (Memref.whole cc2_stg0_0 : Memref sig .tc .vmem S16x1x32 .f32).view (Rect.unit (s := S16x1x32) ![8, 0, 0] S1x1x32.size inb_S16x1x32_S1x1x32_8_0_0).toLoadRect f0) (outRun.sl.v194 c f8) (ix2 0 v)
      = term f0 f8 8 v := by
  rw [blockProd_apply, slotData8]
  exact Finset.sum_congr rfl fun k _ => by rw [hbAt8, dmaAt8]; rfl
theorem bp9 (c : Dev nD) (f8 : Bf (F := Ideal) c (Memref.whole main_v8)) (f0 : (S16x1x32).Idx → EReal) (v : Fin 100000) :
    blockProd (View.readAt (Elt Ideal) (Memref.whole cc2_stg0_0 : Memref sig .tc .vmem S16x1x32 .f32).view (Rect.unit (s := S16x1x32) ![9, 0, 0] S1x1x32.size inb_S16x1x32_S1x1x32_9_0_0).toLoadRect f0) (outRun.sl.v216 c f8) (ix2 0 v)
      = term f0 f8 9 v := by
  rw [blockProd_apply, slotData9]
  exact Finset.sum_congr rfl fun k _ => by rw [hbAt9, dmaAt9]; rfl
theorem bp10 (c : Dev nD) (f8 : Bf (F := Ideal) c (Memref.whole main_v8)) (f0 : (S16x1x32).Idx → EReal) (v : Fin 100000) :
    blockProd (View.readAt (Elt Ideal) (Memref.whole cc2_stg0_0 : Memref sig .tc .vmem S16x1x32 .f32).view (Rect.unit (s := S16x1x32) ![10, 0, 0] S1x1x32.size inb_S16x1x32_S1x1x32_10_0_0).toLoadRect f0) (outRun.sl.v238 c f8) (ix2 0 v)
      = term f0 f8 10 v := by
  rw [blockProd_apply, slotData10]
  exact Finset.sum_congr rfl fun k _ => by rw [hbAt10, dmaAt10]; rfl
theorem bp11 (c : Dev nD) (f8 : Bf (F := Ideal) c (Memref.whole main_v8)) (f0 : (S16x1x32).Idx → EReal) (v : Fin 100000) :
    blockProd (View.readAt (Elt Ideal) (Memref.whole cc2_stg0_0 : Memref sig .tc .vmem S16x1x32 .f32).view (Rect.unit (s := S16x1x32) ![11, 0, 0] S1x1x32.size inb_S16x1x32_S1x1x32_11_0_0).toLoadRect f0) (outRun.sl.v260 c f8) (ix2 0 v)
      = term f0 f8 11 v := by
  rw [blockProd_apply, slotData11]
  exact Finset.sum_congr rfl fun k _ => by rw [hbAt11, dmaAt11]; rfl
theorem bp12 (c : Dev nD) (f8 : Bf (F := Ideal) c (Memref.whole main_v8)) (f0 : (S16x1x32).Idx → EReal) (v : Fin 100000) :
    blockProd (View.readAt (Elt Ideal) (Memref.whole cc2_stg0_0 : Memref sig .tc .vmem S16x1x32 .f32).view (Rect.unit (s := S16x1x32) ![12, 0, 0] S1x1x32.size inb_S16x1x32_S1x1x32_12_0_0).toLoadRect f0) (outRun.sl.v282 c f8) (ix2 0 v)
      = term f0 f8 12 v := by
  rw [blockProd_apply, slotData12]
  exact Finset.sum_congr rfl fun k _ => by rw [hbAt12, dmaAt12]; rfl
theorem bp13 (c : Dev nD) (f8 : Bf (F := Ideal) c (Memref.whole main_v8)) (f0 : (S16x1x32).Idx → EReal) (v : Fin 100000) :
    blockProd (View.readAt (Elt Ideal) (Memref.whole cc2_stg0_0 : Memref sig .tc .vmem S16x1x32 .f32).view (Rect.unit (s := S16x1x32) ![13, 0, 0] S1x1x32.size inb_S16x1x32_S1x1x32_13_0_0).toLoadRect f0) (outRun.sl.v304 c f8) (ix2 0 v)
      = term f0 f8 13 v := by
  rw [blockProd_apply, slotData13]
  exact Finset.sum_congr rfl fun k _ => by rw [hbAt13, dmaAt13]; rfl
theorem bp14 (c : Dev nD) (f8 : Bf (F := Ideal) c (Memref.whole main_v8)) (f0 : (S16x1x32).Idx → EReal) (v : Fin 100000) :
    blockProd (View.readAt (Elt Ideal) (Memref.whole cc2_stg0_0 : Memref sig .tc .vmem S16x1x32 .f32).view (Rect.unit (s := S16x1x32) ![14, 0, 0] S1x1x32.size inb_S16x1x32_S1x1x32_14_0_0).toLoadRect f0) (outRun.sl.v326 c f8) (ix2 0 v)
      = term f0 f8 14 v := by
  rw [blockProd_apply, slotData14]
  exact Finset.sum_congr rfl fun k _ => by rw [hbAt14, dmaAt14]; rfl
theorem bp15 (c : Dev nD) (f8 : Bf (F := Ideal) c (Memref.whole main_v8)) (f0 : (S16x1x32).Idx → EReal) (v : Fin 100000) :
    blockProd (View.readAt (Elt Ideal) (Memref.whole cc2_stg0_0 : Memref sig .tc .vmem S16x1x32 .f32).view (Rect.unit (s := S16x1x32) ![15, 0, 0] S1x1x32.size inb_S16x1x32_S1x1x32_15_0_0).toLoadRect f0) (outRun.sl.v342 c f8) (ix2 0 v)
      = term f0 f8 15 v := by
  rw [blockProd_apply, slotData15]
  exact Finset.sum_congr rfl fun k _ => by rw [hbAt15, dmaAt15]; rfl
theorem a0_apply (c : Dev nD) (f8 : Bf (F := Ideal) c (Memref.whole main_v8)) (f0 : (S16x1x32).Idx → EReal) (f1 : (S1x100000).Idx → EReal) (v : Fin 100000) :
    a0 c (Memref.whole cc2_stg0_0 : Memref sig .tc .vmem S16x1x32 .f32) (Memref.whole cc2_stg1_0 : Memref sig .tc .vmem S1x100000 .f32) f8 f0 f1 (ix2 0 v) = term f0 f8 0 v + f1 (ix2 0 v) := by
  unfold a0
  rw [first_apply, bp0, biasAt]
theorem a1_apply (c : Dev nD) (f8 : Bf (F := Ideal) c (Memref.whole main_v8)) (f0 : (S16x1x32).Idx → EReal) (f1 : (S1x100000).Idx → EReal) (v : Fin 100000) :
    a1 c (Memref.whole cc2_stg0_0 : Memref sig .tc .vmem S16x1x32 .f32) (Memref.whole cc2_stg1_0 : Memref sig .tc .vmem S1x100000 .f32) f8 f0 f1 (ix2 0 v) = a0 c (Memref.whole cc2_stg0_0 : Memref sig .tc .vmem S16x1x32 .f32) (Memref.whole cc2_stg1_0 : Memref sig .tc .vmem S1x100000 .f32) f8 f0 f1 (ix2 0 v) + term f0 f8 1 v := by
  unfold a1
  rw [step_apply, bp1]
theorem a2_apply (c : Dev nD) (f8 : Bf (F := Ideal) c (Memref.whole main_v8)) (f0 : (S16x1x32).Idx → EReal) (f1 : (S1x100000).Idx → EReal) (v : Fin 100000) :
    a2 c (Memref.whole cc2_stg0_0 : Memref sig .tc .vmem S16x1x32 .f32) (Memref.whole cc2_stg1_0 : Memref sig .tc .vmem S1x100000 .f32) f8 f0 f1 (ix2 0 v) = a1 c (Memref.whole cc2_stg0_0 : Memref sig .tc .vmem S16x1x32 .f32) (Memref.whole cc2_stg1_0 : Memref sig .tc .vmem S1x100000 .f32) f8 f0 f1 (ix2 0 v) + term f0 f8 2 v := by
  unfold a2
  rw [step_apply, bp2]
theorem a3_apply (c : Dev nD) (f8 : Bf (F := Ideal) c (Memref.whole main_v8)) (f0 : (S16x1x32).Idx → EReal) (f1 : (S1x100000).Idx → EReal) (v : Fin 100000) :
    a3 c (Memref.whole cc2_stg0_0 : Memref sig .tc .vmem S16x1x32 .f32) (Memref.whole cc2_stg1_0 : Memref sig .tc .vmem S1x100000 .f32) f8 f0 f1 (ix2 0 v) = a2 c (Memref.whole cc2_stg0_0 : Memref sig .tc .vmem S16x1x32 .f32) (Memref.whole cc2_stg1_0 : Memref sig .tc .vmem S1x100000 .f32) f8 f0 f1 (ix2 0 v) + term f0 f8 3 v := by
  unfold a3
  rw [step_apply, bp3]
theorem a4_apply (c : Dev nD) (f8 : Bf (F := Ideal) c (Memref.whole main_v8)) (f0 : (S16x1x32).Idx → EReal) (f1 : (S1x100000).Idx → EReal) (v : Fin 100000) :
    a4 c (Memref.whole cc2_stg0_0 : Memref sig .tc .vmem S16x1x32 .f32) (Memref.whole cc2_stg1_0 : Memref sig .tc .vmem S1x100000 .f32) f8 f0 f1 (ix2 0 v) = a3 c (Memref.whole cc2_stg0_0 : Memref sig .tc .vmem S16x1x32 .f32) (Memref.whole cc2_stg1_0 : Memref sig .tc .vmem S1x100000 .f32) f8 f0 f1 (ix2 0 v) + term f0 f8 4 v := by
  unfold a4
  rw [step_apply, bp4]
theorem a5_apply (c : Dev nD) (f8 : Bf (F := Ideal) c (Memref.whole main_v8)) (f0 : (S16x1x32).Idx → EReal) (f1 : (S1x100000).Idx → EReal) (v : Fin 100000) :
    a5 c (Memref.whole cc2_stg0_0 : Memref sig .tc .vmem S16x1x32 .f32) (Memref.whole cc2_stg1_0 : Memref sig .tc .vmem S1x100000 .f32) f8 f0 f1 (ix2 0 v) = a4 c (Memref.whole cc2_stg0_0 : Memref sig .tc .vmem S16x1x32 .f32) (Memref.whole cc2_stg1_0 : Memref sig .tc .vmem S1x100000 .f32) f8 f0 f1 (ix2 0 v) + term f0 f8 5 v := by
  unfold a5
  rw [step_apply, bp5]
theorem a6_apply (c : Dev nD) (f8 : Bf (F := Ideal) c (Memref.whole main_v8)) (f0 : (S16x1x32).Idx → EReal) (f1 : (S1x100000).Idx → EReal) (v : Fin 100000) :
    a6 c (Memref.whole cc2_stg0_0 : Memref sig .tc .vmem S16x1x32 .f32) (Memref.whole cc2_stg1_0 : Memref sig .tc .vmem S1x100000 .f32) f8 f0 f1 (ix2 0 v) = a5 c (Memref.whole cc2_stg0_0 : Memref sig .tc .vmem S16x1x32 .f32) (Memref.whole cc2_stg1_0 : Memref sig .tc .vmem S1x100000 .f32) f8 f0 f1 (ix2 0 v) + term f0 f8 6 v := by
  unfold a6
  rw [step_apply, bp6]
theorem a7_apply (c : Dev nD) (f8 : Bf (F := Ideal) c (Memref.whole main_v8)) (f0 : (S16x1x32).Idx → EReal) (f1 : (S1x100000).Idx → EReal) (v : Fin 100000) :
    a7 c (Memref.whole cc2_stg0_0 : Memref sig .tc .vmem S16x1x32 .f32) (Memref.whole cc2_stg1_0 : Memref sig .tc .vmem S1x100000 .f32) f8 f0 f1 (ix2 0 v) = a6 c (Memref.whole cc2_stg0_0 : Memref sig .tc .vmem S16x1x32 .f32) (Memref.whole cc2_stg1_0 : Memref sig .tc .vmem S1x100000 .f32) f8 f0 f1 (ix2 0 v) + term f0 f8 7 v := by
  unfold a7
  rw [step_apply, bp7]
theorem a8_apply (c : Dev nD) (f8 : Bf (F := Ideal) c (Memref.whole main_v8)) (f0 : (S16x1x32).Idx → EReal) (f1 : (S1x100000).Idx → EReal) (v : Fin 100000) :
    a8 c (Memref.whole cc2_stg0_0 : Memref sig .tc .vmem S16x1x32 .f32) (Memref.whole cc2_stg1_0 : Memref sig .tc .vmem S1x100000 .f32) f8 f0 f1 (ix2 0 v) = a7 c (Memref.whole cc2_stg0_0 : Memref sig .tc .vmem S16x1x32 .f32) (Memref.whole cc2_stg1_0 : Memref sig .tc .vmem S1x100000 .f32) f8 f0 f1 (ix2 0 v) + term f0 f8 8 v := by
  unfold a8
  rw [step_apply, bp8]
theorem a9_apply (c : Dev nD) (f8 : Bf (F := Ideal) c (Memref.whole main_v8)) (f0 : (S16x1x32).Idx → EReal) (f1 : (S1x100000).Idx → EReal) (v : Fin 100000) :
    a9 c (Memref.whole cc2_stg0_0 : Memref sig .tc .vmem S16x1x32 .f32) (Memref.whole cc2_stg1_0 : Memref sig .tc .vmem S1x100000 .f32) f8 f0 f1 (ix2 0 v) = a8 c (Memref.whole cc2_stg0_0 : Memref sig .tc .vmem S16x1x32 .f32) (Memref.whole cc2_stg1_0 : Memref sig .tc .vmem S1x100000 .f32) f8 f0 f1 (ix2 0 v) + term f0 f8 9 v := by
  unfold a9
  rw [step_apply, bp9]
theorem a10_apply (c : Dev nD) (f8 : Bf (F := Ideal) c (Memref.whole main_v8)) (f0 : (S16x1x32).Idx → EReal) (f1 : (S1x100000).Idx → EReal) (v : Fin 100000) :
    a10 c (Memref.whole cc2_stg0_0 : Memref sig .tc .vmem S16x1x32 .f32) (Memref.whole cc2_stg1_0 : Memref sig .tc .vmem S1x100000 .f32) f8 f0 f1 (ix2 0 v) = a9 c (Memref.whole cc2_stg0_0 : Memref sig .tc .vmem S16x1x32 .f32) (Memref.whole cc2_stg1_0 : Memref sig .tc .vmem S1x100000 .f32) f8 f0 f1 (ix2 0 v) + term f0 f8 10 v := by
  unfold a10
  rw [step_apply, bp10]
theorem a11_apply (c : Dev nD) (f8 : Bf (F := Ideal) c (Memref.whole main_v8)) (f0 : (S16x1x32).Idx → EReal) (f1 : (S1x100000).Idx → EReal) (v : Fin 100000) :
    a11 c (Memref.whole cc2_stg0_0 : Memref sig .tc .vmem S16x1x32 .f32) (Memref.whole cc2_stg1_0 : Memref sig .tc .vmem S1x100000 .f32) f8 f0 f1 (ix2 0 v) = a10 c (Memref.whole cc2_stg0_0 : Memref sig .tc .vmem S16x1x32 .f32) (Memref.whole cc2_stg1_0 : Memref sig .tc .vmem S1x100000 .f32) f8 f0 f1 (ix2 0 v) + term f0 f8 11 v := by
  unfold a11
  rw [step_apply, bp11]
theorem a12_apply (c : Dev nD) (f8 : Bf (F := Ideal) c (Memref.whole main_v8)) (f0 : (S16x1x32).Idx → EReal) (f1 : (S1x100000).Idx → EReal) (v : Fin 100000) :
    a12 c (Memref.whole cc2_stg0_0 : Memref sig .tc .vmem S16x1x32 .f32) (Memref.whole cc2_stg1_0 : Memref sig .tc .vmem S1x100000 .f32) f8 f0 f1 (ix2 0 v) = a11 c (Memref.whole cc2_stg0_0 : Memref sig .tc .vmem S16x1x32 .f32) (Memref.whole cc2_stg1_0 : Memref sig .tc .vmem S1x100000 .f32) f8 f0 f1 (ix2 0 v) + term f0 f8 12 v := by
  unfold a12
  rw [step_apply, bp12]
theorem a13_apply (c : Dev nD) (f8 : Bf (F := Ideal) c (Memref.whole main_v8)) (f0 : (S16x1x32).Idx → EReal) (f1 : (S1x100000).Idx → EReal) (v : Fin 100000) :
    a13 c (Memref.whole cc2_stg0_0 : Memref sig .tc .vmem S16x1x32 .f32) (Memref.whole cc2_stg1_0 : Memref sig .tc .vmem S1x100000 .f32) f8 f0 f1 (ix2 0 v) = a12 c (Memref.whole cc2_stg0_0 : Memref sig .tc .vmem S16x1x32 .f32) (Memref.whole cc2_stg1_0 : Memref sig .tc .vmem S1x100000 .f32) f8 f0 f1 (ix2 0 v) + term f0 f8 13 v := by
  unfold a13
  rw [step_apply, bp13]
theorem a14_apply (c : Dev nD) (f8 : Bf (F := Ideal) c (Memref.whole main_v8)) (f0 : (S16x1x32).Idx → EReal) (f1 : (S1x100000).Idx → EReal) (v : Fin 100000) :
    a14 c (Memref.whole cc2_stg0_0 : Memref sig .tc .vmem S16x1x32 .f32) (Memref.whole cc2_stg1_0 : Memref sig .tc .vmem S1x100000 .f32) f8 f0 f1 (ix2 0 v) = a13 c (Memref.whole cc2_stg0_0 : Memref sig .tc .vmem S16x1x32 .f32) (Memref.whole cc2_stg1_0 : Memref sig .tc .vmem S1x100000 .f32) f8 f0 f1 (ix2 0 v) + term f0 f8 14 v := by
  unfold a14
  rw [step_apply, bp14]
theorem a15_apply (c : Dev nD) (f8 : Bf (F := Ideal) c (Memref.whole main_v8)) (f0 : (S16x1x32).Idx → EReal) (f1 : (S1x100000).Idx → EReal) (v : Fin 100000) :
    a15 c (Memref.whole cc2_stg0_0 : Memref sig .tc .vmem S16x1x32 .f32) (Memref.whole cc2_stg1_0 : Memref sig .tc .vmem S1x100000 .f32) f8 f0 f1 (ix2 0 v) = a14 c (Memref.whole cc2_stg0_0 : Memref sig .tc .vmem S16x1x32 .f32) (Memref.whole cc2_stg1_0 : Memref sig .tc .vmem S1x100000 .f32) f8 f0 f1 (ix2 0 v) + term f0 f8 15 v := by
  unfold a15
  rw [step_apply, bp15]

/-- After the sixteenth block. -/
theorem a15_total (c : Dev nD) (f8 : Bf (F := Ideal) c (Memref.whole main_v8)) (f0 : (S16x1x32).Idx → EReal) (f1 : (S1x100000).Idx → EReal) (v : Fin 100000) :
    a15 c (Memref.whole cc2_stg0_0 : Memref sig .tc .vmem S16x1x32 .f32) (Memref.whole cc2_stg1_0 : Memref sig .tc .vmem S1x100000 .f32) f8 f0 f1 (ix2 0 v)
      = f1 (ix2 0 v) + ∑ q : Fin 16, ∑ k : Fin 32, f0 (ix3 q 0 k) * f8 (ix4 (kq k) q (kr k) v) := by
  have hsum : (∑ q : Fin 16, ∑ k : Fin 32, f0 (ix3 q 0 k) * f8 (ix4 (kq k) q (kr k) v)) = ∑ n ∈ Finset.range 16, term f0 f8 n v := by
    rw [← Fin.sum_univ_eq_sum_range (fun n => term f0 f8 n v) 16]
    refine Finset.sum_congr rfl fun q _ => ?_
    unfold term
    have hq : (⟨q.val % 16, Nat.mod_lt _ (by decide)⟩ : Fin 16) = q := Fin.ext (Nat.mod_eq_of_lt q.isLt)
    rw [hq]
  rw [hsum, a15_apply, a14_apply, a13_apply, a12_apply, a11_apply, a10_apply, a9_apply, a8_apply, a7_apply, a6_apply, a5_apply, a4_apply, a3_apply, a2_apply, a1_apply, a0_apply]
  simp only [Finset.sum_range_succ, Finset.sum_range_zero, zero_add]
  ac_rfl

end Cert.KernelIdeal.Output

end
-- ==== Proof.LibBlockSum.lean ====
/-
  A sum over 512 terms regrouped as sixteen blocks of thirty-two: row k of block q is the term numbered
  (k / 8) · 128 + q · 8 + k % 8 — the layout of a 512-vector reshaped to 4 × 16 × 8, its first two axes swapped, and
  flattened to 16 × 32. The map is a bijection, so over any commutative monoid the double sum is the single one.
-/
import Mathlib.Algebra.BigOperators.Fin
import Mathlib.Data.Fintype.BigOperators

namespace Cert.LibBlockSum

/-- Row `k` of block `q`, as one of the 512. -/
def pos (q : Fin 16) (k : Fin 32) : Fin 512 := ⟨(k.val / 8) * 128 + q.val * 8 + k.val % 8, by have := q.isLt; have := k.isLt; omega⟩

/-- The bijection between (block, row) and the 512 positions. -/
def blocks : Fin 16 × Fin 32 ≃ Fin 512 where
  toFun p := pos p.1 p.2
  invFun h := (⟨(h.val / 8) % 16, by omega⟩, ⟨(h.val / 128) * 8 + h.val % 8, by have := h.isLt; omega⟩)
  left_inv p := by
    obtain ⟨q, k⟩ := p
    have := q.isLt; have := k.isLt
    refine Prod.ext (Fin.ext ?_) (Fin.ext ?_)
    · show ((k.val / 8) * 128 + q.val * 8 + k.val % 8) / 8 % 16 = q.val
      omega
    · show ((k.val / 8) * 128 + q.val * 8 + k.val % 8) / 128 * 8 + ((k.val / 8) * 128 + q.val * 8 + k.val % 8) % 8 = k.val
      omega
  right_inv h := by
    have := h.isLt
    refine Fin.ext ?_
    show (((h.val / 128) * 8 + h.val % 8) / 8) * 128 + ((h.val / 8) % 16) * 8 + ((h.val / 128) * 8 + h.val % 8) % 8 = h.val
    omega

/-- The sum over blocks and rows is the sum over the 512 positions. -/
theorem sum_blocks {M : Type*} [AddCommMonoid M] (g : Fin 512 → M) :
    (∑ q : Fin 16, ∑ k : Fin 32, g (pos q k)) = ∑ h : Fin 512, g h := by
  rw [← Fintype.sum_prod_type' (fun q k => g (pos q k))]
  exact Fintype.sum_equiv blocks _ _ (fun p => rfl)

end Cert.LibBlockSum
-- ==== Proof.LogitsK.lean ====
/-
  The kernel's logits: at column v, the second bias entry plus the sum over the 512 hidden units of the hidden entry
  times the second weight — the sixteen blocks' double sum regrouped.
-/
import proofs.«202118_g10599979286629_week1_w2_627_56_alg».proof.Proof.KernValueArgs
import proofs.«202118_g10599979286629_week1_w2_627_56_alg».proof.Proof.OutSum
import proofs.«202118_g10599979286629_week1_w2_627_56_alg».proof.Proof.LibBlockSum

set_option maxRecDepth 16384

noncomputable section

namespace Cert.KernelIdeal.Rows

open Cert.KernelIdeal Cert.KernelIdeal.Gen
open Idealize.ShloMosaic Idealize.ShloMosaic.TcCoe Idealize.ShloMosaic.ValueIdx

variable (m : (ℓ : Loc nD τ sig) → Buf (Elt Ideal) ℓ)

/-- An entry of an array at the ideal values is an extended real. -/
abbrev asR (x : EReal) : EReal := x

/-- The output buffer after the sixteenth block: the logits row. -/
def logitsK (hpre : PreOK m) (c : Dev nD) : FVec Ideal S1x100000 .f32 :=
  Output.a15 c (st2_0 t2_0) (st2_1 t2_0) (VBf m hpre c main_v8) (iblk2 (VBf m hpre) c 0 t2_0) (iblk2 (VBf m hpre) c 1 t2_0)

/-- The kernel's result is the end applied to the logits row. -/
theorem kernVal_logits (hpre : PreOK m) (c : Dev nD) :
    kernVal m hpre c = Output.finish (F := Ideal) (logitsK m hpre c) := kernVal_eq (F := Ideal) m hpre c

/-- The logits at column `v`, given the hidden blocks as a function `H` of the 512 positions. -/
theorem logitsK_apply (hpre : PreOK m) (c : Dev nD) (H : Fin 512 → EReal)
    (hH : ∀ (q : Fin 16) (k : Fin 32), VBf m hpre c main_v6 (ix3 q 0 k) = H (Cert.LibBlockSum.pos q k)) (v : Fin 100000) :
    logitsK m hpre c (ix2 0 v) = asR (m (aLoc main_arg5 c) (ix1 v)) + ∑ h : Fin 512, H h * asR (m (aLoc main_arg4 c) (ix2 h v)) := by
  unfold logitsK
  rw [iblk2_0, iblk2_1]
  show Output.a15 c (Memref.whole cc2_stg0_0) (Memref.whole cc2_stg1_0) (VBf m hpre c main_v8) (VBf m hpre c main_v6) (VBf m hpre c main_v7) (ix2 0 v) = _
  rw [Output.a15_total, bias_eq, ← Cert.LibBlockSum.sum_blocks (fun h => H h * asR (m (aLoc main_arg4 c) (ix2 h v)))]
  refine congrArg (asR (m (aLoc main_arg5 c) (ix1 v)) + ·) (Finset.sum_congr rfl fun q _ => Finset.sum_congr rfl fun k _ => ?_)
  rw [hH q k, weights_eq]
  rfl

end Cert.KernelIdeal.Rows

end
-- ==== Proof.KernValueHid.lean ====
/-
  The hidden blocks the output layer's region finds, of the launch memory, at the ideal values. The second stretch
  re-lays the hidden row out as sixteen blocks of thirty-two (a reshape, an exchange of axes, a reshape: entry k of
  block q is entry 128 (k / 8) + 8 q + k % 8 of the row); the hidden layer's one write-back covers the row's array, so
  the row is what the body's one store left, its payload of the three staged arrays; the payload at an entry is the
  row of looked-up table rows times a column of the first weights, plus the first bias, floored at zero; and the
  looked-up rows are the table's rows at the row numbers.
-/
import proofs.«202118_g10599979286629_week1_w2_627_56_alg».proof.Proof.KernValueArgs
import Idealize.ShloMosaic.Lib.StackMember

set_option maxRecDepth 16384

noncomputable section

namespace Cert.KernelIdeal.Rows

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The hidden blocks as the hidden row, re-laid out -/

omit [∀ e, Nonempty (Elt F e)] in
/-- The second stretch leaves the hidden row as sixteen blocks of thirty-two: reshaped to four by sixteen by eight, its
    first two axes exchanged, reshaped again. -/
theorem afterB_v6 (W : Valuation τ sig (Elt F)) :
    StableHlo.after (opsB (F := F)) W (Proc.devRef .tc main_v6)
      = shapeCast S16x1x32 (transpose S16x4x8 [1, 0, 2] (shapeCast S4x16x8 (W (Proc.devRef .tc main_v3)) shapeCasts_S1x512_S4x16x8) transposes_S4x16x8_S16x4x8_1_0_2) shapeCasts_S16x4x8_S16x1x32 := by
  unfold opsB
  after_results_simp
  rfl

omit [∀ e, Nonempty (Elt F e)] in
/-- After the hidden layer's region the hidden row's array holds what the region wrote back. -/
theorem WB0_v3 (hpre : PreOK m) (c : Dev nD) : WB0 m hpre c (Proc.devRef .tc main_v3) = (dat1 m hpre c).arrAt 3 cfg1.N := by
  unfold WB0; rw [Function.update_self]

omit [∀ e, Nonempty (Elt F e)] in
/-- ENTRY `k` OF HIDDEN BLOCK `q` is entry `128 (k / 8) + 8 q + k % 8` of the hidden row. -/
theorem v6_apply (hpre : PreOK m) (c : Dev nD) (q : Fin 16) (k : Fin 32) :
    VBf m hpre c main_v6 (ix3 q 0 k)
      = (dat1 m hpre c).arrAt 3 cfg1.N (ix2 0 ⟨(k.val / 8) * 128 + q.val * 8 + k.val % 8, by have := q.isLt; have := k.isLt; omega⟩) := by
  show StableHlo.after (opsB (F := F)) (WB0 m hpre c) (Proc.devRef .tc main_v6) (ix3 q 0 k) = _
  rw [afterB_v6, WB0_v3]
  have hk8 : k.val / 8 < 4 := by have := k.isLt; omega
  have hk8' : k.val % 8 < 8 := Nat.mod_lt _ (by decide)
  refine (shapeCast_apply _ _ (ix3 q 0 k) (ix3 q ⟨k.val / 8, hk8⟩ ⟨k.val % 8, hk8'⟩) ?_).trans ?_
  · refine (Shape.rowMajor_val_three (d := ![16, 4, 8]) _).trans (Eq.trans ?_ (Shape.rowMajor_val_three (d := ![16, 1, 32]) _).symm)
    show (q.val * 4 + k.val / 8) * 8 + k.val % 8 = (q.val * 1 + 0) * 32 + k.val
    omega
  refine (transpose_apply [1, 0, 2] _ _ (ix3 q ⟨k.val / 8, hk8⟩ ⟨k.val % 8, hk8'⟩) (ix3 ⟨k.val / 8, hk8⟩ q ⟨k.val % 8, hk8'⟩) ?_).trans ?_
  · intro b
    match b with
    | ⟨0, _⟩ => rfl
    | ⟨1, _⟩ => rfl
    | ⟨2, _⟩ => rfl
  refine shapeCast_apply _ _ _ _ ?_
  refine (Shape.rowMajor_val_two (d := ![1, 512]) _).trans (Eq.trans ?_ (Shape.rowMajor_val_three (d := ![4, 16, 8]) _).symm)
  show 0 * 512 + ((k.val / 8) * 128 + q.val * 8 + k.val % 8) = ((k.val / 8) * 16 + q.val) * 8 + k.val % 8
  omega

/-! ## The hidden row as the hidden layer's region writes it back -/

/-- What the hidden layer's body leaves in its output buffer, of the three blocks the region stages. -/
def hidVal (hpre : PreOK m) (c : Dev nD) : Buf (Elt F) ((c : Thread nD τ).loc main_v3) :=
  Hidden.hidOut (iblk1 m hpre c 0 t1_0) (iblk1 m hpre c 1 t1_0) (iblk1 m hpre c 2 t1_0)

omit [FloatOps F] [∀ e, Nonempty (Elt F e)] in
/-- Each of the region's four windows has its one block at its array's origin. -/
theorem hz1_0 : (fun a => win1_0.index t1_0 a * main_v1.ty.shape.size a) = fun _ => 0 := funext fun a => by fin_cases a <;> decide
omit [FloatOps F] [∀ e, Nonempty (Elt F e)] in
theorem hz1_1 : (fun a => win1_1.index t1_0 a * main_arg2.ty.shape.size a) = fun _ => 0 := funext fun a => by fin_cases a <;> decide
omit [FloatOps F] [∀ e, Nonempty (Elt F e)] in
theorem hz1_2 : (fun a => win1_2.index t1_0 a * main_v2.ty.shape.size a) = fun _ => 0 := funext fun a => by fin_cases a <;> decide
omit [FloatOps F] [∀ e, Nonempty (Elt F e)] in
theorem hz1_3 : (fun a => win1_3.index t1_0 a * main_v3.ty.shape.size a) = fun _ => 0 := funext fun a => by fin_cases a <;> decide

omit [∀ e, Nonempty (Elt F e)] in
/-- The one write-back writes the body's output: the block at the origin of the whole array, read, is the array. -/
theorem flushed1_eq (hpre : PreOK m) (c : Dev nD) (t : Fin cfg1.N) (hf : (cfg1.win 3).flush t = true) :
    (dat1 m hpre c).flushed 3 t = ((cfg1.win 3).blk t).view.read (Elt F) (hidVal m hpre c) := by
  obtain rfl : t = t1_0 := fin_N1 t
  show (cfg1.win 3).cut (grid1.coords t1_0) ((dat1 m hpre c).after 3 t1_0) = _
  rw [after1_3]
  exact (Memref.read_access_unit_zero (Elt F) main_v3 hz1_3 (fun a => by rw [congrFun hz1_3 a]; simp) (hidVal m hpre c)).symm

omit [∀ e, Nonempty (Elt F e)] in
/-- So the hidden row's array ends holding it: the one point's block covers the array. -/
theorem final1 (hpre : PreOK m) (c : Dev nD) : (dat1 m hpre c).arrAt 3 cfg1.N = hidVal m hpre c :=
  (dat1 m hpre c).arrAt_eq_of_cover 3 (hidVal m hpre c) (flushed1_eq m hpre c) fun i =>
    ⟨t1_0, flush1_3 t1_0, by
      show i ∈ ((View.whole main_v3).slice (win1_3.rect t1_0)).set
      rw [View.set_slice_whole, Rect.mem_set_unit]
      intro a
      have h0 : (i 0 : Nat) < 1 := (i 0).isLt
      have h1 : (i 1 : Nat) < 512 := (i 1).isLt
      match a with
      | ⟨0, _⟩ => show win1_3.index t1_0 0 * win1_3.size 0 ≤ (i 0 : Nat) ∧ (i 0 : Nat) < win1_3.index t1_0 0 * win1_3.size 0 + win1_3.xsize (grid1.coords t1_0) 0
                  rw [show win1_3.index t1_0 0 * win1_3.size 0 = 0 from by decide +kernel, show win1_3.xsize (grid1.coords t1_0) 0 = 1 from by decide +kernel]; omega
      | ⟨1, _⟩ => show win1_3.index t1_0 1 * win1_3.size 1 ≤ (i 1 : Nat) ∧ (i 1 : Nat) < win1_3.index t1_0 1 * win1_3.size 1 + win1_3.xsize (grid1.coords t1_0) 1
                  rw [show win1_3.index t1_0 1 * win1_3.size 1 = 0 from by decide +kernel, show win1_3.xsize (grid1.coords t1_0) 1 = 512 from by decide +kernel]; omega⟩

omit [∀ e, Nonempty (Elt F e)] in
/-- Each input window's one block is its whole array as the region finds it. -/
theorem iblk1_0 (hpre : PreOK m) (c : Dev nD) : iblk1 m hpre c 0 t1_0 = VA m hpre c main_v1 := by
  unfold iblk1
  exact Memref.read_access_unit_zero (Elt F) main_v1 hz1_0 (fun a => by rw [congrFun hz1_0 a]; simp) (VA m hpre c main_v1)
omit [∀ e, Nonempty (Elt F e)] in
theorem iblk1_1 (hpre : PreOK m) (c : Dev nD) : iblk1 m hpre c 1 t1_0 = VA m hpre c main_arg2 := by
  unfold iblk1
  exact Memref.read_access_unit_zero (Elt F) main_arg2 hz1_1 (fun a => by rw [congrFun hz1_1 a]; simp) (VA m hpre c main_arg2)
omit [∀ e, Nonempty (Elt F e)] in
theorem iblk1_2 (hpre : PreOK m) (c : Dev nD) : iblk1 m hpre c 2 t1_0 = VA m hpre c main_v2 := by
  unfold iblk1
  exact Memref.read_access_unit_zero (Elt F) main_v2 hz1_2 (fun a => by rw [congrFun hz1_2 a]; simp) (VA m hpre c main_v2)

omit [∀ e, Nonempty (Elt F e)] in
/-- The first stretch of reshapes leaves the gathered rows flattened to one row, the first bias as a row, and the first
    weights as they were. -/
theorem afterA_v1 (W : Valuation τ sig (Elt F)) :
    StableHlo.after (opsA (F := F)) W (Proc.devRef .tc main_v1) = shapeCast S1x2560 (W (Proc.devRef .tc main_v0)) shapeCasts_S20x128_S1x2560 := by
  unfold opsA
  after_results_simp
  rfl
omit [∀ e, Nonempty (Elt F e)] in
theorem afterA_v2 (W : Valuation τ sig (Elt F)) :
    StableHlo.after (opsA (F := F)) W (Proc.devRef .tc main_v2) = shapeCast S1x512 (W (Proc.devRef .tc main_arg3)) shapeCasts_S512_S1x512 := by
  unfold opsA
  after_results_simp
  rfl
omit [∀ e, Nonempty (Elt F e)] in
theorem afterA_arg2 (W : Valuation τ sig (Elt F)) :
    StableHlo.after (opsA (F := F)) W (Proc.devRef .tc main_arg2) = W (Proc.devRef .tc main_arg2) := by
  unfold opsA
  after_results_simp

omit [∀ e, Nonempty (Elt F e)] in
/-- The three arrays the hidden layer's region reads, of the launch memory. -/
theorem VA_v1 (hpre : PreOK m) (c : Dev nD) : VA m hpre c main_v1 = shapeCast S1x2560 (gath m hpre c) shapeCasts_S20x128_S1x2560 := by
  show StableHlo.after (opsA (F := F)) (V₁ m hpre c) (Proc.devRef .tc main_v1) = _
  rw [afterA_v1]; unfold V₁; rw [Function.update_self]
omit [∀ e, Nonempty (Elt F e)] in
theorem VA_v2 (hpre : PreOK m) (c : Dev nD) : VA m hpre c main_v2 = shapeCast S1x512 (m (aLoc main_arg3 c)) shapeCasts_S512_S1x512 := by
  show StableHlo.after (opsA (F := F)) (V₁ m hpre c) (Proc.devRef .tc main_v2) = _
  rw [afterA_v2]; unfold V₁; rw [Function.update_of_ne (by decide)]
omit [∀ e, Nonempty (Elt F e)] in
theorem VA_arg2 (hpre : PreOK m) (c : Dev nD) : VA m hpre c main_arg2 = m (aLoc main_arg2 c) := by
  show StableHlo.after (opsA (F := F)) (V₁ m hpre c) (Proc.devRef .tc main_arg2) = _
  rw [afterA_arg2]; unfold V₁; rw [Function.update_of_ne (by decide)]

/-- The body's one store covers its output buffer: what it leaves is its payload. -/
theorem hidOut_eq (x0 : Vec F S1x2560 .f32) (x1 : Vec F S2560x512 .f32) (x2 : Vec F S1x512 .f32) :
    Hidden.hidOut x0 x1 x2 = k1_pay1 x0 x1 x2 := by
  unfold Hidden.hidOut
  rw [View.canon_unit_zero Output.h00]
  simp only [View.ld_unit_zero (S := S1x2560) Output.h00, View.ld_unit_zero (S := S2560x512) Output.h00, View.ld_unit_zero (S := S1x512) Output.h00]

/-! ## The three staged arrays at an index -/

omit [FloatOps F] [∀ e, Nonempty (Elt F e)] in
/-- A rank-1 index is found from its row-major position. -/
theorem rowMajor_symm_ix1 {n : Nat} (a : Fin n) (h : (⟨1, ![n]⟩ : Shape).numel = n) :
    (⟨1, ![n]⟩ : Shape).rowMajor.symm (a.cast h.symm) = ix1 a := by
  rw [Equiv.symm_apply_eq]
  apply Fin.ext
  rw [Shape.rowMajor_val_one]
  rfl

omit [∀ e, Nonempty (Elt F e)] in
/-- The gathered rows at (i, j): the table at the row the i-th row number names, at column j. -/
theorem gath_apply (hpre : PreOK m) (c : Dev nD) (i : Fin 20) (j : Fin 128) :
    gath m hpre c (ix2 i j) = m (tLoc c) (ix2 ⟨(m (iLoc c) (ix1 i)).toNat, hpre c _⟩ j) := by
  unfold gath SparseCore.gatherPayload
  refine congrArg (m (tLoc c)) (funext fun ax => Fin.ext ?_)
  match ax with
  | ⟨0, _⟩ =>
    show ((gathers_S100000x128_S20x128.idx (rowsOf m hpre c) (ix2 i j)) gathers_S100000x128_S20x128.axis).val = _
    rw [Shape.Gathers.idx_axis]
    unfold rowsOf SparseCore.rows
    show (m (iLoc c) ((⟨1, ![20]⟩ : Shape).rowMajor.symm (i.cast _))).toNat = (m (iLoc c) (ix1 i)).toNat
    rw [rowMajor_symm_ix1 i rfl]
  | ⟨1, _⟩ => exact Shape.Gathers.idx_of_ne gathers_S100000x128_S20x128 (rowsOf m hpre c) (ix2 i j) ⟨1, by decide⟩ (by decide)

omit [∀ e, Nonempty (Elt F e)] in
/-- The gathered rows flattened to one row, at entry `k'`. -/
theorem flat_apply (g : Vec F S20x128 .f32) (k' : Fin 2560) :
    shapeCast S1x2560 g shapeCasts_S20x128_S1x2560 (ix2 0 k') = g (ix2 ⟨k'.val / 128, by have := k'.isLt; omega⟩ ⟨k'.val % 128, Nat.mod_lt _ (by decide)⟩) := by
  refine shapeCast_apply _ _ _ _ ?_
  refine (Shape.rowMajor_val_two (d := ![20, 128]) _).trans (Eq.trans ?_ (Shape.rowMajor_val_two (d := ![1, 2560]) _).symm)
  show (k'.val / 128) * 128 + k'.val % 128 = 0 * 2560 + k'.val
  omega

omit [∀ e, Nonempty (Elt F e)] in
/-- The first bias as a row, at entry `h`. -/
theorem row_apply (b : Vec F S512 .f32) (h : Fin 512) : shapeCast S1x512 b shapeCasts_S512_S1x512 (ix2 0 h) = b (ix1 h) := by
  refine shapeCast_apply _ _ _ _ ?_
  refine (Shape.rowMajor_val_one (d := ![512]) _).trans (Eq.trans ?_ (Shape.rowMajor_val_two (d := ![1, 512]) _).symm)
  show h.val = 0 * 512 + h.val
  omega

/-! ## The hidden row at the ideal values -/

section AtIdeal

open scoped BigOperators

/-- Entry `k'` of the twenty looked-up rows laid end to end: the table at the row the `k' / 128`-th row number names, at
    column `k' % 128`. -/
def _root_.Cert.Spec.emb (idx : (⟨1, ![20]⟩ : Shape).Idx → Elt Ideal .i32) (T : (⟨2, ![100000, 128]⟩ : Shape).Idx → EReal)
    (hr : ∀ j, (idx j).toNat < 100000) (k' : Fin 2560) : EReal :=
  T (ix2 ⟨(idx (ix1 ⟨k'.val / 128, by have := k'.isLt; omega⟩)).toNat, hr _⟩ ⟨k'.val % 128, Nat.mod_lt _ (by decide)⟩)

/-- Entry `h` of the hidden row: the looked-up rows times column `h` of the first weights, plus the first bias,
    floored at zero. -/
def _root_.Cert.Spec.hid (idx : (⟨1, ![20]⟩ : Shape).Idx → Elt Ideal .i32) (T : (⟨2, ![100000, 128]⟩ : Shape).Idx → EReal)
    (W1 : (⟨2, ![2560, 512]⟩ : Shape).Idx → EReal) (b1 : (⟨1, ![512]⟩ : Shape).Idx → EReal)
    (hr : ∀ j, (idx j).toNat < 100000) (h : Fin 512) : EReal :=
  max ((∑ k' : Fin 2560, Cert.Spec.emb idx T hr k' * W1 (ix2 k' h)) + b1 (ix1 h)) (Ideal.ofBits .f32 0x00000000#32)

/-- The plain product of an M×K by a K×N matrix accumulated into the zero splat, read at an index: the sum over the
    contracted coordinate of the products of the entries. -/
theorem matmul_plain_apply {M K N : Nat} (prec : Option ContractPrecision) (A : FVec Ideal ⟨2, ![M, K]⟩ .f32) (B : FVec Ideal ⟨2, ![K, N]⟩ .f32)
    (a : Fin M) (b : Fin N) :
    FloatOps.matmul (DotDims.plain M K N) prec A B (constant ⟨2, ![M, N]⟩ .f32 0x00000000#32) (ix2 a b) = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- The hidden layer's payload at entry `h`: the row times column `h`, plus the bias row's entry, floored at zero. -/
theorem k1_pay1_apply (x0 : Vec Ideal S1x2560 .f32) (x1 : Vec Ideal S2560x512 .f32) (x2 : Vec Ideal S1x512 .f32) (h : Fin 512) :
    k1_pay1 x0 x1 x2 (ix2 0 h)
      = max ((∑ k' : Fin 2560, x0 (ix2 0 k') * x1 (ix2 k' h)) + x2 (ix2 0 h)) (Ideal.ofBits .f32 0x00000000#32) := by
  unfold k1_pay1
  simp only [shapeCast_self]
  rw [show (dot_S1x2560_S2560x512_S1x512_1_0_0_1_n_n : DotDims S1x2560 S2560x512 S1x512) = DotDims.plain 1 2560 512 from rfl]
  show max ((FloatOps.matmul (F := Ideal) (DotDims.plain 1 2560 512) none x0 x1 (constant ⟨2, ![1, 512]⟩ .f32 0x00000000#32) (ix2 0 h) : EReal) + x2 (ix2 0 h)) _ = _
  rw [matmul_plain_apply]
  rfl

end AtIdeal

/-! ## The hidden blocks of the launch memory -/

section Final

variable (mI : (ℓ : Loc nD τ sig) → Buf (Elt Ideal) ℓ)

/-- ENTRY `h` OF THE HIDDEN ROW the hidden layer's region writes back, of the launch memory: the looked-up rows laid end
    to end times column `h` of the first weights, plus the first bias, floored at zero. -/
theorem hidRow_apply (hpre : PreOK mI) (c : Dev nD) (h : Fin 512) :
    (dat1 mI hpre c).arrAt 3 cfg1.N (ix2 0 h)
      = Cert.Spec.hid (mI (aLoc main_arg0 c)) (mI (aLoc main_arg1 c)) (mI (aLoc main_arg2 c)) (mI (aLoc main_arg3 c)) (hpre c) h := by
  rw [final1]
  unfold hidVal
  rw [hidOut_eq, iblk1_0, iblk1_1, iblk1_2, VA_v1, VA_arg2, VA_v2, k1_pay1_apply]
  unfold Cert.Spec.hid
  congr 2
  · refine Finset.sum_congr rfl fun k' _ => ?_
    rw [flat_apply, gath_apply]
    rfl
  · exact row_apply _ h

/-- ENTRY `k` OF HIDDEN BLOCK `q` as the output layer's region finds it, of the launch memory: entry
    `128 (k / 8) + 8 q + k % 8` of the hidden row. -/
theorem hidden_eq (hpre : PreOK mI) (c : Dev nD) (q : Fin 16) (k : Fin 32) :
    VBf mI hpre c main_v6 (ix3 q 0 k)
      = Cert.Spec.hid (mI (aLoc main_arg0 c)) (mI (aLoc main_arg1 c)) (mI (aLoc main_arg2 c)) (mI (aLoc main_arg3 c)) (hpre c)
          ⟨(k.val / 8) * 128 + q.val * 8 + k.val % 8, by have := q.isLt; have := k.isLt; omega⟩ := by
  rw [v6_apply, hidRow_apply]

end Final

end Cert.KernelIdeal.Rows

end
-- ==== Proof.RefRun.lean ====
import proofs.«202118_g10599979286629_week1_w2_627_56_alg».proof.Proof.RefArgs

/-!
What the reference computes: its result buffer ends at one composed term `refVal` of the six
argument arrays. The line is read back in stretches — the lookup, the hidden layer, the output
layer, the two halves of the log-softmax — each a function of the stretch before it, and all
composed. The first half of the log-softmax is read with the row-maximum reduction as an
arbitrary function of the row and the initial value, and then taken at the reduction itself.
-/

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The stages, as terms -/

/-- The wrapped row index, as a column: `select (idx < 0) (idx + 100000) idx`. -/
def rowIdx (a0 : IVec S20 32) : IVec S20x1 32 :=
  broadcastInDim S20x1 ![0] bcast_S20_S20x1_0
    (select (cmpi .slt a0 (broadcastInDim S20 ![] bcast_S_S20 (constantI S_ 32 0#32)))
      (addi a0 (broadcastInDim S20 ![] bcast_S_S20 (constantI S_ 32 100000#32))) a0)

/-- Which rows name a row of the table: `0 ≤ · ≤ 99999`, the conjunction reduced over the unit axis. -/
def inRange (a0 : IVec S20 32) : IVec S20 1 :=
  Host.reduce IntOp.andi
    (andi (cmpi .sge (rowIdx a0) (broadcastInDim S20x1 ![] bcast_S_S20x1 (constantI S_ 32 0#32)))
      (cmpi .sle (rowIdx a0)
        (broadcastInDim S20x1 ![0, 1] bcast_S1x1_S20x1_0_1 (broadcastInDim S1x1 ![1] bcast_S1_S1x1_1 (constantI S1 32 99999#32)))))
    (constantI S_ 1 1#1) reducesTo_S20x1_S20_d1 h_S_

/-- The looked-up rows: the gathered row where the index is in range, the not-a-number fill elsewhere. -/
def embedded (a0 : IVec S20 32) (a1 : FVec F S100000x128 .f32) : FVec F S20x128 .f32 :=
  select (broadcastInDim S20x128 ![0] bcast_S20_S20x128_0 (inRange a0))
    (Host.gather gather_S100000x128_S20x1_S20x128_1_0_n_n_0_1_1128 a1 (rowIdx a0))
    (broadcastInDim S20x128 ![] bcast_S_S20x128 (constant S_ .f32 0x7FC00000#32))

/-- The hidden layer of looked-up rows `e`: flattened to one row, times the first weights, plus the first bias, rectified. -/
def hiddenOf (e : FVec F S20x128 .f32) (a2 : FVec F S2560x512 .f32) (a3 : FVec F S512 .f32) : FVec F S1x512 .f32 :=
  maximumf
    (addf (Host.dotGeneral dot_S1x2560_S2560x512_S1x512_1_0_0_1_n_n none (shapeCast S1x2560 e shapeCasts_S20x128_S1x2560) a2)
      (broadcastInDim S1x512 ![1] bcast_S512_S1x512_1 a3))
    (broadcastInDim S1x512 ![] bcast_S_S1x512 (constant S_ .f32 0x00000000#32))

/-- The output layer of a hidden row `h`: times the second weights, plus the second bias. -/
def logitsOf (h : FVec F S1x512 .f32) (a4 : FVec F S512x100000 .f32) (a5 : FVec F S100000 .f32) : FVec F S1x100000 .f32 :=
  addf (Host.dotGeneral dot_S1x512_S512x100000_S1x100000_1_0_0_1_n_n none h a4)
    (broadcastInDim S1x100000 ![1] bcast_S100000_S1x100000_1 a5)

/-- The reduction of a row by the maximum, from minus infinity. -/
def redMax (x : FVec F S1x100000 .f32) : FVec F S1 .f32 :=
  Host.reduce FloatOps.maximumf x (constant S_ .f32 0xFF800000#32) reducesTo_S1x100000_S1_d1 h_S_

/-- The maximum once more against minus infinity, from the reduction's result `r`. -/
def rowMaxOf (r : FVec F S1 .f32) : FVec F S1 .f32 :=
  maximumf (broadcastInDim S1 ![] bcast_S_S1 (constant S_ .f32 0xFF800000#32)) r

/-- The row's maximum: the reduction from minus infinity, once more against minus infinity. -/
def rowMax (x : FVec F S1x100000 .f32) : FVec F S1 .f32 := rowMaxOf (redMax x)

/-- The row minus the maximum made from a reduction result `r`. -/
def shiftBy (x : FVec F S1x100000 .f32) (r : FVec F S1 .f32) : FVec F S1x100000 .f32 :=
  subf x (broadcastInDim S1x100000 ![0, 1] bcast_S1x1_S1x100000_0_1 (broadcastInDim S1x1 ![0] bcast_S1_S1x1_0 (rowMaxOf r)))

/-- The row minus its maximum. -/
def shifted (x : FVec F S1x100000 .f32) : FVec F S1x100000 .f32 := shiftBy x (redMax x)

/-- From a shifted row `s`: `s` minus the logarithm of the sum of its exponentials. -/
def lseShift (s : FVec F S1x100000 .f32) : FVec F S1x100000 .f32 :=
  subf s
    (broadcastInDim S1x100000 ![0, 1] bcast_S1x1_S1x100000_0_1
      (Host.log (broadcastInDim S1x1 ![0] bcast_S1_S1x1_0
        (Host.reduceAdd (Host.exp s) (constant S_ .f32 0x00000000#32) reducesTo_S1x100000_S1_d1 h_S_))))

/-- The log-softmax of a row: the shifted row minus the logarithm of the sum of its exponentials. -/
def logSoftmax (x : FVec F S1x100000 .f32) : FVec F S1x100000 .f32 := lseShift (shifted x)

/-- The reference's result as one term of its six arguments. -/
def refVal (a0 : IVec S20 32) (a1 : FVec F S100000x128 .f32) (a2 : FVec F S2560x512 .f32) (a3 : FVec F S512 .f32)
    (a4 : FVec F S512x100000 .f32) (a5 : FVec F S100000 .f32) : FVec F S1x100000 .f32 :=
  logSoftmax (logitsOf (hiddenOf (embedded a0 a1) a2 a3) a4 a5)

/-! ## The line in four stretches -/

/-- Contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The lookup: the wrapped index, its range test, the gathered rows, the select against the fill. -/
abbrev opsA : List (HloOp τ sig (Elt F)) :=
  [ TRef.nullary main_call0.c (constantI S_ 32 0#32),
    TRef.unary main_call0.c main_call0.v0 (broadcastInDim S20 ![] bcast_S_S20),
    TRef.binary (TRef.of main_arg0 : TRef sig ⟨S20, .i32⟩) main_call0.v0 main_call0.v1 (cmpi .slt),
    TRef.nullary main_call0.c_0 (constantI S_ 32 100000#32),
    TRef.unary main_call0.c_0 main_call0.v2 (broadcastInDim S20 ![] bcast_S_S20),
    TRef.binary (TRef.of main_arg0 : TRef sig ⟨S20, .i32⟩) main_call0.v2 main_call0.v3 addi,
    TRef.ternary main_call0.v1 main_call0.v3 (TRef.of main_arg0 : TRef sig ⟨S20, .i32⟩) main_call0.call0.v0 select,
    TRef.unary main_call0.call0.v0 main_call0.v5 (broadcastInDim S20x1 ![0] bcast_S20_S20x1_0),
    TRef.nullary main_call0.c_1 (constantI S1 32 99999#32),
    TRef.nullary main_call0.c_2 (constantI S_ 32 0#32),
    TRef.unary main_call0.c_2 main_call0.v6 (broadcastInDim S20x1 ![] bcast_S_S20x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S20x1 ![0, 1] bcast_S1x1_S20x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S20x1_S20_d1 h_S_),
    TRef.binary (TRef.of main_arg1 : TRef sig ⟨S100000x128, .f32⟩) main_call0.v5 main_call0.v13 (fun x i => Host.gather gather_S100000x128_S20x1_S20x128_1_0_n_n_0_1_1128 x i),
    TRef.unary main_call0.v12 main_call0.v14 (broadcastInDim S20x128 ![0] bcast_S20_S20x128_0),
    TRef.nullary main_call0.cst (constant S_ .f32 0x7FC00000#32),
    TRef.unary main_call0.cst main_call0.v15 (broadcastInDim S20x128 ![] bcast_S_S20x128),
    TRef.ternary main_call0.v14 main_call0.v13 main_call0.v15 main_call0.v16 select ]

/-- The hidden layer: the flattening, the first affine layer, the rectifier. -/
abbrev opsB : List (HloOp τ sig (Elt F)) :=
  [ reshape main_v0 main_v1 rfl shapeCasts_S20x128_S1x2560,
    binary main_v1 main_arg2 main_v2 ((fun l r => Host.dotGeneral dot_S1x2560_S2560x512_S1x512_1_0_0_1_n_n none l r) : (⟨S1x2560, .f32⟩ : BufTy).Contents (Elt F) → (⟨S2560x512, .f32⟩ : BufTy).Contents (Elt F) → (⟨S1x512, .f32⟩ : BufTy).Contents (Elt F)),
    unary main_arg3 main_v3 (broadcastInDim S1x512 ![1] bcast_S512_S1x512_1 : (⟨S512, .f32⟩ : BufTy).Contents (Elt F) → (⟨S1x512, .f32⟩ : BufTy).Contents (Elt F)),
    binary main_v2 main_v3 main_v4 (addf : (⟨S1x512, .f32⟩ : BufTy).Contents (Elt F) → (⟨S1x512, .f32⟩ : BufTy).Contents (Elt F) → (⟨S1x512, .f32⟩ : BufTy).Contents (Elt F)),
    TRef.nullary main_call1.cst (constant S_ .f32 0x00000000#32),
    TRef.unary main_call1.cst main_call1.v0 (broadcastInDim S1x512 ![] bcast_S_S1x512),
    TRef.binary (TRef.of main_v4 : TRef sig ⟨S1x512, .f32⟩) main_call1.v0 main_call1.v1 maximumf ]

/-- The output layer: the second affine layer. -/
abbrev opsC : List (HloOp τ sig (Elt F)) :=
  [ binary main_v5 main_arg4 main_v6 ((fun l r => Host.dotGeneral dot_S1x512_S512x100000_S1x100000_1_0_0_1_n_n none l r) : (⟨S1x512, .f32⟩ : BufTy).Contents (Elt F) → (⟨S512x100000, .f32⟩ : BufTy).Contents (Elt F) → (⟨S1x100000, .f32⟩ : BufTy).Contents (Elt F)),
    unary main_arg5 main_v7 (broadcastInDim S1x100000 ![1] bcast_S100000_S1x100000_1 : (⟨S100000, .f32⟩ : BufTy).Contents (Elt F) → (⟨S1x100000, .f32⟩ : BufTy).Contents (Elt F)),
    binary main_v6 main_v7 main_v8 (addf : (⟨S1x100000, .f32⟩ : BufTy).Contents (Elt F) → (⟨S1x100000, .f32⟩ : BufTy).Contents (Elt F) → (⟨S1x100000, .f32⟩ : BufTy).Contents (Elt F)) ]

/-- The log-softmax, first half, with the row reduction an arbitrary function `R` of the row and the
    initial value: the reduction, the maximum against minus infinity, the shifted row. -/
abbrev opsD1R (R : FVec F S1x100000 .f32 → FVec F S_ .f32 → FVec F S1 .f32) : List (HloOp τ sig (Elt F)) :=
  [ TRef.nullary main_call2.cst (constant S_ .f32 0xFF800000#32),
    TRef.binary (TRef.of main_v8 : TRef sig ⟨S1x100000, .f32⟩) main_call2.cst main_call2.v0 R,
    TRef.nullary main_call2.cst_0 (constant S_ .f32 0xFF800000#32),
    TRef.unary main_call2.cst_0 main_call2.v1 (broadcastInDim S1 ![] bcast_S_S1),
    TRef.binary main_call2.v1 main_call2.v0 main_call2.v2 maximumf,
    TRef.unary main_call2.v2 main_call2.v3 (broadcastInDim S1x1 ![0] bcast_S1_S1x1_0),
    TRef.unary main_call2.v3 main_call2.v4 (broadcastInDim S1x100000 ![0, 1] bcast_S1x1_S1x100000_0_1),
    TRef.binary (TRef.of main_v8 : TRef sig ⟨S1x100000, .f32⟩) main_call2.v4 main_call2.v5 subf ]

/-- The log-softmax, first half: the row's maximum and the shifted row. -/
abbrev opsD1 : List (HloOp τ sig (Elt F)) :=
  opsD1R (fun x v => Host.reduce FloatOps.maximumf x v reducesTo_S1x100000_S1_d1 h_S_)

/-- The log-softmax, second half: the exponentials' sum, its logarithm, the final shift. -/
abbrev opsD2 : List (HloOp τ sig (Elt F)) :=
  [ TRef.unary main_call2.v5 main_call2.v6 Host.exp,
    TRef.nullary main_call2.cst_1 (constant S_ .f32 0x00000000#32),
    TRef.binary main_call2.v6 main_call2.cst_1 main_call2.v7 (fun x v => Host.reduceAdd x v reducesTo_S1x100000_S1_d1 h_S_),
    TRef.unary main_call2.v7 main_call2.v8 (broadcastInDim S1x1 ![0] bcast_S1_S1x1_0),
    TRef.unary main_call2.v8 main_call2.v9 Host.log,
    TRef.unary main_call2.v9 main_call2.v10 (broadcastInDim S1x100000 ![0, 1] bcast_S1x1_S1x100000_0_1),
    TRef.binary main_call2.v5 main_call2.v10 main_call2.v11 subf ]

theorem ops_split : (ops : List (HloOp τ sig (Elt F))) = opsA ++ (opsB ++ (opsC ++ (opsD1 ++ opsD2))) := rfl

attribute [local irreducible] Host.reduce Host.gather in
set_option maxRecDepth 8192 in
/-- The lookup's stretch leaves the looked-up rows in its result buffer. -/
theorem stageA (V : Valuation τ sig (Elt F)) :
    after opsA V (main_v0 : DevRef τ sig) = embedded (V (main_arg0 : DevRef τ sig)) (V (main_arg1 : DevRef τ sig)) := by
  after_results_simp
  rfl

attribute [local irreducible] Host.reduce Host.gather in
theorem stageA_arg2 (V : Valuation τ sig (Elt F)) : after opsA V (main_arg2 : DevRef τ sig) = V (main_arg2 : DevRef τ sig) := by
  after_results_simp
attribute [local irreducible] Host.reduce Host.gather in
theorem stageA_arg3 (V : Valuation τ sig (Elt F)) : after opsA V (main_arg3 : DevRef τ sig) = V (main_arg3 : DevRef τ sig) := by
  after_results_simp
attribute [local irreducible] Host.reduce Host.gather in
theorem stageA_arg4 (V : Valuation τ sig (Elt F)) : after opsA V (main_arg4 : DevRef τ sig) = V (main_arg4 : DevRef τ sig) := by
  after_results_simp
attribute [local irreducible] Host.reduce Host.gather in
theorem stageA_arg5 (V : Valuation τ sig (Elt F)) : after opsA V (main_arg5 : DevRef τ sig) = V (main_arg5 : DevRef τ sig) := by
  after_results_simp

/-- The hidden layer's stretch, from the looked-up rows. -/
theorem stageB (V : Valuation τ sig (Elt F)) :
    after opsB V (main_v5 : DevRef τ sig)
      = hiddenOf (V (main_v0 : DevRef τ sig)) (V (main_arg2 : DevRef τ sig)) (V (main_arg3 : DevRef τ sig)) := by
  after_results_simp
  rfl
theorem stageB_arg4 (V : Valuation τ sig (Elt F)) : after opsB V (main_arg4 : DevRef τ sig) = V (main_arg4 : DevRef τ sig) := by
  after_results_simp
theorem stageB_arg5 (V : Valuation τ sig (Elt F)) : after opsB V (main_arg5 : DevRef τ sig) = V (main_arg5 : DevRef τ sig) := by
  after_results_simp

/-- The output layer's stretch, from the hidden row. -/
theorem stageC (V : Valuation τ sig (Elt F)) :
    after opsC V (main_v8 : DevRef τ sig)
      = logitsOf (V (main_v5 : DevRef τ sig)) (V (main_arg4 : DevRef τ sig)) (V (main_arg5 : DevRef τ sig)) := by
  after_results_simp
  rfl

attribute [local irreducible] Host.reduceAdd in
set_option maxRecDepth 8192 in
/-- The second half of the log-softmax, from the shifted row. -/
theorem stageD2 (V : Valuation τ sig (Elt F)) :
    after opsD2 V (main_v9 : DevRef τ sig) = lseShift (V (main_call2_v5 : DevRef τ sig)) := by
  after_results_simp
  rfl

set_option maxRecDepth 8192 in
/-- The first half of the log-softmax for an arbitrary reduction `R`. -/
theorem stageD1R (R : FVec F S1x100000 .f32 → FVec F S_ .f32 → FVec F S1 .f32) (V : Valuation τ sig (Elt F)) :
    after (opsD1R R) V (main_call2_v5 : DevRef τ sig)
      = shiftBy (V (main_v8 : DevRef τ sig)) (R (V (main_v8 : DevRef τ sig)) (constant S_ .f32 0xFF800000#32)) := by
  after_results_simp
  rfl

/-- The first half of the log-softmax: the output row minus its maximum. -/
theorem stageD1 (V : Valuation τ sig (Elt F)) :
    after opsD1 V (main_call2_v5 : DevRef τ sig) = shifted (V (main_v8 : DevRef τ sig)) :=
  stageD1R (fun x v => Host.reduce FloatOps.maximumf x v reducesTo_S1x100000_S1_d1 h_S_) V

/-- The whole line at the result buffer: the stretches composed. -/
theorem result_eq (V : Valuation τ sig (Elt F)) :
    after ops V (main_v9 : DevRef τ sig)
      = refVal (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_split, after_append, after_append, after_append, after_append, stageD2, stageD1, stageC, stageB, stageB_arg4,
    stageB_arg5, stageA, stageA_arg2, stageA_arg3, stageA_arg4, stageA_arg5]
  rfl

/-- On every device, for any float values, from any memory with zero counters: every fair execution of the
    reference terminates with its result at `refVal` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
        = refVal (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v9).trans (result_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_all m ρ)

end Cert.ReferenceIdeal.RefRun

end
-- ==== Proof.RefRead.lean ====
import proofs.«202118_g10599979286629_week1_w2_627_56_alg».proof.Proof.RefRun
import Idealize.ShloMosaic.Lib.ValueIdx
import Idealize.ShloMosaic.Lib.Pipeline.Value
import Idealize.ShloMosaic.Lib.StackMember
import Idealize.ShloMosaic.PureOps.Ideal.Laws

/-!
The reference's result read at an index, stage by stage, as formulas of extended real numbers.
-/

noncomputable section

open scoped BigOperators

namespace Cert.ReferenceIdeal.RefRead

open Cert.ReferenceIdeal Cert.ReferenceIdeal.Gen Cert.ReferenceIdeal.RefRun Idealize.ShloMosaic Idealize.ShloMosaic.ValueIdx

/-- The output layer read at a column: the hidden row times that column of the second weights, plus the bias there. -/
theorem logitsOf_apply (hid : FVec Ideal S1x512 .f32) (W2 : FVec Ideal S512x100000 .f32) (b2 : FVec Ideal S100000 .f32)
    (v : Fin 100000) :
    logitsOf hid W2 b2 (ix2 0 v) = (∑ h : Fin 512, hid (ix2 0 h) * W2 (ix2 h v)) + b2 (ix1 v) := by
  unfold logitsOf
  rw [addf_apply]
  congr 1
  · exact StackMember.dotGeneral_plain_apply none hid W2 0 v
  · exact broadcastInDim_apply _ _ b2 (ix2 0 v) (ix1 v) (fun a => by match a with | ⟨0, _⟩ => rfl)

/-! ## The log-softmax at a column -/

/-- Removing the second axis of a one-row matrix leaves the one-entry vector. -/
theorem redRow : S1x100000.Reduces [1] S1 := by decide

/-- The one result index with column `k` put back is the entry `(0, k)`. -/
theorem lift_row (k : Fin (S1x100000.size 1)) : redRow.lift (ix1 0) k = ix2 0 ⟨k.val, k.isLt⟩ := by
  funext c; apply Fin.ext
  fin_cases c <;> rfl

/-- The float literal of minus infinity is the bottom extended real. -/
theorem ofBits_neg_inf : Ideal.ofBits .f32 0xFF800000#32 = (⊥ : EReal) := by
  simp [Ideal.ofBits, Ideal.ieee]

/-- The host's logarithm, exponential and sum at an index, at the ideal values. -/
theorem hostLog_apply {s : Shape} (y : FVec Ideal s .f32) (j : s.Idx) : Host.log y j = Ideal.log (y j) := rfl
theorem hostExp_apply {s : Shape} (y : FVec Ideal s .f32) (j : s.Idx) : Host.exp y j = Ideal.exp (y j) := rfl
theorem hostReduceAdd_row (y : FVec Ideal S1x100000 .f32) (init : FVec Ideal S_ .f32) :
    Host.reduceAdd y init reducesTo_S1x100000_S1_d1 h_S_ (ix1 0)
      = init (Shape.Idx.first h_S_) + ∑ k : Fin 100000, y (ix2 0 k) := by
  show Ideal.hostReduceAdd reducesTo_S1x100000_S1_d1 y (init (Shape.Idx.first h_S_)) (ix1 0) = _
  rw [Ideal.hostReduceAdd_single _ redRow]
  exact congrArg (init (Shape.Idx.first h_S_) + ·) (Finset.sum_congr rfl (fun k _ => congrArg y (lift_row k)))

/-- The reduction of the row by the maximum is the fold of `max` from the bottom over its entries. -/
theorem redMax_apply (x : FVec Ideal S1x100000 .f32) :
    redMax x (ix1 0) = (Finset.univ : Finset (Fin 100000)).fold max (⊥ : EReal) (fun v => x (ix2 0 v)) := by
  unfold redMax
  rw [Host.reduce_eq_fold_single FloatOps.maximumf x _ reducesTo_S1x100000_S1_d1 redRow h_S_ (ix1 0)]
  have hf : (x ∘ redRow.lift (ix1 0)) = fun k : Fin 100000 => x (ix2 0 k) := funext fun k => congrArg x (lift_row k)
  rw [hf]
  show Finset.fold max (Ideal.ofBits .f32 0xFF800000#32) _ _ = _
  rw [ofBits_neg_inf]
  rfl

/-- The row's maximum is that fold too: the second maximum against minus infinity changes nothing. -/
theorem rowMax_apply (x : FVec Ideal S1x100000 .f32) :
    rowMax x (ix1 0) = (Finset.univ : Finset (Fin 100000)).fold max (⊥ : EReal) (fun v => x (ix2 0 v)) := by
  unfold rowMax rowMaxOf
  rw [maximumf_apply, broadcastInDim_apply _ _ _ (ix1 0) ix0 (fun a => a.elim0), constant_apply, ofBits_neg_inf,
    redMax_apply]
  exact max_eq_right bot_le

/-- Every entry of the row is at most the row's maximum. -/
theorem le_rowMax (x : FVec Ideal S1x100000 .f32) (v : Fin 100000) : x (ix2 0 v) ≤ rowMax x (ix1 0) := by
  rw [rowMax_apply]
  exact (Finset.le_fold_max _).2 (Or.inr ⟨v, Finset.mem_univ _, le_rfl⟩)

/-- The row's maximum is one of the entries. -/
theorem rowMax_mem (x : FVec Ideal S1x100000 .f32) : ∃ v : Fin 100000, rowMax x (ix1 0) = x (ix2 0 v) := by
  by_contra hne
  have hlt : ∀ v : Fin 100000, x (ix2 0 v) < rowMax x (ix1 0) := fun v =>
    lt_of_le_of_ne (le_rowMax x v) (fun e => hne ⟨v, e.symm⟩)
  have hbot : (⊥ : EReal) < rowMax x (ix1 0) := lt_of_le_of_lt bot_le (hlt ⟨0, by decide⟩)
  have h := (Finset.fold_max_lt (s := (Finset.univ : Finset (Fin 100000))) (f := fun v => x (ix2 0 v)) (b := (⊥ : EReal))
    (rowMax x (ix1 0))).2 ⟨hbot, fun v _ => hlt v⟩
  rw [← rowMax_apply] at h
  exact lt_irrefl _ h

/-- The row's maximum is the only bound of the entries that is one of them. -/
theorem rowMax_eq_of (x : FVec Ideal S1x100000 .f32) (M : EReal) (hle : ∀ v : Fin 100000, x (ix2 0 v) ≤ M)
    (hex : ∃ v : Fin 100000, M = x (ix2 0 v)) : rowMax x (ix1 0) = M := by
  obtain ⟨w, hw⟩ := rowMax_mem x
  obtain ⟨v, hv⟩ := hex
  exact le_antisymm (hw ▸ hle w) (hv ▸ le_rowMax x v)

/-- A row of real numbers has a real maximum. -/
theorem rowMax_real (x : FVec Ideal S1x100000 .f32) (hx : ∀ v : Fin 100000, x (ix2 0 v) ≠ ⊤ ∧ x (ix2 0 v) ≠ ⊥) :
    rowMax x (ix1 0) ≠ ⊤ ∧ rowMax x (ix1 0) ≠ ⊥ := by
  obtain ⟨w, hw⟩ := rowMax_mem x
  rw [hw]; exact hx w

/-- The row's maximum depends on the row only through its entries. -/
theorem rowMax_congr (x y : FVec Ideal S1x100000 .f32) (h : ∀ v : Fin 100000, x (ix2 0 v) = y (ix2 0 v)) :
    rowMax x (ix1 0) = rowMax y (ix1 0) := by
  rw [rowMax_apply, rowMax_apply, show (fun v : Fin 100000 => x (ix2 0 v)) = fun v => y (ix2 0 v) from funext h]

/-- The shifted row at a column: the entry minus the row's maximum. -/
theorem shifted_apply (x : FVec Ideal S1x100000 .f32) (v : Fin 100000) :
    shifted x (ix2 0 v) = x (ix2 0 v) - rowMax x (ix1 0) := by
  unfold shifted shiftBy
  rw [subf_apply, broadcastInDim_apply _ _ _ (ix2 0 v) (ix2 0 0) (fun a => by fin_cases a <;> rfl),
    broadcastInDim_apply _ _ _ (ix2 0 0) (ix1 0) (fun a => by fin_cases a <;> rfl)]
  rfl

/-- From a shifted row: the entry minus the logarithm of the sum of the exponentials of all entries. -/
theorem lseShift_apply (s : FVec Ideal S1x100000 .f32) (v : Fin 100000) :
    lseShift s (ix2 0 v) = s (ix2 0 v) - Ideal.log (∑ k : Fin 100000, Ideal.exp (s (ix2 0 k))) := by
  unfold lseShift
  rw [subf_apply, broadcastInDim_apply _ _ _ (ix2 0 v) (ix2 0 0) (fun a => by fin_cases a <;> rfl), hostLog_apply,
    broadcastInDim_apply _ _ _ (ix2 0 0) (ix1 0) (fun a => by fin_cases a <;> rfl), hostReduceAdd_row, constant_apply,
    Ideal.ofBits_zero_f32, zero_add]
  simp only [hostExp_apply]

/-- The log-softmax at a column: the entry minus the maximum, minus the logarithm of the sum over all
    columns of the exponentials of the entries minus the maximum. -/
theorem logSoftmax_apply (x : FVec Ideal S1x100000 .f32) (v : Fin 100000) :
    logSoftmax x (ix2 0 v)
      = (x (ix2 0 v) - rowMax x (ix1 0))
        - Ideal.log (∑ k : Fin 100000, Ideal.exp (x (ix2 0 k) - rowMax x (ix1 0))) := by
  unfold logSoftmax
  rw [lseShift_apply]
  simp only [shifted_apply]

/-! ## The hidden layer at a column -/

/-- The looked-up rows flattened to one row. -/
def flatRows (e : FVec Ideal S20x128 .f32) : FVec Ideal S1x2560 .f32 :=
  shapeCast S1x2560 e shapeCasts_S20x128_S1x2560

/-- Entry `k` of the flattened rows is entry `(k / 128, k % 128)`. -/
theorem flatRows_apply (e : FVec Ideal S20x128 .f32) (k : Fin 2560) :
    flatRows e (ix2 0 k) = e (ix2 ⟨k.val / 128, by have := k.isLt; omega⟩ ⟨k.val % 128, by omega⟩) := by
  unfold flatRows
  refine shapeCast_apply e _ _ _ ?_
  rw [Shape.rowMajor_val_two, Shape.rowMajor_val_two]
  show k.val / 128 * 128 + k.val % 128 = 0 * 2560 + k.val
  omega

/-- The hidden layer at a column: the flattened rows times that column of the first weights, plus the bias
    there, and the maximum of that with the float literal zero. -/
theorem hiddenOf_apply (e : FVec Ideal S20x128 .f32) (W1 : FVec Ideal S2560x512 .f32) (b1 : FVec Ideal S512 .f32)
    (h : Fin 512) :
    hiddenOf e W1 b1 (ix2 0 h)
      = max ((∑ k : Fin 2560, flatRows e (ix2 0 k) * W1 (ix2 k h)) + b1 (ix1 h)) (Ideal.ofBits .f32 0x00000000#32) := by
  unfold hiddenOf
  rw [maximumf_apply, addf_apply,
    broadcastInDim_apply _ _ (constant S_ .f32 0x00000000#32) (ix2 0 h) ix0 (fun a => a.elim0), constant_apply,
    broadcastInDim_apply _ _ b1 (ix2 0 h) (ix1 h) (fun a => by match a with | ⟨0, _⟩ => rfl),
    show Host.dotGeneral dot_S1x2560_S2560x512_S1x512_1_0_0_1_n_n none
          (shapeCast S1x2560 e shapeCasts_S20x128_S1x2560) W1 (ix2 0 h)
        = ∑ k : Fin 2560, flatRows e (ix2 0 k) * W1 (ix2 k h)
      from StackMember.dotGeneral_plain_apply none _ W1 0 h]

/-- The same with the literal zero read as the number zero. -/
theorem hiddenOf_apply_zero (e : FVec Ideal S20x128 .f32) (W1 : FVec Ideal S2560x512 .f32) (b1 : FVec Ideal S512 .f32)
    (h : Fin 512) :
    hiddenOf e W1 b1 (ix2 0 h) = max ((∑ k : Fin 2560, flatRows e (ix2 0 k) * W1 (ix2 k h)) + b1 (ix1 h)) 0 := by
  rw [hiddenOf_apply, Ideal.ofBits_zero_f32]

/-! ## The lookup at an entry -/

/-- A row number below 100000, as a 32-bit word: it is not negative, it passes the range test, and its signed
    reading clamped to the table is its unsigned reading. -/
theorem word_facts (w : BitVec 32) (h : w.toNat < 100000) :
    IntOp.cmpi .slt w 0#32 = 0#1
      ∧ IntOp.andi (IntOp.cmpi .sge w 0#32) (IntOp.cmpi .sle w 99999#32) = 1#1
      ∧ min w.toInt.toNat 99999 = w.toNat := by
  have hi : w.toInt = (w.toNat : Int) := BitVec.toInt_eq_toNat_of_lt (by omega)
  have h0 : (0#32 : BitVec 32).toInt = 0 := by decide
  have h9 : (99999#32 : BitVec 32).toInt = 99999 := by decide
  refine ⟨?_, ?_, ?_⟩
  · show BitVec.ofBool (w.slt 0#32) = 0#1
    have e : w.slt 0#32 = false := by
      unfold BitVec.slt; rw [h0, hi]; exact decide_eq_false (by omega)
    rw [e]; rfl
  · show IntOp.andi (BitVec.ofBool ((0#32 : BitVec 32).sle w)) (BitVec.ofBool (w.sle 99999#32)) = 1#1
    have a : (0#32 : BitVec 32).sle w = true := by
      unfold BitVec.sle; rw [h0, hi]; exact decide_eq_true (by omega)
    have b : w.sle 99999#32 = true := by
      unfold BitVec.sle; rw [h9, hi]; exact decide_eq_true (by omega)
    rw [a, b]; decide
  · rw [hi, Int.toNat_natCast]; omega

/-- Every index of a one-column matrix is in column zero. -/
theorem col_eq (q : S20x1.Idx) : q = ix2 (q 0) 0 := by
  rw [eq_ix2 q]; exact congrArg (fun b : Fin 1 => ix2 (q 0) b) (Subsingleton.elim (α := Fin 1) _ _)

/-- Under the range hypothesis no index is wrapped: the index column holds the row numbers themselves. -/
theorem rowIdx_apply (a0 : IVec S20 32) (hr : ∀ j : S20.Idx, (a0 j).toNat < 100000) (i : Fin 20) :
    rowIdx a0 (ix2 i 0) = a0 (ix1 i) := by
  unfold rowIdx
  rw [broadcastInDim_apply _ _ _ (ix2 i 0) (ix1 i) (fun a => by match a with | ⟨0, _⟩ => rfl)]
  show Scalar.select (IntOp.cmpi .slt (a0 (ix1 i)) 0#32) (IntOp.addi (a0 (ix1 i)) 100000#32) (a0 (ix1 i)) = _
  rw [(word_facts _ (hr _)).1, select_zero]

/-- A left fold by `and` from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a (List.mem_cons_self ..)]
    exact ih (fun n hn => h n (List.mem_cons_of_mem _ hn))

/-- Under the range hypothesis every row passes the range test. -/
theorem inRange_apply (a0 : IVec S20 32) (hr : ∀ j : S20.Idx, (a0 j).toNat < 100000) (j : S20.Idx) :
    inRange a0 j = 1#1 := by
  unfold inRange Host.reduce
  refine foldl_andi_one _ _ (fun n _ => ?_)
  obtain ⟨i, hq⟩ : ∃ i : Fin 20, S20x1.rowMajor.symm n = ix2 i 0 := ⟨_, col_eq _⟩
  rw [hq]
  show IntOp.andi (IntOp.cmpi .sge (rowIdx a0 (ix2 i 0)) 0#32) (IntOp.cmpi .sle (rowIdx a0 (ix2 i 0)) 99999#32) = 1#1
  rw [rowIdx_apply a0 hr i]
  exact (word_facts _ (hr _)).2.1

/-- The gather of whole rows at a column of row numbers, read at an entry: the table at the row number read
    signed and clamped into the table, same column. -/
theorem gather_apply (a1 : FVec Ideal S100000x128 .f32) (idx : IVec S20x1 32) (i : Fin 20) (c : Fin 128) :
    Host.gather gather_S100000x128_S20x1_S20x128_1_0_n_n_0_1_1128 a1 idx (ix2 i c)
      = a1 (ix2 ⟨min (idx (ix2 i 0)).toInt.toNat 99999, by omega⟩ c) := by
  unfold Host.gather
  congr 1
  funext a
  apply Fin.ext
  fin_cases a
  · show GatherDims.start _ (ix2 i c) idx 0 + GatherDims.batchCoord _ (ix2 i c) 0 + GatherDims.offCoord _ (ix2 i c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S20x1_S20x128_1_0_n_n_0_1_1128.startIndexMap from
      List.mem_singleton.mpr rfl)]
    have hsi : gather_S100000x128_S20x1_S20x128_1_0_n_n_0_1_1128.siIdx (ix2 i c)
        ⟨List.idxOf (0 : Fin 2) gather_S100000x128_S20x1_S20x128_1_0_n_n_0_1_1128.startIndexMap,
          List.idxOf_lt_length_iff.2 (List.mem_singleton.mpr rfl)⟩ = ix2 i 0 := by
      funext b; refine Fin.ext ?_
      match b with
      | ⟨0, _⟩ => rfl
      | ⟨1, _⟩ => rfl
    rw [hsi]
    rfl
  · show GatherDims.start _ (ix2 i c) idx 1 + GatherDims.batchCoord _ (ix2 i c) 1 + GatherDims.offCoord _ (ix2 i c) 1 = _
    rw [GatherDims.batchCoord_eq_zero _ _ _ List.not_mem_nil]
    unfold GatherDims.start
    rw [dif_neg (by decide)]
    simp only [Nat.zero_add, Nat.add_zero]
    rfl

/-- The lookup at an entry, under the range hypothesis: the table's row named by the row number. -/
theorem embedded_apply (a0 : IVec S20 32) (a1 : FVec Ideal S100000x128 .f32)
    (hr : ∀ j : S20.Idx, (a0 j).toNat < 100000) (i : Fin 20) (c : Fin 128) :
    embedded a0 a1 (ix2 i c) = a1 (ix2 ⟨(a0 (ix1 i)).toNat, hr _⟩ c) := by
  unfold embedded
  rw [select_apply, broadcastInDim_apply _ _ (inRange a0) (ix2 i c) (ix1 i) (fun a => by match a with | ⟨0, _⟩ => rfl),
    inRange_apply a0 hr, select_one, gather_apply]
  refine congrArg (fun r => a1 (ix2 r c)) (Fin.ext ?_)
  show min (rowIdx a0 (ix2 i 0)).toInt.toNat 99999 = (a0 (ix1 i)).toNat
  rw [rowIdx_apply a0 hr]
  exact (word_facts _ (hr _)).2.2

/-- The flattened lookup at an entry, under the range hypothesis: entry `k` is the table at the row named by
    row number `k / 128`, column `k % 128`. -/
theorem flatRows_embedded_apply (a0 : IVec S20 32) (a1 : FVec Ideal S100000x128 .f32)
    (hr : ∀ j : S20.Idx, (a0 j).toNat < 100000) (k : Fin 2560) :
    flatRows (embedded a0 a1) (ix2 0 k)
      = a1 (ix2 ⟨(a0 (ix1 ⟨k.val / 128, by have := k.isLt; omega⟩)).toNat, hr _⟩ ⟨k.val % 128, by omega⟩) := by
  rw [flatRows_apply, embedded_apply a0 a1 hr]

end Cert.ReferenceIdeal.RefRead

end
-- ==== Proof.LibLogSoftmax.lean ====
/-
  The two usual spellings of a log-softmax entry on the extended reals: "entry minus (maximum plus log-sum)" and
  "(entry minus maximum) minus log-sum". On the extended reals subtraction does not re-associate in general (⊤ − ⊤ and
  ⊥ + ⊤ are ⊥), but it does as soon as the entry and the maximum are real numbers, whatever the log-sum is.
-/
import Mathlib.Data.EReal.Operations

namespace Cert.LibLogSoftmax

/-- For real `x` and `m` and ANY extended real `L`: `x − (m + L) = (x − m) − L`. -/
theorem sub_add_eq_sub_sub (x m : ℝ) (L : EReal) :
    (x : EReal) - ((m : EReal) + L) = ((x : EReal) - (m : EReal)) - L := by
  induction L using EReal.rec with
  | bot => simp [← EReal.coe_sub]
  | coe l =>
    rw [← EReal.coe_add, ← EReal.coe_sub, ← EReal.coe_sub, ← EReal.coe_sub]
    congr 1; ring
  | top => simp [← EReal.coe_sub]

/-- The same for extended reals known to be real: `x − (m + L) = (x − m) − L` when `x ≠ ⊤, ⊥` and `m ≠ ⊤, ⊥`. -/
theorem sub_add_eq_sub_sub_of_ne {x m : EReal} (hx : x ≠ ⊤) (hx' : x ≠ ⊥) (hm : m ≠ ⊤) (hm' : m ≠ ⊥) (L : EReal) :
    x - (m + L) = (x - m) - L := by
  lift x to ℝ using ⟨hx, hx'⟩
  lift m to ℝ using ⟨hm, hm'⟩
  exact sub_add_eq_sub_sub x m L

end Cert.LibLogSoftmax
-- ==== Proof.TailEq.lean ====
import proofs.«202118_g10599979286629_week1_w2_627_56_alg».proof.Proof.Gen.KernelIdeal.Skeleton
import proofs.«202118_g10599979286629_week1_w2_627_56_alg».proof.Proof.RefRead
import proofs.«202118_g10599979286629_week1_w2_627_56_alg».proof.Proof.LibLogSoftmax

/-!
The kernel's last values — the row's maximum over the row recast as a one-by-one-by-n block, the sum of
the exponentials of the shifted row, the logarithm, and the final subtraction of "maximum plus log-sum" —
are the reference's log-softmax of the same row, entry by entry, when the row's entries are real numbers:
both maxima are the one maximum of the row, both sums the one sum, and for a real entry `x` and a real
maximum `m`, `x − (m + L) = (x − m) − L` whatever the log-sum `L` is.
-/

noncomputable section

open scoped BigOperators

namespace Cert.Proof.TailEq

open Idealize.ShloMosaic Idealize.ShloMosaic.ValueIdx Cert.KernelIdeal Cert.KernelIdeal.Gen
  Cert.ReferenceIdeal.RefRun Cert.ReferenceIdeal.RefRead

/-- The fold of `max` from the bottom over a nonempty finite set is one of the values. -/
theorem exists_fold_max_eq {ι : Type} (s : Finset ι) (hs : s.Nonempty) (f : ι → EReal) :
    ∃ i ∈ s, s.fold max (⊥ : EReal) f = f i := by
  by_contra hne
  have hle : ∀ i ∈ s, f i ≤ s.fold max ⊥ f := fun i hi => (Finset.le_fold_max _).2 (Or.inr ⟨i, hi, le_rfl⟩)
  have hlt : ∀ i ∈ s, f i < s.fold max ⊥ f := fun i hi =>
    lt_of_le_of_ne (hle i hi) (fun e => hne ⟨i, hi, e.symm⟩)
  obtain ⟨i0, hi0⟩ := hs
  have hbot : (⊥ : EReal) < s.fold max ⊥ f := lt_of_le_of_lt bot_le (hlt i0 hi0)
  exact lt_irrefl _ ((Finset.fold_max_lt _).2 ⟨hbot, hlt⟩)

/-- A one-entry vector has one index. -/
theorem idx1_eq (a b : S1.Idx) : a = b := by
  rw [eq_ix1 a, eq_ix1 b]; exact congrArg ix1 (Subsingleton.elim (α := Fin 1) _ _)

/-- Every index of a one-row matrix is in row zero. -/
theorem row_eq (i : S1x100000.Idx) : i = ix2 0 (i 1) := by
  rw [eq_ix2 i]; exact congrArg (fun a : Fin 1 => ix2 a (i 1)) (Subsingleton.elim (α := Fin 1) _ _)

/-- The maximum over both trailing axes of a row recast as a one-by-one-by-n block, from minus infinity,
    is the row's maximum. -/
theorem kmax_gen (x : FVec Ideal S1x100000 .f32) (h1 : S1x100000.ShapeCasts S1x1x100000)
    (h2 : S1x1x100000.Reduces [1, 2] S1) (hφ : FKind.Formats .f32)
    (hacc : (0xFF800000#32 : BitVec 32) = FKind.maximumf.neutral .f32 hφ) (j : S1.Idx) :
    multiReduction .maximumf [1, 2] S1 (shapeCast S1x1x100000 x h1) 0xFF800000#32 h2 hφ hacc j = rowMax x (ix1 0) := by
  have e : multiReduction .maximumf [1, 2] S1 (shapeCast S1x1x100000 x h1) 0xFF800000#32 h2 hφ hacc j
      = (Finset.univ.filter fun i : S1x1x100000.Idx => h2.drop i = j).fold max (⊥ : EReal)
          (fun i => x (Shape.reshapeEquiv h1 i)) := by
    rw [multiReduction_maximumf_eq_fold]
    show Finset.fold max (Ideal.ofBits .f32 0xFF800000#32) _ _ = _
    rw [ofBits_neg_inf]
    rfl
  rw [e]
  refine (rowMax_eq_of x _ (fun v => ?_) ?_).symm
  · exact (Finset.le_fold_max _).2 (Or.inr ⟨(Shape.reshapeEquiv h1).symm (ix2 0 v),
      Finset.mem_filter.2 ⟨Finset.mem_univ _, idx1_eq _ _⟩,
      le_of_eq (congrArg x (Equiv.apply_symm_apply (Shape.reshapeEquiv h1) (ix2 0 v))).symm⟩)
  · obtain ⟨i, _, hi⟩ := exists_fold_max_eq (Finset.univ.filter fun i : S1x1x100000.Idx => h2.drop i = j)
      ⟨(Shape.reshapeEquiv h1).symm (ix2 0 ⟨0, by decide⟩), Finset.mem_filter.2 ⟨Finset.mem_univ _, idx1_eq _ _⟩⟩
      (fun i => x (Shape.reshapeEquiv h1 i))
    exact ⟨Shape.reshapeEquiv h1 i 1, hi.trans (congrArg x (row_eq _))⟩

/-- The sum over both trailing axes of a row recast as a one-by-one-by-n block is the sum over the columns. -/
theorem ksum_gen (y : FVec Ideal S1x100000 .f32) (h1 : S1x100000.ShapeCasts S1x1x100000)
    (h2 : S1x1x100000.Reduces [1, 2] S1) (hφ : FKind.Formats .f32)
    (hacc : (0x00000000#32 : BitVec 32) = FKind.add.neutral .f32 hφ) (j : S1.Idx) :
    multiReduction .add [1, 2] S1 (shapeCast S1x1x100000 y h1) 0x00000000#32 h2 hφ hacc j
      = ∑ k : Fin 100000, y (ix2 0 k) := by
  rw [Ideal.multiReduction_add_total _ _ _ (fun b => by fin_cases b; rfl)]
  exact (Equiv.sum_comp (Shape.reshapeEquiv h1) y).trans ((sum_idx2 y).trans (Fin.sum_univ_one _))

/-- A shape cast and an extraction read at an index. -/
theorem shapeCast_idx {s t : Shape} {α : Type} (y : s.Idx → α) (h : s.ShapeCasts t) (j : t.Idx) :
    shapeCast t y h j = y (Shape.reshapeEquiv h j) := rfl
theorem extractAt_idx {s : Shape} {α : Type} (pos : Fin s.rank → Nat) (y : s.Idx → α) (h : ∀ a, pos a < s.size a) :
    extractAt pos y h = y fun a => ⟨pos a, h a⟩ := rfl

/-- The same maximum, taken as the one entry of the one-by-one-by-one recast of the reduction. -/
theorem kmax_gen' (x : FVec Ideal S1x100000 .f32) (h1 : S1x100000.ShapeCasts S1x1x100000)
    (h2 : S1x1x100000.Reduces [1, 2] S1) (hφ : FKind.Formats .f32)
    (hacc : (0xFF800000#32 : BitVec 32) = FKind.maximumf.neutral .f32 hφ) (h3 : S1.ShapeCasts S1x1x1)
    (h4 : ∀ a, (![0, 0, 0] : Fin 3 → Nat) a < S1x1x1.size a) :
    extractAt ![0, 0, 0]
      (shapeCast S1x1x1 (multiReduction .maximumf [1, 2] S1 (shapeCast S1x1x100000 x h1) 0xFF800000#32 h2 hφ hacc) h3) h4
      = rowMax x (ix1 0) := by
  rw [extractAt_idx, shapeCast_idx]
  exact kmax_gen x h1 h2 hφ hacc _

/-- The same sum, taken as the one entry of the one-by-one-by-one recast of the reduction. -/
theorem ksum_gen' (y : FVec Ideal S1x100000 .f32) (h1 : S1x100000.ShapeCasts S1x1x100000)
    (h2 : S1x1x100000.Reduces [1, 2] S1) (hφ : FKind.Formats .f32)
    (hacc : (0x00000000#32 : BitVec 32) = FKind.add.neutral .f32 hφ) (h3 : S1.ShapeCasts S1x1x1)
    (h4 : ∀ a, (![0, 0, 0] : Fin 3 → Nat) a < S1x1x1.size a) :
    extractAt ![0, 0, 0]
      (shapeCast S1x1x1 (multiReduction .add [1, 2] S1 (shapeCast S1x1x100000 y h1) 0x00000000#32 h2 hφ hacc) h3) h4
      = ∑ k : Fin 100000, y (ix2 0 k) := by
  rw [extractAt_idx, shapeCast_idx]
  exact ksum_gen y h1 h2 hφ hacc _

theorem scalar_log_def (a : Ideal .f32) : Scalar.log a = Ideal.log a := rfl

/-- With the maximum `M` and the row given: the broadcast of "maximum plus logarithm of the sum of the
    exponentials of the shifted row", at any column. -/
theorem tail_alg (x : FVec Ideal S1x100000 .f32) (M : EReal) (j : S1x100000.Idx) :
    broadcast S1x100000
        (Scalar.addf M (Scalar.log (∑ k : Fin 100000, (exp (subf x (broadcast S1x100000 M))) (ix2 0 k)))) j
      = M + Ideal.log (∑ k : Fin 100000, Ideal.exp (x (ix2 0 k) - M)) := by
  have e : ∀ k : Fin 100000, (exp (subf x (broadcast S1x100000 M))) (ix2 0 k) = Ideal.exp (x (ix2 0 k) - M) :=
    fun k => rfl
  rw [broadcast_apply, Ideal.scalar_addf_def, scalar_log_def]
  simp only [e]

/-- The last subtraction at a column. -/
theorem pay1_apply (a b : FVec Ideal S1x100000 .f32) (j : S1x100000.Idx) : k2_pay1 a b j = a j - b j := rfl

/-- The kernel's last subtrahend, with the side conditions of its operations arbitrary: the row's maximum plus
    the logarithm of the sum of the exponentials of the row minus its maximum. -/
theorem body26 (x : FVec Ideal S1x100000 .f32) (h1 : S1x100000.ShapeCasts S1x1x100000)
    (h2 : S1x1x100000.Reduces [1, 2] S1) (hφ : FKind.Formats .f32)
    (hacc : (0xFF800000#32 : BitVec 32) = FKind.maximumf.neutral .f32 hφ) (hφ' : FKind.Formats .f32)
    (hacc' : (0x00000000#32 : BitVec 32) = FKind.add.neutral .f32 hφ') (h3 : S1.ShapeCasts S1x1x1)
    (h4 : ∀ a, (![0, 0, 0] : Fin 3 → Nat) a < S1x1x1.size a) (j : S1x100000.Idx) :
    broadcast S1x100000
      (Scalar.addf
        (extractAt ![0, 0, 0]
          (shapeCast S1x1x1
            (multiReduction .maximumf [1, 2] S1 (shapeCast S1x1x100000 (k2_pay25 x) h1) 0xFF800000#32 h2 hφ hacc) h3) h4)
        (Scalar.log
          (extractAt ![0, 0, 0]
            (shapeCast S1x1x1
              (multiReduction .add [1, 2] S1
                (shapeCast S1x1x100000
                  (exp (subf (k2_pay25 x)
                    (broadcast S1x100000
                      (extractAt ![0, 0, 0]
                        (shapeCast S1x1x1
                          (multiReduction .maximumf [1, 2] S1 (shapeCast S1x1x100000 (k2_pay25 x) h1) 0xFF800000#32 h2 hφ
                            hacc) h3) h4)))) h1)
                0x00000000#32 h2 hφ' hacc') h3) h4))) j
      = rowMax x (ix1 0) + Ideal.log (∑ k : Fin 100000, Ideal.exp (x (ix2 0 k) - rowMax x (ix1 0))) := by
  rw [show k2_pay25 (F := Ideal) x = x from shapeCast_self x _, kmax_gen', ksum_gen']
  exact tail_alg x _ j

/-- The kernel's last subtrahend is that, at every column. -/
theorem pay26_apply (x : FVec Ideal S1x100000 .f32) (j : S1x100000.Idx) :
    k2_pay26 (F := Ideal) x j
      = rowMax x (ix1 0) + Ideal.log (∑ k : Fin 100000, Ideal.exp (x (ix2 0 k) - rowMax x (ix1 0))) :=
  body26 x _ _ _ _ _ _ _ _ j

/-- The kernel's last values are the reference's log-softmax of the same row of real numbers. -/
theorem tail_eq (x : FVec Ideal S1x100000 .f32) (hx : ∀ i, x i ≠ ⊤ ∧ x i ≠ ⊥) :
    k2_pay1 (k2_pay25 x) (k2_pay26 x) = logSoftmax x := by
  have h25 : k2_pay25 (F := Ideal) x = x := shapeCast_self x _
  funext i
  obtain ⟨v, rfl⟩ : ∃ v, i = ix2 0 v := ⟨i 1, row_eq i⟩
  rw [logSoftmax_apply, pay1_apply, pay26_apply, h25]
  exact Cert.LibLogSoftmax.sub_add_eq_sub_sub_of_ne (hx _).1 (hx _).2 (rowMax_real x (fun v => hx _)).1
    (rowMax_real x (fun v => hx _)).2 _

end Cert.Proof.TailEq

end
-- ==== Proof.Algebraic.lean ====
/-
  The kernel's result is the reference's. The logits agree column by column: the sixteen blocks' sums regroup into the
  one sum over the 512 hidden units, the hidden units being the same numbers on both sides; and on one row of real
  logits the two spellings of the log-softmax agree.
-/
import proofs.«202118_g10599979286629_week1_w2_627_56_alg».proof.Defs
import proofs.«202118_g10599979286629_week1_w2_627_56_alg».proof.Proof.LogitsK
import proofs.«202118_g10599979286629_week1_w2_627_56_alg».proof.Proof.KernValueHid
import proofs.«202118_g10599979286629_week1_w2_627_56_alg».proof.Proof.RefRead
import proofs.«202118_g10599979286629_week1_w2_627_56_alg».proof.Proof.TailEq
import proofs.«202118_g10599979286629_week1_w2_627_56_alg».proof.Proof.FrameIdeal

set_option maxRecDepth 16384

noncomputable section

namespace Cert.Proof.Alg

open Idealize.ShloMosaic Idealize.ShloMosaic.TcCoe Idealize.ShloMosaic.ValueIdx Idealize.SL.Sem
open Cert.KernelIdeal Cert.KernelIdeal.Rows

variable (m : (ℓ : Loc Cert.KernelIdeal.nD Cert.KernelIdeal.τ Cert.KernelIdeal.sig) → Buf (Elt Ideal) ℓ)

/-- The reference's hidden row and logits row, of the kernel's argument arrays on device `c`. -/
abbrev refHidden (c : Dev Cert.KernelIdeal.nD) :=
  Cert.ReferenceIdeal.RefRun.hiddenOf (F := Ideal) (Cert.ReferenceIdeal.RefRun.embedded (m (aLoc main_arg0 c)) (m (aLoc main_arg1 c)))
    (m (aLoc main_arg2 c)) (m (aLoc main_arg3 c))
abbrev refLogits (c : Dev Cert.KernelIdeal.nD) :=
  Cert.ReferenceIdeal.RefRun.logitsOf (F := Ideal) (refHidden m c) (m (aLoc main_arg4 c)) (m (aLoc main_arg5 c))

/-- The reference's hidden row, unit by unit: relu of the looked-up rows times the first weights plus the first bias. -/
theorem hidden_spec (hpre : PreOK m) (c : Dev Cert.KernelIdeal.nD) (h : Fin 512) :
    refHidden m c (ix2 0 h)
      = Cert.Spec.hid (m (aLoc main_arg0 c)) (m (aLoc main_arg1 c)) (m (aLoc main_arg2 c)) (m (aLoc main_arg3 c)) (hpre c) h := by
  show Cert.ReferenceIdeal.RefRun.hiddenOf (F := Ideal) (Cert.ReferenceIdeal.RefRun.embedded (m (aLoc main_arg0 c)) (m (aLoc main_arg1 c)))
    (m (aLoc main_arg2 c)) (m (aLoc main_arg3 c)) (ix2 0 h) = _
  rw [Cert.ReferenceIdeal.RefRead.hiddenOf_apply]
  unfold Cert.Spec.hid Cert.Spec.emb
  simp only [Cert.ReferenceIdeal.RefRead.flatRows_embedded_apply _ _ (hpre c)]

/-- The logits rows agree, the hidden rows agreeing. -/
theorem logits_eq (hpre : PreOK m) (c : Dev Cert.KernelIdeal.nD)
    (hspec : ∀ h : Fin 512, refHidden m c (ix2 0 h)
      = Cert.Spec.hid (m (aLoc main_arg0 c)) (m (aLoc main_arg1 c)) (m (aLoc main_arg2 c)) (m (aLoc main_arg3 c)) (hpre c) h) :
    logitsK m hpre c = refLogits m c := by
  funext i
  obtain ⟨a, v, rfl⟩ : ∃ (a : Fin 1) (v : Fin 100000), i = ix2 a v := ⟨i 0, i 1, eq_ix2 i⟩
  obtain rfl : a = 0 := Subsingleton.elim _ _
  rw [logitsK_apply m hpre c (fun h => refHidden m c (ix2 0 h)) (fun q k => (hidden_eq m hpre c q k).trans (hspec _).symm) v]
  show _ = Cert.ReferenceIdeal.RefRun.logitsOf (F := Ideal) (refHidden m c) (m (aLoc main_arg4 c)) (m (aLoc main_arg5 c)) (ix2 0 v)
  rw [Cert.ReferenceIdeal.RefRead.logitsOf_apply, add_comm]

/-- The kernel's result is the reference's value of the same arguments, the logits being real. -/
theorem kernVal_ref (hpre : PreOK m) (c : Dev Cert.KernelIdeal.nD)
    (hspec : ∀ h : Fin 512, refHidden m c (ix2 0 h)
      = Cert.Spec.hid (m (aLoc main_arg0 c)) (m (aLoc main_arg1 c)) (m (aLoc main_arg2 c)) (m (aLoc main_arg3 c)) (hpre c) h)
    (hreal : ∀ i, refLogits m c i ≠ ⊤ ∧ refLogits m c i ≠ ⊥) :
    kernVal m hpre c = Cert.ReferenceIdeal.RefRun.refVal (F := Ideal) (m (aLoc main_arg0 c)) (m (aLoc main_arg1 c)) (m (aLoc main_arg2 c))
      (m (aLoc main_arg3 c)) (m (aLoc main_arg4 c)) (m (aLoc main_arg5 c)) := by
  rw [kernVal_logits, logits_eq m hpre c hspec]
  exact Cert.Proof.TailEq.tail_eq (refLogits m c) hreal

end Cert.Proof.Alg

end
-- ==== Proof.PreFinite.lean ====
/-
  What the precondition says of the five float arguments: each of its first five conjuncts is the conjunction over all
  entries of |entry| < +∞; at the ideal values an entry whose absolute value is below +∞ is neither infinity.
-/
import proofs.«202118_g10599979286629_week1_w2_627_56_alg».proof.Proof.PreRange
import Idealize.ShloMosaic.PureOps.Ideal
import Idealize.ShloMosaic.PureOps.Ideal.Laws

noncomputable section

namespace Cert.Pre_input_domain.Range

open Idealize.ShloMosaic Cert.Pre_input_domain Cert.Pre_input_domain.Gen

/-- An extended real whose absolute value is below +∞ is neither infinity. -/
theorem finite_of_olt_inf (x : EReal)
    (e : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have htop : Ideal.ofBits .f32 0x7F800000#32 = ⊤ := by simp [Ideal.ofBits, Ideal.ieee]
  change Ideal.cmp .olt (max (x : EReal) (-(x : EReal))) (Ideal.ofBits .f32 0x7F800000#32) = 1#1 at e
  rw [htop] at e
  unfold Ideal.cmp at e
  refine ⟨fun h => ?_, fun h => ?_⟩ <;> subst h <;> simp at e

/-- Every entry of the five float arguments is a real number when the precondition's value is one. -/
theorem finite_of_pre (a0 : IVec S20 32) (a1 : FVec Ideal S100000x128 .f32) (a2 : FVec Ideal S2560x512 .f32) (a3 : FVec Ideal S512 .f32)
    (a4 : FVec Ideal S512x100000 .f32) (a5 : FVec Ideal S100000 .f32)
    (h : Cert.Pre_input_domain.fn (F := Ideal) a0 a1 a2 a3 a4 a5 = fun _ => 1#1) :
    (∀ i, a1 i ≠ ⊤ ∧ a1 i ≠ ⊥) ∧ (∀ i, a2 i ≠ ⊤ ∧ a2 i ≠ ⊥) ∧ (∀ i, a3 i ≠ ⊤ ∧ a3 i ≠ ⊥) ∧ (∀ i, a4 i ≠ ⊤ ∧ a4 i ≠ ⊥)
      ∧ (∀ i, a5 i ≠ ⊤ ∧ a5 i ≠ ⊥) := by
  have e := congrFun h (fun d => d.elim0)
  dsimp only [fn, fn_part1] at e
  have e23 := (IntOp.andi_eq_one.mp e).1
  have e18 := (IntOp.andi_eq_one.mp e23).1
  have e22 := (IntOp.andi_eq_one.mp e23).2
  have e13 := (IntOp.andi_eq_one.mp e18).1
  have e17 := (IntOp.andi_eq_one.mp e18).2
  have e8 := (IntOp.andi_eq_one.mp e13).1
  have e12 := (IntOp.andi_eq_one.mp e13).2
  have e3 := (IntOp.andi_eq_one.mp e8).1
  have e7 := (IntOp.andi_eq_one.mp e8).2
  refine ⟨fun i => ?_, fun i => ?_, fun i => ?_, fun i => ?_, fun i => ?_⟩
  · exact finite_of_olt_inf _ (Host.reduce_andi_all _ _ _ _ _ e3 i)
  · exact finite_of_olt_inf _ (Host.reduce_andi_all _ _ _ _ _ e7 i)
  · exact finite_of_olt_inf _ (Host.reduce_andi_all _ _ _ _ _ e12 i)
  · exact finite_of_olt_inf _ (Host.reduce_andi_all _ _ _ _ _ e17 i)
  · exact finite_of_olt_inf _ (Host.reduce_andi_all _ _ _ _ _ e22 i)

end Cert.Pre_input_domain.Range

end
-- ==== Proof.RefFinite.lean ====
import proofs.«202118_g10599979286629_week1_w2_627_56_alg».proof.Proof.RefRead

/-!
Real numbers all the way: from float arguments that are real numbers (neither infinity) the looked-up rows,
the hidden row and the output row are real numbers too — reals are closed under the finite sums, products, maxima and additions these stages are made of.
-/

noncomputable section

open scoped BigOperators

namespace Cert.ReferenceIdeal.RefFinite

open Cert.ReferenceIdeal Cert.ReferenceIdeal.Gen Cert.ReferenceIdeal.RefRun Cert.ReferenceIdeal.RefRead Idealize.ShloMosaic
  Idealize.ShloMosaic.ValueIdx

/-! ## Real extended reals -/

/-- An extended real that is neither infinity. -/
def IsReal (x : EReal) : Prop := x ≠ ⊤ ∧ x ≠ ⊥

theorem isReal_coe (r : ℝ) : IsReal (r : EReal) := ⟨EReal.coe_ne_top r, EReal.coe_ne_bot r⟩
theorem isReal_zero : IsReal (0 : EReal) := by simpa using isReal_coe 0

theorem IsReal.add {x y : EReal} (hx : IsReal x) (hy : IsReal y) : IsReal (x + y) := by
  obtain ⟨hx1, hx2⟩ := hx
  obtain ⟨hy1, hy2⟩ := hy
  lift x to ℝ using ⟨hx1, hx2⟩
  lift y to ℝ using ⟨hy1, hy2⟩
  rw [← EReal.coe_add]; exact isReal_coe _

theorem IsReal.mul {x y : EReal} (hx : IsReal x) (hy : IsReal y) : IsReal (x * y) := by
  obtain ⟨hx1, hx2⟩ := hx
  obtain ⟨hy1, hy2⟩ := hy
  lift x to ℝ using ⟨hx1, hx2⟩
  lift y to ℝ using ⟨hy1, hy2⟩
  rw [← EReal.coe_mul]; exact isReal_coe _

theorem IsReal.max {x y : EReal} (hx : IsReal x) (hy : IsReal y) : IsReal (max x y) := by
  rcases max_choice x y with h | h <;> rw [h] <;> assumption

theorem isReal_sum {ι : Type} (s : Finset ι) (f : ι → EReal) (h : ∀ i ∈ s, IsReal (f i)) : IsReal (∑ i ∈ s, f i) :=
  Finset.sum_induction f IsReal (fun _ _ => IsReal.add) isReal_zero h

/-! ## The stages are real -/

/-- Every index of a one-row matrix is in row zero. -/
theorem row_zero {n : Nat} (i : (⟨2, ![1, n]⟩ : Shape).Idx) : i = ix2 0 (i 1) := by
  rw [eq_ix2 i]; exact congrArg (fun a : Fin 1 => ix2 a (i 1)) (Subsingleton.elim (α := Fin 1) _ _)

/-- Under the range hypothesis the looked-up rows of a real table are real. -/
theorem embedded_real (a0 : IVec S20 32) (a1 : FVec Ideal S100000x128 .f32)
    (hr : ∀ j : S20.Idx, (a0 j).toNat < 100000) (h1 : ∀ i, IsReal (a1 i)) (i : S20x128.Idx) :
    IsReal (embedded a0 a1 i) := by
  obtain ⟨a, b, rfl⟩ : ∃ (a : Fin 20) (b : Fin 128), i = ix2 a b := ⟨i 0, i 1, eq_ix2 i⟩
  rw [embedded_apply a0 a1 hr]; exact h1 _

/-- The hidden row of real looked-up rows, real weights and a real bias is real. -/
theorem hidden_real (e : FVec Ideal S20x128 .f32) (W1 : FVec Ideal S2560x512 .f32) (b1 : FVec Ideal S512 .f32)
    (he : ∀ i, IsReal (e i)) (h2 : ∀ i, IsReal (W1 i)) (h3 : ∀ i, IsReal (b1 i)) (i : S1x512.Idx) :
    IsReal (hiddenOf e W1 b1 i) := by
  obtain ⟨v, rfl⟩ : ∃ v : Fin 512, i = ix2 0 v := ⟨i 1, row_zero i⟩
  rw [hiddenOf_apply_zero]
  refine IsReal.max (IsReal.add (isReal_sum _ _ (fun k _ => IsReal.mul ?_ (h2 _))) (h3 _)) isReal_zero
  rw [flatRows_apply]; exact he _

/-- The output row of a real hidden row, real weights and a real bias is real. -/
theorem logitsOf_real (hid : FVec Ideal S1x512 .f32) (W2 : FVec Ideal S512x100000 .f32) (b2 : FVec Ideal S100000 .f32)
    (hh : ∀ i, IsReal (hid i)) (h4 : ∀ i, IsReal (W2 i)) (h5 : ∀ i, IsReal (b2 i)) (i : S1x100000.Idx) :
    IsReal (logitsOf hid W2 b2 i) := by
  obtain ⟨v, rfl⟩ : ∃ v : Fin 100000, i = ix2 0 v := ⟨i 1, row_zero i⟩
  rw [logitsOf_apply]
  exact IsReal.add (isReal_sum _ _ (fun h _ => IsReal.mul (hh _) (h4 _))) (h5 _)

/-- Under the range hypothesis and with real float arguments the output row is real at every index. -/
theorem logits_real (a0 : IVec S20 32) (a1 : FVec Ideal S100000x128 .f32) (a2 : FVec Ideal S2560x512 .f32)
    (a3 : FVec Ideal S512 .f32) (a4 : FVec Ideal S512x100000 .f32) (a5 : FVec Ideal S100000 .f32)
    (hr : ∀ j : S20.Idx, (a0 j).toNat < 100000) (h1 : ∀ i, a1 i ≠ ⊤ ∧ a1 i ≠ ⊥) (h2 : ∀ i, a2 i ≠ ⊤ ∧ a2 i ≠ ⊥)
    (h3 : ∀ i, a3 i ≠ ⊤ ∧ a3 i ≠ ⊥) (h4 : ∀ i, a4 i ≠ ⊤ ∧ a4 i ≠ ⊥) (h5 : ∀ i, a5 i ≠ ⊤ ∧ a5 i ≠ ⊥) :
    ∀ i, logitsOf (hiddenOf (embedded a0 a1) a2 a3) a4 a5 i ≠ ⊤ ∧ logitsOf (hiddenOf (embedded a0 a1) a2 a3) a4 a5 i ≠ ⊥ :=
  fun i => logitsOf_real _ _ _ (hidden_real _ _ _ (embedded_real a0 a1 hr h1) h2 h3) h4 h5 i

end Cert.ReferenceIdeal.RefFinite

end
-- ==== Proof.AlgebraicClaim.lean ====
/-
  The algebraic claim: on agreeing finite arguments whose row numbers lie in range, the idealized kernel and the
  reference both run to their ends, leave their arguments unchanged, and leave the same result — the reference's value
  of the arguments.
-/
import proofs.«202118_g10599979286629_week1_w2_627_56_alg».proof.Proof.Algebraic
import proofs.«202118_g10599979286629_week1_w2_627_56_alg».proof.Proof.RunV
import proofs.«202118_g10599979286629_week1_w2_627_56_alg».proof.Proof.RefRun
import proofs.«202118_g10599979286629_week1_w2_627_56_alg».proof.Proof.PreFinite
import proofs.«202118_g10599979286629_week1_w2_627_56_alg».proof.Proof.RefFinite
import proofs.«202118_g10599979286629_week1_w2_627_56_alg».proof.Proof.Gen.ReferenceIdeal

set_option maxRecDepth 16384

noncomputable section

namespace Cert.Proof.Alg

open Idealize.ShloMosaic Idealize.ShloMosaic.TcCoe Idealize.SL.Sem
open Cert.KernelIdeal Cert.KernelIdeal.Rows

theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hPre hag
  have hok := Cert.Proof.KernelIdealClaims.ok_of_pre m hPre
  refine ⟨fun c => kernVal m hok c, ?_, ?_⟩
  · exact (θ_run Cert.KernelIdeal.defs _ _).mono (fun _ h c => h c) (run_mainV (F := Ideal) m g hok)
  · refine (θ_run Cert.ReferenceIdeal.defs _ _).mono (fun r h c => ?_) (Cert.ReferenceIdeal.RefRun.run (F := Ideal) m' g')
    obtain ⟨hv, hrest⟩ := h c
    refine ⟨hv.trans ?_, hrest⟩
    obtain ⟨e0, e1, e2, e3, e4, e5⟩ := hag c
    rw [e0, e1, e2, e3, e4, e5]
    obtain ⟨f1, f2, f3, f4, f5⟩ := Cert.Pre_input_domain.Range.finite_of_pre _ _ _ _ _ _ (hPre c)
    exact (kernVal_ref m hok c (hidden_spec m hok c)
      (Cert.ReferenceIdeal.RefFinite.logits_real _ _ _ _ _ _ (hok c) f1 f2 f3 f4 f5)).symm

end Cert.Proof.Alg

end
-- ==== Proof.lean ====
/-
  A twenty-word context is embedded by a SparseCore row lookup (one vector subcore copies the row numbers in, streams
  the named rows of the table into its scratch and copies them out; the other thirty-one return at once), the
  flattened rows go through relu(x · W₁ + b₁) in one TensorCore region, the hidden row is re-laid as sixteen blocks of
  thirty-two and a second region accumulates, block by block through a three-deep ring of copies, the sixteen partial
  products with the matching blocks of W₂ onto b₂, and subtracts the maximum and the log of the sum of exponentials.
  The reference is take, relu(x · W₁ + b₁), x · W₂ + b₂, log-softmax. The two are the same function on finite inputs
  whose row numbers lie in [0, 99999]: the block sum is a regrouping of one sum over the 512 hidden units, and
  x − (m + L) = (x − m) − L where x and m are real.

  The three frames — every weakly fair execution of the kernel's 35 threads (at the word-level instance and at the
  ideal one) and of the reference ends, faults nowhere and leaves the six argument arrays unchanged —; the
  idealization rewrote nothing; and at the ideal instance both leave the same result. The frames of the kernel are
  one argument, generic in the float instance:
  the lookup as one SparseCore call (Proof/GatherTile, GatherCall), @main on the TensorCore through the call and then,
  over the pipelines' signature, as four segments (Proof/LookupMain, LookupLaunch, RestRun), the two regions' bodies run
  once on whole buffers (Proof/HidBody, OutBody — the ring's three slots held each by its own elements,
  Proof/ScratchSlots) and their proof data (Proof/HidRegion, OutRegion). For the equality of the results the output
  layer's region is run again with its result named (Proof/OutBodyV, OutRegionV, RestRunV, RunV); what it leaves is
  read stage by stage (Proof/OutValue: each of the body's seventeen stores covers the buffer, so each load reads the
  store before it; OutValueIdx, OutSum: at column v the bias entry plus the sum over blocks and rows; KernValue,
  KernValueArgs, KernValueHid: the staged arrays as the arguments' entries; LibBlockSum: the regrouping; LogitsK), the
  reference's result likewise (Proof/RefRun, RefRead), the two spellings of the log-softmax agree on a row of real
  logits (Proof/TailEq, LibLogSoftmax), and the logits are real because the precondition makes every argument entry
  finite (Proof/PreFinite, RefFinite). Proof/Algebraic and AlgebraicClaim put these together.
-/
import proofs.«202118_g10599979286629_week1_w2_627_56_alg».proof.Defs
import proofs.«202118_g10599979286629_week1_w2_627_56_alg».proof.Proof.Gen.Kernel
import proofs.«202118_g10599979286629_week1_w2_627_56_alg».proof.Proof.Gen.Kernel.Skeleton
import proofs.«202118_g10599979286629_week1_w2_627_56_alg».proof.Proof.Gen.Kernel.Launch
import proofs.«202118_g10599979286629_week1_w2_627_56_alg».proof.Proof.Gen.Kernel.Regions
import proofs.«202118_g10599979286629_week1_w2_627_56_alg».proof.Proof.Gen.Kernel.Points
import proofs.«202118_g10599979286629_week1_w2_627_56_alg».proof.Proof.Gen.KernelIdeal
import proofs.«202118_g10599979286629_week1_w2_627_56_alg».proof.Proof.Gen.KernelIdeal.Skeleton
import proofs.«202118_g10599979286629_week1_w2_627_56_alg».proof.Proof.Gen.KernelIdeal.Launch
import proofs.«202118_g10599979286629_week1_w2_627_56_alg».proof.Proof.Gen.KernelIdeal.Regions
import proofs.«202118_g10599979286629_week1_w2_627_56_alg».proof.Proof.Gen.KernelIdeal.Points
import proofs.«202118_g10599979286629_week1_w2_627_56_alg».proof.Proof.Gen.ReferenceIdeal
import proofs.«202118_g10599979286629_week1_w2_627_56_alg».proof.Proof.Gen.Pre_input_domain
import proofs.«202118_g10599979286629_week1_w2_627_56_alg».proof.Proof.FrameBits
import proofs.«202118_g10599979286629_week1_w2_627_56_alg».proof.Proof.FrameIdeal
import proofs.«202118_g10599979286629_week1_w2_627_56_alg».proof.Proof.RefFrame
import proofs.«202118_g10599979286629_week1_w2_627_56_alg».proof.Proof.AlgebraicClaim
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_input_domain.Gen.facts,
  Cert.Proof.KernelClaims.frame_p, Cert.Proof.KernelIdealClaims.frame_pi, Cert.Proof.RefClaims.frame_ri, trivial,
  Cert.Proof.Alg.algebraic⟩

end Cert.Proof

end
